-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8386560 : Shape := ⟨1, ![8386560]⟩
abbrev S4096x4096 : Shape := ⟨2, ![4096, 4096]⟩
abbrev S512x256 : Shape := ⟨2, ![512, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8386560 : S_.BroadcastsInDim S8386560 (![] : Fin 0 → Fin S8386560.rank)
  reducesTo_S8386560_S_d0 : S8386560.ReducesTo [0] S_
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S256 .f32) (main_arg5 : FVec F S256x32 .f32) (main_arg6 : FVec F S32 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x32 .f32 := Host.absf main_arg5
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S4096x512 .f32) (main_arg1 : FVec F S8386560 .f32) (main_arg2 : FVec F S4096x4096 .f32) (main_arg3 : FVec F S512x256 .f32) (main_arg4 : FVec F S256 .f32) (main_arg5 : FVec F S256x32 .f32) (main_arg6 : FVec F S32 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8386560 .f32 := Host.absf main_arg1
  let main_cst_0 : FVec F S_ .f32 := constant S_ .f32 0x7F800000#32
  let main_v5 : FVec F S8386560 .f32 := broadcastInDim S8386560 ![] bcast_S_S8386560 main_cst_0
  let main_v6 : IVec S8386560 1 := cmpf .olt main_v4 main_v5
  let main_c_1 : IVec S_ 1 := constantI S_ 1 1#1
  let main_v7 : IVec S_ 1 := (fun x v => Host.reduce IntOp.andi x v reducesTo_S8386560_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S4096x512 : Shape := ⟨2, ![4096, 512]⟩
abbrev S8386560 : Shape := ⟨1, ![8386560]⟩
abbrev S4096x4096 : Shape := ⟨2, ![4096, 4096]⟩
abbrev S512x256 : Shape := ⟨2, ![512, 256]⟩
abbrev S256 : Shape := ⟨1, ![256]⟩
abbrev S256x32 : Shape := ⟨2, ![256, 32]⟩
abbrev S32 : Shape := ⟨1, ![32]⟩
abbrev S_ : Shape := ⟨0, ![]⟩
abbrev S1 : Shape := ⟨1, ![1]⟩
abbrev S8386561 : Shape := ⟨1, ![8386561]⟩
abbrev S4096 : Shape := ⟨1, ![4096]⟩
abbrev S4096x1 : Shape := ⟨2, ![4096, 1]⟩
abbrev S1x4096 : Shape := ⟨2, ![1, 4096]⟩
abbrev S4096x4096x1 : Shape := ⟨3, ![4096, 4096, 1]⟩
abbrev S4096x256 : Shape := ⟨2, ![4096, 256]⟩
abbrev S1x256 : Shape := ⟨2, ![1, 256]⟩
abbrev S4096x32 : Shape := ⟨2, ![4096, 32]⟩
abbrev S256x256 : Shape := ⟨2, ![256, 256]⟩
abbrev S256x1 : Shape := ⟨2, ![256, 1]⟩
abbrev S1x32 : Shape := ⟨2, ![1, 32]⟩

abbrev nBuf : Space → Nat
  | .hbm => 107
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S8386560, .f32⟩
  | .hbm, ⟨2, _⟩ => ⟨S4096x4096, .f32⟩
  | .hbm, ⟨3, _⟩ => ⟨S512x256, .f32⟩
  | .hbm, ⟨4, _⟩ => ⟨S256, .f32⟩
  | .hbm, ⟨5, _⟩ => ⟨S256x32, .f32⟩
  | .hbm, ⟨6, _⟩ => ⟨S32, .f32⟩
  | .hbm, ⟨7, _⟩ => ⟨S_, .f32⟩
  | .hbm, ⟨8, _⟩ => ⟨S1, .f32⟩
  | .hbm, ⟨9, _⟩ => ⟨S8386561, .f32⟩
  | .hbm, ⟨10, _⟩ => ⟨S4096, .i32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S4096x4096, .i32⟩
  | .hbm, ⟨39, _⟩ => ⟨S4096x4096, .i1⟩
  | .hbm, ⟨40, _⟩ => ⟨S4096x4096, .i32⟩
  | .hbm, ⟨41, _⟩ => ⟨S4096x4096, .i32⟩
  | .hbm, ⟨42, _⟩ => ⟨S_, .i32⟩
  | .hbm, ⟨43, _⟩ => ⟨S4096x4096, .i32⟩
  | .hbm, ⟨44, _⟩ => ⟨S4096x4096, .i1⟩
  | .hbm, ⟨45, _⟩ => ⟨S4096x4096, .i1⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S4096x4096, .i32⟩
  | .hbm, ⟨51, _⟩ => ⟨S4096x4096, .i32⟩
  | .hbm, ⟨52, _⟩ => ⟨S_, .i32⟩
  | .hbm, ⟨53, _⟩ => ⟨S4096x4096, .i32⟩
  | .hbm, ⟨54, _⟩ => ⟨S4096x4096, .i32⟩
  | .hbm, ⟨55, _⟩ => ⟨S4096x4096, .i32⟩
  | .hbm, ⟨56, _⟩ => ⟨S_, .i32⟩
  | .hbm, ⟨57, _⟩ => ⟨S_, .i32⟩
  | .hbm, ⟨58, _⟩ => ⟨S4096x4096, .i32⟩
  | .hbm, ⟨59, _⟩ => ⟨S4096x4096, .i32⟩
  | .hbm, ⟨60, _⟩ => ⟨S_, .i32⟩
  | .hbm, ⟨61, _⟩ => ⟨S4096x4096, .i32⟩
  | .hbm, ⟨62, _⟩ => ⟨S4096x4096, .i1⟩
  | .hbm, ⟨63, _⟩ => ⟨S_, .i32⟩
  | .hbm, ⟨64, _⟩ => ⟨S4096x4096, .i32⟩
  | .hbm, ⟨65, _⟩ => ⟨S4096x4096, .i32⟩
  | .hbm, ⟨66, _⟩ => ⟨S4096x4096, .i32⟩
  | .hbm, ⟨67, _⟩ => ⟨S4096x4096x1, .i32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .i1⟩
  | .hbm, ⟨86, _⟩ => ⟨S4096, .f32⟩
  | .hbm, ⟨87, _⟩ => ⟨S_, .f32⟩
  | .hbm, ⟨88, _⟩ => ⟨S_, .f32⟩
  | .hbm, ⟨89, _⟩ => ⟨S4096, .f32⟩
  | .hbm, ⟨90, _⟩ => ⟨S4096, .f32⟩
  | .hbm, ⟨91, _⟩ => ⟨S4096x4096, .i32⟩
  | .hbm, ⟨92, _⟩ => ⟨S4096x4096, .i32⟩
  | .hbm, ⟨93, _⟩ => ⟨S_, .i32⟩
  | .hbm, ⟨94, _⟩ => ⟨S4096x4096, .i32⟩
  | .hbm, ⟨95, _⟩ => ⟨S4096x4096, .i32⟩
  | .hbm, ⟨96, _⟩ => ⟨S4096x4096, .i1⟩
  | .hbm, ⟨97, _⟩ => ⟨S4096x4096, .f32⟩
  | .hbm, ⟨98, _⟩ => ⟨S4096x4096, .f32⟩
  | .hbm, ⟨99, _⟩ => ⟨S4096x256, .f32⟩
  | .hbm, ⟨100, _⟩ => ⟨S4096x1, .f32⟩
  | .hbm, ⟨101, _⟩ => ⟨S4096x256, .f32⟩
  | .hbm, ⟨102, _⟩ => ⟨S4096x256, .f32⟩
  | .hbm, ⟨103, _⟩ => ⟨S1x256, .f32⟩
  | .hbm, ⟨104, _⟩ => ⟨S4096x32, .f32⟩
  | .hbm, ⟨105, _⟩ => ⟨S1x32, .f32⟩
  | .hbm, ⟨106, _⟩ => ⟨S4096x32, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S256x32, .f32⟩
  | .local _ .vmem, ⟨6, _⟩ => ⟨S256, .f32⟩
  | .local _ .vmem, ⟨7, _⟩ => ⟨S256, .f32⟩
  | .local _ .vmem, ⟨8, _⟩ => ⟨S256x32, .f32⟩
  | .local _ .vmem, ⟨9, _⟩ => ⟨S256x32, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x32, .f32⟩
  | .local _ .vmem, ⟨14, _⟩ => ⟨S256x32, .f32⟩
  | .local _ .vmem, ⟨15, _⟩ => ⟨S1x32, .f32⟩
  | .local _ .vmem, ⟨16, _⟩ => ⟨S256, .f32⟩
  | .local _ .vmem, ⟨17, _⟩ => ⟨S256, .f32⟩
  | .local _ .vmem, ⟨18, _⟩ => ⟨S256x32, .f32⟩
  | .local _ .vmem, ⟨19, _⟩ => ⟨S256x32, .f32⟩
  | .local _ .vmem, ⟨20, _⟩ => ⟨S256x32, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_call1_v0 : Ref sig .tc := ⟨.hbm, 57, rfl⟩
abbrev main_call1_v1 : Ref sig .tc := ⟨.hbm, 58, rfl⟩
abbrev main_v27 : Ref sig .tc := ⟨.hbm, 59, rfl⟩
abbrev main_c_5 : Ref sig .tc := ⟨.hbm, 60, rfl⟩
abbrev main_v28 : Ref sig .tc := ⟨.hbm, 61, rfl⟩
abbrev main_v29 : Ref sig .tc := ⟨.hbm, 62, rfl⟩
abbrev main_c_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_cst_10 : Ref sig .tc := ⟨.hbm, 80, rfl⟩
abbrev main_v43 : Ref sig .tc := ⟨.hbm, 81, rfl⟩
abbrev main_v44 : Ref sig .tc := ⟨.hbm, 82, rfl⟩
abbrev main_cst_11 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_13 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S1 : S_.BroadcastsInDim S1 (![] : Fin 0 → Fin S1.rank)
  concatenates_S1_S8386560_S8386561_d0 : Shape.Concatenates [S1, S8386560] S8386561 0
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  reducesTo_S4096x4096_S4096_d1 : S4096x4096.ReducesTo [1] S4096
  h_S_ : 0 < S_.numel
  bcast_S_S4096 : S_.BroadcastsInDim S4096 (![] : Fin 0 → Fin S4096.rank)
  bcast_S4096x1_S4096x256_0_1 : S4096x1.BroadcastsInDim S4096x256 (![0, 1] : Fin 2 → Fin S4096x256.rank)
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S256x1 : S256.ShapeCasts S256x1
  broadcasts_S256x1_S256x256 : S256x1.Broadcasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x32_S256x32_0_0 : ∀ a, (![0, 0] : Fin 2 → Nat) a + S256x32.size a ≤ S256x32.size a
  h_S256x32 : 0 < S256x32.numel
  broadcasts_S256x1_S256x32 : S256x1.Broadcasts S256x32
  shapeCasts_S32_S1x32 : S32.ShapeCasts S1x32
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  gather_S8386561_S4096x4096x1_S4096x4096_n_0_n_n_0_2_1_wf : GatherDims.WF S8386561 S4096x4096x1 S4096x4096 [] [0] [] [0] [] 2 ![1]
  dot_S4096x512_S512x256_S4096x256_1_0_0_1_n_n_wf : DotDims.WF S4096x512 S512x256 S4096x256 [1] [0] [0] [1] [] []
  dot_S256x256_S256x256_S256x256_1_0_0_1_n_n_wf : DotDims.WF S256x256 S256x256 S256x256 [1] [0] [0] [1] [] []
  dot_S256x256_S256x32_S256x32_1_0_0_1_n_n_wf : DotDims.WF S256x256 S256x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x4096.size a
  hwx0_0 : ∀ i : grid0.Coords, EltTy.bits .f32 = 32 ∨ (Rect.block (s := S4096x4096) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x256.size a
  hwx0_1 : ∀ i : grid0.Coords, EltTy.bits .f32 = 32 ∨ (Rect.block (s := S4096x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S4096x32.size a
  hwx0_5 : ∀ i : grid0.Coords, EltTy.bits .f32 = 32 ∨ (Rect.block (s := S4096x32) S256x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .f32 = 32 ∨ (Rect.block (s := S4096x4096) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x32.size a ≤ S4096x32.size a
  hwx1_1 : ∀ i : grid1.Coords, EltTy.bits .f32 = 32 ∨ (Rect.block (s := S4096x32) S256x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S4096.size a
  hwx1_3 : ∀ i : grid1.Coords, EltTy.bits .f32 = 32 ∨ (Rect.block (s := S4096) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x32.size a ≤ S4096x32.size a
  hwx1_4 : ∀ i : grid1.Coords, EltTy.bits .f32 = 32 ∨ (Rect.block (s := S4096x32) S256x32.size (cc1_transform_4 i) (hinb1_4 i)).WholeWords (EltTy.packing .f32)

variable [Facts₀]

def gather_S8386561_S4096x4096x1_S4096x4096_n_0_n_n_0_2_1 : GatherDims S8386561 S4096x4096x1 S4096x4096 where
  offsetDims := []
  collapsedSliceDims := [0]
  operandBatchingDims := []
  startIndicesBatchingDims := []
  startIndexMap := [0]
  indexVectorDim := 2
  sliceSizes := ![1]
  wf := gather_S8386561_S4096x4096x1_S4096x4096_n_0_n_n_0_2_1_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf

abbrev win0_0 : Pipeline.Window sig grid0 :=
  Pipeline.Window.ofSpec (Memref.whole main_v55) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v61) S256x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v55) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v63) S256x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S8386560 : Shape := ⟨1, ![8386560]⟩
abbrev S4096x4096 : Shape := ⟨2, ![4096, 4096]⟩
abbrev S512x256 : Shape := ⟨2, ![512, 256]⟩
abbrev S256 : Shape := ⟨1, ![256]⟩
abbrev S256x32 : Shape := ⟨2, ![256, 32]⟩
abbrev S32 : Shape := ⟨1, ![32]⟩
abbrev S_ : Shape := ⟨0, ![]⟩
abbrev S16777216 : Shape := ⟨1, ![16777216]⟩
abbrev S16777216x1 : Shape := ⟨2, ![16777216, 1]⟩
abbrev S8386560x1 : Shape := ⟨2, ![8386560, 1]⟩
abbrev S8386560x2 : Shape := ⟨2, ![8386560, 2]⟩
abbrev S4096 : Shape := ⟨1, ![4096]⟩
abbrev S4096x1 : Shape := ⟨2, ![4096, 1]⟩
abbrev S1x4096 : Shape := ⟨2, ![1, 4096]⟩
abbrev S4096x256 : Shape := ⟨2, ![4096, 256]⟩
abbrev S1x256 : Shape := ⟨2, ![1, 256]⟩
abbrev S4096x32 : Shape := ⟨2, ![4096, 32]⟩
abbrev S1x32 : Shape := ⟨2, ![1, 32]⟩

abbrev nBuf : Space → Nat
  | .hbm => 195
  | .vmem => 0
  | .smem => 0
  | _ => 0

abbrev hbmTy0_0 (i : Nat) : BufTy := match i % 128 with
  | 0 => ⟨S4096x512, .f32⟩
  | 1 => ⟨S8386560, .f32⟩
  | 2 => ⟨S4096x4096, .f32⟩
  | 3 => ⟨S512x256, .f32⟩
  | 4 => ⟨S256, .f32⟩
  | 5 => ⟨S256x32, .f32⟩
  | 6 => ⟨S32, .f32⟩
  | 7 => ⟨S_, .f32⟩
  | 8 => ⟨S4096x4096, .f32⟩
  | 9 => ⟨S4096x4096, .i32⟩
  | 10 => ⟨S_, .i32⟩
  | 11 => ⟨S4096x4096, .i32⟩
  | 12 => ⟨S4096x4096, .i32⟩
  | 13 => ⟨S4096x4096, .i32⟩
  | 14 => ⟨S4096x4096, .i1⟩
  | 15 => ⟨S_, .f32⟩
  | 16 => ⟨S4096x4096, .f32⟩
  | 17 => ⟨S4096x4096, .f32⟩
  | 18 => ⟨S_, .f32⟩
  | 19 => ⟨S4096x4096, .f32⟩
  | 20 => ⟨S4096x4096, .i1⟩
  | 21 => ⟨S16777216, .i1⟩
  | 22 => ⟨S16777216, .i32⟩
  | 23 => ⟨S_, .i32⟩
  | 24 => ⟨S_, .i32⟩
  | 25 => ⟨S16777216, .i32⟩
  | 26 => ⟨S_, .i32⟩
  | 27 => ⟨S8386560, .i32⟩
  | 28 => ⟨S_, .i32⟩
  | 29 => ⟨S_, .i32⟩
  | 30 => ⟨S16777216, .i32⟩
  | 31 => ⟨S16777216, .i32⟩
  | 32 => ⟨S_, .i32⟩
  | 33 => ⟨S16777216, .i32⟩
  | 34 => ⟨S16777216, .i1⟩
  | 35 => ⟨S_, .i32⟩
  | 36 => ⟨S16777216, .i32⟩
  | 37 => ⟨S16777216, .i32⟩
  | 38 => ⟨S16777216, .i32⟩
  | 39 => ⟨S16777216x1, .i32⟩
  | 40 => ⟨S_, .i32⟩
  | 41 => ⟨S16777216, .i32⟩
  | 42 => ⟨S8386560, .i32⟩
  | 43 => ⟨S_, .i32⟩
  | 44 => ⟨S_, .i32⟩
  | 45 => ⟨S8386560, .i32⟩
  | 46 => ⟨S_, .i32⟩
  | 47 => ⟨S8386560, .i32⟩
  | 48 => ⟨S8386560, .i32⟩
  | 49 => ⟨S8386560, .i32⟩
  | 50 => ⟨S_, .i32⟩
  | 51 => ⟨S8386560, .i32⟩
  | 52 => ⟨S8386560, .i1⟩
  | 53 => ⟨S8386560, .i32⟩
  | 54 => ⟨S8386560, .i32⟩
  | 55 => ⟨S_, .i32⟩
  | 56 => ⟨S8386560, .i32⟩
  | 57 => ⟨S8386560, .i1⟩
  | 58 => ⟨S8386560, .i1⟩
  | 59 => ⟨S_, .i32⟩
  | 60 => ⟨S8386560, .i32⟩
  | 61 => ⟨S8386560, .i32⟩
  | 62 => ⟨S8386560, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S8386560, .i32⟩
  | 70 => ⟨S8386560, .i32⟩
  | 71 => ⟨S_, .i32⟩
  | 72 => ⟨S8386560, .i32⟩
  | 73 => ⟨S8386560, .i1⟩
  | 74 => ⟨S_, .i32⟩
  | 75 => ⟨S8386560, .i32⟩
  | 76 => ⟨S8386560, .i1⟩
  | 77 => ⟨S_, .i32⟩
  | 78 => ⟨S_, .i1⟩
  | 79 => ⟨S8386560, .i1⟩
  | 80 => ⟨S8386560, .i1⟩
  | 81 => ⟨S8386560, .i1⟩
  | 82 => ⟨S8386560, .i32⟩
  | 83 => ⟨S8386560, .i32⟩
  | 84 => ⟨S8386560, .i32⟩
  | 85 => ⟨S_, .i32⟩
  | 86 => ⟨S8386560, .i32⟩
  | 87 => ⟨S8386560, .i32⟩
  | 88 => ⟨S8386560, .i32⟩
  | 89 => ⟨S_, .i32⟩
  | 90 => ⟨S8386560, .i32⟩
  | 91 => ⟨S8386560, .i1⟩
  | 92 => ⟨S8386560, .i32⟩
  | 93 => ⟨S8386560, .i32⟩
  | 94 => ⟨S_, .i32⟩
  | 95 => ⟨S8386560, .i32⟩
  | 96 => ⟨S8386560, .i1⟩
  | 97 => ⟨S8386560, .i1⟩
  | 98 => ⟨S_, .i32⟩
  | 99 => ⟨S8386560, .i32⟩
  | 100 => ⟨S8386560, .i32⟩
  | 101 => ⟨S8386560, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S8386560, .i32⟩
  | 109 => ⟨S8386560, .i32⟩
  | 110 => ⟨S_, .i32⟩
  | 111 => ⟨S8386560, .i32⟩
  | 112 => ⟨S8386560, .i1⟩
  | 113 => ⟨S_, .i32⟩
  | 114 => ⟨S8386560, .i32⟩
  | 115 => ⟨S8386560, .i1⟩
  | 116 => ⟨S_, .i32⟩
  | 117 => ⟨S_, .i1⟩
  | 118 => ⟨S8386560, .i1⟩
  | 119 => ⟨S8386560, .i1⟩
  | 120 => ⟨S8386560, .i1⟩
  | 121 => ⟨S8386560, .i32⟩
  | 122 => ⟨S8386560, .i32⟩
  | 123 => ⟨S8386560, .i32⟩
  | 124 => ⟨S_, .f32⟩
  | 125 => ⟨S4096x4096, .f32⟩
  | 126 => ⟨S_, .i32⟩
  | 127 => ⟨S8386560, .i32⟩
  | _ => ⟨S4096x512, .f32⟩

abbrev hbmTy0_1 (i : Nat) : BufTy := match i % 128 with
  | 0 => ⟨S8386560, .i1⟩
  | 1 => ⟨S_, .i32⟩
  | 2 => ⟨S8386560, .i32⟩
  | 3 => ⟨S8386560, .i32⟩
  | 4 => ⟨S8386560, .i32⟩
  | 5 => ⟨S_, .i32⟩
  | 6 => ⟨S8386560, .i32⟩
  | 7 => ⟨S8386560, .i1⟩
  | 8 => ⟨S_, .i32⟩
  | 9 => ⟨S8386560, .i32⟩
  | 10 => ⟨S8386560, .i32⟩
  | 11 => ⟨S8386560, .i32⟩
  | 12 => ⟨S8386560x1, .i32⟩
  | 13 => ⟨S8386560x1, .i32⟩
  | 14 => ⟨S8386560x2, .i32⟩
  | 15 => ⟨S4096x4096, .f32⟩
  | 16 => ⟨S4096x4096, .f32⟩
  | 17 => ⟨S4096x4096, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | 26 => ⟨S4096x4096, .f32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S4096x4096, .i1⟩
  | 33 => ⟨S4096x4096, .f32⟩
  | 34 => ⟨S4096x4096, .f32⟩
  | 35 => ⟨S_, .f32⟩
  | 36 => ⟨S4096, .f32⟩
  | 37 => ⟨S_, .f32⟩
  | 38 => ⟨S4096, .f32⟩
  | 39 => ⟨S4096, .i1⟩
  | 40 => ⟨S4096, .f32⟩
  | 41 => ⟨S_, .f32⟩
  | 42 => ⟨S4096, .f32⟩
  | 43 => ⟨S4096, .f32⟩
  | 44 => ⟨S_, .f32⟩
  | 45 => ⟨S_, .f32⟩
  | 46 => ⟨S4096, .f32⟩
  | 47 => ⟨S4096, .f32⟩
  | 48 => ⟨S4096x1, .f32⟩
  | 49 => ⟨S4096x4096, .f32⟩
  | 50 => ⟨S4096x4096, .f32⟩
  | 51 => ⟨S1x4096, .f32⟩
  | 52 => ⟨S4096x4096, .f32⟩
  | 53 => ⟨S4096x4096, .f32⟩
  | 54 => ⟨S4096x256, .f32⟩
  | 55 => ⟨S4096x256, .f32⟩
  | 56 => ⟨S1x256, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x32, .f32⟩
  | 63 => ⟨S4096x32, .f32⟩
  | 64 => ⟨S1x32, .f32⟩
  | 65 => ⟨S4096x32, .f32⟩
  | 66 => ⟨S4096x32, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_call0_c : Ref sig .tc := ⟨.hbm, 23, rfl⟩
abbrev main_call1_call0_v0 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_4 : Ref sig .tc := ⟨.hbm, 40, rfl⟩
abbrev main_v13 : Ref sig .tc := ⟨.hbm, 41, rfl⟩
abbrev main_v14 : Ref sig .tc := ⟨.hbm, 42, rfl⟩
abbrev main_call3_call0_c : Ref sig .tc := ⟨.hbm, 43, rfl⟩
abbrev main_call3_call0_v0 : Ref sig .tc := ⟨.hbm, 44, rfl⟩
abbrev main_v15 : Ref sig .tc := ⟨.hbm, 45, rfl⟩
abbrev main_c_5 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_c : Ref sig .tc := ⟨.hbm, 55, rfl⟩
abbrev main_call4_v8 : Ref sig .tc := ⟨.hbm, 56, rfl⟩
abbrev main_call4_v9 : Ref sig .tc := ⟨.hbm, 57, rfl⟩
abbrev main_call4_v10 : Ref sig .tc := ⟨.hbm, 58, rfl⟩
abbrev main_call4_c_0 : Ref sig .tc := ⟨.hbm, 59, rfl⟩
abbrev main_call4_v11 : Ref sig .tc := ⟨.hbm, 60, rfl⟩
abbrev main_call4_v12 : Ref sig .tc := ⟨.hbm, 61, rfl⟩
abbrev main_v16 : Ref sig .tc := ⟨.hbm, 62, rfl⟩
abbrev main_c_6 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_c_0 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_call5_c_1 : Ref sig .tc := ⟨.hbm, 71, rfl⟩
abbrev main_call5_v5 : Ref sig .tc := ⟨.hbm, 72, rfl⟩
abbrev main_call5_v6 : Ref sig .tc := ⟨.hbm, 73, rfl⟩
abbrev main_call5_c_2 : Ref sig .tc := ⟨.hbm, 74, rfl⟩
abbrev main_call5_v7 : Ref sig .tc := ⟨.hbm, 75, rfl⟩
abbrev main_call5_v8 : Ref sig .tc := ⟨.hbm, 76, rfl⟩
abbrev main_call5_c_3 : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_v12 : Ref sig .tc := ⟨.hbm, 81, rfl⟩
abbrev main_call5_v13 : Ref sig .tc := ⟨.hbm, 82, rfl⟩
abbrev main_call5_v14 : Ref sig .tc := ⟨.hbm, 83, rfl⟩
abbrev main_v17 : Ref sig .tc := ⟨.hbm, 84, rfl⟩
abbrev main_c_7 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_v5 : Ref sig .tc := ⟨.hbm, 91, rfl⟩
abbrev main_call6_v6 : Ref sig .tc := ⟨.hbm, 92, rfl⟩
abbrev main_call6_v7 : Ref sig .tc := ⟨.hbm, 93, rfl⟩
abbrev main_call6_c : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_c_0 : Ref sig .tc := ⟨.hbm, 98, rfl⟩
abbrev main_call6_v11 : Ref sig .tc := ⟨.hbm, 99, rfl⟩
abbrev main_call6_v12 : Ref sig .tc := ⟨.hbm, 100, rfl⟩
abbrev main_v18 : Ref sig .tc := ⟨.hbm, 101, rfl⟩
abbrev main_c_8 : Ref sig .tc := ⟨.hbm, 102, rfl⟩
abbrev main_call7_v0 : Ref sig .tc := ⟨.hbm, 103, rfl⟩
abbrev main_call7_c : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_c_1 : Ref sig .tc := ⟨.hbm, 110, rfl⟩
abbrev main_call7_v5 : Ref sig .tc := ⟨.hbm, 111, rfl⟩
abbrev main_call7_v6 : Ref sig .tc := ⟨.hbm, 112, rfl⟩
abbrev main_call7_c_2 : Ref sig .tc := ⟨.hbm, 113, rfl⟩
abbrev main_call7_v7 : Ref sig .tc := ⟨.hbm, 114, rfl⟩
abbrev main_call7_v8 : Ref sig .tc := ⟨.hbm, 115, rfl⟩
abbrev main_call7_c_3 : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_v19 : Ref sig .tc := ⟨.hbm, 123, rfl⟩
abbrev main_cst_9 : Ref sig .tc := ⟨.hbm, 124, rfl⟩
abbrev main_v20 : Ref sig .tc := ⟨.hbm, 125, rfl⟩
abbrev main_c_10 : Ref sig .tc := ⟨.hbm, 126, rfl⟩
abbrev main_v21 : Ref sig .tc := ⟨.hbm, 127, rfl⟩
abbrev main_v22 : Ref sig .tc := ⟨.hbm, 128, rfl⟩
abbrev main_c_11 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_c_12 : Ref sig .tc := ⟨.hbm, 133, rfl⟩
abbrev main_v26 : Ref sig .tc := ⟨.hbm, 134, rfl⟩
abbrev main_v27 : Ref sig .tc := ⟨.hbm, 135, rfl⟩
abbrev main_c_13 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_cst_14 : Ref sig .tc := ⟨.hbm, 148, rfl⟩
abbrev main_v39 : Ref sig .tc := ⟨.hbm, 149, rfl⟩
abbrev main_v40 : Ref sig .tc := ⟨.hbm, 150, rfl⟩
abbrev main_cst_15 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_c_16 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_cst_17 : Ref sig .tc := ⟨.hbm, 163, rfl⟩
abbrev main_v51 : Ref sig .tc := ⟨.hbm, 164, rfl⟩
abbrev main_cst_18 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_cst_19 : Ref sig .tc := ⟨.hbm, 169, rfl⟩
abbrev main_v55 : Ref sig .tc := ⟨.hbm, 170, rfl⟩
abbrev main_v56 : Ref sig .tc := ⟨.hbm, 171, rfl⟩
abbrev main_cst_20 : Ref sig .tc := ⟨.hbm, 172, rfl⟩
abbrev main_call8_v0 : Ref sig .tc := ⟨.hbm, 173, rfl⟩
abbrev main_call8_v1 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_call9_cst : Ref sig .tc := ⟨.hbm, 187, rfl⟩
abbrev main_call9_v0 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S8386560 : S_.BroadcastsInDim S8386560 (![] : Fin 0 → Fin S8386560.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S8386560_S8386560_w8386560s1p8386559_0 : S8386560.ReduceWindows (![8386560] : Fin 1 → Nat) ![1] ![8386559] ![0] S8386560
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  transposes_S4096x4096_S4096x4096_1_0 : S4096x4096.Transposes [1, 0] S4096x4096
  reducesTo_S4096x4096_S4096_d1 : S4096x4096.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  scatter_S8386560_S16777216x1_S16777216_n_0_0_1_wf : ScatterDims.WF S8386560 S16777216x1 S16777216 [] [0] [0] 1
  scatter_S4096x4096_S8386560x2_S8386560_n_01_01_1_wf : ScatterDims.WF S4096x4096 S8386560x2 S8386560 [] [0, 1] [0, 1] 1
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x32_S4096x32_1_0_0_1_n_n_wf : DotDims.WF S4096x256 S256x32 S4096x32 [1] [0] [0] [1] [] []
  dot_S4096x4096_S4096x32_S4096x32_1_0_0_1_n_n_wf : DotDims.WF S4096x4096 S4096x32 S4096x32 [1] [0] [0] [1] [] []

variable [Facts₀]

def scatter_S8386560_S16777216x1_S16777216_n_0_0_1 : ScatterDims S8386560 S16777216x1 S16777216 where
  updateWindowDims := []
  insertedWindowDims := [0]
  scatterDimsToOperandDims := [0]
  indexVectorDim := 1
  wf := scatter_S8386560_S16777216x1_S16777216_n_0_0_1_wf
def scatter_S4096x4096_S8386560x2_S8386560_n_01_01_1 : ScatterDims S4096x4096 S8386560x2 S8386560 where
  updateWindowDims := []
  insertedWindowDims := [0, 1]
  scatterDimsToOperandDims := [0, 1]
  indexVectorDim := 1
  wf := scatter_S4096x4096_S8386560x2_S8386560_n_01_01_1_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf

class Facts : Prop extends Facts₀ where

variable [Facts]
-- ==== Proof.BK0Runs.lean ====
/-
  Region 0 (the first layer's matrix-product kernel): what its three control cases share.

  The grid is 16 × 16; point `t` is (row block `t / 16`, column block `t % 16`). The body zeroes its scratch at the
  first column block, adds one tile product at every column block, and at the last one applies the layer's
  epilogue and stores the result block. Here: each window's block at a point read off the arrays the region
  finds; that every input's staging buffer holds its block wherever the body is handed it; the two branch
  conditions in closed form over the grid; where the result window is idle; the staging and scratch memrefs.
-/
import proofs.«102345_g84920093377258_cont_9to1c4b_501_3_alg».proof.Proof.Gen.Kernel.Launch
import proofs.«102345_g84920093377258_cont_9to1c4b_501_3_alg».proof.Proof.Gen.Kernel.Skeleton
import proofs.«102345_g84920093377258_cont_9to1c4b_501_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Every input window's current staging buffer holds its block at every point, fetched there or not, for any proof
    data whose array is the region's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the row block's first column block." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the row block's last column block." -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column block the result window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last column block it is live. -/
theorem liveAt0_5 : ∀ t : Fin cfg0.N, cond0_1 (grid0.coords t) → cfg0.idle 5 (grid0.coords t) = false := by decide +kernel

/-! ## The staging and scratch memrefs -/

abbrev VO0_5 : View sig .tc .vmem S256x32 .f32 := (Memref.whole cc0_stg5_0 : Memref sig .tc .vmem S256x32 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x32 .f32 := win0_5.stage (cfg0.slots t 5)
abbrev hs0_5 (t : Fin cfg0.N) : (ms0_5 t).IsWhole := hstage0_5 ((cfg0.slots t 5).cast nbuf0_5)
/-- The scratch accumulator: a whole scoped buffer of the kernel's own. -/
abbrev scM0 : Memref sig .tc .vmem S256x256 .f32 := Memref.whole cc0_scratch0
abbrev VS0 : View sig .tc .vmem S256x256 .f32 := scM0.view

/-- The other region's scoped buffers, each at some contents: they ride through this region untouched. -/
def rest0 (c : Dev nD) : sProp 𝕄 := iprop((∃ f, (c : Thread nD τ).loc cc1_stg0_0 ↦{fullShare} f) ∗ (∃ f, (c : Thread nD τ).loc cc1_stg0_1 ↦{fullShare} f) ∗ (∃ f, (c : Thread nD τ).loc cc1_stg1_0 ↦{fullShare} f) ∗ (∃ f, (c : Thread nD τ).loc cc1_stg1_1 ↦{fullShare} f) ∗ (∃ f, (c : Thread nD τ).loc cc1_stg2_0 ↦{fullShare} f) ∗ (∃ f, (c : Thread nD τ).loc cc1_stg3_0 ↦{fullShare} f) ∗ (∃ f, (c : Thread nD τ).loc cc1_stg3_1 ↦{fullShare} f) ∗ (∃ f, (c : Thread nD τ).loc cc1_stg4_0 ↦{fullShare} f) ∗ (∃ f, (c : Thread nD τ).loc cc1_stg4_1 ↦{fullShare} f) ∗ ∃ f, (c : Thread nD τ).loc cc1_scratch0 ↦{fullShare} f)

/-- The class invariant with the scratch as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.Kernel.Hand

end
-- ==== Proof.BK0RunA.lean ====
/-
  Region 0's body at a row block's FIRST column block: the scratch is zeroed, then holds the first tile product.
  The whole body is run once on arbitrary whole staging memrefs; the pieces the scratch ends with are the witness.
-/
import proofs.«102345_g84920093377258_cont_9to1c4b_501_3_alg».proof.Proof.BK0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first column block: from the tile and the block at their contents and the scratch at anything, it
    runs to the continuation with the inputs as they were and the scratch with its pieces written. -/
noncomputable def kernelRun0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : cond0_0 i) (hc1 : ¬cond0_1 i)
    (x0 : Vec F S256x256 .f32) (x1 : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__layer1_body i arg2 harg2 arg3 harg3 arg4 harg4 arg5 harg5 arg6 harg6 arg7 harg7 arg8 harg8) K } := by
  refine ⟨?_, fun E K => ?run⟩
  case run =>
    simp only [cc0__layer1_body_eq_skeleton]; unfold cc0__layer1_body_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.BK0RunB.lean ====
/-
  Region 0's body at a MIDDLE column block: the scratch, at what the block before left, gains one tile product.
-/
import proofs.«102345_g84920093377258_cont_9to1c4b_501_3_alg».proof.Proof.BK0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle column block: from the tile and the block at their contents and the scratch at `xs`, it runs
    to the continuation with the inputs as they were and the scratch with its pieces written. -/
noncomputable def kernelRun0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : ¬cond0_1 i)
    (x0 : Vec F S256x256 .f32) (x1 : Vec F S256x256 .f32) (xs : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__layer1_body i arg2 harg2 arg3 harg3 arg4 harg4 arg5 harg5 arg6 harg6 arg7 harg7 arg8 harg8) K } := by
  refine ⟨?_, fun E K => ?run⟩
  case run =>
    simp only [cc0__layer1_body_eq_skeleton]; unfold cc0__layer1_body_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.BK0RunC.lean ====
/-
  Region 0's body at a row block's LAST column block: the scratch gains the last tile product, and the layer's
  epilogue of the accumulated block is stored into the result's staging buffer.
-/
import proofs.«102345_g84920093377258_cont_9to1c4b_501_3_alg».proof.Proof.BK0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a last column block: from the five inputs at their contents, the result's buffer at anything and the
    scratch at `xs`, it runs to the continuation with the inputs as they were and the result's buffer and the scratch
    with their pieces written. -/
noncomputable def kernelRun0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) :
    Σ' (L5 : List (View.Piece (Elt F) S256x32 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__layer1_body i arg2 harg2 arg3 harg3 arg4 harg4 arg5 harg5 arg6 harg6 arg7 harg7 arg8 harg8) K } := by
  refine ⟨?_, ?_, fun E K => ?run⟩
  case run =>
    simp only [cc0__layer1_body_eq_skeleton]; unfold cc0__layer1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.BK0Frame.lean ====
/-
  Region 0: what the scratch and the result window hold after every grid point, the proof data, and the body
  obligation.

  After point `t` the scratch holds the pieces the case at `t` writes, run on the point's tile and block and — away
  from a row block's first column — on what the point before left in the scratch (`outsAt0`'s second component);
  at a last column block the result's staging buffer holds that case's epilogue pieces (first component), and
  elsewhere the result window is idle. The region's invariant carries the scratch at these contents from point
  to point.
-/
import proofs.«102345_g84920093377258_cont_9to1c4b_501_3_alg».proof.Proof.BK0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What an idle result buffer "holds": a placeholder nothing consults. -/
def junk0_5 : Vec F S256x32 .f32 := VO0_5.read (Elt F) (VO0_5.writes (Elt F) VO0_5.junk [])

theorem scover0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : cond0_0 i) (hc1 : ¬cond0_1 i)
    (x0 : Vec F S256x256 .f32) (x1 : Vec F S256x256 .f32) (y : S256x256.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S256x256.size (by sl_kernel_rfl) y
/-- What a first column block leaves in the scratch. -/
def sout0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : cond0_0 i) (hc1 : ¬cond0_1 i)
    (x0 : Vec F S256x256 .f32) (x1 : Vec F S256x256 .f32) : Vec F S256x256 .f32 :=
  VS0.read (Elt F) (VS0.writes (Elt F) VS0.junk (kernelRun0_A c i arg2 harg2 arg3 harg3 arg4 harg4 arg5 harg5 arg6 harg6 arg7 harg7 arg8 harg8 hc0 hc1 x0 x1).1)

theorem scover0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : ¬cond0_1 i)
    (x0 : Vec F S256x256 .f32) (x1 : Vec F S256x256 .f32) (xs : Vec F S256x256 .f32) (y : S256x256.Idx) :
    ∃ pc ∈ (kernelRun0_B c i arg2 harg2 arg3 harg3 arg4 harg4 arg5 harg5 arg6 harg6 arg7 harg7 arg8 harg8 hc0 hc1 x0 x1 xs).1, y ∈ pc.1.set :=
  View.cover_of_tiledL (kernelRun0_B c i arg2 harg2 arg3 harg3 arg4 harg4 arg5 harg5 arg6 harg6 arg7 harg7 arg8 harg8 hc0 hc1 x0 x1 xs).1 S256x256.size (by sl_kernel_rfl) y
/-- What a middle column block leaves in the scratch. -/
def sout0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : ¬cond0_1 i)
    (x0 : Vec F S256x256 .f32) (x1 : Vec F S256x256 .f32) (xs : Vec F S256x256 .f32) : Vec F S256x256 .f32 :=
  VS0.read (Elt F) (VS0.writes (Elt F) VS0.junk (kernelRun0_B c i arg2 harg2 arg3 harg3 arg4 harg4 arg5 harg5 arg6 harg6 arg7 harg7 arg8 harg8 hc0 hc1 x0 x1 xs).1)

theorem cover0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) (y : S256x32.Idx) :
    ∃ pc ∈ (kernelRun0_C c i arg2 harg2 arg3 harg3 arg4 harg4 arg5 harg5 arg6 harg6 arg7 harg7 arg8 harg8 hc0 hc1 x0 x1 x2 x3 x4 xs).1, y ∈ pc.1.set :=
  View.cover_of_tiledL (kernelRun0_C c i arg2 harg2 arg3 harg3 arg4 harg4 arg5 harg5 arg6 harg6 arg7 harg7 arg8 harg8 hc0 hc1 x0 x1 x2 x3 x4 xs).1 S256x32.size (by sl_kernel_rfl) y
/-- What a last column block leaves in the result's staging buffer. -/
def out0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) : Vec F S256x32 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs).1)
theorem scover0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) (y : S256x256.Idx) :
    ∃ pc ∈ (kernelRun0_C c i arg2 harg2 arg3 harg3 arg4 harg4 arg5 harg5 arg6 harg6 arg7 harg7 arg8 harg8 hc0 hc1 x0 x1 x2 x3 x4 xs).2.1, y ∈ pc.1.set :=
  View.cover_of_tiledL (kernelRun0_C c i arg2 harg2 arg3 harg3 arg4 harg4 arg5 harg5 arg6 harg6 arg7 harg7 arg8 harg8 hc0 hc1 x0 x1 x2 x3 x4 xs).2.1 S256x256.size (by sl_kernel_rfl) y
/-- What a last column block leaves in the scratch. -/
def sout0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) : Vec F S256x256 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs).2.1)

/-! ## What the result's staging buffer and the scratch hold after each point -/

/-- The accumulation: after the body at position `n`, (the result's staging buffer, the scratch). -/
def outsAt0 (c : Dev nD) : (n : ℕ) → n < cfg0.N → Vec F S256x32 .f32 × Vec F S256x256 .f32
  | 0, hn => (junk0_5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      (junk0_5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (junk0_5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) :
    outsAt0 V c t.val t.isLt = (junk0_5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (junk0_5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the class's before the first point; afterwards the scratch at what the
    point before left, the other region's scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end

end Cert.Kernel.Hand

end
-- ==== Proof.BK0Body.lean ====
/-
  Region 0: the body obligation at every grid point, and the invariant's two ends.

  At each point the inputs' staging buffers hold their blocks, the closed forms decide the case, the invariant hands
  the body the scratch (at what the point before left; at anything at the very first point) and takes it back at
  this point's contents; away from a last column block the idle result buffer is handed back as found.
-/
import proofs.«102345_g84920093377258_cont_9to1c4b_501_3_alg».proof.Proof.BK0Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases h0 : t.val % 16 = 0
  · -- a row block's first column block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => (fun h => by omega) ((hcond0_1 t).mp h))) (noFlush0_5 t (fun h => (fun h => by omega) ((hcond0_1 t).mp h)))]
      rw [outsAt0_A V c t h0]
      unfold sout0_A; (try dsimp only)
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 16 = 15
    · -- a row block's last column block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C sout0_C; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) _)
    · -- a middle column block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS, Hr⟩, Hg⟩
  isplitl [HS Hr]
  · isplitl [HS]; · iexists _; iexact HS
    iexact Hr
  iexact Hg

end

end Cert.Kernel.Hand

end
-- ==== Proof.BK1Runs.lean ====
/-
  Region 1 (the second layer's matrix-product kernel): what its three control cases share — as for region 0, with
  the first layer's result in place of the scaled features, a 256 × 32 scratch, and the epilogue "scale the rows
  and add the bias".
-/
import proofs.«102345_g84920093377258_cont_9to1c4b_501_3_alg».proof.Proof.Gen.Kernel.Launch
import proofs.«102345_g84920093377258_cont_9to1c4b_501_3_alg».proof.Proof.Gen.Kernel.Skeleton
import proofs.«102345_g84920093377258_cont_9to1c4b_501_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging and scratch memrefs -/

abbrev VO1_4 : View sig .tc .vmem S256x32 .f32 := (Memref.whole cc1_stg4_0 : Memref sig .tc .vmem S256x32 .f32).view
abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x32 .f32 := win1_4.stage (cfg1.slots t 4)
abbrev hs1_4 (t : Fin cfg1.N) : (ms1_4 t).IsWhole := hstage1_4 ((cfg1.slots t 4).cast nbuf1_4)
abbrev scM1 : Memref sig .tc .vmem S256x32 .f32 := Memref.whole cc1_scratch0
abbrev VS1 : View sig .tc .vmem S256x32 .f32 := scM1.view

/-- The other region's scoped buffers, each at some contents: they ride through this region untouched. -/
def rest1 (c : Dev nD) : sProp 𝕄 := iprop((∃ f, (c : Thread nD τ).loc cc0_stg0_0 ↦{fullShare} f) ∗ (∃ f, (c : Thread nD τ).loc cc0_stg0_1 ↦{fullShare} f) ∗ (∃ f, (c : Thread nD τ).loc cc0_stg1_0 ↦{fullShare} f) ∗ (∃ f, (c : Thread nD τ).loc cc0_stg1_1 ↦{fullShare} f) ∗ (∃ f, (c : Thread nD τ).loc cc0_stg2_0 ↦{fullShare} f) ∗ (∃ f, (c : Thread nD τ).loc cc0_stg3_0 ↦{fullShare} f) ∗ (∃ f, (c : Thread nD τ).loc cc0_stg4_0 ↦{fullShare} f) ∗ (∃ f, (c : Thread nD τ).loc cc0_stg4_1 ↦{fullShare} f) ∗ (∃ f, (c : Thread nD τ).loc cc0_stg5_0 ↦{fullShare} f) ∗ (∃ f, (c : Thread nD τ).loc cc0_stg5_1 ↦{fullShare} f) ∗ ∃ f, (c : Thread nD τ).loc cc0_scratch0 ↦{fullShare} f)

/-- The scoped buffers around a statement `X` about the scratch, with the generator register at some state: the shape
    the class invariant has. -/
def wrap1 (c : Dev nD) (X : sProp 𝕄) : sProp 𝕄 := iprop(((∃ f, (c : Thread nD τ).loc cc0_stg0_0 ↦{fullShare} f) ∗ (∃ f, (c : Thread nD τ).loc cc0_stg0_1 ↦{fullShare} f) ∗ (∃ f, (c : Thread nD τ).loc cc0_stg1_0 ↦{fullShare} f) ∗ (∃ f, (c : Thread nD τ).loc cc0_stg1_1 ↦{fullShare} f) ∗ (∃ f, (c : Thread nD τ).loc cc0_stg2_0 ↦{fullShare} f) ∗ (∃ f, (c : Thread nD τ).loc cc0_stg3_0 ↦{fullShare} f) ∗ (∃ f, (c : Thread nD τ).loc cc0_stg4_0 ↦{fullShare} f) ∗ (∃ f, (c : Thread nD τ).loc cc0_stg4_1 ↦{fullShare} f) ∗ (∃ f, (c : Thread nD τ).loc cc0_stg5_0 ↦{fullShare} f) ∗ (∃ f, (c : Thread nD τ).loc cc0_stg5_1 ↦{fullShare} f) ∗ (∃ f, (c : Thread nD τ).loc cc0_scratch0 ↦{fullShare} f) ∗ X) ∗ (∃ r, prngReg c r))

theorem wrap1_out (c : Dev nD) (X : sProp 𝕄) : wrap1 c X ⊢ iprop(X ∗ rest1 c ∗ (∃ r, prngReg c r)) := by
  unfold wrap1 rest1
  iintro ⟨⟨H1, H2, H3, H4, H5, H6, H7, H8, H9, H10, H11, HX⟩, Hg⟩
  isplitl [HX]; · iexact HX
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

theorem wrap1_in (c : Dev nD) (X : sProp 𝕄) : iprop(X ∗ rest1 c ∗ (∃ r, prngReg c r)) ⊢ wrap1 c X := by
  unfold wrap1 rest1
  iintro ⟨HX, ⟨H1, H2, H3, H4, H5, H6, H7, H8, H9, H10, H11⟩, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HX
  iexact Hg

theorem PhiA1_eq (c : Dev nD) :
    (Pipeline.ΦA spec1 c : sProp 𝕄) = wrap1 c (iprop(∃ d, owns (c : Thread nD τ) scM1 fullShare d)) := by
  unfold Pipeline.ΦA wrap1; rw [scopedRest1_eq]; simp only [scM1, owns_whole]; try rfl

end Cert.Kernel.Hand

end
-- ==== Proof.BK1RunA.lean ====
/-
  Region 1's body at a row block's FIRST column block.
-/
import proofs.«102345_g84920093377258_cont_9to1c4b_501_3_alg».proof.Proof.BK1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body there: from the tile and the block at their contents and the scratch at anything, it runs to the
    continuation with the inputs as they were and the scratch with its pieces written. -/
noncomputable def kernelRun1_A (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : cond1_0 i) (hc1 : ¬cond1_1 i)
    (x0 : Vec F S256x256 .f32) (x1 : Vec F S256x32 .f32) :
    { LS : List (View.Piece (Elt F) S256x32 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__layer2_body i arg2 harg2 arg3 harg3 arg4 harg4 arg5 harg5 arg6 harg6 arg7 harg7) K } := by
  refine ⟨?_, fun E K => ?run⟩
  case run =>
    simp only [cc1__layer2_body_eq_skeleton]; unfold cc1__layer2_body_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.BK1RunB.lean ====
/-
  Region 1's body at a MIDDLE column block.
-/
import proofs.«102345_g84920093377258_cont_9to1c4b_501_3_alg».proof.Proof.BK1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body there: from the tile and the block at their contents and the scratch at \`xs\`, it runs to the
    continuation with the inputs as they were and the scratch with its pieces written. -/
noncomputable def kernelRun1_B (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : ¬cond1_1 i)
    (x0 : Vec F S256x256 .f32) (x1 : Vec F S256x32 .f32) (xs : Vec F S256x32 .f32) :
    { LS : List (View.Piece (Elt F) S256x32 .f32) //
      ∀ (E : Set ℕ) (K : PUnit → sProp 𝕄),
        iprop(owns (c : Thread nD τ) arg2 fullShare x0 ∗ owns (c : Thread nD τ) arg3 fullShare x1 ∗ owns (c : Thread nD τ) arg7 fullShare xs
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__layer2_body i arg2 harg2 arg3 harg3 arg4 harg4 arg5 harg5 arg6 harg6 arg7 harg7) K } := by
  refine ⟨?_, fun E K => ?run⟩
  case run =>
    simp only [cc1__layer2_body_eq_skeleton]; unfold cc1__layer2_body_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.BK1RunC.lean ====
/-
  Region 1's body at a row block's LAST column block: the scratch gains the last tile product, and the accumulated
  block, its rows scaled, plus the bias row, is stored into the result's staging buffer.
-/
import proofs.«102345_g84920093377258_cont_9to1c4b_501_3_alg».proof.Proof.BK1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i)
    (x0 : Vec F S256x256 .f32) (x1 : Vec F S256x32 .f32) (x2 : Vec F S1x32 .f32) (x3 : Vec F S256 .f32)
    (xs : Vec F S256x32 .f32) :
    Σ' (L4 : List (View.Piece (Elt F) S256x32 .f32)), { LS : List (View.Piece (Elt F) S256x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ owns (c : Thread nD τ) arg7 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__layer2_body i arg2 harg2 arg3 harg3 arg4 harg4 arg5 harg5 arg6 harg6 arg7 harg7) K } := by
  refine ⟨?_, ?_, fun E K => ?run⟩
  case run =>
    simp only [cc1__layer2_body_eq_skeleton]; unfold cc1__layer2_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.BK1Frame.lean ====
/-
  Region 1: what the scratch and the result window hold after every grid point, and the proof data — as for
  region 0.
-/
import proofs.«102345_g84920093377258_cont_9to1c4b_501_3_alg».proof.Proof.BK1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def junk1_4 : Vec F S256x32 .f32 := VO1_4.read (Elt F) (VO1_4.writes (Elt F) VO1_4.junk [])

theorem scover1_A (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : cond1_0 i) (hc1 : ¬cond1_1 i) (x0 : Vec F S256x256 .f32) (x1 : Vec F S256x32 .f32) (y : S256x32.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S256x32.size (by sl_kernel_rfl) y
def sout1_A (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : cond1_0 i) (hc1 : ¬cond1_1 i) (x0 : Vec F S256x256 .f32) (x1 : Vec F S256x32 .f32) : Vec F S256x32 .f32 :=
  VS1.read (Elt F) (VS1.writes (Elt F) VS1.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : ¬cond1_1 i) (x0 : Vec F S256x256 .f32) (x1 : Vec F S256x32 .f32) (xs : Vec F S256x32 .f32) (y : S256x32.Idx) :
    ∃ pc ∈ (kernelRun1_B c i arg2 harg2 arg3 harg3 arg4 harg4 arg5 harg5 arg6 harg6 arg7 harg7 hc0 hc1 x0 x1 xs).1, y ∈ pc.1.set :=
  View.cover_of_tiledL (kernelRun1_B c i arg2 harg2 arg3 harg3 arg4 harg4 arg5 harg5 arg6 harg6 arg7 harg7 hc0 hc1 x0 x1 xs).1 S256x32.size (by sl_kernel_rfl) y
def sout1_B (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : ¬cond1_1 i) (x0 : Vec F S256x256 .f32) (x1 : Vec F S256x32 .f32) (xs : Vec F S256x32 .f32) : Vec F S256x32 .f32 :=
  VS1.read (Elt F) (VS1.writes (Elt F) VS1.junk (kernelRun1_B c i arg2 harg2 arg3 harg3 arg4 harg4 arg5 harg5 arg6 harg6 arg7 harg7 hc0 hc1 x0 x1 xs).1)

theorem cover1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) (y : S256x32.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S256x32.size (by sl_kernel_rfl) y
def out1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) : Vec F S256x32 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs).1)
theorem scover1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) (y : S256x32.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S256x32.size (by sl_kernel_rfl) y
def sout1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) : Vec F S256x32 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)

/-- After the body at position `n`: (the result's staging buffer, the scratch). -/
def outsAt1 (c : Dev nD) : (n : ℕ) → n < cfg1.N → Vec F S256x32 .f32 × Vec F S256x32 .f32
  | 0, hn => (junk1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      (junk1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (junk1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) :
    outsAt1 V c t.val t.isLt = (junk1_4, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (junk1_4, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => wrap1 c (owns (c : Thread nD τ) scM1 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = wrap1 c (owns (c : Thread nD τ) scM1 fullShare ((outsAt1 V c n hn).2)) := rfl
theorem PhiS1_pos (c : Dev nD) (n : ℕ) (h : n ≤ cfg1.N) (hz : n ≠ 0) :
    PhiS1 V c n h = wrap1 c (owns (c : Thread nD τ) scM1 fullShare ((outsAt1 V c (n - 1) (by omega)).2)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.Kernel.Hand

end
-- ==== Proof.BK1Body.lean ====
/-
  Region 1: the body obligation at every grid point, and the invariant's two ends — as for region 0.
-/
import proofs.«102345_g84920093377258_cont_9to1c4b_501_3_alg».proof.Proof.BK1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · -- a row block's first column block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => (fun h => by omega) ((hcond1_1 t).mp h))) (noFlush1_4 t (fun h => (fun h => by omega) ((hcond1_1 t).mp h)))]
      rw [outsAt1_A V c t h0]
      unfold sout1_A; (try dsimp only)
      by_cases hz : t.val = 0
      · rw [PhiS1_castSucc V c t, PhiS1_zero V c _ _ hz, PhiA1_eq]
        iintro ⟨HΦ, Ho, ⟨%d0, H0⟩, ⟨%d1, H1⟩, ⟨%d2, H2⟩, ⟨%d3, H3⟩, ⟨%d4, H4⟩⟩
        ihave HΦ' := (wrap1_out c _) $$ HΦ
        icases HΦ' with ⟨HS, Hr, Hg⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t)).2 Set.univ _)
        isplitl [H0]; · iexact H0
        isplitl [H1]; · iexact H1
        isplitl [HS]; · iexact HS
        iintro ⟨H0, H1, ⟨%es, HS⟩⟩
        isplitl [HS Hr Hg]
        · iapply (wrap1_in c _)
          isplitl [HS]
          · unfold owns; iexists _; isplitr
            swap; · iexact HS
            ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t))
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨HΦ, Ho, ⟨%d0, H0⟩, ⟨%d1, H1⟩, ⟨%d2, H2⟩, ⟨%d3, H3⟩, ⟨%d4, H4⟩⟩
        ihave HΦ' := (wrap1_out c _) $$ HΦ
        icases HΦ' with ⟨HS, Hr, Hg⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t)).2 Set.univ _)
        isplitl [H0]; · iexact H0
        isplitl [H1]; · iexact H1
        isplitl [HS]; · iexists _; iexact HS
        iintro ⟨H0, H1, ⟨%es, HS⟩⟩
        isplitl [HS Hr Hg]
        · iapply (wrap1_in c _)
          isplitl [HS]
          · unfold owns; iexists _; isplitr
            swap; · iexact HS
            ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t))
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- a row block's last column block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨HΦ, Ho, ⟨%d0, H0⟩, ⟨%d1, H1⟩, ⟨%d2, H2⟩, ⟨%d3, H3⟩, ⟨%d4, H4⟩⟩
      ihave HΦ' := (wrap1_out c _) $$ HΦ
      icases HΦ' with ⟨HS, Hr, Hg⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hr Hg]
      · iapply (wrap1_in c _)
        isplitl [HS]
        · unfold owns; iexists _; isplitr
          swap; · iexact HS
          ipureintro; exact View.read_writes_of_cover _ _ _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _)
    · -- a middle column block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨HΦ, Ho, ⟨%d0, H0⟩, ⟨%d1, H1⟩, ⟨%d2, H2⟩, ⟨%d3, H3⟩, ⟨%d4, H4⟩⟩
      ihave HΦ' := (wrap1_out c _) $$ HΦ
      icases HΦ' with ⟨HS, Hr, Hg⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hr Hg]
      · iapply (wrap1_in c _)
        isplitl [HS]
        · unfold owns; iexists _; isplitr
          swap; · iexact HS
          ipureintro; exact View.read_writes_of_cover _ _ _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro HΦ
  ihave HΦ' := (wrap1_out c _) $$ HΦ
  icases HΦ' with ⟨HS, Hr, Hg⟩
  iapply (wrap1_in c _)
  isplitl [HS]; · iexists _; iexact HS
  isplitl [Hr]; · iexact Hr
  iexact Hg

end

end Cert.Kernel.Hand

end
-- ==== Proof.BKRun.lean ====
/-
  The kernel's whole program as a run: seven stretches of host operations, the first layer's region, one more host
  operation, the second layer's region.

  The buffer contents at each boundary are a fold through the program: a host stretch applies its operations, a
  region leaves its arrays at what its write-backs leave (the proof data's `arrAt`) and every other buffer as it
  found it. Every weakly fair execution terminates without a fault, and the final memory holds the second
  region's result array at its proof data's final contents, the edge mask at what the host stretch left, and each
  argument as launched.
-/
import proofs.«102345_g84920093377258_cont_9to1c4b_501_3_alg».proof.Proof.BK0Body
import proofs.«102345_g84920093377258_cont_9to1c4b_501_3_alg».proof.Proof.BK1Body
import proofs.«102345_g84920093377258_cont_9to1c4b_501_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
/-- The same read at the TensorCore's references: what region 0's proof data take. -/
abbrev U7 : (c : Dev nD) → (b : Ref sig .tc) → Buf (Elt F) ((c : Thread nD τ).loc b) := fun c b => W7 m ρ c b
/-- At region 0's exit: its arrays at what the pipeline leaves, every other buffer as entered. -/
def W8 (c : Dev nD) : Valuation τ sig (Elt F) :=
  Pipeline.withArrays spec0 c (W7 m ρ c) fun w => (dat0 (U7 m ρ) c).arrAt w cfg0.N
theorem W8_arr (c : Dev nD) (w : Fin cfg0.W) :
    W8 m ρ c (Proc.devRef .tc (Pipeline.arrRef spec0 w)) = (dat0 (U7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev U8 : (c : Dev nD) → (b : Ref sig .tc) → Buf (Elt F) ((c : Thread nD τ).loc b) := fun c b => W8 m ρ c b
theorem hF0 (c : Dev nD) (w : Fin cfg0.W) : (dat0 (U7 m ρ) c).arrAt w cfg0.N = U8 m ρ c (Pipeline.arrRef spec0 w) :=
  (W8_arr m ρ c w).symm
theorem hrest0 (c : Dev nD) : ∀ b, b ∉ Finset.univ.image (Pipeline.arrRef spec0) → U8 m ρ c b = U7 m ρ c b :=
  fun b hb => W8_of_ne m ρ c b fun w e => hb (Finset.mem_image.mpr ⟨w, Finset.mem_univ _, e⟩)
abbrev W9 : Dev nD → Valuation τ sig (Elt F) := fun c => StableHlo.after hostOps1 (W8 m ρ c)
abbrev U9 : (c : Dev nD) → (b : Ref sig .tc) → Buf (Elt F) ((c : Thread nD τ).loc b) := fun c b => W9 m ρ c b
/-- At region 1's exit. -/
def W10 (c : Dev nD) : Valuation τ sig (Elt F) :=
  Pipeline.withArrays spec1 c (W9 m ρ c) fun w => (dat1 (U9 m ρ) c).arrAt w cfg1.N
theorem W10_arr (c : Dev nD) (w : Fin cfg1.W) :
    W10 m ρ c (Proc.devRef .tc (Pipeline.arrRef spec1 w)) = (dat1 (U9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev U10 : (c : Dev nD) → (b : Ref sig .tc) → Buf (Elt F) ((c : Thread nD τ).loc b) := fun c b => W10 m ρ c b
theorem hF1 (c : Dev nD) (w : Fin cfg1.W) : (dat1 (U9 m ρ) c).arrAt w cfg1.N = U10 m ρ c (Pipeline.arrRef spec1 w) :=
  (W10_arr m ρ c w).symm
theorem hrest1 (c : Dev nD) : ∀ b, b ∉ Finset.univ.image (Pipeline.arrRef spec1) → U10 m ρ c b = U9 m ρ c b :=
  fun b hb => W10_of_ne m ρ c b fun w e => hb (Finset.mem_image.mpr ⟨w, Finset.mem_univ _, e⟩)

/-! ### The arguments end as launched, and the edge mask as the host stretch left it -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps1 _ hostOps1_writes (by decide)
    _ = W7 m ρ c (Proc.devRef .tc main_arg0) := W8_of_ne m ρ c main_arg0 (by decide)
    _ = W6 m ρ c (Proc.devRef .tc main_arg0) := StableHlo.after_of_writes_sub hostOps0_6 _ hostOps0_6_writes (by decide)
    _ = W5 m ρ c (Proc.devRef .tc main_arg0) := StableHlo.after_of_writes_sub hostOps0_5 _ hostOps0_5_writes (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps1 _ hostOps1_writes (by decide)
    _ = W7 m ρ c (Proc.devRef .tc main_arg1) := W8_of_ne m ρ c main_arg1 (by decide)
    _ = W6 m ρ c (Proc.devRef .tc main_arg1) := StableHlo.after_of_writes_sub hostOps0_6 _ hostOps0_6_writes (by decide)
    _ = W5 m ρ c (Proc.devRef .tc main_arg1) := StableHlo.after_of_writes_sub hostOps0_5 _ hostOps0_5_writes (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps1 _ hostOps1_writes (by decide)
    _ = W7 m ρ c (Proc.devRef .tc main_arg2) := W8_of_ne m ρ c main_arg2 (by decide)
    _ = W6 m ρ c (Proc.devRef .tc main_arg2) := StableHlo.after_of_writes_sub hostOps0_6 _ hostOps0_6_writes (by decide)
    _ = W5 m ρ c (Proc.devRef .tc main_arg2) := StableHlo.after_of_writes_sub hostOps0_5 _ hostOps0_5_writes (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps1 _ hostOps1_writes (by decide)
    _ = W7 m ρ c (Proc.devRef .tc main_arg3) := W8_of_ne m ρ c main_arg3 (by decide)
    _ = W6 m ρ c (Proc.devRef .tc main_arg3) := StableHlo.after_of_writes_sub hostOps0_6 _ hostOps0_6_writes (by decide)
    _ = W5 m ρ c (Proc.devRef .tc main_arg3) := StableHlo.after_of_writes_sub hostOps0_5 _ hostOps0_5_writes (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps1 _ hostOps1_writes (by decide)
    _ = W7 m ρ c (Proc.devRef .tc main_arg4) := W8_of_ne m ρ c main_arg4 (by decide)
    _ = W6 m ρ c (Proc.devRef .tc main_arg4) := StableHlo.after_of_writes_sub hostOps0_6 _ hostOps0_6_writes (by decide)
    _ = W5 m ρ c (Proc.devRef .tc main_arg4) := StableHlo.after_of_writes_sub hostOps0_5 _ hostOps0_5_writes (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps1 _ hostOps1_writes (by decide)
    _ = W7 m ρ c (Proc.devRef .tc main_arg5) := (W8_arr m ρ c 3).trans (((dat0 (U7 m ρ) c).arrAt_in 3 rfl _).trans (A_eq0 (U7 m ρ) c 3))
    _ = W6 m ρ c (Proc.devRef .tc main_arg5) := StableHlo.after_of_writes_sub hostOps0_6 _ hostOps0_6_writes (by decide)
    _ = W5 m ρ c (Proc.devRef .tc main_arg5) := StableHlo.after_of_writes_sub hostOps0_5 _ hostOps0_5_writes (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_writes_sub hostOps1 _ hostOps1_writes (by decide)
    _ = W7 m ρ c (Proc.devRef .tc main_arg6) := W8_of_ne m ρ c main_arg6 (by decide)
    _ = W6 m ρ c (Proc.devRef .tc main_arg6) := StableHlo.after_of_writes_sub hostOps0_6 _ hostOps0_6_writes (by decide)
    _ = W5 m ρ c (Proc.devRef .tc main_arg6) := StableHlo.after_of_writes_sub hostOps0_5 _ hostOps0_5_writes (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W10_main_v40 (c : Dev nD) : W10 m ρ c (Proc.devRef .tc main_v40) = W7 m ρ c (Proc.devRef .tc main_v40) :=
  calc W10 m ρ c (Proc.devRef .tc main_v40)
    _ = W9 m ρ c (Proc.devRef .tc main_v40) := W10_of_ne m ρ c main_v40 (by decide)
    _ = W8 m ρ c (Proc.devRef .tc main_v40) := StableHlo.after_of_writes_sub hostOps1 _ hostOps1_writes (by decide)
    _ = W7 m ρ c (Proc.devRef .tc main_v40) := W8_of_ne m ρ c main_v40 (by decide)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (U7 m ρ) c
  | ⟨1, _⟩ => fun c => dat1 (U9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W7`, left at `W8`. Its arrays split out of the
    unscoped buffers and put back at the exit contents; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (U7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (U7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U7 m ρ c) (U8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W9`, left at `W10`. Its arrays split out of the
    unscoped buffers and put back at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (U9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U9 m ρ c) (U10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .region (reg1 m ρ) ]
theorem main_run (c : Dev nD) : main (F := F) c = Pipeline.Seg.run (segs m ρ) := (main_chain c).trans (by chain_rfl)

set_option backward.isDefEq.respectTransparency.types false in
/-- The run: every weakly fair execution of the program terminates without a fault; the final memory holds the result
    array at the second region's final contents, the edge mask as the host left it, and the arguments as launched. -/
theorem run_main : θ_run defs (onTc (τ := τ) (main (F := F))) ⟨m, fun _ => 0, ρ⟩ (fun r => ∀ c : Dev nD,
      r.2.mem ((c.tc : Thread nD τ).loc main_v63) = (dat1 (U9 m ρ) c).arrAt 4 cfg1.N
      ∧ r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v63 (by decide))).trans (W10_arr m ρ c 4),
       (h c _ (mem_uc main_v40 (by decide))).trans (W10_main_v40 m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.Kernel.Hand

end
-- ==== Proof.K0Runs.lean ====
/-
  Region 0 (the first layer's matrix-product kernel): what its three control cases share.

  The grid is 16 × 16; point `t` is (row block `t / 16`, column block `t % 16`). The body zeroes its scratch at the
  first column block, adds one tile product at every column block, and at the last one applies the layer's
  epilogue and stores the result block. Here: each window's block at a point read off the arrays the region
  finds; that every input's staging buffer holds its block wherever the body is handed it; the two branch
  conditions in closed form over the grid; where the result window is idle; the staging and scratch memrefs.
-/
import proofs.«102345_g84920093377258_cont_9to1c4b_501_3_alg».proof.Proof.Gen.KernelIdeal.Launch
import proofs.«102345_g84920093377258_cont_9to1c4b_501_3_alg».proof.Proof.Gen.KernelIdeal.Skeleton
import proofs.«102345_g84920093377258_cont_9to1c4b_501_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Every input window's current staging buffer holds its block at every point, fetched there or not, for any proof
    data whose array is the region's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the row block's first column block." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the row block's last column block." -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column block the result window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last column block it is live. -/
theorem liveAt0_5 : ∀ t : Fin cfg0.N, cond0_1 (grid0.coords t) → cfg0.idle 5 (grid0.coords t) = false := by decide +kernel

/-! ## The staging and scratch memrefs -/

abbrev VO0_5 : View sig .tc .vmem S256x32 .f32 := (Memref.whole cc0_stg5_0 : Memref sig .tc .vmem S256x32 .f32).view
abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x32 .f32 := win0_5.stage (cfg0.slots t 5)
abbrev hs0_5 (t : Fin cfg0.N) : (ms0_5 t).IsWhole := hstage0_5 ((cfg0.slots t 5).cast nbuf0_5)
/-- The scratch accumulator: a whole scoped buffer of the kernel's own. -/
abbrev scM0 : Memref sig .tc .vmem S256x256 .f32 := Memref.whole cc0_scratch0
abbrev VS0 : View sig .tc .vmem S256x256 .f32 := scM0.view

/-- The other region's scoped buffers, each at some contents: they ride through this region untouched. -/
def rest0 (c : Dev nD) : sProp 𝕄 := iprop((∃ f, (c : Thread nD τ).loc cc1_stg0_0 ↦{fullShare} f) ∗ (∃ f, (c : Thread nD τ).loc cc1_stg0_1 ↦{fullShare} f) ∗ (∃ f, (c : Thread nD τ).loc cc1_stg1_0 ↦{fullShare} f) ∗ (∃ f, (c : Thread nD τ).loc cc1_stg1_1 ↦{fullShare} f) ∗ (∃ f, (c : Thread nD τ).loc cc1_stg2_0 ↦{fullShare} f) ∗ (∃ f, (c : Thread nD τ).loc cc1_stg3_0 ↦{fullShare} f) ∗ (∃ f, (c : Thread nD τ).loc cc1_stg3_1 ↦{fullShare} f) ∗ (∃ f, (c : Thread nD τ).loc cc1_stg4_0 ↦{fullShare} f) ∗ (∃ f, (c : Thread nD τ).loc cc1_stg4_1 ↦{fullShare} f) ∗ ∃ f, (c : Thread nD τ).loc cc1_scratch0 ↦{fullShare} f)

/-- The class invariant with the scratch as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.KernelIdeal.Hand

end
-- ==== Proof.K0RunA.lean ====
/-
  Region 0's body at a row block's FIRST column block: the scratch is zeroed, then holds the first tile product.
  The whole body is run once on arbitrary whole staging memrefs; the pieces the scratch ends with are the witness.
-/
import proofs.«102345_g84920093377258_cont_9to1c4b_501_3_alg».proof.Proof.K0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first column block: from the tile and the block at their contents and the scratch at anything, it
    runs to the continuation with the inputs as they were and the scratch with its pieces written. -/
noncomputable def kernelRun0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : cond0_0 i) (hc1 : ¬cond0_1 i)
    (x0 : Vec F S256x256 .f32) (x1 : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__layer1_body i arg2 harg2 arg3 harg3 arg4 harg4 arg5 harg5 arg6 harg6 arg7 harg7 arg8 harg8) K } := by
  refine ⟨?_, fun E K => ?run⟩
  case run =>
    simp only [cc0__layer1_body_eq_skeleton]; unfold cc0__layer1_body_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.K0RunB.lean ====
/-
  Region 0's body at a MIDDLE column block: the scratch, at what the block before left, gains one tile product.
-/
import proofs.«102345_g84920093377258_cont_9to1c4b_501_3_alg».proof.Proof.K0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle column block: from the tile and the block at their contents and the scratch at `xs`, it runs
    to the continuation with the inputs as they were and the scratch with its pieces written. -/
noncomputable def kernelRun0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : ¬cond0_1 i)
    (x0 : Vec F S256x256 .f32) (x1 : Vec F S256x256 .f32) (xs : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc0__layer1_body i arg2 harg2 arg3 harg3 arg4 harg4 arg5 harg5 arg6 harg6 arg7 harg7 arg8 harg8) K } := by
  refine ⟨?_, fun E K => ?run⟩
  case run =>
    simp only [cc0__layer1_body_eq_skeleton]; unfold cc0__layer1_body_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.K0RunC.lean ====
/-
  Region 0's body at a row block's LAST column block: the scratch gains the last tile product, and the layer's
  epilogue of the accumulated block is stored into the result's staging buffer.
-/
import proofs.«102345_g84920093377258_cont_9to1c4b_501_3_alg».proof.Proof.K0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a last column block: from the five inputs at their contents, the result's buffer at anything and the
    scratch at `xs`, it runs to the continuation with the inputs as they were and the result's buffer and the scratch
    with their pieces written. -/
noncomputable def kernelRun0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) :
    Σ' (L5 : List (View.Piece (Elt F) S256x32 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__layer1_body i arg2 harg2 arg3 harg3 arg4 harg4 arg5 harg5 arg6 harg6 arg7 harg7 arg8 harg8) K } := by
  refine ⟨?_, ?_, fun E K => ?run⟩
  case run =>
    simp only [cc0__layer1_body_eq_skeleton]; unfold cc0__layer1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.K0Frame.lean ====
/-
  Region 0: what the scratch and the result window hold after every grid point, the proof data, and the body
  obligation.

  After point `t` the scratch holds the pieces the case at `t` writes, run on the point's tile and block and — away
  from a row block's first column — on what the point before left in the scratch (`outsAt0`'s second component);
  at a last column block the result's staging buffer holds that case's epilogue pieces (first component), and
  elsewhere the result window is idle. The region's invariant carries the scratch at these contents from point
  to point.
-/
import proofs.«102345_g84920093377258_cont_9to1c4b_501_3_alg».proof.Proof.K0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What an idle result buffer "holds": a placeholder nothing consults. -/
def junk0_5 : Vec F S256x32 .f32 := VO0_5.read (Elt F) (VO0_5.writes (Elt F) VO0_5.junk [])

theorem scover0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : cond0_0 i) (hc1 : ¬cond0_1 i)
    (x0 : Vec F S256x256 .f32) (x1 : Vec F S256x256 .f32) (y : S256x256.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S256x256.size (by sl_kernel_rfl) y
/-- What a first column block leaves in the scratch. -/
def sout0_A (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : cond0_0 i) (hc1 : ¬cond0_1 i)
    (x0 : Vec F S256x256 .f32) (x1 : Vec F S256x256 .f32) : Vec F S256x256 .f32 :=
  VS0.read (Elt F) (VS0.writes (Elt F) VS0.junk (kernelRun0_A c i arg2 harg2 arg3 harg3 arg4 harg4 arg5 harg5 arg6 harg6 arg7 harg7 arg8 harg8 hc0 hc1 x0 x1).1)

theorem scover0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : ¬cond0_1 i)
    (x0 : Vec F S256x256 .f32) (x1 : Vec F S256x256 .f32) (xs : Vec F S256x256 .f32) (y : S256x256.Idx) :
    ∃ pc ∈ (kernelRun0_B c i arg2 harg2 arg3 harg3 arg4 harg4 arg5 harg5 arg6 harg6 arg7 harg7 arg8 harg8 hc0 hc1 x0 x1 xs).1, y ∈ pc.1.set :=
  View.cover_of_tiledL (kernelRun0_B c i arg2 harg2 arg3 harg3 arg4 harg4 arg5 harg5 arg6 harg6 arg7 harg7 arg8 harg8 hc0 hc1 x0 x1 xs).1 S256x256.size (by sl_kernel_rfl) y
/-- What a middle column block leaves in the scratch. -/
def sout0_B (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : ¬cond0_1 i)
    (x0 : Vec F S256x256 .f32) (x1 : Vec F S256x256 .f32) (xs : Vec F S256x256 .f32) : Vec F S256x256 .f32 :=
  VS0.read (Elt F) (VS0.writes (Elt F) VS0.junk (kernelRun0_B c i arg2 harg2 arg3 harg3 arg4 harg4 arg5 harg5 arg6 harg6 arg7 harg7 arg8 harg8 hc0 hc1 x0 x1 xs).1)

theorem cover0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) (y : S256x32.Idx) :
    ∃ pc ∈ (kernelRun0_C c i arg2 harg2 arg3 harg3 arg4 harg4 arg5 harg5 arg6 harg6 arg7 harg7 arg8 harg8 hc0 hc1 x0 x1 x2 x3 x4 xs).1, y ∈ pc.1.set :=
  View.cover_of_tiledL (kernelRun0_C c i arg2 harg2 arg3 harg3 arg4 harg4 arg5 harg5 arg6 harg6 arg7 harg7 arg8 harg8 hc0 hc1 x0 x1 x2 x3 x4 xs).1 S256x32.size (by sl_kernel_rfl) y
/-- What a last column block leaves in the result's staging buffer. -/
def out0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) : Vec F S256x32 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs).1)
theorem scover0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) (y : S256x256.Idx) :
    ∃ pc ∈ (kernelRun0_C c i arg2 harg2 arg3 harg3 arg4 harg4 arg5 harg5 arg6 harg6 arg7 harg7 arg8 harg8 hc0 hc1 x0 x1 x2 x3 x4 xs).2.1, y ∈ pc.1.set :=
  View.cover_of_tiledL (kernelRun0_C c i arg2 harg2 arg3 harg3 arg4 harg4 arg5 harg5 arg6 harg6 arg7 harg7 arg8 harg8 hc0 hc1 x0 x1 x2 x3 x4 xs).2.1 S256x256.size (by sl_kernel_rfl) y
/-- What a last column block leaves in the scratch. -/
def sout0_C (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i)
    (x0 : Vec F S256x256 .f32) (x1 : Vec F S256x256 .f32) (x2 : Vec F S1x256 .f32) (x3 : Vec F S256x32 .f32) (x4 : Vec F S256 .f32)
    (xs : Vec F S256x256 .f32) : Vec F S256x256 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs).2.1)

/-! ## What the result's staging buffer and the scratch hold after each point -/

/-- The accumulation: after the body at position `n`, (the result's staging buffer, the scratch). -/
def outsAt0 (c : Dev nD) : (n : ℕ) → n < cfg0.N → Vec F S256x32 .f32 × Vec F S256x256 .f32
  | 0, hn => (junk0_5, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      (junk0_5, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (junk0_5, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) :
    outsAt0 V c t.val t.isLt = (junk0_5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (junk0_5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the class's before the first point; afterwards the scratch at what the
    point before left, the other region's scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end

end Cert.KernelIdeal.Hand

end
-- ==== Proof.K0Body.lean ====
/-
  Region 0: the body obligation at every grid point, and the invariant's two ends.

  At each point the inputs' staging buffers hold their blocks, the closed forms decide the case, the invariant hands
  the body the scratch (at what the point before left; at anything at the very first point) and takes it back at
  this point's contents; away from a last column block the idle result buffer is handed back as found.
-/
import proofs.«102345_g84920093377258_cont_9to1c4b_501_3_alg».proof.Proof.K0Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases h0 : t.val % 16 = 0
  · -- a row block's first column block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => (fun h => by omega) ((hcond0_1 t).mp h))) (noFlush0_5 t (fun h => (fun h => by omega) ((hcond0_1 t).mp h)))]
      rw [outsAt0_A V c t h0]
      unfold sout0_A; (try dsimp only)
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => (fun h => by omega) ((hcond0_1 t).mp h)) (iblk0 V c 0 t) (iblk0 V c 1 t))
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 16 = 15
    · -- a row block's last column block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C sout0_C; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) _)
    · -- a middle column block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B; (try dsimp only)
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS, Hr⟩, Hg⟩
  isplitl [HS Hr]
  · isplitl [HS]; · iexists _; iexact HS
    iexact Hr
  iexact Hg

end

end Cert.KernelIdeal.Hand

end
-- ==== Proof.K1Runs.lean ====
/-
  Region 1 (the second layer's matrix-product kernel): what its three control cases share — as for region 0, with
  the first layer's result in place of the scaled features, a 256 × 32 scratch, and the epilogue "scale the rows
  and add the bias".
-/
import proofs.«102345_g84920093377258_cont_9to1c4b_501_3_alg».proof.Proof.Gen.KernelIdeal.Launch
import proofs.«102345_g84920093377258_cont_9to1c4b_501_3_alg».proof.Proof.Gen.KernelIdeal.Skeleton
import proofs.«102345_g84920093377258_cont_9to1c4b_501_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging and scratch memrefs -/

abbrev VO1_4 : View sig .tc .vmem S256x32 .f32 := (Memref.whole cc1_stg4_0 : Memref sig .tc .vmem S256x32 .f32).view
abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x32 .f32 := win1_4.stage (cfg1.slots t 4)
abbrev hs1_4 (t : Fin cfg1.N) : (ms1_4 t).IsWhole := hstage1_4 ((cfg1.slots t 4).cast nbuf1_4)
abbrev scM1 : Memref sig .tc .vmem S256x32 .f32 := Memref.whole cc1_scratch0
abbrev VS1 : View sig .tc .vmem S256x32 .f32 := scM1.view

/-- The other region's scoped buffers, each at some contents: they ride through this region untouched. -/
def rest1 (c : Dev nD) : sProp 𝕄 := iprop((∃ f, (c : Thread nD τ).loc cc0_stg0_0 ↦{fullShare} f) ∗ (∃ f, (c : Thread nD τ).loc cc0_stg0_1 ↦{fullShare} f) ∗ (∃ f, (c : Thread nD τ).loc cc0_stg1_0 ↦{fullShare} f) ∗ (∃ f, (c : Thread nD τ).loc cc0_stg1_1 ↦{fullShare} f) ∗ (∃ f, (c : Thread nD τ).loc cc0_stg2_0 ↦{fullShare} f) ∗ (∃ f, (c : Thread nD τ).loc cc0_stg3_0 ↦{fullShare} f) ∗ (∃ f, (c : Thread nD τ).loc cc0_stg4_0 ↦{fullShare} f) ∗ (∃ f, (c : Thread nD τ).loc cc0_stg4_1 ↦{fullShare} f) ∗ (∃ f, (c : Thread nD τ).loc cc0_stg5_0 ↦{fullShare} f) ∗ (∃ f, (c : Thread nD τ).loc cc0_stg5_1 ↦{fullShare} f) ∗ ∃ f, (c : Thread nD τ).loc cc0_scratch0 ↦{fullShare} f)

/-- The scoped buffers around a statement `X` about the scratch, with the generator register at some state: the shape
    the class invariant has. -/
def wrap1 (c : Dev nD) (X : sProp 𝕄) : sProp 𝕄 := iprop(((∃ f, (c : Thread nD τ).loc cc0_stg0_0 ↦{fullShare} f) ∗ (∃ f, (c : Thread nD τ).loc cc0_stg0_1 ↦{fullShare} f) ∗ (∃ f, (c : Thread nD τ).loc cc0_stg1_0 ↦{fullShare} f) ∗ (∃ f, (c : Thread nD τ).loc cc0_stg1_1 ↦{fullShare} f) ∗ (∃ f, (c : Thread nD τ).loc cc0_stg2_0 ↦{fullShare} f) ∗ (∃ f, (c : Thread nD τ).loc cc0_stg3_0 ↦{fullShare} f) ∗ (∃ f, (c : Thread nD τ).loc cc0_stg4_0 ↦{fullShare} f) ∗ (∃ f, (c : Thread nD τ).loc cc0_stg4_1 ↦{fullShare} f) ∗ (∃ f, (c : Thread nD τ).loc cc0_stg5_0 ↦{fullShare} f) ∗ (∃ f, (c : Thread nD τ).loc cc0_stg5_1 ↦{fullShare} f) ∗ (∃ f, (c : Thread nD τ).loc cc0_scratch0 ↦{fullShare} f) ∗ X) ∗ (∃ r, prngReg c r))

theorem wrap1_out (c : Dev nD) (X : sProp 𝕄) : wrap1 c X ⊢ iprop(X ∗ rest1 c ∗ (∃ r, prngReg c r)) := by
  unfold wrap1 rest1
  iintro ⟨⟨H1, H2, H3, H4, H5, H6, H7, H8, H9, H10, H11, HX⟩, Hg⟩
  isplitl [HX]; · iexact HX
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

theorem wrap1_in (c : Dev nD) (X : sProp 𝕄) : iprop(X ∗ rest1 c ∗ (∃ r, prngReg c r)) ⊢ wrap1 c X := by
  unfold wrap1 rest1
  iintro ⟨HX, ⟨H1, H2, H3, H4, H5, H6, H7, H8, H9, H10, H11⟩, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HX
  iexact Hg

theorem PhiA1_eq (c : Dev nD) :
    (Pipeline.ΦA spec1 c : sProp 𝕄) = wrap1 c (iprop(∃ d, owns (c : Thread nD τ) scM1 fullShare d)) := by
  unfold Pipeline.ΦA wrap1; rw [scopedRest1_eq]; simp only [scM1, owns_whole]; try rfl

end Cert.KernelIdeal.Hand

end
-- ==== Proof.K1RunA.lean ====
/-
  Region 1's body at a row block's FIRST column block.
-/
import proofs.«102345_g84920093377258_cont_9to1c4b_501_3_alg».proof.Proof.K1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body there: from the tile and the block at their contents and the scratch at anything, it runs to the
    continuation with the inputs as they were and the scratch with its pieces written. -/
noncomputable def kernelRun1_A (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : cond1_0 i) (hc1 : ¬cond1_1 i)
    (x0 : Vec F S256x256 .f32) (x1 : Vec F S256x32 .f32) :
    { LS : List (View.Piece (Elt F) S256x32 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__layer2_body i arg2 harg2 arg3 harg3 arg4 harg4 arg5 harg5 arg6 harg6 arg7 harg7) K } := by
  refine ⟨?_, fun E K => ?run⟩
  case run =>
    simp only [cc1__layer2_body_eq_skeleton]; unfold cc1__layer2_body_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.K1RunB.lean ====
/-
  Region 1's body at a MIDDLE column block.
-/
import proofs.«102345_g84920093377258_cont_9to1c4b_501_3_alg».proof.Proof.K1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body there: from the tile and the block at their contents and the scratch at \`xs\`, it runs to the
    continuation with the inputs as they were and the scratch with its pieces written. -/
noncomputable def kernelRun1_B (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : ¬cond1_1 i)
    (x0 : Vec F S256x256 .f32) (x1 : Vec F S256x32 .f32) (xs : Vec F S256x32 .f32) :
    { LS : List (View.Piece (Elt F) S256x32 .f32) //
      ∀ (E : Set ℕ) (K : PUnit → sProp 𝕄),
        iprop(owns (c : Thread nD τ) arg2 fullShare x0 ∗ owns (c : Thread nD τ) arg3 fullShare x1 ∗ owns (c : Thread nD τ) arg7 fullShare xs
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc1__layer2_body i arg2 harg2 arg3 harg3 arg4 harg4 arg5 harg5 arg6 harg6 arg7 harg7) K } := by
  refine ⟨?_, fun E K => ?run⟩
  case run =>
    simp only [cc1__layer2_body_eq_skeleton]; unfold cc1__layer2_body_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.K1RunC.lean ====
/-
  Region 1's body at a row block's LAST column block: the scratch gains the last tile product, and the accumulated
  block, its rows scaled, plus the bias row, is stored into the result's staging buffer.
-/
import proofs.«102345_g84920093377258_cont_9to1c4b_501_3_alg».proof.Proof.K1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i)
    (x0 : Vec F S256x256 .f32) (x1 : Vec F S256x32 .f32) (x2 : Vec F S1x32 .f32) (x3 : Vec F S256 .f32)
    (xs : Vec F S256x32 .f32) :
    Σ' (L4 : List (View.Piece (Elt F) S256x32 .f32)), { LS : List (View.Piece (Elt F) S256x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ owns (c : Thread nD τ) arg7 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__layer2_body i arg2 harg2 arg3 harg3 arg4 harg4 arg5 harg5 arg6 harg6 arg7 harg7) K } := by
  refine ⟨?_, ?_, fun E K => ?run⟩
  case run =>
    simp only [cc1__layer2_body_eq_skeleton]; unfold cc1__layer2_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.K1Frame.lean ====
/-
  Region 1: what the scratch and the result window hold after every grid point, and the proof data — as for
  region 0.
-/
import proofs.«102345_g84920093377258_cont_9to1c4b_501_3_alg».proof.Proof.K1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def junk1_4 : Vec F S256x32 .f32 := VO1_4.read (Elt F) (VO1_4.writes (Elt F) VO1_4.junk [])

theorem scover1_A (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : cond1_0 i) (hc1 : ¬cond1_1 i) (x0 : Vec F S256x256 .f32) (x1 : Vec F S256x32 .f32) (y : S256x32.Idx) :
    ∃ pc ∈ (kernelRun1_A c i arg2 harg2 arg3 harg3 arg4 harg4 arg5 harg5 arg6 harg6 arg7 harg7 hc0 hc1 x0 x1).1, y ∈ pc.1.set :=
  View.cover_of_tiledL (kernelRun1_A c i arg2 harg2 arg3 harg3 arg4 harg4 arg5 harg5 arg6 harg6 arg7 harg7 hc0 hc1 x0 x1).1 S256x32.size (by sl_kernel_rfl) y
def sout1_A (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : cond1_0 i) (hc1 : ¬cond1_1 i) (x0 : Vec F S256x256 .f32) (x1 : Vec F S256x32 .f32) : Vec F S256x32 .f32 :=
  VS1.read (Elt F) (VS1.writes (Elt F) VS1.junk (kernelRun1_A c i arg2 harg2 arg3 harg3 arg4 harg4 arg5 harg5 arg6 harg6 arg7 harg7 hc0 hc1 x0 x1).1)

theorem scover1_B (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : ¬cond1_1 i) (x0 : Vec F S256x256 .f32) (x1 : Vec F S256x32 .f32) (xs : Vec F S256x32 .f32) (y : S256x32.Idx) :
    ∃ pc ∈ (kernelRun1_B c i arg2 harg2 arg3 harg3 arg4 harg4 arg5 harg5 arg6 harg6 arg7 harg7 hc0 hc1 x0 x1 xs).1, y ∈ pc.1.set :=
  View.cover_of_tiledL (kernelRun1_B c i arg2 harg2 arg3 harg3 arg4 harg4 arg5 harg5 arg6 harg6 arg7 harg7 hc0 hc1 x0 x1 xs).1 S256x32.size (by sl_kernel_rfl) y
def sout1_B (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : ¬cond1_1 i) (x0 : Vec F S256x256 .f32) (x1 : Vec F S256x32 .f32) (xs : Vec F S256x32 .f32) : Vec F S256x32 .f32 :=
  VS1.read (Elt F) (VS1.writes (Elt F) VS1.junk (kernelRun1_B c i arg2 harg2 arg3 harg3 arg4 harg4 arg5 harg5 arg6 harg6 arg7 harg7 hc0 hc1 x0 x1 xs).1)

theorem cover1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) (y : S256x32.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S256x32.size (by sl_kernel_rfl) y
def out1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) : Vec F S256x32 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs).1)
theorem scover1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) (y : S256x32.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S256x32.size (by sl_kernel_rfl) y
def sout1_C (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32) (x2 : Vec F S1x32 .f32) (x3 : Vec F S256 .f32) (xs : Vec F S256x32 .f32) : Vec F S256x32 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)

/-- After the body at position `n`: (the result's staging buffer, the scratch). -/
def outsAt1 (c : Dev nD) : (n : ℕ) → n < cfg1.N → Vec F S256x32 .f32 × Vec F S256x32 .f32
  | 0, hn => (junk1_4, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      (junk1_4, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (junk1_4, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) :
    outsAt1 V c t.val t.isLt = (junk1_4, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (junk1_4, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => wrap1 c (owns (c : Thread nD τ) scM1 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = wrap1 c (owns (c : Thread nD τ) scM1 fullShare ((outsAt1 V c n hn).2)) := rfl
theorem PhiS1_pos (c : Dev nD) (n : ℕ) (h : n ≤ cfg1.N) (hz : n ≠ 0) :
    PhiS1 V c n h = wrap1 c (owns (c : Thread nD τ) scM1 fullShare ((outsAt1 V c (n - 1) (by omega)).2)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.KernelIdeal.Hand

end
-- ==== Proof.K1Body.lean ====
/-
  Region 1: the body obligation at every grid point, and the invariant's two ends — as for region 0.
-/
import proofs.«102345_g84920093377258_cont_9to1c4b_501_3_alg».proof.Proof.K1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · -- a row block's first column block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => (fun h => by omega) ((hcond1_1 t).mp h))) (noFlush1_4 t (fun h => (fun h => by omega) ((hcond1_1 t).mp h)))]
      rw [outsAt1_A V c t h0]
      unfold sout1_A; (try dsimp only)
      by_cases hz : t.val = 0
      · rw [PhiS1_castSucc V c t, PhiS1_zero V c _ _ hz, PhiA1_eq]
        iintro ⟨HΦ, Ho, ⟨%d0, H0⟩, ⟨%d1, H1⟩, ⟨%d2, H2⟩, ⟨%d3, H3⟩, ⟨%d4, H4⟩⟩
        ihave HΦ' := (wrap1_out c _) $$ HΦ
        icases HΦ' with ⟨HS, Hr, Hg⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t)).2 Set.univ _)
        isplitl [H0]; · iexact H0
        isplitl [H1]; · iexact H1
        isplitl [HS]; · iexact HS
        iintro ⟨H0, H1, ⟨%es, HS⟩⟩
        isplitl [HS Hr Hg]
        · iapply (wrap1_in c _)
          isplitl [HS]
          · unfold owns; iexists _; isplitr
            swap; · iexact HS
            ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t))
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨HΦ, Ho, ⟨%d0, H0⟩, ⟨%d1, H1⟩, ⟨%d2, H2⟩, ⟨%d3, H3⟩, ⟨%d4, H4⟩⟩
        ihave HΦ' := (wrap1_out c _) $$ HΦ
        icases HΦ' with ⟨HS, Hr, Hg⟩
        iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t)).2 Set.univ _)
        isplitl [H0]; · iexact H0
        isplitl [H1]; · iexact H1
        isplitl [HS]; · iexists _; iexact HS
        iintro ⟨H0, H1, ⟨%es, HS⟩⟩
        isplitl [HS Hr Hg]
        · iapply (wrap1_in c _)
          isplitl [HS]
          · unfold owns; iexists _; isplitr
            swap; · iexact HS
            ipureintro; exact View.read_writes_of_cover _ _ _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => (fun h => by omega) ((hcond1_1 t).mp h)) (iblk1 V c 0 t) (iblk1 V c 1 t))
          isplitl [Hr]; · iexact Hr
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- a row block's last column block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨HΦ, Ho, ⟨%d0, H0⟩, ⟨%d1, H1⟩, ⟨%d2, H2⟩, ⟨%d3, H3⟩, ⟨%d4, H4⟩⟩
      ihave HΦ' := (wrap1_out c _) $$ HΦ
      icases HΦ' with ⟨HS, Hr, Hg⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hr Hg]
      · iapply (wrap1_in c _)
        isplitl [HS]
        · unfold owns; iexists _; isplitr
          swap; · iexact HS
          ipureintro; exact View.read_writes_of_cover _ _ _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _)
        isplitl [Hr]; · iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _)
    · -- a middle column block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨HΦ, Ho, ⟨%d0, H0⟩, ⟨%d1, H1⟩, ⟨%d2, H2⟩, ⟨%d3, H3⟩, ⟨%d4, H4⟩⟩
      ihave HΦ' := (wrap1_out c _) $$ HΦ
      icases HΦ' with ⟨HS, Hr, Hg⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hr Hg]
      · iapply (wrap1_in c _)
        isplitl [HS]
        · unfold owns; iexists _; isplitr
          swap; · iexact HS
          ipureintro; exact View.read_writes_of_cover _ _ _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) _)
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro HΦ
  ihave HΦ' := (wrap1_out c _) $$ HΦ
  icases HΦ' with ⟨HS, Hr, Hg⟩
  iapply (wrap1_in c _)
  isplitl [HS]; · iexists _; iexact HS
  isplitl [Hr]; · iexact Hr
  iexact Hg

end

end Cert.KernelIdeal.Hand

end
-- ==== Proof.KRun.lean ====
/-
  The kernel's whole program as a run: seven stretches of host operations, the first layer's region, one more host
  operation, the second layer's region.

  The buffer contents at each boundary are a fold through the program: a host stretch applies its operations, a
  region leaves its arrays at what its write-backs leave (the proof data's `arrAt`) and every other buffer as it
  found it. Every weakly fair execution terminates without a fault, and the final memory holds the second
  region's result array at its proof data's final contents, the edge mask at what the host stretch left, and each
  argument as launched.
-/
import proofs.«102345_g84920093377258_cont_9to1c4b_501_3_alg».proof.Proof.K0Body
import proofs.«102345_g84920093377258_cont_9to1c4b_501_3_alg».proof.Proof.K1Body
import proofs.«102345_g84920093377258_cont_9to1c4b_501_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
/-- The same read at the TensorCore's references: what region 0's proof data take. -/
abbrev U7 : (c : Dev nD) → (b : Ref sig .tc) → Buf (Elt F) ((c : Thread nD τ).loc b) := fun c b => W7 m ρ c b
/-- At region 0's exit: its arrays at what the pipeline leaves, every other buffer as entered. -/
def W8 (c : Dev nD) : Valuation τ sig (Elt F) :=
  Pipeline.withArrays spec0 c (W7 m ρ c) fun w => (dat0 (U7 m ρ) c).arrAt w cfg0.N
theorem W8_arr (c : Dev nD) (w : Fin cfg0.W) :
    W8 m ρ c (Proc.devRef .tc (Pipeline.arrRef spec0 w)) = (dat0 (U7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev U8 : (c : Dev nD) → (b : Ref sig .tc) → Buf (Elt F) ((c : Thread nD τ).loc b) := fun c b => W8 m ρ c b
theorem hF0 (c : Dev nD) (w : Fin cfg0.W) : (dat0 (U7 m ρ) c).arrAt w cfg0.N = U8 m ρ c (Pipeline.arrRef spec0 w) :=
  (W8_arr m ρ c w).symm
theorem hrest0 (c : Dev nD) : ∀ b, b ∉ Finset.univ.image (Pipeline.arrRef spec0) → U8 m ρ c b = U7 m ρ c b :=
  fun b hb => W8_of_ne m ρ c b fun w e => hb (Finset.mem_image.mpr ⟨w, Finset.mem_univ _, e⟩)
abbrev W9 : Dev nD → Valuation τ sig (Elt F) := fun c => StableHlo.after hostOps1 (W8 m ρ c)
abbrev U9 : (c : Dev nD) → (b : Ref sig .tc) → Buf (Elt F) ((c : Thread nD τ).loc b) := fun c b => W9 m ρ c b
/-- At region 1's exit. -/
def W10 (c : Dev nD) : Valuation τ sig (Elt F) :=
  Pipeline.withArrays spec1 c (W9 m ρ c) fun w => (dat1 (U9 m ρ) c).arrAt w cfg1.N
theorem W10_arr (c : Dev nD) (w : Fin cfg1.W) :
    W10 m ρ c (Proc.devRef .tc (Pipeline.arrRef spec1 w)) = (dat1 (U9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev U10 : (c : Dev nD) → (b : Ref sig .tc) → Buf (Elt F) ((c : Thread nD τ).loc b) := fun c b => W10 m ρ c b
theorem hF1 (c : Dev nD) (w : Fin cfg1.W) : (dat1 (U9 m ρ) c).arrAt w cfg1.N = U10 m ρ c (Pipeline.arrRef spec1 w) :=
  (W10_arr m ρ c w).symm
theorem hrest1 (c : Dev nD) : ∀ b, b ∉ Finset.univ.image (Pipeline.arrRef spec1) → U10 m ρ c b = U9 m ρ c b :=
  fun b hb => W10_of_ne m ρ c b fun w e => hb (Finset.mem_image.mpr ⟨w, Finset.mem_univ _, e⟩)

/-! ### The arguments end as launched, and the edge mask as the host stretch left it -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps1 _ hostOps1_writes (by decide)
    _ = W7 m ρ c (Proc.devRef .tc main_arg0) := W8_of_ne m ρ c main_arg0 (by decide)
    _ = W6 m ρ c (Proc.devRef .tc main_arg0) := StableHlo.after_of_writes_sub hostOps0_6 _ hostOps0_6_writes (by decide)
    _ = W5 m ρ c (Proc.devRef .tc main_arg0) := StableHlo.after_of_writes_sub hostOps0_5 _ hostOps0_5_writes (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps1 _ hostOps1_writes (by decide)
    _ = W7 m ρ c (Proc.devRef .tc main_arg1) := W8_of_ne m ρ c main_arg1 (by decide)
    _ = W6 m ρ c (Proc.devRef .tc main_arg1) := StableHlo.after_of_writes_sub hostOps0_6 _ hostOps0_6_writes (by decide)
    _ = W5 m ρ c (Proc.devRef .tc main_arg1) := StableHlo.after_of_writes_sub hostOps0_5 _ hostOps0_5_writes (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps1 _ hostOps1_writes (by decide)
    _ = W7 m ρ c (Proc.devRef .tc main_arg2) := W8_of_ne m ρ c main_arg2 (by decide)
    _ = W6 m ρ c (Proc.devRef .tc main_arg2) := StableHlo.after_of_writes_sub hostOps0_6 _ hostOps0_6_writes (by decide)
    _ = W5 m ρ c (Proc.devRef .tc main_arg2) := StableHlo.after_of_writes_sub hostOps0_5 _ hostOps0_5_writes (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps1 _ hostOps1_writes (by decide)
    _ = W7 m ρ c (Proc.devRef .tc main_arg3) := W8_of_ne m ρ c main_arg3 (by decide)
    _ = W6 m ρ c (Proc.devRef .tc main_arg3) := StableHlo.after_of_writes_sub hostOps0_6 _ hostOps0_6_writes (by decide)
    _ = W5 m ρ c (Proc.devRef .tc main_arg3) := StableHlo.after_of_writes_sub hostOps0_5 _ hostOps0_5_writes (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps1 _ hostOps1_writes (by decide)
    _ = W7 m ρ c (Proc.devRef .tc main_arg4) := W8_of_ne m ρ c main_arg4 (by decide)
    _ = W6 m ρ c (Proc.devRef .tc main_arg4) := StableHlo.after_of_writes_sub hostOps0_6 _ hostOps0_6_writes (by decide)
    _ = W5 m ρ c (Proc.devRef .tc main_arg4) := StableHlo.after_of_writes_sub hostOps0_5 _ hostOps0_5_writes (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps1 _ hostOps1_writes (by decide)
    _ = W7 m ρ c (Proc.devRef .tc main_arg5) := (W8_arr m ρ c 3).trans (((dat0 (U7 m ρ) c).arrAt_in 3 rfl _).trans (A_eq0 (U7 m ρ) c 3))
    _ = W6 m ρ c (Proc.devRef .tc main_arg5) := StableHlo.after_of_writes_sub hostOps0_6 _ hostOps0_6_writes (by decide)
    _ = W5 m ρ c (Proc.devRef .tc main_arg5) := StableHlo.after_of_writes_sub hostOps0_5 _ hostOps0_5_writes (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_writes_sub hostOps1 _ hostOps1_writes (by decide)
    _ = W7 m ρ c (Proc.devRef .tc main_arg6) := W8_of_ne m ρ c main_arg6 (by decide)
    _ = W6 m ρ c (Proc.devRef .tc main_arg6) := StableHlo.after_of_writes_sub hostOps0_6 _ hostOps0_6_writes (by decide)
    _ = W5 m ρ c (Proc.devRef .tc main_arg6) := StableHlo.after_of_writes_sub hostOps0_5 _ hostOps0_5_writes (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W10_main_v40 (c : Dev nD) : W10 m ρ c (Proc.devRef .tc main_v40) = W7 m ρ c (Proc.devRef .tc main_v40) :=
  calc W10 m ρ c (Proc.devRef .tc main_v40)
    _ = W9 m ρ c (Proc.devRef .tc main_v40) := W10_of_ne m ρ c main_v40 (by decide)
    _ = W8 m ρ c (Proc.devRef .tc main_v40) := StableHlo.after_of_writes_sub hostOps1 _ hostOps1_writes (by decide)
    _ = W7 m ρ c (Proc.devRef .tc main_v40) := W8_of_ne m ρ c main_v40 (by decide)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (U7 m ρ) c
  | ⟨1, _⟩ => fun c => dat1 (U9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W7`, left at `W8`. Its arrays split out of the
    unscoped buffers and put back at the exit contents; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (U7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (U7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U7 m ρ c) (U8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W9`, left at `W10`. Its arrays split out of the
    unscoped buffers and put back at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (U9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U9 m ρ c) (U10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .region (reg1 m ρ) ]
theorem main_run (c : Dev nD) : main (F := F) c = Pipeline.Seg.run (segs m ρ) := (main_chain c).trans (by chain_rfl)

set_option backward.isDefEq.respectTransparency.types false in
/-- The run: every weakly fair execution of the program terminates without a fault; the final memory holds the result
    array at the second region's final contents, the edge mask as the host left it, and the arguments as launched. -/
theorem run_main : θ_run defs (onTc (τ := τ) (main (F := F))) ⟨m, fun _ => 0, ρ⟩ (fun r => ∀ c : Dev nD,
      r.2.mem ((c.tc : Thread nD τ).loc main_v63) = (dat1 (U9 m ρ) c).arrAt 4 cfg1.N
      ∧ r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v63 (by decide))).trans (W10_arr m ρ c 4),
       (h c _ (mem_uc main_v40 (by decide))).trans (W10_main_v40 m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Hand

end
-- ==== Proof.KStages.lean ====
/-
  The host side of the kernel's program, value by value.

  Before its two matrix-product regions the program computes on the host, from the seven argument arrays:
  the packed-triangle index of every matrix position (`idxW`: zero on the diagonal, otherwise one plus the
  row-major rank of the position's (smaller, larger) coordinate pair among the strict upper triangle), the
  edge mask `pK = 1 / (1 + exp (-vecpad[idxW]))` (the program's second result), the masked adjacency `adjK`,
  the degrees `degK = 1 + row sums`, their inverse square roots `dinvK` (zero where the degree is not
  positive), the adjacency with self loops `aK`, the first feature product `xwK = x · W1` and its row
  scaling `zK`, and the two bias rows. Each is a pure function of the stages before it, spelt with the very
  operations the program applies.
-/
import proofs.«102345_g84920093377258_cont_9to1c4b_501_3_alg».proof.KernelIdeal

noncomputable section

namespace Cert.KernelIdeal.Hand

open Idealize.ShloMosaic Cert.KernelIdeal Cert.KernelIdeal.Facts₀

variable {F : FTy → Type} [FloatOps F] [Cert.KernelIdeal.Facts]

/-- A 32-bit word at every matrix position. -/
def bcW (w : BitVec 32) : IVec S4096x4096 32 := broadcastInDim S4096x4096 ![] bcast_S_S4096x4096 (constantI S_ 32 w)

/-- The row coordinate and the column coordinate at every matrix position. -/
def rowW : IVec S4096x4096 32 :=
  broadcastInDim S4096x4096 ![0, 1] bcast_S4096x1_S4096x4096_0_1 (broadcastInDim S4096x1 ![0] bcast_S4096_S4096x1_0 (iotaInDim S4096 32 0))
def colW : IVec S4096x4096 32 :=
  broadcastInDim S4096x4096 ![0, 1] bcast_S1x4096_S4096x4096_0_1 (broadcastInDim S1x4096 ![1] bcast_S4096_S1x4096_1 (iotaInDim S4096 32 0))

/-- The smaller and the larger of the two coordinates. -/
def loW : IVec S4096x4096 32 := minsi rowW colW
def hiW : IVec S4096x4096 32 := maxsi rowW colW

/-- `lo * (lo - 1)`, and its floor division by two as jnp spells it. -/
def prodW : IVec S4096x4096 32 := muli loW (subi loW (bcW 1#32))
def halfW : IVec S4096x4096 32 :=
  select
    (andi (cmpi .ne (signi prodW) (broadcastInDim S4096x4096 ![] bcast_S_S4096x4096 (signi (id (constantI S_ 32 2#32)))))
      (cmpi .ne (Host.remsi prodW (broadcastInDim S4096x4096 ![] bcast_S_S4096x4096 (id (constantI S_ 32 2#32)))) (bcW 0#32)))
    (subi (Host.divsi prodW (broadcastInDim S4096x4096 ![] bcast_S_S4096x4096 (id (constantI S_ 32 2#32)))) (bcW 1#32))
    (Host.divsi prodW (broadcastInDim S4096x4096 ![] bcast_S_S4096x4096 (id (constantI S_ 32 2#32))))

/-- Off the diagonal: `1 + lo * 4095 - lo * (lo - 1) / 2 + (hi - lo - 1)`. -/
def offDiagW : IVec S4096x4096 32 :=
  addi (subi (addi (bcW 1#32) (muli loW (bcW 4095#32))) halfW) (subi (subi hiW loW) (bcW 1#32))

/-- The packed index: zero on the diagonal; then jnp's wrap of a negative index (which never applies). -/
def selW : IVec S4096x4096 32 :=
  select (cmpi .eq loW hiW) (broadcastInDim S4096x4096 ![] bcast_S_S4096x4096 (id (constantI S_ 32 0#32))) offDiagW
def idxW : IVec S4096x4096 32 :=
  select (cmpi .slt selW (bcW 0#32)) (addi selW (bcW 8386561#32)) selW

/-- The packed vector with a zero in front. -/
def vecpad (arg1 : FVec F S8386560 .f32) : FVec F S8386561 .f32 :=
  concatenate S8386561 0 [⟨S1, broadcastInDim S1 ![] bcast_S_S1 (constant S_ .f32 0x00000000#32)⟩, ⟨S8386560, arg1⟩]
    concatenates_S1_S8386560_S8386561_d0

/-- The packed vector read at the packed index of every position. -/
def gathK (arg1 : FVec F S8386560 .f32) : FVec F S4096x4096 .f32 :=
  Host.gather gather_S8386561_S4096x4096x1_S4096x4096_n_0_n_n_0_2_1 (vecpad arg1)
    (broadcastInDim S4096x4096x1 ![0, 1] bcast_S4096x4096_S4096x4096x1_0_1 idxW)

/-- A float word at every matrix position. -/
def bcF (w : BitVec 32) : FVec F S4096x4096 .f32 := broadcastInDim S4096x4096 ![] bcast_S_S4096x4096 (constant S_ .f32 w)

/-- The edge mask: the logistic function of the gathered values, as `1 / (1 + exp (-x))`. The program's second result. -/
def pK (arg1 : FVec F S8386560 .f32) : FVec F S4096x4096 .f32 :=
  Host.divf (bcF 0x3F800000#32) (addf (bcF 0x3F800000#32) (Host.exp (Host.negf (gathK arg1))))

/-- The masked adjacency. -/
def adjK (P arg2 : FVec F S4096x4096 .f32) : FVec F S4096x4096 .f32 := mulf P arg2

/-- The degrees: one plus each row's sum. -/
def degK (P arg2 : FVec F S4096x4096 .f32) : FVec F S4096 .f32 :=
  addf (broadcastInDim S4096 ![] bcast_S_S4096 (constant S_ .f32 0x3F800000#32))
    (Host.reduceAdd (adjK P arg2) (constant S_ .f32 0x00000000#32) reducesTo_S4096x4096_S4096_d1 h_S_)

/-- The inverse square roots of the degrees, zero where the degree is not positive. -/
def dinvK (P arg2 : FVec F S4096x4096 .f32) : FVec F S4096 .f32 :=
  select (cmpf .ogt (degK P arg2) (broadcastInDim S4096 ![] bcast_S_S4096 (constant S_ .f32 0x00000000#32)))
    (Host.rsqrt (degK P arg2))
    (broadcastInDim S4096 ![] bcast_S_S4096 (id (constant S_ .f32 0x00000000#32)))

/-- The identity matrix as floats. -/
def eyeK : FVec F S4096x4096 .f32 :=
  uitofp .f32 (cmpi .eq (addi (iotaInDim S4096x4096 32 0) (bcW 0#32)) (iotaInDim S4096x4096 32 1))

/-- The adjacency with self loops. -/
def aK (P arg2 : FVec F S4096x4096 .f32) : FVec F S4096x4096 .f32 := addf (adjK P arg2) eyeK

/-- The first feature product `x · W1`. -/
def xwK (arg0 : FVec F S4096x512 .f32) (arg3 : FVec F S512x256 .f32) : FVec F S4096x256 .f32 :=
  Host.dotGeneral dot_S4096x512_S512x256_S4096x256_1_0_0_1_n_n none arg0 arg3

/-- Its rows scaled by the inverse square roots of the degrees. -/
def zK (arg0 : FVec F S4096x512 .f32) (P arg2 : FVec F S4096x4096 .f32) (arg3 : FVec F S512x256 .f32) :
    FVec F S4096x256 .f32 :=
  mulf (xwK arg0 arg3)
    (broadcastInDim S4096x256 ![0, 1] bcast_S4096x1_S4096x256_0_1 (broadcastInDim S4096x1 ![0] bcast_S4096_S4096x1_0 (dinvK P arg2)))

/-- The two bias vectors as rows. -/
def b1rK (arg4 : FVec F S256 .f32) : FVec F S1x256 .f32 := shapeCast S1x256 arg4 shapeCasts_S256_S1x256
def b2rK (arg6 : FVec F S32 .f32) : FVec F S1x32 .f32 := shapeCast S1x32 arg6 shapeCasts_S32_S1x32

/-- The program's first result as a function of the seven arguments: the second region's result over the first's. -/
def outK (g0 : FVec F S4096x4096 .f32 → FVec F S4096x256 .f32 → FVec F S1x256 .f32 → FVec F S256x32 .f32 → FVec F S4096 .f32 → FVec F S4096x32 .f32)
    (g1 : FVec F S4096x4096 .f32 → FVec F S4096x32 .f32 → FVec F S1x32 .f32 → FVec F S4096 .f32 → FVec F S4096x32 .f32)
    (arg0 : FVec F S4096x512 .f32) (P arg2 : FVec F S4096x4096 .f32) (arg3 : FVec F S512x256 .f32) (arg4 : FVec F S256 .f32)
    (arg5 : FVec F S256x32 .f32) (arg6 : FVec F S32 .f32) : FVec F S4096x32 .f32 :=
  g1 (aK P arg2) (g0 (aK P arg2) (zK arg0 P arg2 arg3) (b1rK arg4) arg5 (dinvK P arg2)) (b2rK arg6) (dinvK P arg2)

end Cert.KernelIdeal.Hand

end
-- ==== Proof.KSpec.lean ====
/-
  The two matrix-product regions of the kernel's program as pure functions of the arrays they read.

  Each region walks a 16 × 16 grid of (row block, column block) points over 256-row blocks. At the points of
  one row block it accumulates, in a scratch buffer that starts at zero, the products of the adjacency's
  256 × 256 tiles with the matching 256-row blocks of the other operand; at the row block's last point it
  applies the layer's epilogue to the accumulated block and writes the result block back. `acc0` / `acc1`
  are the scratch contents after column block `n`; `g0` / `g1` the regions' whole result arrays. They are
  spelt with the body's own arithmetic (the payload terms `k0_pay…`, `k1_pay…`), so that the run produces
  exactly these terms and the mathematics can be done on them alone.
-/
import proofs.«102345_g84920093377258_cont_9to1c4b_501_3_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F] [Cert.KernelIdeal.Facts]

/-- Row `256 * b + r` of a 4096-row array (reduced modulo 4096, which changes nothing for `b < 16`, `r < 256`). -/
def row4096 (b r : ℕ) : Fin 4096 := ⟨(256 * b + r) % 4096, Nat.mod_lt _ (by norm_num)⟩

/-- The 256 × 256 tile (bi, bj) of a 4096 × 4096 matrix. -/
def tileA (A : FVec F S4096x4096 .f32) (bi bj : ℕ) : Vec F S256x256 .f32 :=
  fun y => A (ix2 (row4096 bi (y 0).val) (row4096 bj (y 1).val))
/-- The 256-row block `b` of a 4096 × 256 array. -/
def blockZ (z : FVec F S4096x256 .f32) (b : ℕ) : Vec F S256x256 .f32 :=
  fun y => z (ix2 (row4096 b (y 0).val) (y 1))
/-- The 256-row block `b` of a 4096 × 32 array. -/
def blockG (g : FVec F S4096x32 .f32) (b : ℕ) : Vec F S256x32 .f32 :=
  fun y => g (ix2 (row4096 b (y 0).val) (y 1))
/-- The 256-entry block `b` of a length-4096 vector. -/
def blockD (d : FVec F S4096 .f32) (b : ℕ) : Vec F S256 .f32 :=
  fun y => d (ix1 (row4096 b (y 0).val))

/-- Region 0's scratch after column block `n` of row block `bi`: zero, plus the tile products so far. -/
def acc0 (A : FVec F S4096x4096 .f32) (z : FVec F S4096x256 .f32) (bi : ℕ) : ℕ → Vec F S256x256 .f32
  | 0 => k0_pay2 (k0_pay1 (F := F)) (tileA A bi 0) (blockZ z 0)
  | n + 1 => k0_pay2 (acc0 A z bi n) (tileA A bi (n + 1)) (blockZ z (n + 1))

/-- Region 0's result: per row block, the epilogue of the fully accumulated block. -/
def g0 (A : FVec F S4096x4096 .f32) (z : FVec F S4096x256 .f32) (b1r : FVec F S1x256 .f32) (W2 : FVec F S256x32 .f32)
    (d : FVec F S4096 .f32) : FVec F S4096x32 .f32 :=
  fun i => k0_pay3 (blockD d ((i 0).val / 256)) (acc0 A z ((i 0).val / 256) 15) b1r W2
    (ix2 (⟨(i 0).val % 256, Nat.mod_lt _ (by norm_num)⟩ : Fin 256) (i 1))

/-- Region 1's scratch after column block `n` of row block `bi`. -/
def acc1 (A : FVec F S4096x4096 .f32) (g : FVec F S4096x32 .f32) (bi : ℕ) : ℕ → Vec F S256x32 .f32
  | 0 => k1_pay2 (k1_pay1 (F := F)) (tileA A bi 0) (blockG g 0)
  | n + 1 => k1_pay2 (acc1 A g bi n) (tileA A bi (n + 1)) (blockG g (n + 1))

/-- Region 1's result. -/
def g1 (A : FVec F S4096x4096 .f32) (g : FVec F S4096x32 .f32) (b2r : FVec F S1x32 .f32) (d : FVec F S4096 .f32) :
    FVec F S4096x32 .f32 :=
  fun i => k1_pay3 (acc1 A g ((i 0).val / 256) 15) (blockD d ((i 0).val / 256)) b2r
    (ix2 (⟨(i 0).val % 256, Nat.mod_lt _ (by norm_num)⟩ : Fin 256) (i 1))

end Cert.KernelIdeal.Hand

end
-- ==== Proof.KVal0Pieces.lean ====
/-
  Region 0: what each control case leaves in the scratch and in the result's staging buffer, as values.

  At a row block's first column block the scratch ends at the tile product added to the zero block; at every other
  column block at the tile product added to what the scratch held; and at the last column block the result's
  staging buffer ends at the layer's epilogue of that accumulated block.  Each is the payload of the one store
  that covers the buffer, its loads read through whole buffers.
-/
import proofs.«102345_g84920093377258_cont_9to1c4b_501_3_alg».proof.Proof.K0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz256x256 : (![0, 0] : Fin 2 → Nat) = fun _ => 0 := funext fun a => by fin_cases a <;> rfl
theorem hz256 : (![0] : Fin 1 → Nat) = fun _ => 0 := funext fun a => by fin_cases a; rfl

/-- A first column block leaves the tile product added to the zero block. -/
theorem sout0_A_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : cond0_0 i) (hc1 : ¬cond0_1 i) (x0 x1 : Vec F S256x256 .f32) :
    sout0_A c i arg2 harg2 arg3 harg3 arg4 harg4 arg5 harg5 arg6 harg6 arg7 harg7 arg8 harg8 hc0 hc1 x0 x1 = k0_pay2 (k0_pay1 (F := F)) x0 x1 := by
  unfold sout0_A
  rw [View.read_writes_eq_canon _ _ _ (scover0_A c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S256x256) hz256x256, View.readCov_unit_zero (S := S256x256) _ hz256x256]
  simp only [View.readAt_eq_ld, harg2.read_unread, harg3.read_unread, View.ld_unit_zero (S := S256x256) hz256x256]

/-- A middle column block leaves the tile product added to what the scratch held. -/
theorem sout0_B_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : ¬cond0_1 i) (x0 x1 xs : Vec F S256x256 .f32) :
    sout0_B c i arg2 harg2 arg3 harg3 arg4 harg4 arg5 harg5 arg6 harg6 arg7 harg7 arg8 harg8 hc0 hc1 x0 x1 xs = k0_pay2 xs x0 x1 := by
  unfold sout0_B
  rw [View.read_writes_eq_canon _ _ _ (scover0_B c i arg2 harg2 arg3 harg3 arg4 harg4 arg5 harg5 arg6 harg6 arg7 harg7 arg8 harg8 hc0 hc1 x0 x1 xs)]
  unfold kernelRun0_B
  dsimp only
  sl_unfold_words
  rw [View.canon_unit_zero (S := S256x256) hz256x256]
  simp only [View.readAt_eq_ld, harg8.read_unread, harg2.read_unread, harg3.read_unread,
    View.ld_unit_zero (S := S256x256) hz256x256]

/-- So does a last column block. -/
theorem sout0_C_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i) (x0 x1 : Vec F S256x256 .f32) (x2 : Vec F S1x256 .f32)
    (x3 : Vec F S256x32 .f32) (x4 : Vec F S256 .f32) (xs : Vec F S256x256 .f32) :
    sout0_C c i arg2 harg2 arg3 harg3 arg4 harg4 arg5 harg5 arg6 harg6 arg7 harg7 arg8 harg8 hc0 hc1 x0 x1 x2 x3 x4 xs = k0_pay2 xs x0 x1 := by
  unfold sout0_C
  rw [View.read_writes_eq_canon _ _ _ (scover0_C c i arg2 harg2 arg3 harg3 arg4 harg4 arg5 harg5 arg6 harg6 arg7 harg7 arg8 harg8 hc0 hc1 x0 x1 x2 x3 x4 xs)]
  unfold kernelRun0_C
  dsimp only
  sl_unfold_words
  rw [View.canon_unit_zero (S := S256x256) hz256x256]
  simp only [View.readAt_eq_ld, harg8.read_unread, harg2.read_unread, harg3.read_unread,
    View.ld_unit_zero (S := S256x256) hz256x256]

/-- A last column block leaves, in the result's staging buffer, the epilogue of the accumulated block. -/
theorem out0_C_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256 .f32) (harg6 : arg6.IsWhole) (arg7 : Memref sig .tc .vmem S256x32 .f32) (harg7 : arg7.IsWhole) (arg8 : Memref sig .tc .vmem S256x256 .f32) (harg8 : arg8.IsWhole) (hc0 : ¬cond0_0 i) (hc1 : cond0_1 i) (x0 x1 : Vec F S256x256 .f32) (x2 : Vec F S1x256 .f32)
    (x3 : Vec F S256x32 .f32) (x4 : Vec F S256 .f32) (xs : Vec F S256x256 .f32) :
    out0_C c i arg2 harg2 arg3 harg3 arg4 harg4 arg5 harg5 arg6 harg6 arg7 harg7 arg8 harg8 hc0 hc1 x0 x1 x2 x3 x4 xs = k0_pay3 x4 (k0_pay2 xs x0 x1) x2 x3 := by
  unfold out0_C
  rw [View.read_writes_eq_canon _ _ _ (cover0_C c i arg2 harg2 arg3 harg3 arg4 harg4 arg5 harg5 arg6 harg6 arg7 harg7 arg8 harg8 hc0 hc1 x0 x1 x2 x3 x4 xs)]
  unfold kernelRun0_C
  dsimp only
  sl_unfold_words
  rw [View.canon_unit_zero (S := S256x32) hz256x256, View.readCov_unit_zero (S := S256x256) _ hz256x256]
  simp only [View.readAt_eq_ld, harg8.read_unread, harg2.read_unread, harg3.read_unread, harg4.read_unread,
    harg5.read_unread, harg6.read_unread, View.ld_unit_zero (S := S256x256) hz256x256,
    View.ld_unit_zero (S := S256x32) hz256x256, View.ld_unit_zero (S := S1x256) hz256x256,
    View.ld_unit_zero (S := S256) hz256]

end Cert.KernelIdeal.Hand

end
-- ==== Proof.KVal0.lean ====
/-
  Region 0: the result array after the run is the region's pure function of the arrays it reads.

  A window's block at grid point t = 16 i + j is the matching tile of its array: the adjacency's tile (i, j), the
  other operand's row block j, the bias row, the weight matrix, and the row block i of the inverse square roots.
  By induction over the points the scratch after point t is the accumulation over the first j + 1 column blocks of
  row block i, and at j = 15 the result's staging buffer is the epilogue of the fully accumulated block.  That block
  is written back to rows 256 i … 256 i + 255 of the result, and the sixteen write-backs cover it.
-/
import proofs.«102345_g84920093377258_cont_9to1c4b_501_3_alg».proof.Proof.KVal0Pieces
import proofs.«102345_g84920093377258_cont_9to1c4b_501_3_alg».proof.Proof.KSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section
variable (V : (c : Dev nD) → (b : Ref sig .tc) → Buf (Elt F) ((c : Thread nD τ).loc b))

/-- The windows' block indices at point t, decided over the grid. -/
theorem idx0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = t.val / 16
    ∧ win0_5.index t (0 : Fin 2) = t.val / 16 ∧ win0_5.index t (1 : Fin 2) = 0 :=
  (by decide +kernel : ∀ t : Fin grid0.N, _)

/-! ## The blocks the body is handed -/

theorem iblk0_0_eq (c : Dev nD) (t : Fin cfg0.N) :
    (iblk0 V c 0 t : Vec F S256x256 .f32) = tileA (V c main_v55) (t.val / 16) (t.val % 16) := by
  obtain ⟨e0, e1, -⟩ := idx0 t
  have hN : cfg0.N = 256 := N_0
  have ht := t.isLt
  funext j
  have hj0 : (j 0).val < 256 := (j 0).isLt
  have hj1 : (j 1).val < 256 := (j 1).isLt
  unfold iblk0
  rw [View.read_apply]
  show V c main_v55 _ = V c main_v55 _
  refine congrArg (V c main_v55) (funext fun a => Fin.ext ?_)
  match a with
  | ⟨0, _⟩ =>
    show win0_0.index t (0 : Fin 2) * 256 + 1 * (j 0).val = (256 * (t.val / 16) + (j 0).val) % 4096
    rw [e0]; omega
  | ⟨1, _⟩ =>
    show win0_0.index t (1 : Fin 2) * 256 + 1 * (j 1).val = (256 * (t.val % 16) + (j 1).val) % 4096
    rw [e1]; omega

theorem iblk0_1_eq (c : Dev nD) (t : Fin cfg0.N) :
    (iblk0 V c 1 t : Vec F S256x256 .f32) = blockZ (V c main_v59) (t.val % 16) := by
  obtain ⟨-, -, e0, e1, -⟩ := idx0 t
  funext j
  have hj0 : (j 0).val < 256 := (j 0).isLt
  have hj1 : (j 1).val < 256 := (j 1).isLt
  unfold iblk0
  rw [View.read_apply]
  show V c main_v59 _ = V c main_v59 _
  refine congrArg (V c main_v59) (funext fun a => Fin.ext ?_)
  match a with
  | ⟨0, _⟩ =>
    show win0_1.index t (0 : Fin 2) * 256 + 1 * (j 0).val = (256 * (t.val % 16) + (j 0).val) % 4096
    rw [e0]; omega
  | ⟨1, _⟩ =>
    show win0_1.index t (1 : Fin 2) * 256 + 1 * (j 1).val = (j 1).val
    rw [e1]; omega

theorem iblk0_2_eq (c : Dev nD) (t : Fin cfg0.N) : (iblk0 V c 2 t : Vec F S1x256 .f32) = V c main_v60 := by
  obtain ⟨-, -, -, -, e0, e1, -⟩ := idx0 t
  funext j
  unfold iblk0
  rw [View.read_apply]
  show V c main_v60 _ = V c main_v60 _
  refine congrArg (V c main_v60) (funext fun a => Fin.ext ?_)
  match a with
  | ⟨0, _⟩ =>
    show win0_2.index t (0 : Fin 2) * 1 + 1 * (j 0).val = (j 0).val
    rw [e0]; omega
  | ⟨1, _⟩ =>
    show win0_2.index t (1 : Fin 2) * 256 + 1 * (j 1).val = (j 1).val
    rw [e1]; omega

theorem iblk0_3_eq (c : Dev nD) (t : Fin cfg0.N) : (iblk0 V c 3 t : Vec F S256x32 .f32) = V c main_arg5 := by
  obtain ⟨-, -, -, -, -, -, e0, e1, -⟩ := idx0 t
  funext j
  unfold iblk0
  rw [View.read_apply]
  show V c main_arg5 _ = V c main_arg5 _
  refine congrArg (V c main_arg5) (funext fun a => Fin.ext ?_)
  match a with
  | ⟨0, _⟩ =>
    show win0_3.index t (0 : Fin 2) * 256 + 1 * (j 0).val = (j 0).val
    rw [e0]; omega
  | ⟨1, _⟩ =>
    show win0_3.index t (1 : Fin 2) * 32 + 1 * (j 1).val = (j 1).val
    rw [e1]; omega

theorem iblk0_4_eq (c : Dev nD) (t : Fin cfg0.N) :
    (iblk0 V c 4 t : Vec F S256 .f32) = blockD (V c main_v48) (t.val / 16) := by
  obtain ⟨-, -, -, -, -, -, -, -, e0, -⟩ := idx0 t
  have hN : cfg0.N = 256 := N_0
  have ht := t.isLt
  funext j
  have hj0 : (j 0).val < 256 := (j 0).isLt
  unfold iblk0
  rw [View.read_apply]
  show V c main_v48 _ = V c main_v48 _
  refine congrArg (V c main_v48) (funext fun a => Fin.ext ?_)
  match a with
  | ⟨0, _⟩ =>
    show win0_4.index t (0 : Fin 1) * 256 + 1 * (j 0).val = (256 * (t.val / 16) + (j 0).val) % 4096
    rw [e0]; omega

/-! ## The scratch and the result's staging buffer after each point -/

/-- At a first column block the scratch ends at the first tile product added to the zero block. -/
theorem outs0_first (c : Dev nD) (t : Fin cfg0.N) (h0 : t.val % 16 = 0) :
    (outsAt0 V c t.val t.isLt).2 = k0_pay2 (k0_pay1 (F := F)) (iblk0 V c 0 t) (iblk0 V c 1 t) :=
  by
  rw [outsAt0_A V c t h0]
  exact sout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => by have := (hcond0_1 t).mp h; omega) (iblk0 V c 0 t) (iblk0 V c 1 t)

/-- At any other column block it ends at the tile product added to what the point before left. -/
theorem outs0_next (c : Dev nD) (t : Fin cfg0.N) (h0 : ¬t.val % 16 = 0) :
    (outsAt0 V c t.val t.isLt).2
      = k0_pay2 (outsAt0 V c (t.val - 1) (Nat.lt_of_le_of_lt (Nat.sub_le _ _) t.isLt)).2 (iblk0 V c 0 t) (iblk0 V c 1 t) := by
  by_cases h1 : t.val % 16 = 15
  · rw [outsAt0_C V c t h0 h1]
    dsimp only
    exact sout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t)
      (iblk0 V c 4 t) (outsAt0 V c (t.val - 1) (Nat.lt_of_le_of_lt (Nat.sub_le _ _) t.isLt)).2
  · rw [outsAt0_B V c t h0 h1]
    dsimp only
    exact sout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t)
      (outsAt0 V c (t.val - 1) (Nat.lt_of_le_of_lt (Nat.sub_le _ _) t.isLt)).2

/-- The scratch after point n is the accumulation over the first n mod 16 + 1 column blocks of row block n / 16. -/
theorem scratch0_eq (c : Dev nD) : ∀ (n : ℕ) (hn : n < cfg0.N),
    (outsAt0 V c n hn).2 = acc0 (V c main_v55) (V c main_v59) (n / 16) (n % 16) := by
  intro n
  induction n with
  | zero =>
    intro hn
    refine (outs0_first V c ⟨0, hn⟩ rfl).trans ?_
    exact congrArg₂ (k0_pay2 (k0_pay1 (F := F))) (iblk0_0_eq V c ⟨0, hn⟩) (iblk0_1_eq V c ⟨0, hn⟩)
  | succ n ih =>
    intro hn
    by_cases h0 : (n + 1) % 16 = 0
    · refine (outs0_first V c ⟨n + 1, hn⟩ h0).trans ?_
      refine (congrArg₂ (k0_pay2 (k0_pay1 (F := F))) (iblk0_0_eq V c ⟨n + 1, hn⟩) (iblk0_1_eq V c ⟨n + 1, hn⟩)).trans ?_
      show k0_pay2 (k0_pay1 (F := F)) (tileA (V c main_v55) ((n + 1) / 16) ((n + 1) % 16)) (blockZ (V c main_v59) ((n + 1) % 16))
        = acc0 (V c main_v55) (V c main_v59) ((n + 1) / 16) ((n + 1) % 16)
      rw [h0]
      rfl
    · obtain ⟨m, hm⟩ : ∃ m, (n + 1) % 16 = m + 1 := ⟨(n + 1) % 16 - 1, by omega⟩
      have hq : n / 16 = (n + 1) / 16 := by omega
      have hr : n % 16 = m := by omega
      have hprev : (outsAt0 V c n (Nat.lt_of_succ_lt hn)).2 = acc0 (V c main_v55) (V c main_v59) ((n + 1) / 16) m := by
        rw [ih (Nat.lt_of_succ_lt hn), hq, hr]
      have e : acc0 (V c main_v55) (V c main_v59) ((n + 1) / 16) ((n + 1) % 16)
          = k0_pay2 (acc0 (V c main_v55) (V c main_v59) ((n + 1) / 16) m)
              (tileA (V c main_v55) ((n + 1) / 16) ((n + 1) % 16)) (blockZ (V c main_v59) ((n + 1) % 16)) := by
        rw [hm]
        rfl
      refine (outs0_next V c ⟨n + 1, hn⟩ h0).trans ?_
      rw [e]
      have key : ∀ (s s' p p' q q' : Vec F S256x256 .f32), s = s' → p = p' → q = q' → k0_pay2 s p q = k0_pay2 s' p' q' := by
        intro s s' p p' q q' h1 h2 h3; rw [h1, h2, h3]
      exact key _ _ _ _ _ _ hprev (iblk0_0_eq V c ⟨n + 1, hn⟩) (iblk0_1_eq V c ⟨n + 1, hn⟩)

/-- At a last column block the result's staging buffer ends at the epilogue of the fully accumulated block. -/
theorem out0_eq (c : Dev nD) (t : Fin cfg0.N) (h1 : t.val % 16 = 15) :
    (outsAt0 V c t.val t.isLt).1
      = k0_pay3 (blockD (V c main_v48) (t.val / 16)) (acc0 (V c main_v55) (V c main_v59) (t.val / 16) 15) (V c main_v60)
          (V c main_arg5) := by
  have h0 : ¬t.val % 16 = 0 := by omega
  have hacc : k0_pay2 (outsAt0 V c (t.val - 1) (Nat.lt_of_le_of_lt (Nat.sub_le _ _) t.isLt)).2 (iblk0 V c 0 t) (iblk0 V c 1 t)
      = acc0 (V c main_v55) (V c main_v59) (t.val / 16) 15 := by
    refine (outs0_next V c t h0).symm.trans ((scratch0_eq V c t.val t.isLt).trans ?_)
    rw [h1]
  rw [outsAt0_C V c t h0 h1]
  refine (out0_C_eq c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t)
    (iblk0 V c 4 t) (outsAt0 V c (t.val - 1) (Nat.lt_of_le_of_lt (Nat.sub_le _ _) t.isLt)).2).trans ?_
  have key : ∀ (a a' : Vec F S256 .f32) (p p' : Vec F S256x256 .f32) (b b' : Vec F S1x256 .f32) (d d' : Vec F S256x32 .f32),
      a = a' → p = p' → b = b' → d = d' → k0_pay3 a p b d = k0_pay3 a' p' b' d' := by
    intro a a' p p' b b' d d' h1 h2 h3 h4; rw [h1, h2, h3, h4]
  exact key _ _ _ _ _ _ _ _ (iblk0_4_eq V c t) hacc (iblk0_2_eq V c t) (iblk0_3_eq V c t)

/-! ## From the blocks to the array -/

/-- The region's function at an index of row block b: the epilogue's block at the index's place in the block. -/
theorem g0_at (A : FVec F S4096x4096 .f32) (z : FVec F S4096x256 .f32) (b1r : FVec F S1x256 .f32) (W2 : FVec F S256x32 .f32)
    (d : FVec F S4096 .f32) (i : S4096x32.Idx) (b : ℕ) (y : S256x32.Idx) (h0 : (i 0).val = 256 * b + (y 0).val)
    (h1 : (i 1).val = (y 1).val) : g0 A z b1r W2 d i = k0_pay3 (blockD d b) (acc0 A z b 15) b1r W2 y := by
  have hy : (y 0).val < 256 := (y 0).isLt
  have hb : (i 0).val / 256 = b := by omega
  have hy' : (ValueIdx.ix2 (⟨(i 0).val % 256, Nat.mod_lt _ (by norm_num)⟩ : Fin 256) (i 1) : S256x32.Idx) = y :=
    funext fun a => match a with
      | ⟨0, _⟩ => Fin.ext (by show (i 0).val % 256 = (y 0).val; omega)
      | ⟨1, _⟩ => Fin.ext (by show (i 1).val = (y 1).val; exact h1)
  show k0_pay3 (blockD d ((i 0).val / 256)) (acc0 A z ((i 0).val / 256) 15) b1r W2
      (ValueIdx.ix2 (⟨(i 0).val % 256, Nat.mod_lt _ (by norm_num)⟩ : Fin 256) (i 1)) = _
  rw [hb, hy']

/-- What a last column block writes back is its block of the region's function of the arrays. -/
theorem flushed0_eq (c : Dev nD) (t : Fin cfg0.N) (hf : (cfg0.win 5).flush t = true) :
    (dat0 V c).flushed 5 t
      = ((cfg0.win 5).blk t).view.read (Elt F)
          (g0 (V c main_v55) (V c main_v59) (V c main_v60) (V c main_arg5) (V c main_v48)) := by
  have h1 : t.val % 16 = 15 := (flush0_5 t).mp hf
  obtain ⟨-, -, -, -, -, -, -, -, -, e0, e1⟩ := idx0 t
  show (cfg0.win 5).cut (grid0.coords t) ((dat0 V c).after 5 t) = _
  rw [after0_5, out0_eq V c t h1]
  funext j
  have hj0 : (j 0).val < 256 := (j 0).isLt
  rw [View.read_apply]
  show k0_pay3 (blockD (V c main_v48) (t.val / 16)) (acc0 (V c main_v55) (V c main_v59) (t.val / 16) 15) (V c main_v60)
      (V c main_arg5) j
    = g0 (V c main_v55) (V c main_v59) (V c main_v60) (V c main_arg5) (V c main_v48) (((cfg0.win 5).blk t).view.emb j)
  refine (g0_at _ _ _ _ _ (((cfg0.win 5).blk t).view.emb j) (t.val / 16) j ?_ ?_).symm
  · show win0_5.index t (0 : Fin 2) * 256 + 1 * (j 0).val = 256 * (t.val / 16) + (j 0).val
    rw [e0]; omega
  · show win0_5.index t (1 : Fin 2) * 32 + 1 * (j 1).val = (j 1).val
    rw [e1]; omega

/-- Every index of the result lies in the block some last column block writes back. -/
theorem cover0 (c : Dev nD) (i : S4096x32.Idx) :
    ∃ t : Fin cfg0.N, (cfg0.win 5).flush t = true ∧ i ∈ ((cfg0.win 5).blk t).view.set := by
  have hN : cfg0.N = 256 := N_0
  have hi0 : (i 0).val < 4096 := (i 0).isLt
  have hi1 : (i 1).val < 32 := (i 1).isLt
  have hlt : 16 * ((i 0).val / 256) + 15 < cfg0.N := by omega
  refine ⟨⟨16 * ((i 0).val / 256) + 15, hlt⟩, (flush0_5 _).mpr (by show (16 * ((i 0).val / 256) + 15) % 16 = 15; omega), ?_⟩
  obtain ⟨-, -, -, -, -, -, -, -, -, e0, e1⟩ := idx0 ⟨16 * ((i 0).val / 256) + 15, hlt⟩
  have e0' : win0_5.index ⟨16 * ((i 0).val / 256) + 15, hlt⟩ (0 : Fin 2) = (i 0).val / 256 := by rw [e0]; show (16 * ((i 0).val / 256) + 15) / 16 = _; omega
  show i ∈ ((View.whole main_v61).slice (win0_5.rect ⟨16 * ((i 0).val / 256) + 15, hlt⟩)).set
  rw [View.set_slice_whole, Rect.mem_set_unit]
  intro a
  match a with
  | ⟨0, _⟩ =>
    show win0_5.index ⟨16 * ((i 0).val / 256) + 15, hlt⟩ (0 : Fin 2) * 256 ≤ (i 0).val
      ∧ (i 0).val < win0_5.index ⟨16 * ((i 0).val / 256) + 15, hlt⟩ (0 : Fin 2) * 256 + 256
    rw [e0']; omega
  | ⟨1, _⟩ =>
    show win0_5.index ⟨16 * ((i 0).val / 256) + 15, hlt⟩ (1 : Fin 2) * 32 ≤ (i 1).val
      ∧ (i 1).val < win0_5.index ⟨16 * ((i 0).val / 256) + 15, hlt⟩ (1 : Fin 2) * 32 + 32
    rw [e1]; omega

/-- THE RESULT ARRAY of region 0 after the run. -/
theorem arr0_eq (c : Dev nD) :
    (dat0 V c).arrAt 5 cfg0.N = g0 (V c main_v55) (V c main_v59) (V c main_v60) (V c main_arg5) (V c main_v48) :=
  (dat0 V c).arrAt_eq_of_cover 5 _ (flushed0_eq V c) (cover0 c)

end

end Cert.KernelIdeal.Hand

end
-- ==== Proof.KVal1Pieces.lean ====
/-
  Region 1: what each control case leaves in the scratch and in the result's staging buffer, as values.

  At a row block's first column block the scratch ends at the tile product added to the zero block; at every other
  column block at the tile product added to what the scratch held; and at the last column block the result's
  staging buffer ends at the accumulated block with its rows scaled and the bias added.  Each is the payload of the
  one store that covers the buffer, its loads read through whole buffers.
-/
import proofs.«102345_g84920093377258_cont_9to1c4b_501_3_alg».proof.Proof.K1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz2_1 : (![0, 0] : Fin 2 → Nat) = fun _ => 0 := funext fun a => by fin_cases a <;> rfl
theorem hz1_1 : (![0] : Fin 1 → Nat) = fun _ => 0 := funext fun a => by fin_cases a; rfl

/-- A first column block leaves the tile product added to the zero block. -/
theorem sout1_A_eq (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : cond1_0 i) (hc1 : ¬cond1_1 i) (x0 : Vec F S256x256 .f32) (x1 : Vec F S256x32 .f32) :
    sout1_A c i arg2 harg2 arg3 harg3 arg4 harg4 arg5 harg5 arg6 harg6 arg7 harg7 hc0 hc1 x0 x1 = k1_pay2 (k1_pay1 (F := F)) x0 x1 := by
  unfold sout1_A
  rw [View.read_writes_eq_canon _ _ _ (scover1_A c i arg2 harg2 arg3 harg3 arg4 harg4 arg5 harg5 arg6 harg6 arg7 harg7 hc0 hc1 x0 x1)]
  unfold kernelRun1_A
  dsimp only
  sl_unfold_words
  rw [View.canon_cons_unit_zero (S := S256x32) hz2_1, View.readCov_unit_zero (S := S256x32) _ hz2_1]
  simp only [View.readAt_eq_ld, harg2.read_unread, harg3.read_unread, View.ld_unit_zero (S := S256x256) hz2_1,
    View.ld_unit_zero (S := S256x32) hz2_1]

/-- A middle column block leaves the tile product added to what the scratch held. -/
theorem sout1_B_eq (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : ¬cond1_1 i) (x0 : Vec F S256x256 .f32) (x1 xs : Vec F S256x32 .f32) :
    sout1_B c i arg2 harg2 arg3 harg3 arg4 harg4 arg5 harg5 arg6 harg6 arg7 harg7 hc0 hc1 x0 x1 xs = k1_pay2 xs x0 x1 := by
  unfold sout1_B
  rw [View.read_writes_eq_canon _ _ _ (scover1_B c i arg2 harg2 arg3 harg3 arg4 harg4 arg5 harg5 arg6 harg6 arg7 harg7 hc0 hc1 x0 x1 xs)]
  unfold kernelRun1_B
  dsimp only
  sl_unfold_words
  rw [View.canon_unit_zero (S := S256x32) hz2_1]
  simp only [View.readAt_eq_ld, harg7.read_unread, harg2.read_unread, harg3.read_unread,
    View.ld_unit_zero (S := S256x256) hz2_1, View.ld_unit_zero (S := S256x32) hz2_1]

/-- So does a last column block. -/
theorem sout1_C_eq (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32)
    (x2 : Vec F S1x32 .f32) (x3 : Vec F S256 .f32) (xs : Vec F S256x32 .f32) :
    sout1_C c i arg2 harg2 arg3 harg3 arg4 harg4 arg5 harg5 arg6 harg6 arg7 harg7 hc0 hc1 x0 x1 x2 x3 xs = k1_pay2 xs x0 x1 := by
  unfold sout1_C
  rw [View.read_writes_eq_canon _ _ _ (scover1_C c i arg2 harg2 arg3 harg3 arg4 harg4 arg5 harg5 arg6 harg6 arg7 harg7 hc0 hc1 x0 x1 x2 x3 xs)]
  unfold kernelRun1_C
  dsimp only
  sl_unfold_words
  rw [View.canon_unit_zero (S := S256x32) hz2_1]
  simp only [View.readAt_eq_ld, harg7.read_unread, harg2.read_unread, harg3.read_unread,
    View.ld_unit_zero (S := S256x256) hz2_1, View.ld_unit_zero (S := S256x32) hz2_1]

/-- A last column block leaves, in the result's staging buffer, the accumulated block scaled by rows plus the bias. -/
theorem out1_C_eq (c : Dev nD) (i : grid1.Coords) (arg2 : Memref sig .tc .vmem S256x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S256 .f32) (harg5 : arg5.IsWhole) (arg6 : Memref sig .tc .vmem S256x32 .f32) (harg6 : arg6.IsWhole) (arg7 : Memref sig .tc .vmem S256x32 .f32) (harg7 : arg7.IsWhole) (hc0 : ¬cond1_0 i) (hc1 : cond1_1 i) (x0 : Vec F S256x256 .f32) (x1 : Vec F S256x32 .f32)
    (x2 : Vec F S1x32 .f32) (x3 : Vec F S256 .f32) (xs : Vec F S256x32 .f32) :
    out1_C c i arg2 harg2 arg3 harg3 arg4 harg4 arg5 harg5 arg6 harg6 arg7 harg7 hc0 hc1 x0 x1 x2 x3 xs = k1_pay3 (k1_pay2 xs x0 x1) x3 x2 := by
  unfold out1_C
  rw [View.read_writes_eq_canon _ _ _ (cover1_C c i arg2 harg2 arg3 harg3 arg4 harg4 arg5 harg5 arg6 harg6 arg7 harg7 hc0 hc1 x0 x1 x2 x3 xs)]
  unfold kernelRun1_C
  dsimp only
  sl_unfold_words
  rw [View.canon_unit_zero (S := S256x32) hz2_1, View.readCov_unit_zero (S := S256x32) _ hz2_1]
  simp only [View.readAt_eq_ld, harg7.read_unread, harg2.read_unread, harg3.read_unread, harg4.read_unread,
    harg5.read_unread, View.ld_unit_zero (S := S256x256) hz2_1, View.ld_unit_zero (S := S256x32) hz2_1,
    View.ld_unit_zero (S := S1x32) hz2_1, View.ld_unit_zero (S := S256) hz1_1]

end Cert.KernelIdeal.Hand

end
-- ==== Proof.KVal1.lean ====
/-
  Region 1: the result array after the run is the region's pure function of the arrays it reads.

  A window's block at grid point t = 16 i + j is the matching tile of its array: the adjacency's tile (i, j), the
  other operand's row block j, the bias row, and the row block i of the inverse square roots.  By induction over the
  points the scratch after point t is the accumulation over the first j + 1 column blocks of row block i, and at
  j = 15 the result's staging buffer is the accumulated block with its rows scaled and the bias added.  That block is
  written back to rows 256 i … 256 i + 255 of the result, and the sixteen write-backs cover it.
-/
import proofs.«102345_g84920093377258_cont_9to1c4b_501_3_alg».proof.Proof.KVal1Pieces
import proofs.«102345_g84920093377258_cont_9to1c4b_501_3_alg».proof.Proof.KSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section
variable (V : (c : Dev nD) → (b : Ref sig .tc) → Buf (Elt F) ((c : Thread nD τ).loc b))

/-- The windows' block indices at point t, decided over the grid. -/
theorem idx1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 1) = t.val / 16
    ∧ win1_4.index t (0 : Fin 2) = t.val / 16 ∧ win1_4.index t (1 : Fin 2) = 0 :=
  (by decide +kernel : ∀ t : Fin grid1.N, _)

/-! ## The blocks the body is handed -/

theorem iblk1_0_eq (c : Dev nD) (t : Fin cfg1.N) :
    (iblk1 V c 0 t : Vec F S256x256 .f32) = tileA (V c main_v55) (t.val / 16) (t.val % 16) := by
  obtain ⟨e0, e1, -⟩ := idx1 t
  have hN : cfg1.N = 256 := N_1
  have ht := t.isLt
  funext j
  have hj0 : (j 0).val < 256 := (j 0).isLt
  have hj1 : (j 1).val < 256 := (j 1).isLt
  unfold iblk1
  rw [View.read_apply]
  show V c main_v55 _ = V c main_v55 _
  refine congrArg (V c main_v55) (funext fun a => Fin.ext ?_)
  match a with
  | ⟨0, _⟩ =>
    show win1_0.index t (0 : Fin 2) * 256 + 1 * (j 0).val = (256 * (t.val / 16) + (j 0).val) % 4096
    rw [e0]; omega
  | ⟨1, _⟩ =>
    show win1_0.index t (1 : Fin 2) * 256 + 1 * (j 1).val = (256 * (t.val % 16) + (j 1).val) % 4096
    rw [e1]; omega

theorem iblk1_1_eq (c : Dev nD) (t : Fin cfg1.N) :
    (iblk1 V c 1 t : Vec F S256x32 .f32) = blockG (V c main_v61) (t.val % 16) := by
  obtain ⟨-, -, e0, e1, -⟩ := idx1 t
  funext j
  have hj0 : (j 0).val < 256 := (j 0).isLt
  have hj1 : (j 1).val < 32 := (j 1).isLt
  unfold iblk1
  rw [View.read_apply]
  show V c main_v61 _ = V c main_v61 _
  refine congrArg (V c main_v61) (funext fun a => Fin.ext ?_)
  match a with
  | ⟨0, _⟩ =>
    show win1_1.index t (0 : Fin 2) * 256 + 1 * (j 0).val = (256 * (t.val % 16) + (j 0).val) % 4096
    rw [e0]; omega
  | ⟨1, _⟩ =>
    show win1_1.index t (1 : Fin 2) * 32 + 1 * (j 1).val = (j 1).val
    rw [e1]; omega

theorem iblk1_2_eq (c : Dev nD) (t : Fin cfg1.N) : (iblk1 V c 2 t : Vec F S1x32 .f32) = V c main_v62 := by
  obtain ⟨-, -, -, -, e0, e1, -⟩ := idx1 t
  funext j
  unfold iblk1
  rw [View.read_apply]
  show V c main_v62 _ = V c main_v62 _
  refine congrArg (V c main_v62) (funext fun a => Fin.ext ?_)
  match a with
  | ⟨0, _⟩ =>
    show win1_2.index t (0 : Fin 2) * 1 + 1 * (j 0).val = (j 0).val
    rw [e0]; omega
  | ⟨1, _⟩ =>
    show win1_2.index t (1 : Fin 2) * 32 + 1 * (j 1).val = (j 1).val
    rw [e1]; omega

theorem iblk1_3_eq (c : Dev nD) (t : Fin cfg1.N) :
    (iblk1 V c 3 t : Vec F S256 .f32) = blockD (V c main_v48) (t.val / 16) := by
  obtain ⟨-, -, -, -, -, -, e0, -⟩ := idx1 t
  have hN : cfg1.N = 256 := N_1
  have ht := t.isLt
  funext j
  have hj0 : (j 0).val < 256 := (j 0).isLt
  unfold iblk1
  rw [View.read_apply]
  show V c main_v48 _ = V c main_v48 _
  refine congrArg (V c main_v48) (funext fun a => Fin.ext ?_)
  match a with
  | ⟨0, _⟩ =>
    show win1_3.index t (0 : Fin 1) * 256 + 1 * (j 0).val = (256 * (t.val / 16) + (j 0).val) % 4096
    rw [e0]; omega

/-! ## The scratch and the result's staging buffer after each point -/

/-- At a first column block the scratch ends at the first tile product added to the zero block. -/
theorem outs1_first (c : Dev nD) (t : Fin cfg1.N) (h0 : t.val % 16 = 0) :
    (outsAt1 V c t.val t.isLt).2 = k1_pay2 (k1_pay1 (F := F)) (iblk1 V c 0 t) (iblk1 V c 1 t) := by
  rw [outsAt1_A V c t h0]
  dsimp only
  exact sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => by have := (hcond1_1 t).mp h; omega) (iblk1 V c 0 t) (iblk1 V c 1 t)

/-- At any other column block it ends at the tile product added to what the point before left. -/
theorem outs1_next (c : Dev nD) (t : Fin cfg1.N) (h0 : ¬t.val % 16 = 0) :
    (outsAt1 V c t.val t.isLt).2 = k1_pay2 (outsAt1 V c (t.val - 1) (Nat.lt_of_le_of_lt (Nat.sub_le _ _) t.isLt)).2 (iblk1 V c 0 t) (iblk1 V c 1 t) := by
  by_cases h1 : t.val % 16 = 15
  · rw [outsAt1_C V c t h0 h1]
    dsimp only
    exact sout1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t)
      (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- The scratch after point n is the accumulation over the first n mod 16 + 1 column blocks of row block n / 16. -/
theorem scratch1_eq (c : Dev nD) : ∀ (n : ℕ) (hn : n < cfg1.N),
    (outsAt1 V c n hn).2 = acc1 (V c main_v55) (V c main_v61) (n / 16) (n % 16) := by
  intro n
  induction n with
  | zero =>
    intro hn
    refine (outs1_first V c ⟨0, hn⟩ rfl).trans ?_
    exact congrArg₂ (k1_pay2 (k1_pay1 (F := F))) (iblk1_0_eq V c ⟨0, hn⟩) (iblk1_1_eq V c ⟨0, hn⟩)
  | succ n ih =>
    intro hn
    by_cases h0 : (n + 1) % 16 = 0
    · refine (outs1_first V c ⟨n + 1, hn⟩ h0).trans ?_
      refine (congrArg₂ (k1_pay2 (k1_pay1 (F := F))) (iblk1_0_eq V c ⟨n + 1, hn⟩) (iblk1_1_eq V c ⟨n + 1, hn⟩)).trans ?_
      show k1_pay2 (k1_pay1 (F := F)) (tileA (V c main_v55) ((n + 1) / 16) ((n + 1) % 16)) (blockG (V c main_v61) ((n + 1) % 16))
        = acc1 (V c main_v55) (V c main_v61) ((n + 1) / 16) ((n + 1) % 16)
      rw [h0]
      rfl
    · obtain ⟨m, hm⟩ : ∃ m, (n + 1) % 16 = m + 1 := ⟨(n + 1) % 16 - 1, by omega⟩
      have hq : n / 16 = (n + 1) / 16 := by omega
      have hr : n % 16 = m := by omega
      have hprev : (outsAt1 V c n (Nat.lt_of_succ_lt hn)).2 = acc1 (V c main_v55) (V c main_v61) ((n + 1) / 16) m := by
        rw [ih (Nat.lt_of_succ_lt hn), hq, hr]
      have e : acc1 (V c main_v55) (V c main_v61) ((n + 1) / 16) ((n + 1) % 16)
          = k1_pay2 (acc1 (V c main_v55) (V c main_v61) ((n + 1) / 16) m)
              (tileA (V c main_v55) ((n + 1) / 16) ((n + 1) % 16)) (blockG (V c main_v61) ((n + 1) % 16)) := by
        rw [hm]
        rfl
      refine (outs1_next V c ⟨n + 1, hn⟩ h0).trans ?_
      rw [e]
      have key : ∀ (s s' : Vec F S256x32 .f32) (p p' : Vec F S256x256 .f32) (q q' : Vec F S256x32 .f32),
          s = s' → p = p' → q = q' → k1_pay2 s p q = k1_pay2 s' p' q' := by
        intro s s' p p' q q' h1 h2 h3; rw [h1, h2, h3]
      exact key _ _ _ _ _ _ hprev (iblk1_0_eq V c ⟨n + 1, hn⟩) (iblk1_1_eq V c ⟨n + 1, hn⟩)

/-- At a last column block the result's staging buffer ends at the accumulated block scaled by rows plus the bias. -/
theorem out1_eq (c : Dev nD) (t : Fin cfg1.N) (h1 : t.val % 16 = 15) :
    (outsAt1 V c t.val t.isLt).1
      = k1_pay3 (acc1 (V c main_v55) (V c main_v61) (t.val / 16) 15) (blockD (V c main_v48) (t.val / 16)) (V c main_v62) := by
  have h0 : ¬t.val % 16 = 0 := by omega
  have hacc : k1_pay2 (outsAt1 V c (t.val - 1) (Nat.lt_of_le_of_lt (Nat.sub_le _ _) t.isLt)).2 (iblk1 V c 0 t) (iblk1 V c 1 t)
      = acc1 (V c main_v55) (V c main_v61) (t.val / 16) 15 := by
    refine (outs1_next V c t h0).symm.trans ((scratch1_eq V c t.val t.isLt).trans ?_)
    rw [h1]
  rw [outsAt1_C V c t h0 h1]
  dsimp only
  refine (out1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t)
    (outsAt1 V c (t.val - 1) (Nat.lt_of_le_of_lt (Nat.sub_le _ _) t.isLt)).2).trans ?_
  have key : ∀ (p p' : Vec F S256x32 .f32) (a a' : Vec F S256 .f32) (b b' : Vec F S1x32 .f32),
      p = p' → a = a' → b = b' → k1_pay3 p a b = k1_pay3 p' a' b' := by
    intro p p' a a' b b' h1 h2 h3; rw [h1, h2, h3]
  exact key _ _ _ _ _ _ hacc (iblk1_3_eq V c t) (iblk1_2_eq V c t)

/-! ## From the blocks to the array -/

/-- The region's function at an index of row block b: the epilogue's block at the index's place in the block. -/
theorem g1_at (A : FVec F S4096x4096 .f32) (g : FVec F S4096x32 .f32) (b2r : FVec F S1x32 .f32) (d : FVec F S4096 .f32)
    (i : S4096x32.Idx) (b : ℕ) (y : S256x32.Idx) (h0 : (i 0).val = 256 * b + (y 0).val) (h1 : (i 1).val = (y 1).val) :
    g1 A g b2r d i = k1_pay3 (acc1 A g b 15) (blockD d b) b2r y := by
  have hy : (y 0).val < 256 := (y 0).isLt
  have hb : (i 0).val / 256 = b := by omega
  have hy' : (ValueIdx.ix2 (⟨(i 0).val % 256, Nat.mod_lt _ (by norm_num)⟩ : Fin 256) (i 1) : S256x32.Idx) = y :=
    funext fun a => match a with
      | ⟨0, _⟩ => Fin.ext (by show (i 0).val % 256 = (y 0).val; omega)
      | ⟨1, _⟩ => Fin.ext (by show (i 1).val = (y 1).val; exact h1)
  show k1_pay3 (acc1 A g ((i 0).val / 256) 15) (blockD d ((i 0).val / 256)) b2r
      (ValueIdx.ix2 (⟨(i 0).val % 256, Nat.mod_lt _ (by norm_num)⟩ : Fin 256) (i 1)) = _
  rw [hb, hy']

/-- What a last column block writes back is its block of the region's function of the arrays. -/
theorem flushed1_eq (c : Dev nD) (t : Fin cfg1.N) (hf : (cfg1.win 4).flush t = true) :
    (dat1 V c).flushed 4 t
      = ((cfg1.win 4).blk t).view.read (Elt F) (g1 (V c main_v55) (V c main_v61) (V c main_v62) (V c main_v48)) := by
  have h1 : t.val % 16 = 15 := (flush1_4 t).mp hf
  obtain ⟨-, -, -, -, -, -, -, e0, e1⟩ := idx1 t
  show (cfg1.win 4).cut (grid1.coords t) ((dat1 V c).after 4 t) = _
  rw [after1_4, out1_eq V c t h1]
  funext j
  have hj0 : (j 0).val < 256 := (j 0).isLt
  rw [View.read_apply]
  show k1_pay3 (acc1 (V c main_v55) (V c main_v61) (t.val / 16) 15) (blockD (V c main_v48) (t.val / 16)) (V c main_v62) j
    = g1 (V c main_v55) (V c main_v61) (V c main_v62) (V c main_v48) (((cfg1.win 4).blk t).view.emb j)
  refine (g1_at _ _ _ _ (((cfg1.win 4).blk t).view.emb j) (t.val / 16) j ?_ ?_).symm
  · show win1_4.index t (0 : Fin 2) * 256 + 1 * (j 0).val = 256 * (t.val / 16) + (j 0).val
    rw [e0]; omega
  · show win1_4.index t (1 : Fin 2) * 32 + 1 * (j 1).val = (j 1).val
    rw [e1]; omega

/-- Every index of the result lies in the block some last column block writes back. -/
theorem cover1 (c : Dev nD) (i : S4096x32.Idx) :
    ∃ t : Fin cfg1.N, (cfg1.win 4).flush t = true ∧ i ∈ ((cfg1.win 4).blk t).view.set := by
  have hN : cfg1.N = 256 := N_1
  have hi0 : (i 0).val < 4096 := (i 0).isLt
  have hi1 : (i 1).val < 32 := (i 1).isLt
  have hlt : 16 * ((i 0).val / 256) + 15 < cfg1.N := by omega
  refine ⟨⟨16 * ((i 0).val / 256) + 15, hlt⟩, (flush1_4 _).mpr (by show (16 * ((i 0).val / 256) + 15) % 16 = 15; omega), ?_⟩
  obtain ⟨-, -, -, -, -, -, -, e0, e1⟩ := idx1 ⟨16 * ((i 0).val / 256) + 15, hlt⟩
  have e0' : win1_4.index ⟨16 * ((i 0).val / 256) + 15, hlt⟩ (0 : Fin 2) = (i 0).val / 256 := by rw [e0]; show (16 * ((i 0).val / 256) + 15) / 16 = _; omega
  show i ∈ ((View.whole main_v63).slice (win1_4.rect ⟨16 * ((i 0).val / 256) + 15, hlt⟩)).set
  rw [View.set_slice_whole, Rect.mem_set_unit]
  intro a
  match a with
  | ⟨0, _⟩ =>
    show win1_4.index ⟨16 * ((i 0).val / 256) + 15, hlt⟩ (0 : Fin 2) * 256 ≤ (i 0).val
      ∧ (i 0).val < win1_4.index ⟨16 * ((i 0).val / 256) + 15, hlt⟩ (0 : Fin 2) * 256 + 256
    rw [e0']; omega
  | ⟨1, _⟩ =>
    show win1_4.index ⟨16 * ((i 0).val / 256) + 15, hlt⟩ (1 : Fin 2) * 32 ≤ (i 1).val
      ∧ (i 1).val < win1_4.index ⟨16 * ((i 0).val / 256) + 15, hlt⟩ (1 : Fin 2) * 32 + 32
    rw [e1]; omega

/-- THE RESULT ARRAY of region 1 after the run. -/
theorem arr1_eq (c : Dev nD) :
    (dat1 V c).arrAt 4 cfg1.N = g1 (V c main_v55) (V c main_v61) (V c main_v62) (V c main_v48) :=
  (dat1 V c).arrAt_eq_of_cover 4 _ (flushed1_eq V c) (cover1 c)

end

end Cert.KernelIdeal.Hand

end
-- ==== Proof.KHost.lean ====
/-
  The host stretches of the kernel's program compute the stages of the host side, value by value.

  The program's host operations come in eight stretches (the main function's operations, cut at its three calls
  and at its two kernel regions). Each stretch is read once, as a function of the buffer contents before it:
  the buffer an operation writes holds the operation's function of the buffers it reads, every other buffer
  keeps its contents. Chained, the seven stretches before the first region leave the edge mask, the adjacency
  with self loops, the scaled feature product, the inverse square roots of the degrees and the first bias row
  in their buffers, as the stage functions of the argument arrays; the stretch between the regions leaves the
  second bias row.
-/
import proofs.«102345_g84920093377258_cont_9to1c4b_501_3_alg».proof.Proof.KStages
import proofs.«102345_g84920093377258_cont_9to1c4b_501_3_alg».proof.Proof.Gen.KernelIdeal.Regions
import Idealize.ShloMosaic.Lib.StableHlo.Run

noncomputable section

namespace Cert.KernelIdeal.Hand

open Idealize.ShloMosaic Idealize.ShloMosaic.TcCoe Idealize.SL.Sem Cert.KernelIdeal Cert.KernelIdeal.Facts₀ Cert.KernelIdeal.Gen

variable {F : FTy → Type} [FloatOps F] [Cert.KernelIdeal.Facts]

local macro:max "ρ(" r:term ")" : term => `(Proc.devRef (τ := τ) .tc $r)

/-! ## Stretch 0: the coordinates, their minimum and maximum, the product, the padded vector -/

section Stretch0
variable (X : Valuation τ sig (Elt F))

theorem s0_v7 : (StableHlo.after hostOps0 X ρ(main_v7) : IVec S4096x4096 32) = loW := by
  dsimp only [hostOps0]; after_results; rfl
theorem s0_v12 : (StableHlo.after hostOps0 X ρ(main_v12) : IVec S4096x4096 32) = hiW := by
  dsimp only [hostOps0]; after_results; rfl
theorem s0_v13 : (StableHlo.after hostOps0 X ρ(main_v13) : IVec S4096x4096 1) = cmpi .eq loW hiW := by
  dsimp only [hostOps0]; after_results; rfl
theorem s0_v17 : (StableHlo.after hostOps0 X ρ(main_v17) : IVec S4096x4096 32) = addi (bcW 1#32) (muli loW (bcW 4095#32)) := by
  dsimp only [hostOps0]; after_results; rfl
theorem s0_v20 : (StableHlo.after hostOps0 X ρ(main_v20) : IVec S4096x4096 32) = prodW := by
  dsimp only [hostOps0]; after_results; rfl
theorem s0_c2 : (StableHlo.after hostOps0 X ρ(main_c_2) : IVec S_ 32) = constantI S_ 32 2#32 := by
  dsimp only [hostOps0]; after_results
theorem s0_v1 : (StableHlo.after hostOps0 X ρ(main_v1) : FVec F S8386561 .f32) = vecpad (X ρ(main_arg1)) := by
  dsimp only [hostOps0]; after_results; rfl
theorem s0_frame (r : Ref sig .tc) (h : r ∉ hostOps0_W) : StableHlo.after hostOps0 X ρ(r) = X ρ(r) :=
  StableHlo.after_of_writes_sub hostOps0 X hostOps0_writes h

end Stretch0

/-! ## Stretch 1: the floor division of the product by two -/

set_option maxHeartbeats 2000000 in
theorem s1_v21 (X : Valuation τ sig (Elt F)) (h20 : (X ρ(main_v20) : IVec S4096x4096 32) = prodW)
    (hc2 : (X ρ(main_c_2) : IVec S_ 32) = constantI S_ 32 2#32) :
    (StableHlo.after hostOps0_1 X ρ(main_v21) : IVec S4096x4096 32) = halfW := by
  dsimp only [hostOps0_1]; after_results_simp; rw [h20, hc2]; rfl
theorem s1_frame (X : Valuation τ sig (Elt F)) (r : Ref sig .tc) (h : r ∉ hostOps0_1_W) :
    StableHlo.after hostOps0_1 X ρ(r) = X ρ(r) :=
  StableHlo.after_of_writes_sub hostOps0_1 X hostOps0_1_writes h

/-! ## Stretch 2: the off-diagonal index -/

theorem s2_v26 (X : Valuation τ sig (Elt F))
    (h17 : (X ρ(main_v17) : IVec S4096x4096 32) = addi (bcW 1#32) (muli loW (bcW 4095#32)))
    (h21 : (X ρ(main_v21) : IVec S4096x4096 32) = halfW) (h12 : (X ρ(main_v12) : IVec S4096x4096 32) = hiW)
    (h7 : (X ρ(main_v7) : IVec S4096x4096 32) = loW) :
    (StableHlo.after hostOps0_2 X ρ(main_v26) : IVec S4096x4096 32) = offDiagW := by
  dsimp only [hostOps0_2]; after_results; rw [h17, h21, h12, h7]; rfl
theorem s2_c4 (X : Valuation τ sig (Elt F)) :
    (StableHlo.after hostOps0_2 X ρ(main_c_4) : IVec S_ 32) = constantI S_ 32 0#32 := by
  dsimp only [hostOps0_2]; after_results
theorem s2_frame (X : Valuation τ sig (Elt F)) (r : Ref sig .tc) (h : r ∉ hostOps0_2_W) :
    StableHlo.after hostOps0_2 X ρ(r) = X ρ(r) :=
  StableHlo.after_of_writes_sub hostOps0_2 X hostOps0_2_writes h

/-! ## Stretch 3: zero on the diagonal -/

set_option maxHeartbeats 2000000 in
theorem s3_v27 (X : Valuation τ sig (Elt F)) (h13 : (X ρ(main_v13) : IVec S4096x4096 1) = cmpi .eq loW hiW)
    (hc4 : (X ρ(main_c_4) : IVec S_ 32) = constantI S_ 32 0#32) (h26 : (X ρ(main_v26) : IVec S4096x4096 32) = offDiagW) :
    (StableHlo.after hostOps0_3 X ρ(main_v27) : IVec S4096x4096 32) = selW := by
  dsimp only [hostOps0_3]; after_results_simp; rw [h13, hc4, h26]; rfl
theorem s3_frame (X : Valuation τ sig (Elt F)) (r : Ref sig .tc) (h : r ∉ hostOps0_3_W) :
    StableHlo.after hostOps0_3 X ρ(r) = X ρ(r) :=
  StableHlo.after_of_writes_sub hostOps0_3 X hostOps0_3_writes h

/-! ## Stretch 4: the gather, the mask, the masked adjacency, the degrees -/

section Stretch4
variable (X : Valuation τ sig (Elt F)) (a1 : FVec F S8386560 .f32) (a2 : FVec F S4096x4096 .f32)

set_option maxHeartbeats 2000000 in
theorem s4_v40 (h27 : (X ρ(main_v27) : IVec S4096x4096 32) = selW) (h1 : (X ρ(main_v1) : FVec F S8386561 .f32) = vecpad a1) :
    (StableHlo.after hostOps0_4 X ρ(main_v40) : FVec F S4096x4096 .f32) = pK a1 := by
  dsimp only [hostOps0_4]; after_results_simp; rw [h27, h1]; rfl
set_option maxHeartbeats 2000000 in
theorem s4_v41 (h27 : (X ρ(main_v27) : IVec S4096x4096 32) = selW) (h1 : (X ρ(main_v1) : FVec F S8386561 .f32) = vecpad a1)
    (h2 : (X ρ(main_arg2) : FVec F S4096x4096 .f32) = a2) :
    (StableHlo.after hostOps0_4 X ρ(main_v41) : FVec F S4096x4096 .f32) = adjK (pK a1) a2 := by
  dsimp only [hostOps0_4]; after_results_simp; rw [h27, h1, h2]; rfl
set_option maxHeartbeats 2000000 in
theorem s4_v46 (h27 : (X ρ(main_v27) : IVec S4096x4096 32) = selW) (h1 : (X ρ(main_v1) : FVec F S8386561 .f32) = vecpad a1)
    (h2 : (X ρ(main_arg2) : FVec F S4096x4096 .f32) = a2) :
    (StableHlo.after hostOps0_4 X ρ(main_v46) : IVec S4096 1) = cmpf .ogt (degK (pK a1) a2) (broadcastInDim S4096 ![] Facts₀.bcast_S_S4096 (constant S_ .f32 0x00000000#32)) := by
  dsimp only [hostOps0_4]; after_results_simp; rw [h27, h1, h2]; rfl
set_option maxHeartbeats 2000000 in
theorem s4_v47 (h27 : (X ρ(main_v27) : IVec S4096x4096 32) = selW) (h1 : (X ρ(main_v1) : FVec F S8386561 .f32) = vecpad a1)
    (h2 : (X ρ(main_arg2) : FVec F S4096x4096 .f32) = a2) :
    (StableHlo.after hostOps0_4 X ρ(main_v47) : FVec F S4096 .f32) = Host.rsqrt (degK (pK a1) a2) := by
  dsimp only [hostOps0_4]; after_results_simp; rw [h27, h1, h2]; rfl
theorem s4_cst12 : (StableHlo.after hostOps0_4 X ρ(main_cst_12) : FVec F S_ .f32) = constant S_ .f32 0x00000000#32 := by
  dsimp only [hostOps0_4]; after_results_simp
theorem s4_frame (r : Ref sig .tc) (h : r ∉ hostOps0_4_W) : StableHlo.after hostOps0_4 X ρ(r) = X ρ(r) :=
  StableHlo.after_of_writes_sub hostOps0_4 X hostOps0_4_writes h

end Stretch4

/-! ## Stretch 5: the inverse square roots of the degrees -/

set_option maxHeartbeats 2000000 in
theorem s5_v48 (X : Valuation τ sig (Elt F)) (P a2 : FVec F S4096x4096 .f32)
    (h46 : (X ρ(main_v46) : IVec S4096 1) = cmpf .ogt (degK P a2) (broadcastInDim S4096 ![] Facts₀.bcast_S_S4096 (constant S_ .f32 0x00000000#32)))
    (h47 : (X ρ(main_v47) : FVec F S4096 .f32) = Host.rsqrt (degK P a2))
    (hc : (X ρ(main_cst_12) : FVec F S_ .f32) = constant S_ .f32 0x00000000#32) :
    (StableHlo.after hostOps0_5 X ρ(main_v48) : FVec F S4096 .f32) = dinvK P a2 := by
  dsimp only [hostOps0_5]; after_results_simp; rw [h46, h47, hc]; rfl
theorem s5_frame (X : Valuation τ sig (Elt F)) (r : Ref sig .tc) (h : r ∉ hostOps0_5_W) :
    StableHlo.after hostOps0_5 X ρ(r) = X ρ(r) :=
  StableHlo.after_of_writes_sub hostOps0_5 X hostOps0_5_writes h

/-! ## Stretch 6: the self loops, the scaled feature product, the first bias row -/

section Stretch6
variable (X : Valuation τ sig (Elt F)) (P a2 : FVec F S4096x4096 .f32)

theorem s6_v55 (h41 : (X ρ(main_v41) : FVec F S4096x4096 .f32) = adjK P a2) :
    (StableHlo.after hostOps0_6 X ρ(main_v55) : FVec F S4096x4096 .f32) = aK P a2 := by
  dsimp only [hostOps0_6]; after_results_simp; rw [h41]; rfl
theorem s6_v59 (a0 : FVec F S4096x512 .f32) (a3 : FVec F S512x256 .f32) (h48 : (X ρ(main_v48) : FVec F S4096 .f32) = dinvK P a2)
    (h0 : (X ρ(main_arg0) : FVec F S4096x512 .f32) = a0) (h3 : (X ρ(main_arg3) : FVec F S512x256 .f32) = a3) :
    (StableHlo.after hostOps0_6 X ρ(main_v59) : FVec F S4096x256 .f32) = zK a0 P a2 a3 := by
  dsimp only [hostOps0_6]; after_results_simp; rw [h48, h0, h3]; rfl
theorem s6_v60 (a4 : FVec F S256 .f32) (h4 : (X ρ(main_arg4) : FVec F S256 .f32) = a4) :
    (StableHlo.after hostOps0_6 X ρ(main_v60) : FVec F S1x256 .f32) = b1rK a4 := by
  dsimp only [hostOps0_6]; after_results_simp; rw [h4]; rfl
theorem s6_frame (r : Ref sig .tc) (h : r ∉ hostOps0_6_W) : StableHlo.after hostOps0_6 X ρ(r) = X ρ(r) :=
  StableHlo.after_of_writes_sub hostOps0_6 X hostOps0_6_writes h

end Stretch6

/-! ## The seven stretches before the first region, chained -/

section Chain
variable (X : Valuation τ sig (Elt F))

/-- The buffer contents after the first stretch, the first two, …, all seven. -/
abbrev Y1 : Valuation τ sig (Elt F) := StableHlo.after hostOps0 X
abbrev Y2 : Valuation τ sig (Elt F) := StableHlo.after hostOps0_1 (Y1 X)
abbrev Y3 : Valuation τ sig (Elt F) := StableHlo.after hostOps0_2 (Y2 X)
abbrev Y4 : Valuation τ sig (Elt F) := StableHlo.after hostOps0_3 (Y3 X)
abbrev Y5 : Valuation τ sig (Elt F) := StableHlo.after hostOps0_4 (Y4 X)
abbrev Y6 : Valuation τ sig (Elt F) := StableHlo.after hostOps0_5 (Y5 X)
abbrev Y7 : Valuation τ sig (Elt F) := StableHlo.after hostOps0_6 (Y6 X)

theorem Y7_eq : Y7 X = StableHlo.after hostOps0_6 (StableHlo.after hostOps0_5 (StableHlo.after hostOps0_4
    (StableHlo.after hostOps0_3 (StableHlo.after hostOps0_2 (StableHlo.after hostOps0_1 (StableHlo.after hostOps0 X)))))) := rfl

/-! After two stretches -/
theorem Y2_v21 : (Y2 X ρ(main_v21) : IVec S4096x4096 32) = halfW := s1_v21 (Y1 X) (s0_v20 X) (s0_c2 X)
theorem Y2_v17 : (Y2 X ρ(main_v17) : IVec S4096x4096 32) = addi (bcW 1#32) (muli loW (bcW 4095#32)) :=
  (s1_frame (Y1 X) main_v17 (by decide)).trans (s0_v17 X)
theorem Y2_v12 : (Y2 X ρ(main_v12) : IVec S4096x4096 32) = hiW := (s1_frame (Y1 X) main_v12 (by decide)).trans (s0_v12 X)
theorem Y2_v7 : (Y2 X ρ(main_v7) : IVec S4096x4096 32) = loW := (s1_frame (Y1 X) main_v7 (by decide)).trans (s0_v7 X)
theorem Y2_v13 : (Y2 X ρ(main_v13) : IVec S4096x4096 1) = cmpi .eq loW hiW :=
  (s1_frame (Y1 X) main_v13 (by decide)).trans (s0_v13 X)
theorem Y2_v1 : (Y2 X ρ(main_v1) : FVec F S8386561 .f32) = vecpad (X ρ(main_arg1)) :=
  (s1_frame (Y1 X) main_v1 (by decide)).trans (s0_v1 X)

/-! After three -/
theorem Y3_v26 : (Y3 X ρ(main_v26) : IVec S4096x4096 32) = offDiagW := s2_v26 (Y2 X) (Y2_v17 X) (Y2_v21 X) (Y2_v12 X) (Y2_v7 X)
theorem Y3_c4 : (Y3 X ρ(main_c_4) : IVec S_ 32) = constantI S_ 32 0#32 := s2_c4 (Y2 X)
theorem Y3_v13 : (Y3 X ρ(main_v13) : IVec S4096x4096 1) = cmpi .eq loW hiW :=
  (s2_frame (Y2 X) main_v13 (by decide)).trans (Y2_v13 X)
theorem Y3_v1 : (Y3 X ρ(main_v1) : FVec F S8386561 .f32) = vecpad (X ρ(main_arg1)) :=
  (s2_frame (Y2 X) main_v1 (by decide)).trans (Y2_v1 X)

/-! After four -/
theorem Y4_v27 : (Y4 X ρ(main_v27) : IVec S4096x4096 32) = selW := s3_v27 (Y3 X) (Y3_v13 X) (Y3_c4 X) (Y3_v26 X)
theorem Y4_v1 : (Y4 X ρ(main_v1) : FVec F S8386561 .f32) = vecpad (X ρ(main_arg1)) :=
  (s3_frame (Y3 X) main_v1 (by decide)).trans (Y3_v1 X)
theorem Y4_frame (r : Ref sig .tc) (h0 : r ∉ hostOps0_W) (h1 : r ∉ hostOps0_1_W) (h2 : r ∉ hostOps0_2_W)
    (h3 : r ∉ hostOps0_3_W) : Y4 X ρ(r) = X ρ(r) :=
  (s3_frame (Y3 X) r h3).trans ((s2_frame (Y2 X) r h2).trans ((s1_frame (Y1 X) r h1).trans (s0_frame X r h0)))

/-! After five -/
theorem Y5_v40 : (Y5 X ρ(main_v40) : FVec F S4096x4096 .f32) = pK (X ρ(main_arg1)) := s4_v40 (Y4 X) _ (Y4_v27 X) (Y4_v1 X)
theorem Y5_v41 : (Y5 X ρ(main_v41) : FVec F S4096x4096 .f32) = adjK (pK (X ρ(main_arg1))) (X ρ(main_arg2)) :=
  s4_v41 (Y4 X) _ _ (Y4_v27 X) (Y4_v1 X) (Y4_frame X main_arg2 (by decide) (by decide) (by decide) (by decide))
theorem Y5_v46 : (Y5 X ρ(main_v46) : IVec S4096 1)
    = cmpf .ogt (degK (pK (X ρ(main_arg1))) (X ρ(main_arg2))) (broadcastInDim S4096 ![] Facts₀.bcast_S_S4096 (constant S_ .f32 0x00000000#32)) :=
  s4_v46 (Y4 X) _ _ (Y4_v27 X) (Y4_v1 X) (Y4_frame X main_arg2 (by decide) (by decide) (by decide) (by decide))
theorem Y5_v47 : (Y5 X ρ(main_v47) : FVec F S4096 .f32) = Host.rsqrt (degK (pK (X ρ(main_arg1))) (X ρ(main_arg2))) :=
  s4_v47 (Y4 X) _ _ (Y4_v27 X) (Y4_v1 X) (Y4_frame X main_arg2 (by decide) (by decide) (by decide) (by decide))
theorem Y5_cst12 : (Y5 X ρ(main_cst_12) : FVec F S_ .f32) = constant S_ .f32 0x00000000#32 := s4_cst12 (Y4 X)
theorem Y5_frame (r : Ref sig .tc) (h0 : r ∉ hostOps0_W) (h1 : r ∉ hostOps0_1_W) (h2 : r ∉ hostOps0_2_W)
    (h3 : r ∉ hostOps0_3_W) (h4 : r ∉ hostOps0_4_W) : Y5 X ρ(r) = X ρ(r) :=
  (s4_frame (Y4 X) r h4).trans (Y4_frame X r h0 h1 h2 h3)

/-! After six -/
theorem Y6_v48 : (Y6 X ρ(main_v48) : FVec F S4096 .f32) = dinvK (pK (X ρ(main_arg1))) (X ρ(main_arg2)) :=
  s5_v48 (Y5 X) _ _ (Y5_v46 X) (Y5_v47 X) (Y5_cst12 X)
theorem Y6_v41 : (Y6 X ρ(main_v41) : FVec F S4096x4096 .f32) = adjK (pK (X ρ(main_arg1))) (X ρ(main_arg2)) :=
  (s5_frame (Y5 X) main_v41 (by decide)).trans (Y5_v41 X)
theorem Y6_v40 : (Y6 X ρ(main_v40) : FVec F S4096x4096 .f32) = pK (X ρ(main_arg1)) := (s5_frame (Y5 X) main_v40 (by decide)).trans (Y5_v40 X)
theorem Y6_frame (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) : Y6 X ρ(r) = X ρ(r) :=
  (s5_frame (Y5 X) r h5).trans (Y5_frame X r h0 h1 h2 h3 h4)

/-! ## What the seven stretches leave for the first region -/

/-- The edge mask (the program's second result). -/
theorem Y7_v40 : (Y7 X ρ(main_v40) : FVec F S4096x4096 .f32) = pK (X ρ(main_arg1)) := (s6_frame (Y6 X) main_v40 (by decide)).trans (Y6_v40 X)
/-- The adjacency with self loops. -/
theorem Y7_v55 : (Y7 X ρ(main_v55) : FVec F S4096x4096 .f32) = aK (pK (X ρ(main_arg1))) (X ρ(main_arg2)) := s6_v55 (Y6 X) _ _ (Y6_v41 X)
/-- The scaled feature product. -/
theorem Y7_v59 : (Y7 X ρ(main_v59) : FVec F S4096x256 .f32) = zK (X ρ(main_arg0)) (pK (X ρ(main_arg1))) (X ρ(main_arg2)) (X ρ(main_arg3)) :=
  s6_v59 (Y6 X) _ _ _ _ (Y6_v48 X) (Y6_frame X main_arg0 (by decide) (by decide) (by decide) (by decide) (by decide) (by decide)) (Y6_frame X main_arg3 (by decide) (by decide) (by decide) (by decide) (by decide) (by decide))
/-- The first bias row. -/
theorem Y7_v60 : (Y7 X ρ(main_v60) : FVec F S1x256 .f32) = b1rK (X ρ(main_arg4)) :=
  s6_v60 (Y6 X) _ (Y6_frame X main_arg4 (by decide) (by decide) (by decide) (by decide) (by decide) (by decide))
/-- The inverse square roots of the degrees. -/
theorem Y7_v48 : (Y7 X ρ(main_v48) : FVec F S4096 .f32) = dinvK (pK (X ρ(main_arg1))) (X ρ(main_arg2)) :=
  (s6_frame (Y6 X) main_v48 (by decide)).trans (Y6_v48 X)
/-- A buffer no stretch writes keeps its contents. -/
theorem Y7_frame (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    Y7 X ρ(r) = X ρ(r) :=
  (s6_frame (Y6 X) r h6).trans (Y6_frame X r h0 h1 h2 h3 h4 h5)
theorem Y7_arg0 : Y7 X ρ(main_arg0) = X ρ(main_arg0) := Y7_frame X main_arg0 (by decide) (by decide) (by decide) (by decide) (by decide) (by decide) (by decide)
theorem Y7_arg1 : Y7 X ρ(main_arg1) = X ρ(main_arg1) := Y7_frame X main_arg1 (by decide) (by decide) (by decide) (by decide) (by decide) (by decide) (by decide)
theorem Y7_arg2 : Y7 X ρ(main_arg2) = X ρ(main_arg2) := Y7_frame X main_arg2 (by decide) (by decide) (by decide) (by decide) (by decide) (by decide) (by decide)
theorem Y7_arg3 : Y7 X ρ(main_arg3) = X ρ(main_arg3) := Y7_frame X main_arg3 (by decide) (by decide) (by decide) (by decide) (by decide) (by decide) (by decide)
theorem Y7_arg4 : Y7 X ρ(main_arg4) = X ρ(main_arg4) := Y7_frame X main_arg4 (by decide) (by decide) (by decide) (by decide) (by decide) (by decide) (by decide)
theorem Y7_arg5 : Y7 X ρ(main_arg5) = X ρ(main_arg5) := Y7_frame X main_arg5 (by decide) (by decide) (by decide) (by decide) (by decide) (by decide) (by decide)
theorem Y7_arg6 : Y7 X ρ(main_arg6) = X ρ(main_arg6) := Y7_frame X main_arg6 (by decide) (by decide) (by decide) (by decide) (by decide) (by decide) (by decide)

end Chain

/-! ## The stretch between the two regions: the second bias row -/

section Host1
variable (Z : Valuation τ sig (Elt F))

theorem host1_v62 : (StableHlo.after hostOps1 Z ρ(main_v62) : FVec F S1x32 .f32) = b2rK (Z ρ(main_arg6)) := by
  dsimp only [hostOps1]; after_results_simp; rfl
theorem host1_frame (r : Ref sig .tc) (h : r ∉ hostOps1_W) : StableHlo.after hostOps1 Z ρ(r) = Z ρ(r) :=
  StableHlo.after_of_writes_sub hostOps1 Z hostOps1_writes h
theorem host1_v55 : StableHlo.after hostOps1 Z ρ(main_v55) = Z ρ(main_v55) := host1_frame Z main_v55 (by decide)
theorem host1_v61 : StableHlo.after hostOps1 Z ρ(main_v61) = Z ρ(main_v61) := host1_frame Z main_v61 (by decide)
theorem host1_v48 : StableHlo.after hostOps1 Z ρ(main_v48) = Z ρ(main_v48) := host1_frame Z main_v48 (by decide)

end Host1

end Cert.KernelIdeal.Hand

end
-- ==== Proof.KValue.lean ====
/-
  The kernel's program: its two results as functions of the arguments.

  The second region's result array is the second layer's function of the arrays it reads (its proof data's
  final contents), of which the first layer's result is the first region's function of the arrays IT reads, and
  all of those the host stages of the arguments; the edge mask is the host's. So the first result is
  `outK g0 g1` of the arguments and the edge mask, and the second the edge mask `pK` itself.
-/
import proofs.«102345_g84920093377258_cont_9to1c4b_501_3_alg».proof.Proof.KRun
import proofs.«102345_g84920093377258_cont_9to1c4b_501_3_alg».proof.Proof.KStages
import proofs.«102345_g84920093377258_cont_9to1c4b_501_3_alg».proof.Proof.KSpec
import proofs.«102345_g84920093377258_cont_9to1c4b_501_3_alg».proof.Proof.KVal0
import proofs.«102345_g84920093377258_cont_9to1c4b_501_3_alg».proof.Proof.KVal1
import proofs.«102345_g84920093377258_cont_9to1c4b_501_3_alg».proof.Proof.KHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The valuation at the first region's entry is the host stretches' fold over the launch memory. -/
theorem W7_eq (c : Dev nD) : W7 m ρ c = Y7 (W0 m ρ c) := rfl

theorem W0_apply (c : Dev nD) (b : Ref sig .tc) : W0 m ρ c (Proc.devRef .tc b) = m ((c : Thread nD τ).loc b) := rfl

/-- The second region reads the adjacency the host computed: the first region and the host operation between leave it. -/
theorem U9_v55 (c : Dev nD) : W9 m ρ c (Proc.devRef .tc main_v55) = W7 m ρ c (Proc.devRef .tc main_v55) :=
  (host1_v55 (W8 m ρ c)).trans ((W8_arr m ρ c 0).trans (((dat0 (U7 m ρ) c).arrAt_in 0 rfl _).trans (A_eq0 (U7 m ρ) c 0)))
theorem U9_v48 (c : Dev nD) : W9 m ρ c (Proc.devRef .tc main_v48) = W7 m ρ c (Proc.devRef .tc main_v48) :=
  (host1_v48 (W8 m ρ c)).trans ((W8_arr m ρ c 4).trans (((dat0 (U7 m ρ) c).arrAt_in 4 rfl _).trans (A_eq0 (U7 m ρ) c 4)))
/-- …and the first region's result. -/
theorem U9_v61 (c : Dev nD) : W9 m ρ c (Proc.devRef .tc main_v61) = (dat0 (U7 m ρ) c).arrAt 5 cfg0.N :=
  (host1_v61 (W8 m ρ c)).trans (W8_arr m ρ c 5)
theorem W8_arg6 (c : Dev nD) : W8 m ρ c (Proc.devRef .tc main_arg6) = m ((c : Thread nD τ).loc main_arg6) :=
  (W8_of_ne m ρ c main_arg6 (by decide)).trans ((congrFun (W7_eq m ρ c) _).trans ((Y7_arg6 (W0 m ρ c)).trans (W0_apply m ρ c main_arg6)))

/-- The first result. -/
theorem val63 (c : Dev nD) :
    (dat1 (U9 m ρ) c).arrAt 4 cfg1.N
      = outK g0 g1 (m ((c : Thread nD τ).loc main_arg0)) (pK (m ((c : Thread nD τ).loc main_arg1))) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [arr1_eq]
  unfold outK
  have e55 : U9 m ρ c main_v55 = aK (pK (m ((c : Thread nD τ).loc main_arg1))) (m ((c : Thread nD τ).loc main_arg2)) :=
    (U9_v55 m ρ c).trans ((congrFun (W7_eq m ρ c) _).trans (Y7_v55 (W0 m ρ c)))
  have e48 : U9 m ρ c main_v48 = dinvK (pK (m ((c : Thread nD τ).loc main_arg1))) (m ((c : Thread nD τ).loc main_arg2)) :=
    (U9_v48 m ρ c).trans ((congrFun (W7_eq m ρ c) _).trans (Y7_v48 (W0 m ρ c)))
  have e62 : U9 m ρ c main_v62 = b2rK (m ((c : Thread nD τ).loc main_arg6)) :=
    (host1_v62 (W8 m ρ c)).trans (congrArg b2rK (W8_arg6 m ρ c))
  have e61 : U9 m ρ c main_v61
      = g0 (aK (pK (m ((c : Thread nD τ).loc main_arg1))) (m ((c : Thread nD τ).loc main_arg2)))
          (zK (m ((c : Thread nD τ).loc main_arg0)) (pK (m ((c : Thread nD τ).loc main_arg1))) (m ((c : Thread nD τ).loc main_arg2)) (m ((c : Thread nD τ).loc main_arg3)))
          (b1rK (m ((c : Thread nD τ).loc main_arg4))) (m ((c : Thread nD τ).loc main_arg5))
          (dinvK (pK (m ((c : Thread nD τ).loc main_arg1))) (m ((c : Thread nD τ).loc main_arg2))) := by
    refine (U9_v61 m ρ c).trans ((arr0_eq (U7 m ρ) c).trans ?_)
    have f55 : U7 m ρ c main_v55 = aK (pK (m ((c : Thread nD τ).loc main_arg1))) (m ((c : Thread nD τ).loc main_arg2)) :=
      (congrFun (W7_eq m ρ c) _).trans (Y7_v55 (W0 m ρ c))
    have f59 : U7 m ρ c main_v59 = zK (m ((c : Thread nD τ).loc main_arg0)) (pK (m ((c : Thread nD τ).loc main_arg1))) (m ((c : Thread nD τ).loc main_arg2)) (m ((c : Thread nD τ).loc main_arg3)) :=
      (congrFun (W7_eq m ρ c) _).trans (Y7_v59 (W0 m ρ c))
    have f60 : U7 m ρ c main_v60 = b1rK (m ((c : Thread nD τ).loc main_arg4)) :=
      (congrFun (W7_eq m ρ c) _).trans (Y7_v60 (W0 m ρ c))
    have f5 : U7 m ρ c main_arg5 = m ((c : Thread nD τ).loc main_arg5) :=
      (congrFun (W7_eq m ρ c) _).trans (Y7_arg5 (W0 m ρ c))
    have f48 : U7 m ρ c main_v48 = dinvK (pK (m ((c : Thread nD τ).loc main_arg1))) (m ((c : Thread nD τ).loc main_arg2)) :=
      (congrFun (W7_eq m ρ c) _).trans (Y7_v48 (W0 m ρ c))
    rw [f55, f59, f60, f5, f48]
  rw [e55, e61, e62, e48]

/-- The second result: the edge mask. -/
theorem val40 (c : Dev nD) : W7 m ρ c (Proc.devRef .tc main_v40) = pK (m ((c : Thread nD τ).loc main_arg1)) :=
  (congrFun (W7_eq m ρ c) _).trans (Y7_v40 (W0 m ρ c))

/-- The run with its results named. -/
theorem run_value : θ_run defs (onTc (τ := τ) (main (F := F))) ⟨m, fun _ => 0, ρ⟩ (fun r => ∀ c : Dev nD,
      r.2.mem ((c.tc : Thread nD τ).loc main_v63)
        = outK g0 g1 (m ((c : Thread nD τ).loc main_arg0)) (pK (m ((c : Thread nD τ).loc main_arg1))) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_v40) = pK (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (val63 m ρ c), (h c).2.1.trans (val40 m ρ c), (h c).2.2⟩) (run_main m ρ)

end Cert.KernelIdeal.Hand

end
-- ==== Proof.RefStages.lean ====
/-
  The reference program's values as pure functions, stage by stage.

  Each definition is the composition of exactly the array operations the printed reference applies,
  in the printed order and with the printed operand order, so that the contents a run leaves in a
  value's buffer is the definition applied to the contents of the buffers it reads.  A definition
  whose name ends in "Of" is one step: the value as a function of the values it is computed from.
  The definition without the suffix is the step applied to the earlier stages, down to the argument
  arrays.  The stages before the first use of an argument are constants; they still mention the float
  values through one comparison of two float constants (the strict-upper-triangle mask), which is
  why they take the float carrier as an explicit argument.
-/
import proofs.«102345_g84920093377258_cont_9to1c4b_501_3_alg».proof.ReferenceIdeal

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F] [Facts]

/-! ## The outlined functions, as functions of their operands -/

/-- Zero on and below the diagonal, the operand strictly above it: the select of a zero array where
    row index ≥ column index. -/
def triu (x : FVec F S4096x4096 .f32) : FVec F S4096x4096 .f32 :=
  select
    (cmpi .sge
      (addi (iotaInDim S4096x4096 32 0) (broadcastInDim S4096x4096 ![] bcast_S_S4096x4096 (constantI S_ 32 0#32)))
      (iotaInDim S4096x4096 32 1))
    (broadcastInDim S4096x4096 ![] bcast_S_S4096x4096 (constant S_ .f32 0x00000000#32))
    x

/-- Running sum of a vector of 16777216 words: the padded sliding-window sum. -/
def cumsumA (x : IVec S16777216 32) : IVec S16777216 32 :=
  Host.reduceWindow IntOp.addi ![16777216] ![1] ![16777215] ![0] x
    (broadcastInDim S_ ![] bcast_S_S_ (constantI S_ 32 0#32))
    reduceWindows_S16777216_S16777216_w16777216s1p16777215_0 h_S_

/-- Running sum of a vector of 8386560 words. -/
def cumsumB (x : IVec S8386560 32) : IVec S8386560 32 :=
  Host.reduceWindow IntOp.addi ![8386560] ![1] ![8386559] ![0] x
    (broadcastInDim S_ ![] bcast_S_S_ (constantI S_ 32 0#32))
    reduceWindows_S8386560_S8386560_w8386560s1p8386559_0 h_S_

/-- Elementwise maximum with a scalar lower bound. -/
def clipLo (x : IVec S16777216 32) (lo : IVec S_ 32) : IVec S16777216 32 :=
  maxsi (broadcastInDim S16777216 ![] bcast_S_S16777216 lo) x

/-- Floor division of each word by a scalar: the truncated quotient, less one where the signs differ
    and the remainder is not zero. -/
def floorDivide (x : IVec S8386560 32) (d : IVec S_ 32) : IVec S8386560 32 :=
  select
    (andi
      (cmpi .ne (signi x) (broadcastInDim S8386560 ![] bcast_S_S8386560 (signi d)))
      (cmpi .ne (Host.remsi x (broadcastInDim S8386560 ![] bcast_S_S8386560 d))
        (broadcastInDim S8386560 ![] bcast_S_S8386560 (constantI S_ 32 0#32))))
    (subi (Host.divsi x (broadcastInDim S8386560 ![] bcast_S_S8386560 d))
      (broadcastInDim S8386560 ![] bcast_S_S8386560 (constantI S_ 32 1#32)))
    (Host.divsi x (broadcastInDim S8386560 ![] bcast_S_S8386560 d))

/-- The scalar divisor the remainder uses: one in place of zero. -/
def safeDivisor (d : IVec S_ 32) : IVec S_ 32 :=
  select (cmpi .eq d (constantI S_ 32 0#32)) (constantI S_ 32 1#32) d

/-- The truncated remainder of each word by the (safe) scalar divisor. -/
def truncRem (x : IVec S8386560 32) (d : IVec S_ 32) : IVec S8386560 32 :=
  Host.remsi x (broadcastInDim S8386560 ![] bcast_S_S8386560 (safeDivisor d))

/-- Remainder with the sign of the divisor: the truncated remainder, plus the divisor where it is
    non-zero and of the other sign. -/
def remainder (x : IVec S8386560 32) (d : IVec S_ 32) : IVec S8386560 32 :=
  select
    (andi
      (cmpi .ne
        (cmpi .slt (truncRem x d) (broadcastInDim S8386560 ![] bcast_S_S8386560 (constantI S_ 32 0#32)))
        (broadcastInDim S8386560 ![] bcast_S_S8386560 (cmpi .slt (safeDivisor d) (constantI S_ 32 0#32))))
      (cmpi .ne (truncRem x d) (broadcastInDim S8386560 ![] bcast_S_S8386560 (constantI S_ 32 0#32))))
    (addi (truncRem x d) (broadcastInDim S8386560 ![] bcast_S_S8386560 (safeDivisor d)))
    (truncRem x d)

/-- Elementwise maximum with zero. -/
def relu (x : FVec F S4096x256 .f32) : FVec F S4096x256 .f32 :=
  maximumf x (broadcastInDim S4096x256 ![] bcast_S_S4096x256 (constant S_ .f32 0x00000000#32))

/-- Select against a broadcast scalar alternative. -/
def whereScalar (c : IVec S4096 1) (a : FVec F S4096 .f32) (b : FVec F S_ .f32) : FVec F S4096 .f32 :=
  select c a (broadcastInDim S4096 ![] bcast_S_S4096 b)

/-- A negative index wrapped once by 4096. -/
def wrapNeg (x : IVec S8386560 32) : IVec S8386560 32 :=
  select (cmpi .slt x (broadcastInDim S8386560 ![] bcast_S_S8386560 (constantI S_ 32 0#32)))
    (addi x (broadcastInDim S8386560 ![] bcast_S_S8386560 (constantI S_ 32 4096#32)))
    x

/-! ## The constant (argument-free) stages -/

section Consts
variable (F)

/-- The 4096×4096 array of ones. -/
def onesSq : FVec F S4096x4096 .f32 :=
  broadcastInDim S4096x4096 ![] bcast_S_S4096x4096 (constant S_ .f32 0x3F800000#32)

/-- The 4096×4096 array of zeros. -/
def zerosSq : FVec F S4096x4096 .f32 :=
  broadcastInDim S4096x4096 ![] bcast_S_S4096x4096 (constant S_ .f32 0x00000000#32)

/-- Value %3: the mask of the strict upper triangle, as "ones above the diagonal ≠ 0". -/
def triMask : IVec S4096x4096 1 :=
  cmpf .une (triu (onesSq F)) (zerosSq F)

end Consts

/-- Value %4 from %3: the running count of mask bits in row-major order. -/
def cum1Of (t : IVec S4096x4096 1) : IVec S16777216 32 :=
  cumsumA (extui 32 (shapeCast S16777216 t shapeCasts_S4096x4096_S16777216) natLt_1_32)

/-- Values %6 and %11 from %4: the count clipped below at zero, then a negative one wrapped by 8386560. -/
def binOf (c : IVec S16777216 32) : IVec S16777216 32 :=
  select
    (cmpi .slt (clipLo c (constantI S_ 32 0#32)) (broadcastInDim S16777216 ![] bcast_S_S16777216 (constantI S_ 32 0#32)))
    (addi (clipLo c (constantI S_ 32 0#32)) (broadcastInDim S16777216 ![] bcast_S_S16777216 (constantI S_ 32 8386560#32)))
    (clipLo c (constantI S_ 32 0#32))

/-- Value %14 from %4: how many positions fall in each of the 8386560 bins (a scatter-add of ones). -/
def histOf (c : IVec S16777216 32) : IVec S8386560 32 :=
  Host.scatter scatter_S8386560_S16777216x1_S16777216_n_0_0_1 IntOp.addi
    (broadcastInDim S8386560 ![] bcast_S_S8386560 (constantI S_ 32 0#32))
    (broadcastInDim S16777216x1 ![0] bcast_S16777216_S16777216x1_0 (binOf c))
    (broadcastInDim S16777216 ![] bcast_S_S16777216 (constantI S_ 32 1#32))

/-- Value %25 from %15: the row of each flat position, ⌊p / 4096⌋ mod 4096, a negative one wrapped. -/
def rowIdxOf (fl : IVec S8386560 32) : IVec S8386560 32 :=
  wrapNeg (remainder (floorDivide fl (constantI S_ 32 4096#32)) (constantI S_ 32 4096#32))

/-- Value %30 from %15: the column of each flat position, ⌊p / 1⌋ mod 4096, a negative one wrapped. -/
def colIdxOf (fl : IVec S8386560 32) : IVec S8386560 32 :=
  wrapNeg (remainder (floorDivide fl (constantI S_ 32 1#32)) (constantI S_ 32 4096#32))

/-- Value %33 from %25 and %30: the (row, column) pairs, one per update. -/
def idxPairsOf (r c : IVec S8386560 32) : IVec S8386560x2 32 :=
  concatenate S8386560x2 1
    [⟨S8386560x1, broadcastInDim S8386560x1 ![0] bcast_S8386560_S8386560x1_0 r⟩,
     ⟨S8386560x1, broadcastInDim S8386560x1 ![0] bcast_S8386560_S8386560x1_0 c⟩]
    concatenates_S8386560x1_S8386560x1_S8386560x2_d1

section Consts
variable (F)

/-- Value %4. -/
def cum1 : IVec S16777216 32 := cum1Of (triMask F)
/-- Value %14. -/
def hist : IVec S8386560 32 := histOf (cum1 F)
/-- Value %15: the running sum of the histogram. -/
def flat : IVec S8386560 32 := cumsumB (hist F)
/-- Value %25. -/
def rowIdx : IVec S8386560 32 := rowIdxOf (flat F)
/-- Value %30. -/
def colIdx : IVec S8386560 32 := colIdxOf (flat F)
/-- Value %33. -/
def idxPairs : IVec S8386560x2 32 := idxPairsOf (rowIdx F) (colIdx F)

end Consts

/-! ## The stages that read the arguments -/

/-- Value %34 from %33 and argument 1: the zero matrix with each update written at its pair. -/
def scatOf (ix : IVec S8386560x2 32) (a1 : FVec F S8386560 .f32) : FVec F S4096x4096 .f32 :=
  Host.scatter scatter_S4096x4096_S8386560x2_S8386560_n_01_01_1 (fun _ b => b) (zerosSq F) ix a1

/-- Value %36 from %34: the matrix plus its transpose. -/
def msymOf (s : FVec F S4096x4096 .f32) : FVec F S4096x4096 .f32 :=
  addf s (transpose S4096x4096 [1, 0] s transposes_S4096x4096_S4096x4096_1_0)

/-- Value %42 from %36: the logistic function 1 / (1 + exp (−x)), elementwise. -/
def pUsedOf (ms : FVec F S4096x4096 .f32) : FVec F S4096x4096 .f32 :=
  Host.divf (onesSq F) (addf (onesSq F) (Host.exp (Host.negf ms)))

/-- Value %43 from %42 and argument 2: the elementwise product. -/
def adjOf (p a2 : FVec F S4096x4096 .f32) : FVec F S4096x4096 .f32 :=
  mulf p a2

section Consts
variable (F)
/-- Value %49: the identity matrix, as the float of "row index = column index". -/
def eye : FVec F S4096x4096 .f32 :=
  uitofp .f32
    (cmpi .eq
      (addi (iotaInDim S4096x4096 32 0) (broadcastInDim S4096x4096 ![] bcast_S_S4096x4096 (constantI S_ 32 0#32)))
      (iotaInDim S4096x4096 32 1))
end Consts

/-- Value %50 from %43: plus the identity. -/
def adjIOf (a : FVec F S4096x4096 .f32) : FVec F S4096x4096 .f32 :=
  addf a (eye F)

/-- Value %51 from %50: the row sums. -/
def degOf (ai : FVec F S4096x4096 .f32) : FVec F S4096 .f32 :=
  Host.reduceAdd ai (constant S_ .f32 0x00000000#32) reducesTo_S4096x4096_S4096_d1 h_S_

/-- Value %57 from %51: 1 / √d where d > 0, else 0. -/
def dinvOf (d : FVec F S4096 .f32) : FVec F S4096 .f32 :=
  whereScalar
    (cmpf .ogt d (broadcastInDim S4096 ![] bcast_S_S4096 (constant S_ .f32 0x00000000#32)))
    (Host.divf (broadcastInDim S4096 ![] bcast_S_S4096 (constant S_ .f32 0x3F800000#32)) (Host.sqrt d))
    (constant S_ .f32 0x00000000#32)

/-- Value %63 from %57 and %50: rows then columns scaled, (dᵢ · aᵢⱼ) · dⱼ. -/
def ahatOf (dv : FVec F S4096 .f32) (ai : FVec F S4096x4096 .f32) : FVec F S4096x4096 .f32 :=
  mulf
    (mulf
      (broadcastInDim S4096x4096 ![0, 1] bcast_S4096x1_S4096x4096_0_1 (broadcastInDim S4096x1 ![0] bcast_S4096_S4096x1_0 dv))
      ai)
    (broadcastInDim S4096x4096 ![0, 1] bcast_S1x4096_S4096x4096_0_1 (broadcastInDim S1x4096 ![1] bcast_S4096_S1x4096_1 dv))

/-- Value %64: argument 0 times argument 3. -/
def xw (a0 : FVec F S4096x512 .f32) (a3 : FVec F S512x256 .f32) : FVec F S4096x256 .f32 :=
  Host.dotGeneral dot_S4096x512_S512x256_S4096x256_1_0_0_1_n_n none a0 a3

/-- Value %69 from %63, %64 and argument 4: relu (Â · XW + b₁). -/
def hidOf (ah : FVec F S4096x4096 .f32) (x : FVec F S4096x256 .f32) (a4 : FVec F S256 .f32) : FVec F S4096x256 .f32 :=
  relu
    (addf (Host.dotGeneral dot_S4096x4096_S4096x256_S4096x256_1_0_0_1_n_n none ah x)
      (broadcastInDim S4096x256 ![0, 1] bcast_S1x256_S4096x256_0_1 (broadcastInDim S1x256 ![1] bcast_S256_S1x256_1 a4)))

/-- Value %74 from %63, %69 and arguments 5, 6: Â · (H · W₂) + b₂. -/
def resOf (ah : FVec F S4096x4096 .f32) (h : FVec F S4096x256 .f32) (a5 : FVec F S256x32 .f32) (a6 : FVec F S32 .f32) :
    FVec F S4096x32 .f32 :=
  addf
    (Host.dotGeneral dot_S4096x4096_S4096x32_S4096x32_1_0_0_1_n_n none ah
      (Host.dotGeneral dot_S4096x256_S256x32_S4096x32_1_0_0_1_n_n none h a5))
    (broadcastInDim S4096x32 ![0, 1] bcast_S1x32_S4096x32_0_1 (broadcastInDim S1x32 ![1] bcast_S32_S1x32_1 a6))

/-! ## The stages down to the argument arrays

The stages up to the second result (%42) are functions of argument 1.  The stages after it are
stated over an arbitrary 4096×4096 matrix P standing for %42, so that what is proved about them holds
for any such matrix; the program's values are these at P := pUsed (argument 1). -/

/-- Value %34. -/
def scat (a1 : FVec F S8386560 .f32) : FVec F S4096x4096 .f32 := scatOf (idxPairs F) a1
/-- Value %36. -/
def msym (a1 : FVec F S8386560 .f32) : FVec F S4096x4096 .f32 := msymOf (scat a1)
/-- Value %42 (the second result). -/
def pUsed (a1 : FVec F S8386560 .f32) : FVec F S4096x4096 .f32 := pUsedOf (msym a1)

/-- Value %43, over P for %42. -/
def adj (P a2 : FVec F S4096x4096 .f32) : FVec F S4096x4096 .f32 := adjOf P a2
/-- Value %50, over P for %42. -/
def adjI (P a2 : FVec F S4096x4096 .f32) : FVec F S4096x4096 .f32 := adjIOf (adj P a2)
/-- Value %51, over P for %42. -/
def deg (P a2 : FVec F S4096x4096 .f32) : FVec F S4096 .f32 := degOf (adjI P a2)
/-- Value %57, over P for %42. -/
def dinv (P a2 : FVec F S4096x4096 .f32) : FVec F S4096 .f32 := dinvOf (deg P a2)
/-- Value %63, over P for %42. -/
def ahat (P a2 : FVec F S4096x4096 .f32) : FVec F S4096x4096 .f32 :=
  ahatOf (dinv P a2) (adjI P a2)
/-- Value %69, over P for %42. -/
def hid (a0 : FVec F S4096x512 .f32) (P a2 : FVec F S4096x4096 .f32)
    (a3 : FVec F S512x256 .f32) (a4 : FVec F S256 .f32) : FVec F S4096x256 .f32 :=
  hidOf (ahat P a2) (xw a0 a3) a4
/-- Value %74 (the first result), over P for %42. -/
def res (a0 : FVec F S4096x512 .f32) (P a2 : FVec F S4096x4096 .f32)
    (a3 : FVec F S512x256 .f32) (a4 : FVec F S256 .f32) (a5 : FVec F S256x32 .f32) (a6 : FVec F S32 .f32) :
    FVec F S4096x32 .f32 :=
  resOf (ahat P a2) (hid a0 P a2 a3 a4) a5 a6

end Cert.ReferenceIdeal.Hand

end
-- ==== Proof.RefRunOps.lean ====
/-
  The reference program's @main as a list of its host operations, the calls of its outlined functions
  unfolded at their call sites over the calls' own buffers, in program order, in consecutive pieces that
  end where a value of interest is complete.  The program is that list run in order; every operation
  touches TensorCore buffers only; and each piece's list of written buffers is recorded, for telling
  which buffers a piece leaves alone.
-/
import proofs.«102345_g84920093377258_cont_9to1c4b_501_3_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The strict-upper-triangle mask: ones, zeroed on and below the diagonal, compared with zero. -/
abbrev ops1 : List (HloOp τ sig (Elt F)) :=
  [ StableHlo.nullary main_cst (constant S_ .f32 0x3F800000#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.TRef.nullary main_call0.v0 (iotaInDim S4096x4096 32 0),
    StableHlo.TRef.nullary main_call0.c (constantI S_ 32 0#32),
    StableHlo.TRef.unary main_call0.c main_call0.v1 (broadcastInDim S4096x4096 ![] bcast_S_S4096x4096),
    StableHlo.TRef.binary main_call0.v0 main_call0.v1 main_call0.v2 addi,
    StableHlo.TRef.nullary main_call0.v3 (iotaInDim S4096x4096 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S4096x4096 ![] bcast_S_S4096x4096),
    StableHlo.TRef.ternary main_call0.v4 main_call0.v5 (.of main_v0 : StableHlo.TRef sig ⟨S4096x4096, .f32⟩) main_call0.v6 select,
    StableHlo.nullary main_cst_0 (constant S_ .f32 0x00000000#32),
    StableHlo.unary main_cst_0 main_v2 (broadcastInDim S4096x4096 ![] bcast_S_S4096x4096 : (⟨S_, .f32⟩ : BufTy).Contents (Elt F) → (⟨S4096x4096, .f32⟩ : BufTy).Contents (Elt F)),
    StableHlo.binary main_v1 main_v2 main_v3 (cmpf .une : (⟨S4096x4096, .f32⟩ : BufTy).Contents (Elt F) → (⟨S4096x4096, .f32⟩ : BufTy).Contents (Elt F) → (⟨S4096x4096, .i1⟩ : BufTy).Contents (Elt F)) ]

/-- The running count of the mask's bits in row-major order. -/
abbrev ops2 : List (HloOp τ sig (Elt F)) :=
  [ StableHlo.TRef.reshape (.of main_v3 : StableHlo.TRef sig ⟨S4096x4096, .i1⟩) main_call1.v0 rfl shapeCasts_S4096x4096_S16777216,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![16777216] ![1] ![16777215] ![0] x v reduceWindows_S16777216_S16777216_w16777216s1p16777215_0 h_S_) ]

/-- The histogram of the clipped, wrapped counts: a scatter-add of ones. -/
abbrev ops3 : List (HloOp τ sig (Elt F)) :=
  [ StableHlo.nullary main_c (constantI S_ 32 0#32),
    StableHlo.unary main_c main_v5 (broadcastInDim S8386560 ![] bcast_S_S8386560 : (⟨S_, .i32⟩ : BufTy).Contents (Elt F) → (⟨S8386560, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S16777216 ![] bcast_S_S16777216),
    StableHlo.TRef.binary main_call2.v1 (.of main_v4 : StableHlo.TRef sig ⟨S16777216, .i32⟩) main_call2.v2 maxsi,
    StableHlo.nullary main_c_2 (constantI S_ 32 0#32),
    StableHlo.unary main_c_2 main_v7 (broadcastInDim S16777216 ![] bcast_S_S16777216 : (⟨S_, .i32⟩ : BufTy).Contents (Elt F) → (⟨S16777216, .i32⟩ : BufTy).Contents (Elt F)),
    StableHlo.binary main_v6 main_v7 main_v8 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 8386560#32),
    StableHlo.unary main_c_3 main_v9 (broadcastInDim S16777216 ![] bcast_S_S16777216 : (⟨S_, .i32⟩ : BufTy).Contents (Elt F) → (⟨S16777216, .i32⟩ : BufTy).Contents (Elt F)),
    StableHlo.binary main_v6 main_v9 main_v10 (addi : (⟨S16777216, .i32⟩ : BufTy).Contents (Elt F) → (⟨S16777216, .i32⟩ : BufTy).Contents (Elt F) → (⟨S16777216, .i32⟩ : BufTy).Contents (Elt F)),
    StableHlo.ternary main_v8 main_v10 main_v6 main_v11 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v11 main_v12 (broadcastInDim S16777216x1 ![0] bcast_S16777216_S16777216x1_0 : (⟨S16777216, .i32⟩ : BufTy).Contents (Elt F) → (⟨S16777216x1, .i32⟩ : BufTy).Contents (Elt F)),
    StableHlo.nullary main_c_4 (constantI S_ 32 1#32),
    StableHlo.unary main_c_4 main_v13 (broadcastInDim S16777216 ![] bcast_S_S16777216 : (⟨S_, .i32⟩ : BufTy).Contents (Elt F) → (⟨S16777216, .i32⟩ : BufTy).Contents (Elt F)),
    StableHlo.ternary main_v5 main_v12 main_v13 main_v14 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) ]

/-- The running sum of the histogram. -/
abbrev ops4 : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S8386560, .i32⟩) main_call3.call0.v0 main_call3.call0.v1 (fun x v => Host.reduceWindow IntOp.addi ![8386560] ![1] ![8386559] ![0] x v reduceWindows_S8386560_S8386560_w8386560s1p8386559_0 h_S_) ]

/-- Row numbers before wrapping: floor division by 4096, then the remainder by 4096. -/
abbrev ops5 : List (HloOp τ sig (Elt F)) :=
  [ StableHlo.nullary main_c_5 (constantI S_ 32 4096#32),
    StableHlo.TRef.unary (.of main_c_5 : StableHlo.TRef sig ⟨S_, .i32⟩) main_call4.v0 (broadcastInDim S8386560 ![] bcast_S_S8386560),
    StableHlo.TRef.binary (.of main_v15 : StableHlo.TRef sig ⟨S8386560, .i32⟩) main_call4.v0 main_call4.v1 Host.divsi,
    StableHlo.TRef.unary (.of main_v15 : StableHlo.TRef sig ⟨S8386560, .i32⟩) main_call4.v2 signi,
    StableHlo.TRef.unary (.of main_c_5 : StableHlo.TRef sig ⟨S_, .i32⟩) main_call4.v3 signi,
    StableHlo.TRef.unary main_call4.v3 main_call4.v4 (broadcastInDim S8386560 ![] bcast_S_S8386560),
    StableHlo.TRef.binary main_call4.v2 main_call4.v4 main_call4.v5 (cmpi .ne),
    StableHlo.TRef.unary (.of main_c_5 : StableHlo.TRef sig ⟨S_, .i32⟩) main_call4.v6 (broadcastInDim S8386560 ![] bcast_S_S8386560),
    StableHlo.TRef.binary (.of main_v15 : StableHlo.TRef sig ⟨S8386560, .i32⟩) main_call4.v6 main_call4.v7 Host.remsi,
    StableHlo.TRef.nullary main_call4.c (constantI S_ 32 0#32),
    StableHlo.TRef.unary main_call4.c main_call4.v8 (broadcastInDim S8386560 ![] bcast_S_S8386560),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S8386560 ![] bcast_S_S8386560),
    StableHlo.TRef.binary main_call4.v1 main_call4.v11 main_call4.v12 subi,
    StableHlo.TRef.ternary main_call4.v10 main_call4.v12 main_call4.v1 main_call4.call0.v0 select,
    StableHlo.nullary main_c_6 (constantI S_ 32 4096#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S8386560 ![] bcast_S_S8386560),
    StableHlo.TRef.binary (.of main_v16 : StableHlo.TRef sig ⟨S8386560, .i32⟩) main_call5.v3 main_call5.v4 Host.remsi,
    StableHlo.TRef.nullary main_call5.c_1 (constantI S_ 32 0#32),
    StableHlo.TRef.unary main_call5.c_1 main_call5.v5 (broadcastInDim S8386560 ![] bcast_S_S8386560),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S8386560 ![] bcast_S_S8386560),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S8386560 ![] bcast_S_S8386560),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S8386560 ![] bcast_S_S8386560),
    StableHlo.TRef.binary main_call5.v4 main_call5.v13 main_call5.v14 addi,
    StableHlo.TRef.ternary main_call5.v12 main_call5.v14 main_call5.v4 main_call5.v15 select ]

/-- Column numbers before wrapping: floor division by 1, then the remainder by 4096. -/
abbrev ops6 : List (HloOp τ sig (Elt F)) :=
  [ StableHlo.nullary main_c_7 (constantI S_ 32 1#32),
    StableHlo.TRef.unary (.of main_c_7 : StableHlo.TRef sig ⟨S_, .i32⟩) main_call6.v0 (broadcastInDim S8386560 ![] bcast_S_S8386560),
    StableHlo.TRef.binary (.of main_v15 : StableHlo.TRef sig ⟨S8386560, .i32⟩) main_call6.v0 main_call6.v1 Host.divsi,
    StableHlo.TRef.unary (.of main_v15 : StableHlo.TRef sig ⟨S8386560, .i32⟩) main_call6.v2 signi,
    StableHlo.TRef.unary (.of main_c_7 : StableHlo.TRef sig ⟨S_, .i32⟩) main_call6.v3 signi,
    StableHlo.TRef.unary main_call6.v3 main_call6.v4 (broadcastInDim S8386560 ![] bcast_S_S8386560),
    StableHlo.TRef.binary main_call6.v2 main_call6.v4 main_call6.v5 (cmpi .ne),
    StableHlo.TRef.unary (.of main_c_7 : StableHlo.TRef sig ⟨S_, .i32⟩) main_call6.v6 (broadcastInDim S8386560 ![] bcast_S_S8386560),
    StableHlo.TRef.binary (.of main_v15 : StableHlo.TRef sig ⟨S8386560, .i32⟩) main_call6.v6 main_call6.v7 Host.remsi,
    StableHlo.TRef.nullary main_call6.c (constantI S_ 32 0#32),
    StableHlo.TRef.unary main_call6.c main_call6.v8 (broadcastInDim S8386560 ![] bcast_S_S8386560),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S8386560 ![] bcast_S_S8386560),
    StableHlo.TRef.binary main_call6.v1 main_call6.v11 main_call6.v12 subi,
    StableHlo.TRef.ternary main_call6.v10 main_call6.v12 main_call6.v1 main_call6.call0.v0 select,
    StableHlo.nullary main_c_8 (constantI S_ 32 4096#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S8386560 ![] bcast_S_S8386560),
    StableHlo.TRef.binary (.of main_v18 : StableHlo.TRef sig ⟨S8386560, .i32⟩) main_call7.v3 main_call7.v4 Host.remsi,
    StableHlo.TRef.nullary main_call7.c_1 (constantI S_ 32 0#32),
    StableHlo.TRef.unary main_call7.c_1 main_call7.v5 (broadcastInDim S8386560 ![] bcast_S_S8386560),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S8386560 ![] bcast_S_S8386560),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S8386560 ![] bcast_S_S8386560),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S8386560 ![] bcast_S_S8386560),
    StableHlo.TRef.binary main_call7.v4 main_call7.v13 main_call7.v14 addi,
    StableHlo.TRef.ternary main_call7.v12 main_call7.v14 main_call7.v4 main_call7.v15 select ]

/-- The zero matrix, and the wrapped row and column numbers as one-column arrays. -/
abbrev ops7a : List (HloOp τ sig (Elt F)) :=
  [ StableHlo.nullary main_cst_9 (constant S_ .f32 0x00000000#32),
    StableHlo.unary main_cst_9 main_v20 (broadcastInDim S4096x4096 ![] bcast_S_S4096x4096 : (⟨S_, .f32⟩ : BufTy).Contents (Elt F) → (⟨S4096x4096, .f32⟩ : BufTy).Contents (Elt F)),
    StableHlo.nullary main_c_10 (constantI S_ 32 0#32),
    StableHlo.unary main_c_10 main_v21 (broadcastInDim S8386560 ![] bcast_S_S8386560 : (⟨S_, .i32⟩ : BufTy).Contents (Elt F) → (⟨S8386560, .i32⟩ : BufTy).Contents (Elt F)),
    StableHlo.binary main_v17 main_v21 main_v22 (cmpi .slt : (⟨S8386560, .i32⟩ : BufTy).Contents (Elt F) → (⟨S8386560, .i32⟩ : BufTy).Contents (Elt F) → (⟨S8386560, .i1⟩ : BufTy).Contents (Elt F)),
    StableHlo.nullary main_c_11 (constantI S_ 32 4096#32),
    StableHlo.unary main_c_11 main_v23 (broadcastInDim S8386560 ![] bcast_S_S8386560 : (⟨S_, .i32⟩ : BufTy).Contents (Elt F) → (⟨S8386560, .i32⟩ : BufTy).Contents (Elt F)),
    StableHlo.binary main_v17 main_v23 main_v24 (addi : (⟨S8386560, .i32⟩ : BufTy).Contents (Elt F) → (⟨S8386560, .i32⟩ : BufTy).Contents (Elt F) → (⟨S8386560, .i32⟩ : BufTy).Contents (Elt F)),
    StableHlo.ternary main_v22 main_v24 main_v17 main_v25 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_12 (constantI S_ 32 0#32),
    StableHlo.unary main_c_12 main_v26 (broadcastInDim S8386560 ![] bcast_S_S8386560 : (⟨S_, .i32⟩ : BufTy).Contents (Elt F) → (⟨S8386560, .i32⟩ : BufTy).Contents (Elt F)),
    StableHlo.binary main_v19 main_v26 main_v27 (cmpi .slt : (⟨S8386560, .i32⟩ : BufTy).Contents (Elt F) → (⟨S8386560, .i32⟩ : BufTy).Contents (Elt F) → (⟨S8386560, .i1⟩ : BufTy).Contents (Elt F)),
    StableHlo.nullary main_c_13 (constantI S_ 32 4096#32),
    StableHlo.unary main_c_13 main_v28 (broadcastInDim S8386560 ![] bcast_S_S8386560 : (⟨S_, .i32⟩ : BufTy).Contents (Elt F) → (⟨S8386560, .i32⟩ : BufTy).Contents (Elt F)),
    StableHlo.binary main_v19 main_v28 main_v29 (addi : (⟨S8386560, .i32⟩ : BufTy).Contents (Elt F) → (⟨S8386560, .i32⟩ : BufTy).Contents (Elt F) → (⟨S8386560, .i32⟩ : BufTy).Contents (Elt F)),
    StableHlo.ternary main_v27 main_v29 main_v19 main_v30 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v25 main_v31 (broadcastInDim S8386560x1 ![0] bcast_S8386560_S8386560x1_0 : (⟨S8386560, .i32⟩ : BufTy).Contents (Elt F) → (⟨S8386560x1, .i32⟩ : BufTy).Contents (Elt F)),
    StableHlo.unary main_v30 main_v32 (broadcastInDim S8386560x1 ![0] bcast_S8386560_S8386560x1_0 : (⟨S8386560, .i32⟩ : BufTy).Contents (Elt F) → (⟨S8386560x1, .i32⟩ : BufTy).Contents (Elt F)) ]

/-- The (row, column) pairs: the two one-column arrays side by side. -/
abbrev ops7b : List (HloOp τ sig (Elt F)) :=
  [ StableHlo.binary main_v31 main_v32 main_v33 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) ]

/-- The scatter of argument 1 at the pairs, its symmetrisation, and 1 + exp of its negation. -/
abbrev ops8a : List (HloOp τ sig (Elt F)) :=
  [ StableHlo.ternary main_v20 main_v33 main_arg1 main_v34 ((fun x i u => Host.scatter scatter_S4096x4096_S8386560x2_S8386560_n_01_01_1 (fun _ b => b) x i u) : (⟨S4096x4096, .f32⟩ : BufTy).Contents (Elt F) → (⟨S8386560x2, .i32⟩ : BufTy).Contents (Elt F) → (⟨S8386560, .f32⟩ : BufTy).Contents (Elt F) → (⟨S4096x4096, .f32⟩ : BufTy).Contents (Elt F)),
    StableHlo.unary main_v34 main_v35 ((transpose S4096x4096 [1, 0] · transposes_S4096x4096_S4096x4096_1_0) : (⟨S4096x4096, .f32⟩ : BufTy).Contents (Elt F) → (⟨S4096x4096, .f32⟩ : BufTy).Contents (Elt F)),
    StableHlo.binary main_v34 main_v35 main_v36 (addf : (⟨S4096x4096, .f32⟩ : BufTy).Contents (Elt F) → (⟨S4096x4096, .f32⟩ : BufTy).Contents (Elt F) → (⟨S4096x4096, .f32⟩ : BufTy).Contents (Elt F)),
    StableHlo.unary main_v36 main_v37 (Host.negf : (⟨S4096x4096, .f32⟩ : BufTy).Contents (Elt F) → (⟨S4096x4096, .f32⟩ : BufTy).Contents (Elt F)),
    StableHlo.unary main_v37 main_v38 (Host.exp : (⟨S4096x4096, .f32⟩ : BufTy).Contents (Elt F) → (⟨S4096x4096, .f32⟩ : BufTy).Contents (Elt F)),
    StableHlo.nullary main_cst_14 (constant S_ .f32 0x3F800000#32),
    StableHlo.unary main_cst_14 main_v39 (broadcastInDim S4096x4096 ![] bcast_S_S4096x4096 : (⟨S_, .f32⟩ : BufTy).Contents (Elt F) → (⟨S4096x4096, .f32⟩ : BufTy).Contents (Elt F)),
    StableHlo.binary main_v39 main_v38 main_v40 (addf : (⟨S4096x4096, .f32⟩ : BufTy).Contents (Elt F) → (⟨S4096x4096, .f32⟩ : BufTy).Contents (Elt F) → (⟨S4096x4096, .f32⟩ : BufTy).Contents (Elt F)),
    StableHlo.nullary main_cst_15 (constant S_ .f32 0x3F800000#32),
    StableHlo.unary main_cst_15 main_v41 (broadcastInDim S4096x4096 ![] bcast_S_S4096x4096 : (⟨S_, .f32⟩ : BufTy).Contents (Elt F) → (⟨S4096x4096, .f32⟩ : BufTy).Contents (Elt F)) ]

/-- The logistic value: the quotient of ones by 1 + exp of the negation. -/
abbrev ops8b : List (HloOp τ sig (Elt F)) :=
  [ StableHlo.binary main_v41 main_v40 main_v42 (Host.divf : (⟨S4096x4096, .f32⟩ : BufTy).Contents (Elt F) → (⟨S4096x4096, .f32⟩ : BufTy).Contents (Elt F) → (⟨S4096x4096, .f32⟩ : BufTy).Contents (Elt F)) ]

/-- The weighted matrix plus the identity, its row sums, their inverse square roots, and the two-sided scaling. -/
abbrev ops9 : List (HloOp τ sig (Elt F)) :=
  [ StableHlo.binary main_v42 main_arg2 main_v43 (mulf : (⟨S4096x4096, .f32⟩ : BufTy).Contents (Elt F) → (⟨S4096x4096, .f32⟩ : BufTy).Contents (Elt F) → (⟨S4096x4096, .f32⟩ : BufTy).Contents (Elt F)),
    StableHlo.nullary main_v44 (iotaInDim S4096x4096 32 0),
    StableHlo.nullary main_v45 (iotaInDim S4096x4096 32 1),
    StableHlo.nullary main_c_16 (constantI S_ 32 0#32),
    StableHlo.unary main_c_16 main_v46 (broadcastInDim S4096x4096 ![] bcast_S_S4096x4096 : (⟨S_, .i32⟩ : BufTy).Contents (Elt F) → (⟨S4096x4096, .i32⟩ : BufTy).Contents (Elt F)),
    StableHlo.binary main_v44 main_v46 main_v47 (addi : (⟨S4096x4096, .i32⟩ : BufTy).Contents (Elt F) → (⟨S4096x4096, .i32⟩ : BufTy).Contents (Elt F) → (⟨S4096x4096, .i32⟩ : BufTy).Contents (Elt F)),
    StableHlo.binary main_v47 main_v45 main_v48 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v48 main_v49 (uitofp .f32 : (⟨S4096x4096, .i1⟩ : BufTy).Contents (Elt F) → (⟨S4096x4096, .f32⟩ : BufTy).Contents (Elt F)),
    StableHlo.binary main_v43 main_v49 main_v50 (addf : (⟨S4096x4096, .f32⟩ : BufTy).Contents (Elt F) → (⟨S4096x4096, .f32⟩ : BufTy).Contents (Elt F) → (⟨S4096x4096, .f32⟩ : BufTy).Contents (Elt F)),
    StableHlo.nullary main_cst_17 (constant S_ .f32 0x00000000#32),
    StableHlo.binary main_v50 main_cst_17 main_v51 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_18 (constant S_ .f32 0x00000000#32),
    StableHlo.unary main_cst_18 main_v52 (broadcastInDim S4096 ![] bcast_S_S4096 : (⟨S_, .f32⟩ : BufTy).Contents (Elt F) → (⟨S4096, .f32⟩ : BufTy).Contents (Elt F)),
    StableHlo.binary main_v51 main_v52 main_v53 (cmpf .ogt : (⟨S4096, .f32⟩ : BufTy).Contents (Elt F) → (⟨S4096, .f32⟩ : BufTy).Contents (Elt F) → (⟨S4096, .i1⟩ : BufTy).Contents (Elt F)),
    StableHlo.unary main_v51 main_v54 (Host.sqrt : (⟨S4096, .f32⟩ : BufTy).Contents (Elt F) → (⟨S4096, .f32⟩ : BufTy).Contents (Elt F)),
    StableHlo.nullary main_cst_19 (constant S_ .f32 0x3F800000#32),
    StableHlo.unary main_cst_19 main_v55 (broadcastInDim S4096 ![] bcast_S_S4096 : (⟨S_, .f32⟩ : BufTy).Contents (Elt F) → (⟨S4096, .f32⟩ : BufTy).Contents (Elt F)),
    StableHlo.binary main_v55 main_v54 main_v56 (Host.divf : (⟨S4096, .f32⟩ : BufTy).Contents (Elt F) → (⟨S4096, .f32⟩ : BufTy).Contents (Elt F) → (⟨S4096, .f32⟩ : BufTy).Contents (Elt F)),
    StableHlo.nullary main_cst_20 (constant S_ .f32 0x00000000#32),
    StableHlo.TRef.unary (.of main_cst_20 : StableHlo.TRef sig ⟨S_, .f32⟩) main_call8.v0 id,
    StableHlo.TRef.unary main_call8.v0 main_call8.v1 (broadcastInDim S4096 ![] bcast_S_S4096),
    StableHlo.TRef.ternary (.of main_v53 : StableHlo.TRef sig ⟨S4096, .i1⟩) (.of main_v56 : StableHlo.TRef sig ⟨S4096, .f32⟩) main_call8.v1 main_call8.v2 select,
    StableHlo.unary main_v57 main_v58 (broadcastInDim S4096x1 ![0] bcast_S4096_S4096x1_0 : (⟨S4096, .f32⟩ : BufTy).Contents (Elt F) → (⟨S4096x1, .f32⟩ : BufTy).Contents (Elt F)),
    StableHlo.unary main_v58 main_v59 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v59 main_v50 main_v60 (mulf : (⟨S4096x4096, .f32⟩ : BufTy).Contents (Elt F) → (⟨S4096x4096, .f32⟩ : BufTy).Contents (Elt F) → (⟨S4096x4096, .f32⟩ : BufTy).Contents (Elt F)),
    StableHlo.unary main_v57 main_v61 (broadcastInDim S1x4096 ![1] bcast_S4096_S1x4096_1 : (⟨S4096, .f32⟩ : BufTy).Contents (Elt F) → (⟨S1x4096, .f32⟩ : BufTy).Contents (Elt F)),
    StableHlo.unary main_v61 main_v62 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v60 main_v62 main_v63 (mulf : (⟨S4096x4096, .f32⟩ : BufTy).Contents (Elt F) → (⟨S4096x4096, .f32⟩ : BufTy).Contents (Elt F) → (⟨S4096x4096, .f32⟩ : BufTy).Contents (Elt F)) ]

/-- The two propagation layers: products, bias, maximum with zero, products, bias. -/
abbrev ops10 : List (HloOp τ sig (Elt F)) :=
  [ StableHlo.binary main_arg0 main_arg3 main_v64 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    StableHlo.binary main_v63 main_v64 main_v65 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    StableHlo.unary main_arg4 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S4096x256 ![0, 1] bcast_S1x256_S4096x256_0_1 : (⟨S1x256, .f32⟩ : BufTy).Contents (Elt F) → (⟨S4096x256, .f32⟩ : BufTy).Contents (Elt F)),
    StableHlo.binary main_v65 main_v67 main_v68 (addf : (⟨S4096x256, .f32⟩ : BufTy).Contents (Elt F) → (⟨S4096x256, .f32⟩ : BufTy).Contents (Elt F) → (⟨S4096x256, .f32⟩ : BufTy).Contents (Elt F)),
    StableHlo.TRef.nullary main_call9.cst (constant S_ .f32 0x00000000#32),
    StableHlo.TRef.unary main_call9.cst main_call9.v0 (broadcastInDim S4096x256 ![] bcast_S_S4096x256),
    StableHlo.TRef.binary (.of main_v68 : StableHlo.TRef sig ⟨S4096x256, .f32⟩) main_call9.v0 main_call9.v1 maximumf,
    StableHlo.binary main_v69 main_arg5 main_v70 ((fun l r => Host.dotGeneral dot_S4096x256_S256x32_S4096x32_1_0_0_1_n_n none l r) : (⟨S4096x256, .f32⟩ : BufTy).Contents (Elt F) → (⟨S256x32, .f32⟩ : BufTy).Contents (Elt F) → (⟨S4096x32, .f32⟩ : BufTy).Contents (Elt F)),
    StableHlo.binary main_v63 main_v70 main_v71 ((fun l r => Host.dotGeneral dot_S4096x4096_S4096x32_S4096x32_1_0_0_1_n_n none l r) : (⟨S4096x4096, .f32⟩ : BufTy).Contents (Elt F) → (⟨S4096x32, .f32⟩ : BufTy).Contents (Elt F) → (⟨S4096x32, .f32⟩ : BufTy).Contents (Elt F)),
    StableHlo.unary main_arg6 main_v72 (broadcastInDim S1x32 ![1] bcast_S32_S1x32_1 : (⟨S32, .f32⟩ : BufTy).Contents (Elt F) → (⟨S1x32, .f32⟩ : BufTy).Contents (Elt F)),
    StableHlo.unary main_v72 main_v73 (broadcastInDim S4096x32 ![0, 1] bcast_S1x32_S4096x32_0_1 : (⟨S1x32, .f32⟩ : BufTy).Contents (Elt F) → (⟨S4096x32, .f32⟩ : BufTy).Contents (Elt F)),
    StableHlo.binary main_v71 main_v73 main_v74 (addf : (⟨S4096x32, .f32⟩ : BufTy).Contents (Elt F) → (⟨S4096x32, .f32⟩ : BufTy).Contents (Elt F) → (⟨S4096x32, .f32⟩ : BufTy).Contents (Elt F)) ]

/-- The operations of the first printed window of @main. -/
abbrev opsP0 : List (HloOp τ sig (Elt F)) := ops1 ++ (ops2 ++ (ops3 ++ (ops4 ++ (ops5 ++ (ops6 ++ (ops7a ++ (ops7b ++ (ops8a))))))))
/-- The operations of the second printed window of @main. -/
abbrev opsP1 : List (HloOp τ sig (Elt F)) := ops8b ++ (ops9 ++ (ops10))
/-- @main's 188 operations, in order. -/
abbrev ops : List (HloOp τ sig (Elt F)) := opsP0 ++ opsP1

set_option maxRecDepth 16384 in
set_option maxHeartbeats 4000000 in
theorem main_part0_eq (c : Dev nD) : main_part0 (F := F) c = seq opsP0 := rfl
set_option maxRecDepth 16384 in
set_option maxHeartbeats 4000000 in
theorem main_part1_eq (c : Dev nD) : main_part1 (F := F) c = seq opsP1 := rfl
/-- @main is the list run in order. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub ..⟩
set_option maxRecDepth 8192 in
theorem ops2_sub : (ops2 : List (HloOp τ sig (Elt F))).Forall fun op => op.bufs ⊆ tcRefs τ sig :=
  ⟨reshape_bufs_sub .., unary_bufs_sub .., nullary_bufs_sub .., unary_bufs_sub .., binary_bufs_sub ..⟩
set_option maxRecDepth 8192 in
theorem ops3_sub : (ops3 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
set_option maxRecDepth 8192 in
theorem ops4_sub : (ops4 : List (HloOp τ sig (Elt F))).Forall fun op => op.bufs ⊆ tcRefs τ sig :=
  ⟨nullary_bufs_sub .., unary_bufs_sub .., binary_bufs_sub ..⟩
set_option maxRecDepth 8192 in
theorem ops5_sub : (ops5 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem ops6_sub : (ops6 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem ops7a_sub : (ops7a : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 8192 in
theorem ops7b_sub : (ops7b : List (HloOp τ sig (Elt F))).Forall fun op => op.bufs ⊆ tcRefs τ sig :=
  binary_bufs_sub ..
set_option maxRecDepth 8192 in
theorem ops8a_sub : (ops8a : List (HloOp τ sig (Elt F))).Forall fun op => op.bufs ⊆ tcRefs τ sig :=
  ⟨ternary_bufs_sub .., unary_bufs_sub .., binary_bufs_sub .., unary_bufs_sub .., unary_bufs_sub .., nullary_bufs_sub .., unary_bufs_sub .., binary_bufs_sub .., nullary_bufs_sub .., unary_bufs_sub ..⟩
set_option maxRecDepth 8192 in
theorem ops8b_sub : (ops8b : List (HloOp τ sig (Elt F))).Forall fun op => op.bufs ⊆ tcRefs τ sig :=
  binary_bufs_sub ..
set_option maxRecDepth 8192 in
theorem ops9_sub : (ops9 : List (HloOp τ sig (Elt F))).Forall fun op => op.bufs ⊆ tcRefs τ sig :=
  ⟨binary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩
set_option maxRecDepth 8192 in
theorem ops10_sub : (ops10 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
/-- Every operation touches TensorCore buffers only. -/
theorem ops_sub : (ops : List (HloOp τ sig (Elt F))).Forall fun op => op.bufs ⊆ tcRefs τ sig :=
  List.forall_iff_forall_mem.mpr fun op h => by
    simp only [ops, opsP0, opsP1, List.mem_append] at h
    rcases h with (h | h | h | h | h | h | h | h | h) | (h | h | h)
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7a_sub op h, List.forall_iff_forall_mem.mp ops7b_sub op h, List.forall_iff_forall_mem.mp ops8a_sub op h, List.forall_iff_forall_mem.mp ops8b_sub op h, List.forall_iff_forall_mem.mp ops9_sub op h, List.forall_iff_forall_mem.mp ops10_sub op h]

/-- The buffers the operations of `ops1` write. -/
abbrev ops1_W : List (Ref sig .tc) := [main_cst, main_v0, main_call0_v0, main_call0_c, main_call0_v1, main_call0_v2, main_call0_v3, main_call0_v4, main_call0_cst, main_call0_v5, main_v1, main_cst_0, main_v2, main_v3]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops1` does not write keeps its contents through it. -/
theorem ops1_keep (V : Valuation τ sig (Elt F)) (r : Ref sig .tc) (h : r ∉ ops1_W) :
    after ops1 V (Proc.devRef .tc r) = V (Proc.devRef .tc r) :=
  after_of_writes_sub ops1 _ ops1_writes h

/-- The buffers the operations of `ops2` write. -/
abbrev ops2_W : List (Ref sig .tc) := [main_call1_v0, main_call1_v1, main_call1_call0_c, main_call1_call0_v0, main_v4]
set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops2` does not write keeps its contents through it. -/
theorem ops2_keep (V : Valuation τ sig (Elt F)) (r : Ref sig .tc) (h : r ∉ ops2_W) :
    after ops2 V (Proc.devRef .tc r) = V (Proc.devRef .tc r) :=
  after_of_writes_sub ops2 _ ops2_writes h

/-- The buffers the operations of `ops3` write. -/
abbrev ops3_W : List (Ref sig .tc) := [main_c, main_v5, main_c_1, main_call2_v0, main_call2_v1, main_v6, main_c_2, main_v7, main_v8, main_c_3, main_v9, main_v10, main_v11, main_v12, main_c_4, main_v13, main_v14]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops3` does not write keeps its contents through it. -/
theorem ops3_keep (V : Valuation τ sig (Elt F)) (r : Ref sig .tc) (h : r ∉ ops3_W) :
    after ops3 V (Proc.devRef .tc r) = V (Proc.devRef .tc r) :=
  after_of_writes_sub ops3 _ ops3_writes h

/-- The buffers the operations of `ops4` write. -/
abbrev ops4_W : List (Ref sig .tc) := [main_call3_call0_c, main_call3_call0_v0, main_v15]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops4` does not write keeps its contents through it. -/
theorem ops4_keep (V : Valuation τ sig (Elt F)) (r : Ref sig .tc) (h : r ∉ ops4_W) :
    after ops4 V (Proc.devRef .tc r) = V (Proc.devRef .tc r) :=
  after_of_writes_sub ops4 _ ops4_writes h

/-- The buffers the operations of `ops5` write. -/
abbrev ops5_W : List (Ref sig .tc) := [main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v16, main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v17]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops5` does not write keeps its contents through it. -/
theorem ops5_keep (V : Valuation τ sig (Elt F)) (r : Ref sig .tc) (h : r ∉ ops5_W) :
    after ops5 V (Proc.devRef .tc r) = V (Proc.devRef .tc r) :=
  after_of_writes_sub ops5 _ ops5_writes h

/-- The buffers the operations of `ops6` write. -/
abbrev ops6_W : List (Ref sig .tc) := [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v18, main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v19]
set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops6` does not write keeps its contents through it. -/
theorem ops6_keep (V : Valuation τ sig (Elt F)) (r : Ref sig .tc) (h : r ∉ ops6_W) :
    after ops6 V (Proc.devRef .tc r) = V (Proc.devRef .tc r) :=
  after_of_writes_sub ops6 _ ops6_writes h

/-- The buffers the operations of `ops7a` write. -/
abbrev ops7a_W : List (Ref sig .tc) := [main_cst_9, main_v20, main_c_10, main_v21, main_v22, main_c_11, main_v23, main_v24, main_v25, main_c_12, main_v26, main_v27, main_c_13, main_v28, main_v29, main_v30, main_v31, main_v32]
set_option maxRecDepth 8192 in
theorem ops7a_writes : (ops7a : List (HloOp τ sig (Elt F))).Forall fun op => op.writes ⊆ (ops7a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops7a` does not write keeps its contents through it. -/
theorem ops7a_keep (V : Valuation τ sig (Elt F)) (r : Ref sig .tc) (h : r ∉ ops7a_W) :
    after ops7a V (Proc.devRef .tc r) = V (Proc.devRef .tc r) :=
  after_of_writes_sub ops7a _ ops7a_writes h

/-- The buffers the operations of `ops7b` write. -/
abbrev ops7b_W : List (Ref sig .tc) := [main_v33]
set_option maxRecDepth 8192 in
theorem ops7b_writes : (ops7b : List (HloOp τ sig (Elt F))).Forall fun op => op.writes ⊆ (ops7b_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that `ops7b` does not write keeps its contents through it. -/
theorem ops7b_keep (V : Valuation τ sig (Elt F)) (r : Ref sig .tc) (h : r ∉ ops7b_W) :
    after ops7b V (Proc.devRef .tc r) = V (Proc.devRef .tc r) :=
  after_of_writes_sub ops7b _ ops7b_writes h

/-- The buffers the operations of `ops8a` write. -/
abbrev ops8a_W : List (Ref sig .tc) := [main_v34, main_v35, main_v36, main_v37, main_v38, main_cst_14, main_v39, main_v40, main_cst_15, main_v41]
set_option maxRecDepth 8192 in
theorem ops8a_writes : (ops8a : List (HloOp τ sig (Elt F))).Forall fun op => op.writes ⊆ (ops8a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops8a` does not write keeps its contents through it. -/
theorem ops8a_keep (V : Valuation τ sig (Elt F)) (r : Ref sig .tc) (h : r ∉ ops8a_W) :
    after ops8a V (Proc.devRef .tc r) = V (Proc.devRef .tc r) :=
  after_of_writes_sub ops8a _ ops8a_writes h

/-- The buffers the operations of `ops8b` write. -/
abbrev ops8b_W : List (Ref sig .tc) := [main_v42]
set_option maxRecDepth 8192 in
theorem ops8b_writes : (ops8b : List (HloOp τ sig (Elt F))).Forall fun op => op.writes ⊆ (ops8b_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that `ops8b` does not write keeps its contents through it. -/
theorem ops8b_keep (V : Valuation τ sig (Elt F)) (r : Ref sig .tc) (h : r ∉ ops8b_W) :
    after ops8b V (Proc.devRef .tc r) = V (Proc.devRef .tc r) :=
  after_of_writes_sub ops8b _ ops8b_writes h

/-- The buffers the operations of `ops9` write. -/
abbrev ops9_W : List (Ref sig .tc) := [main_v43, main_v44, main_v45, main_c_16, main_v46, main_v47, main_v48, main_v49, main_v50, main_cst_17, main_v51, main_cst_18, main_v52, main_v53, main_v54, main_cst_19, main_v55, main_v56, main_cst_20, main_call8_v0, main_call8_v1, main_v57, main_v58, main_v59, main_v60, main_v61, main_v62, main_v63]
set_option maxRecDepth 8192 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops9` does not write keeps its contents through it. -/
theorem ops9_keep (V : Valuation τ sig (Elt F)) (r : Ref sig .tc) (h : r ∉ ops9_W) :
    after ops9 V (Proc.devRef .tc r) = V (Proc.devRef .tc r) :=
  after_of_writes_sub ops9 _ ops9_writes h

/-- The buffers the operations of `ops10` write. -/
abbrev ops10_W : List (Ref sig .tc) := [main_v64, main_v65, main_v66, main_v67, main_v68, main_call9_cst, main_call9_v0, main_v69, main_v70, main_v71, main_v72, main_v73, main_v74]
set_option maxRecDepth 8192 in
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `ops10` does not write keeps its contents through it. -/
theorem ops10_keep (V : Valuation τ sig (Elt F)) (r : Ref sig .tc) (h : r ∉ ops10_W) :
    after ops10 V (Proc.devRef .tc r) = V (Proc.devRef .tc r) :=
  after_of_writes_sub ops10 _ ops10_writes h

/-- Two lists run one after the other on the contents: the second from what the first leaves. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.Hand

end
-- ==== Proof.RefRun.lean ====
/-
  The reference program's run, read back.  For each consecutive piece of the operation list and each
  value of interest it completes, the contents of that value's buffer after the piece, from ANY contents
  before it, is the corresponding step function of the contents of the buffers the piece reads.  The
  contents after the first k pieces are then named, and by induction along the pieces each value of
  interest is its stage function of the argument arrays' launch contents, a buffer a piece does not
  write keeping its contents.  Every weakly fair execution of @main therefore terminates with the two
  results at the stage functions of the arguments and the arguments unchanged.
-/
import proofs.«102345_g84920093377258_cont_9to1c4b_501_3_alg».proof.Proof.RefRunOps

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

-- The equations below hold by unfolding definitions only; the whole-array folds and searches are kept
-- closed meanwhile, so that two applications of one of them are compared argument by argument.
attribute [local irreducible] Host.reduceWindow Host.scatter Host.reduceAdd concatenate transpose shapeCast

/-- Two one-column arrays side by side, as a function of the two arrays. -/
def pairOf (a b : IVec S8386560x1 32) : IVec S8386560x2 32 :=
  concatenate S8386560x2 1 [⟨S8386560x1, a⟩, ⟨S8386560x1, b⟩] concatenates_S8386560x1_S8386560x1_S8386560x2_d1

/-! ## Each piece, from any contents -/

set_option maxRecDepth 8192 in
set_option maxHeartbeats 1000000 in
theorem piece1_v3 (W : Valuation τ sig (Elt F)) :
    after ops1 W (no_index (Proc.devRef .tc main_v3)) = triMask F := by
  simp only [ops1]
  after_results_simp
  try simp only [TRef.toBuf, TRef.ofBuf, cast_eq, id_eq]
  try simp only [triMask, triu, onesSq, zerosSq]
  all_goals rfl

set_option maxRecDepth 8192 in
set_option maxHeartbeats 1000000 in
theorem piece2_v4 (W : Valuation τ sig (Elt F)) :
    after ops2 W (no_index (Proc.devRef .tc main_v4)) = cum1Of (W (Proc.devRef .tc main_v3)) := by
  simp only [ops2]
  after_results_simp
  try simp only [TRef.toBuf, TRef.ofBuf, cast_eq, id_eq]
  try simp only [cum1Of, cumsumA]
  all_goals rfl

set_option maxRecDepth 8192 in
set_option maxHeartbeats 1000000 in
theorem piece3_v14 (W : Valuation τ sig (Elt F)) :
    after ops3 W (no_index (Proc.devRef .tc main_v14)) = histOf (W (Proc.devRef .tc main_v4)) := by
  simp only [ops3]
  after_results_simp
  try simp only [TRef.toBuf, TRef.ofBuf, cast_eq, id_eq]
  try simp only [histOf, binOf, clipLo]
  all_goals rfl

set_option maxRecDepth 8192 in
set_option maxHeartbeats 1000000 in
theorem piece4_v15 (W : Valuation τ sig (Elt F)) :
    after ops4 W (no_index (Proc.devRef .tc main_v15)) = cumsumB (W (Proc.devRef .tc main_v14)) := by
  simp only [ops4]
  after_results_simp
  try simp only [TRef.toBuf, TRef.ofBuf, cast_eq, id_eq]
  try simp only [cumsumB]
  all_goals rfl

set_option maxRecDepth 8192 in
set_option maxHeartbeats 1000000 in
theorem piece5_v17 (W : Valuation τ sig (Elt F)) :
    after ops5 W (no_index (Proc.devRef .tc main_v17)) = remainder (floorDivide (W (Proc.devRef .tc main_v15)) (constantI S_ 32 4096#32)) (constantI S_ 32 4096#32) := by
  simp only [ops5]
  after_results_simp
  try simp only [TRef.toBuf, TRef.ofBuf, cast_eq, id_eq]
  try simp only [remainder, truncRem, safeDivisor, floorDivide]
  all_goals rfl

set_option maxRecDepth 8192 in
set_option maxHeartbeats 1000000 in
theorem piece6_v19 (W : Valuation τ sig (Elt F)) :
    after ops6 W (no_index (Proc.devRef .tc main_v19)) = remainder (floorDivide (W (Proc.devRef .tc main_v15)) (constantI S_ 32 1#32)) (constantI S_ 32 4096#32) := by
  simp only [ops6]
  after_results_simp
  try simp only [TRef.toBuf, TRef.ofBuf, cast_eq, id_eq]
  try simp only [remainder, truncRem, safeDivisor, floorDivide]
  all_goals rfl

set_option maxRecDepth 8192 in
set_option maxHeartbeats 1000000 in
theorem piece7_v20 (W : Valuation τ sig (Elt F)) :
    after ops7a W (no_index (Proc.devRef .tc main_v20)) = zerosSq F := by
  simp only [ops7a]
  after_results_simp
  try simp only [TRef.toBuf, TRef.ofBuf, cast_eq, id_eq]
  try simp only [zerosSq]
  all_goals rfl

set_option maxRecDepth 8192 in
set_option maxHeartbeats 1000000 in
theorem piece7_v31 (W : Valuation τ sig (Elt F)) :
    after ops7a W (no_index (Proc.devRef .tc main_v31)) = broadcastInDim S8386560x1 ![0] bcast_S8386560_S8386560x1_0 (wrapNeg (W (Proc.devRef .tc main_v17))) := by
  simp only [ops7a]
  after_results_simp
  try simp only [TRef.toBuf, TRef.ofBuf, cast_eq, id_eq]
  try simp only [wrapNeg]
  all_goals rfl

set_option maxRecDepth 8192 in
set_option maxHeartbeats 1000000 in
theorem piece7_v32 (W : Valuation τ sig (Elt F)) :
    after ops7a W (no_index (Proc.devRef .tc main_v32)) = broadcastInDim S8386560x1 ![0] bcast_S8386560_S8386560x1_0 (wrapNeg (W (Proc.devRef .tc main_v19))) := by
  simp only [ops7a]
  after_results_simp
  try simp only [TRef.toBuf, TRef.ofBuf, cast_eq, id_eq]
  try simp only [wrapNeg]
  all_goals rfl

set_option maxRecDepth 8192 in
set_option maxHeartbeats 1000000 in
theorem piece8_v33 (W : Valuation τ sig (Elt F)) :
    after ops7b W (no_index (Proc.devRef .tc main_v33)) = pairOf (W (Proc.devRef .tc main_v31)) (W (Proc.devRef .tc main_v32)) := by
  simp only [ops7b]
  after_results_simp
  try simp only [TRef.toBuf, TRef.ofBuf, cast_eq, id_eq]
  try simp only [pairOf]
  all_goals rfl

set_option maxRecDepth 8192 in
set_option maxHeartbeats 1000000 in
theorem piece9_v42 (W : Valuation τ sig (Elt F)) :
    after ops8b (after ops8a W) (no_index (Proc.devRef .tc main_v42)) = pUsedOf (msymOf (Host.scatter scatter_S4096x4096_S8386560x2_S8386560_n_01_01_1 (fun _ b => b) (W (Proc.devRef .tc main_v20)) (W (Proc.devRef .tc main_v33)) (W (Proc.devRef .tc main_arg1)))) := by
  simp only [ops8a, ops8b]
  after_results_simp
  try simp only [TRef.toBuf, TRef.ofBuf, cast_eq, id_eq]
  try simp only [pUsedOf, msymOf, onesSq]
  all_goals rfl

set_option maxRecDepth 8192 in
set_option maxHeartbeats 1000000 in
theorem piece10_v63 (W : Valuation τ sig (Elt F)) :
    after ops9 W (no_index (Proc.devRef .tc main_v63)) = ahat (W (Proc.devRef .tc main_v42)) (W (Proc.devRef .tc main_arg2)) := by
  simp only [ops9]
  after_results_simp
  try simp only [TRef.toBuf, TRef.ofBuf, cast_eq, id_eq]
  try simp only [ahat, ahatOf, dinv, dinvOf, whereScalar, deg, degOf, adjI, adjIOf, adj, adjOf, eye]
  all_goals rfl

set_option maxRecDepth 8192 in
set_option maxHeartbeats 1000000 in
theorem piece11_v74 (W : Valuation τ sig (Elt F)) :
    after ops10 W (no_index (Proc.devRef .tc main_v74)) = resOf (W (Proc.devRef .tc main_v63)) (hidOf (W (Proc.devRef .tc main_v63)) (xw (W (Proc.devRef .tc main_arg0)) (W (Proc.devRef .tc main_arg3))) (W (Proc.devRef .tc main_arg4))) (W (Proc.devRef .tc main_arg5)) (W (Proc.devRef .tc main_arg6)) := by
  simp only [ops10]
  after_results_simp
  try simp only [TRef.toBuf, TRef.ofBuf, cast_eq, id_eq]
  try simp only [resOf, hidOf, relu, xw]
  all_goals rfl

/-! ## The contents after the first k pieces -/

/-- The device's buffer contents before the first piece. -/
def val0 (V : Valuation τ sig (Elt F)) : Valuation τ sig (Elt F) := V
theorem val0_main_arg0 (V : Valuation τ sig (Elt F)) : val0 V (Proc.devRef .tc main_arg0) = V (Proc.devRef .tc main_arg0) := rfl
theorem val0_main_arg1 (V : Valuation τ sig (Elt F)) : val0 V (Proc.devRef .tc main_arg1) = V (Proc.devRef .tc main_arg1) := rfl
theorem val0_main_arg2 (V : Valuation τ sig (Elt F)) : val0 V (Proc.devRef .tc main_arg2) = V (Proc.devRef .tc main_arg2) := rfl
theorem val0_main_arg3 (V : Valuation τ sig (Elt F)) : val0 V (Proc.devRef .tc main_arg3) = V (Proc.devRef .tc main_arg3) := rfl
theorem val0_main_arg4 (V : Valuation τ sig (Elt F)) : val0 V (Proc.devRef .tc main_arg4) = V (Proc.devRef .tc main_arg4) := rfl
theorem val0_main_arg5 (V : Valuation τ sig (Elt F)) : val0 V (Proc.devRef .tc main_arg5) = V (Proc.devRef .tc main_arg5) := rfl
theorem val0_main_arg6 (V : Valuation τ sig (Elt F)) : val0 V (Proc.devRef .tc main_arg6) = V (Proc.devRef .tc main_arg6) := rfl

/-- The device's buffer contents after the first 1 piece. -/
def val1 (V : Valuation τ sig (Elt F)) : Valuation τ sig (Elt F) := after ops1 (val0 V)
/-- A buffer the piece does not write keeps its contents through it. -/
theorem val1_keep (V : Valuation τ sig (Elt F)) (r : Ref sig .tc) (h0 : r ∉ ops1_W) :
    val1 V (Proc.devRef .tc r) = val0 V (Proc.devRef .tc r) :=
  ops1_keep _ r h0
theorem val1_main_arg0 (V : Valuation τ sig (Elt F)) : val1 V (Proc.devRef .tc main_arg0) = V (Proc.devRef .tc main_arg0) :=
  (val1_keep V main_arg0 (by decide)).trans (val0_main_arg0 V)
theorem val1_main_arg1 (V : Valuation τ sig (Elt F)) : val1 V (Proc.devRef .tc main_arg1) = V (Proc.devRef .tc main_arg1) :=
  (val1_keep V main_arg1 (by decide)).trans (val0_main_arg1 V)
theorem val1_main_arg2 (V : Valuation τ sig (Elt F)) : val1 V (Proc.devRef .tc main_arg2) = V (Proc.devRef .tc main_arg2) :=
  (val1_keep V main_arg2 (by decide)).trans (val0_main_arg2 V)
theorem val1_main_arg3 (V : Valuation τ sig (Elt F)) : val1 V (Proc.devRef .tc main_arg3) = V (Proc.devRef .tc main_arg3) :=
  (val1_keep V main_arg3 (by decide)).trans (val0_main_arg3 V)
theorem val1_main_arg4 (V : Valuation τ sig (Elt F)) : val1 V (Proc.devRef .tc main_arg4) = V (Proc.devRef .tc main_arg4) :=
  (val1_keep V main_arg4 (by decide)).trans (val0_main_arg4 V)
theorem val1_main_arg5 (V : Valuation τ sig (Elt F)) : val1 V (Proc.devRef .tc main_arg5) = V (Proc.devRef .tc main_arg5) :=
  (val1_keep V main_arg5 (by decide)).trans (val0_main_arg5 V)
theorem val1_main_arg6 (V : Valuation τ sig (Elt F)) : val1 V (Proc.devRef .tc main_arg6) = V (Proc.devRef .tc main_arg6) :=
  (val1_keep V main_arg6 (by decide)).trans (val0_main_arg6 V)
theorem val1_main_v3 (V : Valuation τ sig (Elt F)) : val1 V (Proc.devRef .tc main_v3) = triMask F := by
  unfold val1
  rw [piece1_v3 (val0 V)]
  all_goals rfl

/-- The device's buffer contents after the first 2 pieces. -/
def val2 (V : Valuation τ sig (Elt F)) : Valuation τ sig (Elt F) := after ops2 (val1 V)
/-- A buffer the piece does not write keeps its contents through it. -/
theorem val2_keep (V : Valuation τ sig (Elt F)) (r : Ref sig .tc) (h0 : r ∉ ops2_W) :
    val2 V (Proc.devRef .tc r) = val1 V (Proc.devRef .tc r) :=
  ops2_keep _ r h0
theorem val2_main_arg0 (V : Valuation τ sig (Elt F)) : val2 V (Proc.devRef .tc main_arg0) = V (Proc.devRef .tc main_arg0) :=
  (val2_keep V main_arg0 (by decide)).trans (val1_main_arg0 V)
theorem val2_main_arg1 (V : Valuation τ sig (Elt F)) : val2 V (Proc.devRef .tc main_arg1) = V (Proc.devRef .tc main_arg1) :=
  (val2_keep V main_arg1 (by decide)).trans (val1_main_arg1 V)
theorem val2_main_arg2 (V : Valuation τ sig (Elt F)) : val2 V (Proc.devRef .tc main_arg2) = V (Proc.devRef .tc main_arg2) :=
  (val2_keep V main_arg2 (by decide)).trans (val1_main_arg2 V)
theorem val2_main_arg3 (V : Valuation τ sig (Elt F)) : val2 V (Proc.devRef .tc main_arg3) = V (Proc.devRef .tc main_arg3) :=
  (val2_keep V main_arg3 (by decide)).trans (val1_main_arg3 V)
theorem val2_main_arg4 (V : Valuation τ sig (Elt F)) : val2 V (Proc.devRef .tc main_arg4) = V (Proc.devRef .tc main_arg4) :=
  (val2_keep V main_arg4 (by decide)).trans (val1_main_arg4 V)
theorem val2_main_arg5 (V : Valuation τ sig (Elt F)) : val2 V (Proc.devRef .tc main_arg5) = V (Proc.devRef .tc main_arg5) :=
  (val2_keep V main_arg5 (by decide)).trans (val1_main_arg5 V)
theorem val2_main_arg6 (V : Valuation τ sig (Elt F)) : val2 V (Proc.devRef .tc main_arg6) = V (Proc.devRef .tc main_arg6) :=
  (val2_keep V main_arg6 (by decide)).trans (val1_main_arg6 V)
theorem val2_main_v4 (V : Valuation τ sig (Elt F)) : val2 V (Proc.devRef .tc main_v4) = cum1 F := by
  unfold val2
  rw [piece2_v4 (val1 V), val1_main_v3]
  try simp only [cum1]
  all_goals rfl

/-- The device's buffer contents after the first 3 pieces. -/
def val3 (V : Valuation τ sig (Elt F)) : Valuation τ sig (Elt F) := after ops3 (val2 V)
/-- A buffer the piece does not write keeps its contents through it. -/
theorem val3_keep (V : Valuation τ sig (Elt F)) (r : Ref sig .tc) (h0 : r ∉ ops3_W) :
    val3 V (Proc.devRef .tc r) = val2 V (Proc.devRef .tc r) :=
  ops3_keep _ r h0
theorem val3_main_arg0 (V : Valuation τ sig (Elt F)) : val3 V (Proc.devRef .tc main_arg0) = V (Proc.devRef .tc main_arg0) :=
  (val3_keep V main_arg0 (by decide)).trans (val2_main_arg0 V)
theorem val3_main_arg1 (V : Valuation τ sig (Elt F)) : val3 V (Proc.devRef .tc main_arg1) = V (Proc.devRef .tc main_arg1) :=
  (val3_keep V main_arg1 (by decide)).trans (val2_main_arg1 V)
theorem val3_main_arg2 (V : Valuation τ sig (Elt F)) : val3 V (Proc.devRef .tc main_arg2) = V (Proc.devRef .tc main_arg2) :=
  (val3_keep V main_arg2 (by decide)).trans (val2_main_arg2 V)
theorem val3_main_arg3 (V : Valuation τ sig (Elt F)) : val3 V (Proc.devRef .tc main_arg3) = V (Proc.devRef .tc main_arg3) :=
  (val3_keep V main_arg3 (by decide)).trans (val2_main_arg3 V)
theorem val3_main_arg4 (V : Valuation τ sig (Elt F)) : val3 V (Proc.devRef .tc main_arg4) = V (Proc.devRef .tc main_arg4) :=
  (val3_keep V main_arg4 (by decide)).trans (val2_main_arg4 V)
theorem val3_main_arg5 (V : Valuation τ sig (Elt F)) : val3 V (Proc.devRef .tc main_arg5) = V (Proc.devRef .tc main_arg5) :=
  (val3_keep V main_arg5 (by decide)).trans (val2_main_arg5 V)
theorem val3_main_arg6 (V : Valuation τ sig (Elt F)) : val3 V (Proc.devRef .tc main_arg6) = V (Proc.devRef .tc main_arg6) :=
  (val3_keep V main_arg6 (by decide)).trans (val2_main_arg6 V)
theorem val3_main_v14 (V : Valuation τ sig (Elt F)) : val3 V (Proc.devRef .tc main_v14) = hist F := by
  unfold val3
  rw [piece3_v14 (val2 V), val2_main_v4]
  try simp only [hist]
  all_goals rfl

/-- The device's buffer contents after the first 4 pieces. -/
def val4 (V : Valuation τ sig (Elt F)) : Valuation τ sig (Elt F) := after ops4 (val3 V)
/-- A buffer the piece does not write keeps its contents through it. -/
theorem val4_keep (V : Valuation τ sig (Elt F)) (r : Ref sig .tc) (h0 : r ∉ ops4_W) :
    val4 V (Proc.devRef .tc r) = val3 V (Proc.devRef .tc r) :=
  ops4_keep _ r h0
theorem val4_main_arg0 (V : Valuation τ sig (Elt F)) : val4 V (Proc.devRef .tc main_arg0) = V (Proc.devRef .tc main_arg0) :=
  (val4_keep V main_arg0 (by decide)).trans (val3_main_arg0 V)
theorem val4_main_arg1 (V : Valuation τ sig (Elt F)) : val4 V (Proc.devRef .tc main_arg1) = V (Proc.devRef .tc main_arg1) :=
  (val4_keep V main_arg1 (by decide)).trans (val3_main_arg1 V)
theorem val4_main_arg2 (V : Valuation τ sig (Elt F)) : val4 V (Proc.devRef .tc main_arg2) = V (Proc.devRef .tc main_arg2) :=
  (val4_keep V main_arg2 (by decide)).trans (val3_main_arg2 V)
theorem val4_main_arg3 (V : Valuation τ sig (Elt F)) : val4 V (Proc.devRef .tc main_arg3) = V (Proc.devRef .tc main_arg3) :=
  (val4_keep V main_arg3 (by decide)).trans (val3_main_arg3 V)
theorem val4_main_arg4 (V : Valuation τ sig (Elt F)) : val4 V (Proc.devRef .tc main_arg4) = V (Proc.devRef .tc main_arg4) :=
  (val4_keep V main_arg4 (by decide)).trans (val3_main_arg4 V)
theorem val4_main_arg5 (V : Valuation τ sig (Elt F)) : val4 V (Proc.devRef .tc main_arg5) = V (Proc.devRef .tc main_arg5) :=
  (val4_keep V main_arg5 (by decide)).trans (val3_main_arg5 V)
theorem val4_main_arg6 (V : Valuation τ sig (Elt F)) : val4 V (Proc.devRef .tc main_arg6) = V (Proc.devRef .tc main_arg6) :=
  (val4_keep V main_arg6 (by decide)).trans (val3_main_arg6 V)
theorem val4_main_v15 (V : Valuation τ sig (Elt F)) : val4 V (Proc.devRef .tc main_v15) = flat F := by
  unfold val4
  rw [piece4_v15 (val3 V), val3_main_v14]
  try simp only [flat]
  all_goals rfl

/-- The device's buffer contents after the first 5 pieces. -/
def val5 (V : Valuation τ sig (Elt F)) : Valuation τ sig (Elt F) := after ops5 (val4 V)
/-- A buffer the piece does not write keeps its contents through it. -/
theorem val5_keep (V : Valuation τ sig (Elt F)) (r : Ref sig .tc) (h0 : r ∉ ops5_W) :
    val5 V (Proc.devRef .tc r) = val4 V (Proc.devRef .tc r) :=
  ops5_keep _ r h0
theorem val5_main_v15 (V : Valuation τ sig (Elt F)) : val5 V (Proc.devRef .tc main_v15) = flat F :=
  (val5_keep V main_v15 (by decide)).trans (val4_main_v15 V)
theorem val5_main_arg0 (V : Valuation τ sig (Elt F)) : val5 V (Proc.devRef .tc main_arg0) = V (Proc.devRef .tc main_arg0) :=
  (val5_keep V main_arg0 (by decide)).trans (val4_main_arg0 V)
theorem val5_main_arg1 (V : Valuation τ sig (Elt F)) : val5 V (Proc.devRef .tc main_arg1) = V (Proc.devRef .tc main_arg1) :=
  (val5_keep V main_arg1 (by decide)).trans (val4_main_arg1 V)
theorem val5_main_arg2 (V : Valuation τ sig (Elt F)) : val5 V (Proc.devRef .tc main_arg2) = V (Proc.devRef .tc main_arg2) :=
  (val5_keep V main_arg2 (by decide)).trans (val4_main_arg2 V)
theorem val5_main_arg3 (V : Valuation τ sig (Elt F)) : val5 V (Proc.devRef .tc main_arg3) = V (Proc.devRef .tc main_arg3) :=
  (val5_keep V main_arg3 (by decide)).trans (val4_main_arg3 V)
theorem val5_main_arg4 (V : Valuation τ sig (Elt F)) : val5 V (Proc.devRef .tc main_arg4) = V (Proc.devRef .tc main_arg4) :=
  (val5_keep V main_arg4 (by decide)).trans (val4_main_arg4 V)
theorem val5_main_arg5 (V : Valuation τ sig (Elt F)) : val5 V (Proc.devRef .tc main_arg5) = V (Proc.devRef .tc main_arg5) :=
  (val5_keep V main_arg5 (by decide)).trans (val4_main_arg5 V)
theorem val5_main_arg6 (V : Valuation τ sig (Elt F)) : val5 V (Proc.devRef .tc main_arg6) = V (Proc.devRef .tc main_arg6) :=
  (val5_keep V main_arg6 (by decide)).trans (val4_main_arg6 V)
theorem val5_main_v17 (V : Valuation τ sig (Elt F)) : val5 V (Proc.devRef .tc main_v17) = remainder (floorDivide (flat F) (constantI S_ 32 4096#32)) (constantI S_ 32 4096#32) := by
  unfold val5
  rw [piece5_v17 (val4 V), val4_main_v15]
  all_goals rfl

/-- The device's buffer contents after the first 6 pieces. -/
def val6 (V : Valuation τ sig (Elt F)) : Valuation τ sig (Elt F) := after ops6 (val5 V)
/-- A buffer the piece does not write keeps its contents through it. -/
theorem val6_keep (V : Valuation τ sig (Elt F)) (r : Ref sig .tc) (h0 : r ∉ ops6_W) :
    val6 V (Proc.devRef .tc r) = val5 V (Proc.devRef .tc r) :=
  ops6_keep _ r h0
theorem val6_main_v17 (V : Valuation τ sig (Elt F)) : val6 V (Proc.devRef .tc main_v17) = remainder (floorDivide (flat F) (constantI S_ 32 4096#32)) (constantI S_ 32 4096#32) :=
  (val6_keep V main_v17 (by decide)).trans (val5_main_v17 V)
theorem val6_main_arg0 (V : Valuation τ sig (Elt F)) : val6 V (Proc.devRef .tc main_arg0) = V (Proc.devRef .tc main_arg0) :=
  (val6_keep V main_arg0 (by decide)).trans (val5_main_arg0 V)
theorem val6_main_arg1 (V : Valuation τ sig (Elt F)) : val6 V (Proc.devRef .tc main_arg1) = V (Proc.devRef .tc main_arg1) :=
  (val6_keep V main_arg1 (by decide)).trans (val5_main_arg1 V)
theorem val6_main_arg2 (V : Valuation τ sig (Elt F)) : val6 V (Proc.devRef .tc main_arg2) = V (Proc.devRef .tc main_arg2) :=
  (val6_keep V main_arg2 (by decide)).trans (val5_main_arg2 V)
theorem val6_main_arg3 (V : Valuation τ sig (Elt F)) : val6 V (Proc.devRef .tc main_arg3) = V (Proc.devRef .tc main_arg3) :=
  (val6_keep V main_arg3 (by decide)).trans (val5_main_arg3 V)
theorem val6_main_arg4 (V : Valuation τ sig (Elt F)) : val6 V (Proc.devRef .tc main_arg4) = V (Proc.devRef .tc main_arg4) :=
  (val6_keep V main_arg4 (by decide)).trans (val5_main_arg4 V)
theorem val6_main_arg5 (V : Valuation τ sig (Elt F)) : val6 V (Proc.devRef .tc main_arg5) = V (Proc.devRef .tc main_arg5) :=
  (val6_keep V main_arg5 (by decide)).trans (val5_main_arg5 V)
theorem val6_main_arg6 (V : Valuation τ sig (Elt F)) : val6 V (Proc.devRef .tc main_arg6) = V (Proc.devRef .tc main_arg6) :=
  (val6_keep V main_arg6 (by decide)).trans (val5_main_arg6 V)
theorem val6_main_v19 (V : Valuation τ sig (Elt F)) : val6 V (Proc.devRef .tc main_v19) = remainder (floorDivide (flat F) (constantI S_ 32 1#32)) (constantI S_ 32 4096#32) := by
  unfold val6
  rw [piece6_v19 (val5 V), val5_main_v15]
  all_goals rfl

/-- The device's buffer contents after the first 7 pieces. -/
def val7 (V : Valuation τ sig (Elt F)) : Valuation τ sig (Elt F) := after ops7a (val6 V)
/-- A buffer the piece does not write keeps its contents through it. -/
theorem val7_keep (V : Valuation τ sig (Elt F)) (r : Ref sig .tc) (h0 : r ∉ ops7a_W) :
    val7 V (Proc.devRef .tc r) = val6 V (Proc.devRef .tc r) :=
  ops7a_keep _ r h0
theorem val7_main_arg0 (V : Valuation τ sig (Elt F)) : val7 V (Proc.devRef .tc main_arg0) = V (Proc.devRef .tc main_arg0) :=
  (val7_keep V main_arg0 (by decide)).trans (val6_main_arg0 V)
theorem val7_main_arg1 (V : Valuation τ sig (Elt F)) : val7 V (Proc.devRef .tc main_arg1) = V (Proc.devRef .tc main_arg1) :=
  (val7_keep V main_arg1 (by decide)).trans (val6_main_arg1 V)
theorem val7_main_arg2 (V : Valuation τ sig (Elt F)) : val7 V (Proc.devRef .tc main_arg2) = V (Proc.devRef .tc main_arg2) :=
  (val7_keep V main_arg2 (by decide)).trans (val6_main_arg2 V)
theorem val7_main_arg3 (V : Valuation τ sig (Elt F)) : val7 V (Proc.devRef .tc main_arg3) = V (Proc.devRef .tc main_arg3) :=
  (val7_keep V main_arg3 (by decide)).trans (val6_main_arg3 V)
theorem val7_main_arg4 (V : Valuation τ sig (Elt F)) : val7 V (Proc.devRef .tc main_arg4) = V (Proc.devRef .tc main_arg4) :=
  (val7_keep V main_arg4 (by decide)).trans (val6_main_arg4 V)
theorem val7_main_arg5 (V : Valuation τ sig (Elt F)) : val7 V (Proc.devRef .tc main_arg5) = V (Proc.devRef .tc main_arg5) :=
  (val7_keep V main_arg5 (by decide)).trans (val6_main_arg5 V)
theorem val7_main_arg6 (V : Valuation τ sig (Elt F)) : val7 V (Proc.devRef .tc main_arg6) = V (Proc.devRef .tc main_arg6) :=
  (val7_keep V main_arg6 (by decide)).trans (val6_main_arg6 V)
theorem val7_main_v20 (V : Valuation τ sig (Elt F)) : val7 V (Proc.devRef .tc main_v20) = zerosSq F := by
  unfold val7
  rw [piece7_v20 (val6 V)]
  all_goals rfl
theorem val7_main_v31 (V : Valuation τ sig (Elt F)) : val7 V (Proc.devRef .tc main_v31) = broadcastInDim S8386560x1 ![0] bcast_S8386560_S8386560x1_0 (rowIdx F) := by
  unfold val7
  rw [piece7_v31 (val6 V), val6_main_v17]
  try simp only [rowIdx, rowIdxOf]
  all_goals rfl
theorem val7_main_v32 (V : Valuation τ sig (Elt F)) : val7 V (Proc.devRef .tc main_v32) = broadcastInDim S8386560x1 ![0] bcast_S8386560_S8386560x1_0 (colIdx F) := by
  unfold val7
  rw [piece7_v32 (val6 V), val6_main_v19]
  try simp only [colIdx, colIdxOf]
  all_goals rfl

/-- The device's buffer contents after the first 8 pieces. -/
def val8 (V : Valuation τ sig (Elt F)) : Valuation τ sig (Elt F) := after ops7b (val7 V)
/-- A buffer the piece does not write keeps its contents through it. -/
theorem val8_keep (V : Valuation τ sig (Elt F)) (r : Ref sig .tc) (h0 : r ∉ ops7b_W) :
    val8 V (Proc.devRef .tc r) = val7 V (Proc.devRef .tc r) :=
  ops7b_keep _ r h0
theorem val8_main_v20 (V : Valuation τ sig (Elt F)) : val8 V (Proc.devRef .tc main_v20) = zerosSq F :=
  (val8_keep V main_v20 (by decide)).trans (val7_main_v20 V)
theorem val8_main_arg0 (V : Valuation τ sig (Elt F)) : val8 V (Proc.devRef .tc main_arg0) = V (Proc.devRef .tc main_arg0) :=
  (val8_keep V main_arg0 (by decide)).trans (val7_main_arg0 V)
theorem val8_main_arg1 (V : Valuation τ sig (Elt F)) : val8 V (Proc.devRef .tc main_arg1) = V (Proc.devRef .tc main_arg1) :=
  (val8_keep V main_arg1 (by decide)).trans (val7_main_arg1 V)
theorem val8_main_arg2 (V : Valuation τ sig (Elt F)) : val8 V (Proc.devRef .tc main_arg2) = V (Proc.devRef .tc main_arg2) :=
  (val8_keep V main_arg2 (by decide)).trans (val7_main_arg2 V)
theorem val8_main_arg3 (V : Valuation τ sig (Elt F)) : val8 V (Proc.devRef .tc main_arg3) = V (Proc.devRef .tc main_arg3) :=
  (val8_keep V main_arg3 (by decide)).trans (val7_main_arg3 V)
theorem val8_main_arg4 (V : Valuation τ sig (Elt F)) : val8 V (Proc.devRef .tc main_arg4) = V (Proc.devRef .tc main_arg4) :=
  (val8_keep V main_arg4 (by decide)).trans (val7_main_arg4 V)
theorem val8_main_arg5 (V : Valuation τ sig (Elt F)) : val8 V (Proc.devRef .tc main_arg5) = V (Proc.devRef .tc main_arg5) :=
  (val8_keep V main_arg5 (by decide)).trans (val7_main_arg5 V)
theorem val8_main_arg6 (V : Valuation τ sig (Elt F)) : val8 V (Proc.devRef .tc main_arg6) = V (Proc.devRef .tc main_arg6) :=
  (val8_keep V main_arg6 (by decide)).trans (val7_main_arg6 V)
theorem val8_main_v33 (V : Valuation τ sig (Elt F)) : val8 V (Proc.devRef .tc main_v33) = idxPairs F := by
  unfold val8
  rw [piece8_v33 (val7 V), val7_main_v31, val7_main_v32]
  try simp only [idxPairs, idxPairsOf, pairOf]
  all_goals rfl

/-- The device's buffer contents after the first 9 pieces. -/
def val9 (V : Valuation τ sig (Elt F)) : Valuation τ sig (Elt F) := after ops8b (after ops8a (val8 V))
/-- A buffer the piece does not write keeps its contents through it. -/
theorem val9_keep (V : Valuation τ sig (Elt F)) (r : Ref sig .tc) (h0 : r ∉ ops8a_W) (h1 : r ∉ ops8b_W) :
    val9 V (Proc.devRef .tc r) = val8 V (Proc.devRef .tc r) :=
  (ops8b_keep _ r h1).trans (ops8a_keep _ r h0)
theorem val9_main_arg0 (V : Valuation τ sig (Elt F)) : val9 V (Proc.devRef .tc main_arg0) = V (Proc.devRef .tc main_arg0) :=
  (val9_keep V main_arg0 (by decide) (by decide)).trans (val8_main_arg0 V)
theorem val9_main_arg1 (V : Valuation τ sig (Elt F)) : val9 V (Proc.devRef .tc main_arg1) = V (Proc.devRef .tc main_arg1) :=
  (val9_keep V main_arg1 (by decide) (by decide)).trans (val8_main_arg1 V)
theorem val9_main_arg2 (V : Valuation τ sig (Elt F)) : val9 V (Proc.devRef .tc main_arg2) = V (Proc.devRef .tc main_arg2) :=
  (val9_keep V main_arg2 (by decide) (by decide)).trans (val8_main_arg2 V)
theorem val9_main_arg3 (V : Valuation τ sig (Elt F)) : val9 V (Proc.devRef .tc main_arg3) = V (Proc.devRef .tc main_arg3) :=
  (val9_keep V main_arg3 (by decide) (by decide)).trans (val8_main_arg3 V)
theorem val9_main_arg4 (V : Valuation τ sig (Elt F)) : val9 V (Proc.devRef .tc main_arg4) = V (Proc.devRef .tc main_arg4) :=
  (val9_keep V main_arg4 (by decide) (by decide)).trans (val8_main_arg4 V)
theorem val9_main_arg5 (V : Valuation τ sig (Elt F)) : val9 V (Proc.devRef .tc main_arg5) = V (Proc.devRef .tc main_arg5) :=
  (val9_keep V main_arg5 (by decide) (by decide)).trans (val8_main_arg5 V)
theorem val9_main_arg6 (V : Valuation τ sig (Elt F)) : val9 V (Proc.devRef .tc main_arg6) = V (Proc.devRef .tc main_arg6) :=
  (val9_keep V main_arg6 (by decide) (by decide)).trans (val8_main_arg6 V)
theorem val9_main_v42 (V : Valuation τ sig (Elt F)) : val9 V (Proc.devRef .tc main_v42) = pUsed (V (Proc.devRef .tc main_arg1)) := by
  unfold val9
  rw [piece9_v42 (val8 V), val8_main_v20, val8_main_v33, val8_main_arg1]
  try simp only [pUsed, msym, scat, scatOf]
  all_goals rfl

/-- The device's buffer contents after the first 10 pieces. -/
def val10 (V : Valuation τ sig (Elt F)) : Valuation τ sig (Elt F) := after ops9 (val9 V)
/-- A buffer the piece does not write keeps its contents through it. -/
theorem val10_keep (V : Valuation τ sig (Elt F)) (r : Ref sig .tc) (h0 : r ∉ ops9_W) :
    val10 V (Proc.devRef .tc r) = val9 V (Proc.devRef .tc r) :=
  ops9_keep _ r h0
theorem val10_main_v42 (V : Valuation τ sig (Elt F)) : val10 V (Proc.devRef .tc main_v42) = pUsed (V (Proc.devRef .tc main_arg1)) :=
  (val10_keep V main_v42 (by decide)).trans (val9_main_v42 V)
theorem val10_main_arg0 (V : Valuation τ sig (Elt F)) : val10 V (Proc.devRef .tc main_arg0) = V (Proc.devRef .tc main_arg0) :=
  (val10_keep V main_arg0 (by decide)).trans (val9_main_arg0 V)
theorem val10_main_arg1 (V : Valuation τ sig (Elt F)) : val10 V (Proc.devRef .tc main_arg1) = V (Proc.devRef .tc main_arg1) :=
  (val10_keep V main_arg1 (by decide)).trans (val9_main_arg1 V)
theorem val10_main_arg2 (V : Valuation τ sig (Elt F)) : val10 V (Proc.devRef .tc main_arg2) = V (Proc.devRef .tc main_arg2) :=
  (val10_keep V main_arg2 (by decide)).trans (val9_main_arg2 V)
theorem val10_main_arg3 (V : Valuation τ sig (Elt F)) : val10 V (Proc.devRef .tc main_arg3) = V (Proc.devRef .tc main_arg3) :=
  (val10_keep V main_arg3 (by decide)).trans (val9_main_arg3 V)
theorem val10_main_arg4 (V : Valuation τ sig (Elt F)) : val10 V (Proc.devRef .tc main_arg4) = V (Proc.devRef .tc main_arg4) :=
  (val10_keep V main_arg4 (by decide)).trans (val9_main_arg4 V)
theorem val10_main_arg5 (V : Valuation τ sig (Elt F)) : val10 V (Proc.devRef .tc main_arg5) = V (Proc.devRef .tc main_arg5) :=
  (val10_keep V main_arg5 (by decide)).trans (val9_main_arg5 V)
theorem val10_main_arg6 (V : Valuation τ sig (Elt F)) : val10 V (Proc.devRef .tc main_arg6) = V (Proc.devRef .tc main_arg6) :=
  (val10_keep V main_arg6 (by decide)).trans (val9_main_arg6 V)
theorem val10_main_v63 (V : Valuation τ sig (Elt F)) : val10 V (Proc.devRef .tc main_v63) = ahat (pUsed (V (Proc.devRef .tc main_arg1))) (V (Proc.devRef .tc main_arg2)) := by
  unfold val10
  rw [piece10_v63 (val9 V), val9_main_v42, val9_main_arg2]
  all_goals rfl

/-- The device's buffer contents after the first 11 pieces. -/
def val11 (V : Valuation τ sig (Elt F)) : Valuation τ sig (Elt F) := after ops10 (val10 V)
/-- A buffer the piece does not write keeps its contents through it. -/
theorem val11_keep (V : Valuation τ sig (Elt F)) (r : Ref sig .tc) (h0 : r ∉ ops10_W) :
    val11 V (Proc.devRef .tc r) = val10 V (Proc.devRef .tc r) :=
  ops10_keep _ r h0
theorem val11_main_v42 (V : Valuation τ sig (Elt F)) : val11 V (Proc.devRef .tc main_v42) = pUsed (V (Proc.devRef .tc main_arg1)) :=
  (val11_keep V main_v42 (by decide)).trans (val10_main_v42 V)
theorem val11_main_arg0 (V : Valuation τ sig (Elt F)) : val11 V (Proc.devRef .tc main_arg0) = V (Proc.devRef .tc main_arg0) :=
  (val11_keep V main_arg0 (by decide)).trans (val10_main_arg0 V)
theorem val11_main_arg1 (V : Valuation τ sig (Elt F)) : val11 V (Proc.devRef .tc main_arg1) = V (Proc.devRef .tc main_arg1) :=
  (val11_keep V main_arg1 (by decide)).trans (val10_main_arg1 V)
theorem val11_main_arg2 (V : Valuation τ sig (Elt F)) : val11 V (Proc.devRef .tc main_arg2) = V (Proc.devRef .tc main_arg2) :=
  (val11_keep V main_arg2 (by decide)).trans (val10_main_arg2 V)
theorem val11_main_arg3 (V : Valuation τ sig (Elt F)) : val11 V (Proc.devRef .tc main_arg3) = V (Proc.devRef .tc main_arg3) :=
  (val11_keep V main_arg3 (by decide)).trans (val10_main_arg3 V)
theorem val11_main_arg4 (V : Valuation τ sig (Elt F)) : val11 V (Proc.devRef .tc main_arg4) = V (Proc.devRef .tc main_arg4) :=
  (val11_keep V main_arg4 (by decide)).trans (val10_main_arg4 V)
theorem val11_main_arg5 (V : Valuation τ sig (Elt F)) : val11 V (Proc.devRef .tc main_arg5) = V (Proc.devRef .tc main_arg5) :=
  (val11_keep V main_arg5 (by decide)).trans (val10_main_arg5 V)
theorem val11_main_arg6 (V : Valuation τ sig (Elt F)) : val11 V (Proc.devRef .tc main_arg6) = V (Proc.devRef .tc main_arg6) :=
  (val11_keep V main_arg6 (by decide)).trans (val10_main_arg6 V)
theorem val11_main_v74 (V : Valuation τ sig (Elt F)) : val11 V (Proc.devRef .tc main_v74) = res (V (Proc.devRef .tc main_arg0)) (pUsed (V (Proc.devRef .tc main_arg1))) (V (Proc.devRef .tc main_arg2)) (V (Proc.devRef .tc main_arg3)) (V (Proc.devRef .tc main_arg4)) (V (Proc.devRef .tc main_arg5)) (V (Proc.devRef .tc main_arg6)) := by
  unfold val11
  rw [piece11_v74 (val10 V), val10_main_v63, val10_main_arg0, val10_main_arg3, val10_main_arg4, val10_main_arg5, val10_main_arg6]
  try simp only [res, hid]
  all_goals rfl

/-- The whole list's contents are the last piece's. -/
theorem after_ops (V : Valuation τ sig (Elt F)) : after ops V = val11 V := by
  simp only [ops, opsP0, opsP1, after_app]
  rfl

/-- On every device, for any float values, from any memory with zero counters: every weakly fair execution of
    @main terminates with the first result at `res` of the arguments' launch contents (its matrix argument the
    second result, `pUsed` of argument 1), the second result at `pUsed` of argument 1, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v74)
          = res (m ((c.tc : Thread nD τ).loc main_arg0)) (pUsed (m ((c.tc : Thread nD τ).loc main_arg1)))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_v42) = pUsed (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v74).trans (by simp only [after_ops]; exact val11_main_v74 (launchContents m c)),
      (h c main_v42).trans (by simp only [after_ops]; exact val11_main_v42 (launchContents m c)),
      (h c main_arg0).trans (by simp only [after_ops]; exact val11_main_arg0 (launchContents m c)),
      (h c main_arg1).trans (by simp only [after_ops]; exact val11_main_arg1 (launchContents m c)),
      (h c main_arg2).trans (by simp only [after_ops]; exact val11_main_arg2 (launchContents m c)),
      (h c main_arg3).trans (by simp only [after_ops]; exact val11_main_arg3 (launchContents m c)),
      (h c main_arg4).trans (by simp only [after_ops]; exact val11_main_arg4 (launchContents m c)),
      (h c main_arg5).trans (by simp only [after_ops]; exact val11_main_arg5 (launchContents m c)),
      (h c main_arg6).trans (by simp only [after_ops]; exact val11_main_arg6 (launchContents m c))⟩)
    (run_seq scopedRefs_eq scopedSems_eq defs main (fun _ => ops) main_eq (fun _ => ops_sub) m ρ)

end Cert.ReferenceIdeal.Hand

end
-- ==== Proof.GcnLayout.lean ====
/-
  Host layout operations and a host row sum, read at an index given by coordinates.

  A vector of length a kept as a column is broadcast to [a, 1] and then over b columns; read at (i, c) it is the
  vector at i.  Kept as a row it is broadcast to [1, b] and then down a rows; read at (i, c) it is the vector at c.
  The host's sum along the columns of an [a, b] matrix, read at row p, is the initial value plus the sum of the
  row's entries.
-/
import Idealize.ShloMosaic.Lib.ValueIdx
import Idealize.ShloMosaic.Lib.ValueLayout
import Idealize.ShloMosaic.Lib.IdealHost
import Idealize.ShloMosaic.PureOps.Ideal.Laws

namespace Cert.GcnLayout

open Idealize.ShloMosaic Idealize.ShloMosaic.ValueIdx

variable {α : Type}

/-- A vector as a column, then over the columns: at (i, c) the vector at i. -/
theorem bid_col_apply {a b : ℕ} (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (x : (⟨1, ![a]⟩ : Shape).Idx → α) (i : Fin a) (c : Fin b) :
    broadcastInDim ⟨2, ![a, b]⟩ ![0, 1] h2 (broadcastInDim ⟨2, ![a, 1]⟩ ![0] h1 x) (ix2 i c) = x (ix1 i) := by
  refine (broadcastInDim_apply _ h2 _ (ix2 i c) (ix2 i (0 : Fin 1)) fun ax => ?_).trans
    (broadcastInDim_apply _ h1 x (ix2 i (0 : Fin 1)) (ix1 i) fun ax => ?_)
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector as a row, then down the rows: at (i, c) the vector at c. -/
theorem bid_row_apply {a b : ℕ} (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (x : (⟨1, ![b]⟩ : Shape).Idx → α) (i : Fin a) (c : Fin b) :
    broadcastInDim ⟨2, ![a, b]⟩ ![0, 1] h2 (broadcastInDim ⟨2, ![1, b]⟩ ![1] h1 x) (ix2 i c) = x (ix1 c) := by
  refine (broadcastInDim_apply _ h2 _ (ix2 i c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- The index a reduction along the columns inserts: row p, column k. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The host's sum along the columns at row p: the initial value plus the sum of the row's entries. -/
theorem hostRowSum_apply {a b : ℕ} {u : Shape} (src : FVec Ideal ⟨2, ![a, b]⟩ .f32) (init : u.Idx → EReal)
    (h' : (⟨2, ![a, b]⟩ : Shape).ReducesTo [1] ⟨1, ![a]⟩) (hu : 0 < u.numel) (p : Fin a) :
    Host.reduceAdd (F := Ideal) src init h' hu (ix1 p) = init (Shape.Idx.first hu) + ∑ k : Fin b, src (ix2 p k) := by
  have h : (⟨2, ![a, b]⟩ : Shape).Reduces [1] ⟨1, ![a]⟩ := by
    obtain ⟨e, hb⟩ := h'
    exact ⟨e, Nat.one_pos, hb⟩
  refine (hostReduceAdd_apply src init h' hu (ix1 p)).trans ?_
  refine (Ideal.hostReduceAdd_single h' h src _ (ix1 p)).trans ?_
  exact congrArg (init (Shape.Idx.first hu) + ·) (Finset.sum_congr rfl fun k _ => congrArg src (lift_cols h p k))

end Cert.GcnLayout
-- ==== Proof.GcnReal.lean ====
/-
  The algebra of a two-layer graph convolution, on the extended reals, for entries that are real numbers.

  An extended real is called real when it is the image of a real number. Real extended reals are closed
  under sums, products, finite sums and maxima, and among them a finite sum distributes over a product
  (which fails on the extended reals in general: (⊤ + ⊥) · c).  With that one law the two orders of
  normalisation agree: scaling the columns of the adjacency before the product and the rows after it,
      (∑ⱼ Aᵢⱼ · (yⱼ · dⱼ)) · dᵢ,
  is the product with the matrix normalised on both sides first,
      ∑ⱼ ((dᵢ · Aᵢⱼ) · dⱼ) · yⱼ.
  Applied once to the first layer (inside the maximum with zero, which is not touched) and once to the
  second, it identifies the two spellings of the whole network.
-/
import Mathlib.Data.EReal.Inv
import Mathlib.Algebra.BigOperators.Group.Finset.Basic
import Mathlib.Tactic

namespace Cert.GcnAlg

open Finset

/-- An extended real that is the image of a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (mem_insert_self _ _)).add (ih fun i hi => h i (mem_insert_of_mem hi))

/-- Among real entries a finite sum distributes over a product. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨c', rfl⟩ := hc
  induction s using Finset.induction_on with
  | empty => simp
  | insert a s ha ih =>
    rw [Finset.sum_insert ha, Finset.sum_insert ha, ← ih fun i hi => hf i (mem_insert_of_mem hi)]
    obtain ⟨x, hx⟩ := hf a (mem_insert_self _ _)
    obtain ⟨y, hy⟩ := IsReal.sum s f fun i hi => hf i (mem_insert_of_mem hi)
    rw [hx, hy, ← EReal.coe_add, ← EReal.coe_mul, ← EReal.coe_mul, ← EReal.coe_mul, ← EReal.coe_add, add_mul]

/-- Columns scaled before the product and rows after it, against the matrix normalised on both sides. -/
theorem layer_eq {ι : Type*} [Fintype ι] (A : ι → ι → EReal) (d y : ι → EReal) (hA : ∀ i j, IsReal (A i j))
    (hd : ∀ i, IsReal (d i)) (hy : ∀ j, IsReal (y j)) (i : ι) :
    (∑ j, A i j * (y j * d j)) * d i = ∑ j, ((d i * A i j) * d j) * y j := by
  rw [sum_mul_of_isReal _ _ _ (fun j _ => (hA i j).mul ((hy j).mul (hd j))) (hd i)]
  refine Finset.sum_congr rfl fun j _ => ?_
  simp only [mul_comm, mul_left_comm, mul_assoc]

/-- The hidden layer's entries are real. -/
theorem isReal_hidden {ι κ : Type*} [Fintype ι] (A : ι → ι → EReal) (d : ι → EReal) (XW : ι → κ → EReal) (b1 : κ → EReal)
    (hA : ∀ i j, IsReal (A i j)) (hd : ∀ i, IsReal (d i)) (hXW : ∀ i c, IsReal (XW i c)) (hb1 : ∀ c, IsReal (b1 c))
    (j : ι) (c : κ) : IsReal (max ((∑ j', A j j' * (XW j' c * d j')) * d j + b1 c) 0) :=
  ((((IsReal.sum _ _ fun j' _ => (hA j j').mul ((hXW j' c).mul (hd j'))).mul (hd j)).add (hb1 c)).max isReal_zero)

/-- The two spellings of the network agree entry by entry. -/
theorem gcn_alg {ι κ o : Type*} [Fintype ι] [Fintype κ] (A : ι → ι → EReal) (d : ι → EReal) (XW : ι → κ → EReal)
    (b1 : κ → EReal) (W2 : κ → o → EReal) (b2 : o → EReal)
    (hA : ∀ i j, IsReal (A i j)) (hd : ∀ i, IsReal (d i)) (hXW : ∀ i c, IsReal (XW i c)) (hb1 : ∀ c, IsReal (b1 c))
    (hW2 : ∀ c k, IsReal (W2 c k)) (i : ι) (k : o) :
    (∑ j, A i j * ((∑ c, max ((∑ j', A j j' * (XW j' c * d j')) * d j + b1 c) 0 * W2 c k) * d j)) * d i + b2 k
      = ∑ j, ((d i * A i j) * d j) * (∑ c, max (∑ j', ((d j * A j j') * d j') * XW j' c + b1 c) 0 * W2 c k) + b2 k := by
  have hh : ∀ j c, max ((∑ j', A j j' * (XW j' c * d j')) * d j + b1 c) 0
      = max (∑ j', ((d j * A j j') * d j') * XW j' c + b1 c) 0 := fun j c => by
    rw [layer_eq A d (fun j' => XW j' c) hA hd (fun j' => hXW j' c) j]
  have hY : ∀ j, IsReal (∑ c, max ((∑ j', A j j' * (XW j' c * d j')) * d j + b1 c) 0 * W2 c k) := fun j =>
    IsReal.sum _ _ fun c _ => (isReal_hidden A d XW b1 hA hd hXW hb1 j c).mul (hW2 c k)
  rw [layer_eq A d (fun j => ∑ c, max ((∑ j', A j j' * (XW j' c * d j')) * d j + b1 c) 0 * W2 c k) hA hd hY i]
  simp only [hh]

end Cert.GcnAlg
-- ==== Proof.GcnDinv.lean ====
/-
  The inverse square root of a degree, as the two programs spell it, at a real degree.

  One program takes the reciprocal square root where the degree is positive, the other one over the square
  root; both take zero elsewhere.  At a real degree r both are the real number (√r)⁻¹ where 0 < r and 0
  elsewhere; in particular they agree and are real.
-/
import Idealize.ShloMosaic.PureOps.Ideal
import Idealize.ShloMosaic.Lib.ValueIdx
import proofs.«102345_g84920093377258_cont_9to1c4b_501_3_alg».proof.Proof.GcnReal

namespace Cert.GcnAlg

open Idealize.ShloMosaic Idealize.ShloMosaic.ValueIdx

/-- Reciprocal square root where positive, zero elsewhere. -/
noncomputable def dinvA (x : EReal) : EReal := Scalar.select (Ideal.cmp .ogt x 0) (Ideal.rsqrt x) 0
/-- One over the square root where positive, zero elsewhere. -/
noncomputable def dinvB (x : EReal) : EReal := Scalar.select (Ideal.cmp .ogt x 0) (Ideal.div 1 (Ideal.sqrt x)) 0

theorem cmp_ogt_zero_coe (r : ℝ) : Ideal.cmp .ogt (r : EReal) 0 = if 0 < r then 1#1 else 0#1 := by
  show BitVec.ofBool (decide ((0 : EReal) < (r : EReal))) = _
  by_cases h : 0 < r
  · rw [if_pos h, decide_eq_true (EReal.coe_pos.2 h)]; rfl
  · rw [if_neg h, decide_eq_false (fun h' => h (EReal.coe_pos.1 h'))]; rfl

theorem dinvA_coe (r : ℝ) : dinvA (r : EReal) = ((if 0 < r then (Real.sqrt r)⁻¹ else 0 : ℝ) : EReal) := by
  unfold dinvA
  rw [cmp_ogt_zero_coe]
  by_cases h : 0 < r
  · rw [if_pos h, if_pos h, select_one, Ideal.rsqrt_coe, if_neg (not_lt.2 h.le), if_neg h.ne']
  · rw [if_neg h, if_neg h, select_zero, EReal.coe_zero]

theorem dinvB_coe (r : ℝ) : dinvB (r : EReal) = ((if 0 < r then (Real.sqrt r)⁻¹ else 0 : ℝ) : EReal) := by
  unfold dinvB
  rw [cmp_ogt_zero_coe]
  by_cases h : 0 < r
  · rw [if_pos h, if_pos h, select_one, Ideal.sqrt_coe, if_neg (not_lt.2 h.le),
      Ideal.div_coe (Real.sqrt_pos.2 h).ne', one_mul, one_div]
  · rw [if_neg h, if_neg h, select_zero, EReal.coe_zero]

theorem dinvA_eq_dinvB {x : EReal} (hx : IsReal x) : dinvA x = dinvB x := by
  obtain ⟨r, rfl⟩ := hx; rw [dinvA_coe, dinvB_coe]

theorem isReal_dinvA {x : EReal} (hx : IsReal x) : IsReal (dinvA x) := by
  obtain ⟨r, rfl⟩ := hx; rw [dinvA_coe]; exact isReal_coe _

end Cert.GcnAlg
-- ==== Proof.GcnKHost.lean ====
/-
  The kernel program's host stages on the extended reals, read at an index, and that their entries are real
  numbers when the inputs' entries are.

  The masked adjacency is the entrywise product; the identity matrix is one on the diagonal and zero off it;
  the degree is one plus the row sum; its inverse square root is taken where it is positive; the first feature
  product is the sum over the contracted axis; its rows are then scaled; the biases are kept as rows.
-/
import proofs.«102345_g84920093377258_cont_9to1c4b_501_3_alg».proof.Proof.KStages
import proofs.«102345_g84920093377258_cont_9to1c4b_501_3_alg».proof.Proof.GcnLayout
import proofs.«102345_g84920093377258_cont_9to1c4b_501_3_alg».proof.Proof.GcnDinv
import Idealize.ShloMosaic.Lib.StackMember
import Idealize.ShloMosaic.Lib.Affine

namespace Cert.KernelIdeal.Hand

open Idealize.ShloMosaic Idealize.ShloMosaic.ValueIdx Cert.KernelIdeal Cert.KernelIdeal.Facts₀ Cert.GcnAlg Cert.GcnLayout

variable [Cert.KernelIdeal.Facts]

/-- The word "row index + 0 = column index" of two indices below 4096. -/
theorem eyeWord (i j : Fin 4096) :
    IntOp.cmpi .eq (IntOp.addi (BitVec.ofNat 32 i.val) 0#32) (BitVec.ofNat 32 j.val) = if i = j then 1#1 else 0#1 := by
  have hi := i.isLt
  have hj := j.isLt
  by_cases h : i = j
  · subst h
    rw [if_pos rfl]
    exact IntOp.cmpi_eq.2 (by simp [IntOp.addi])
  · rw [if_neg h]
    refine eq_zero_of_ne_one fun e => h (Fin.ext ?_)
    have := congrArg BitVec.toNat (IntOp.cmpi_eq.1 e)
    simp only [IntOp.addi, BitVec.add_zero, BitVec.toNat_ofNat] at this
    omega

/-- The float of that word. -/
theorem eyeVal (i j : Fin 4096) :
    (((IntOp.cmpi .eq (IntOp.addi (BitVec.ofNat 32 i.val) 0#32) (BitVec.ofNat 32 j.val)).toNat : ℝ) : EReal)
      = if i = j then 1 else 0 := by
  rw [eyeWord]
  by_cases h : i = j
  · rw [if_pos h, if_pos h]; simp
  · rw [if_neg h, if_neg h]; simp

theorem adjK_apply (P arg2 : FVec Ideal S4096x4096 .f32) (i j : Fin 4096) :
    adjK P arg2 (ix2 i j) = P (ix2 i j) * arg2 (ix2 i j) := rfl

theorem eyeK_apply (i j : Fin 4096) : eyeK (F := Ideal) (ix2 i j) = if i = j then 1 else 0 :=
  eyeVal i j

theorem aK_apply (P arg2 : FVec Ideal S4096x4096 .f32) (i j : Fin 4096) :
    aK P arg2 (ix2 i j) = P (ix2 i j) * arg2 (ix2 i j) + (if i = j then 1 else 0) :=
  congrArg (P (ix2 i j) * arg2 (ix2 i j) + ·) (eyeK_apply i j)

theorem degK_apply (P arg2 : FVec Ideal S4096x4096 .f32) (i : Fin 4096) :
    degK P arg2 (ix1 i) = 1 + (0 + ∑ j : Fin 4096, P (ix2 i j) * arg2 (ix2 i j)) := by
  show Ideal.ofBits .f32 0x3F800000#32
      + Host.reduceAdd (F := Ideal) (adjK P arg2) (constant S_ .f32 0x00000000#32) reducesTo_S4096x4096_S4096_d1 h_S_ (ix1 i) = _
  rw [Ideal.ofBits_one_f32]
  refine congrArg (1 + ·) ((hostRowSum_apply (adjK P arg2) _ reducesTo_S4096x4096_S4096_d1 h_S_ i).trans ?_)
  show Ideal.ofBits .f32 0x00000000#32 + _ = _
  rw [Ideal.ofBits_zero_f32]
  rfl

theorem dinvK_apply (P arg2 : FVec Ideal S4096x4096 .f32) (i : Fin 4096) :
    dinvK P arg2 (ix1 i) = dinvA (degK P arg2 (ix1 i)) := by
  show Scalar.select (Ideal.cmp .ogt (degK P arg2 (ix1 i)) (Ideal.ofBits .f32 0x00000000#32))
      (Ideal.rsqrt (degK P arg2 (ix1 i))) (Ideal.ofBits .f32 0x00000000#32) = _
  rw [Ideal.ofBits_zero_f32]
  rfl

theorem xwK_apply (arg0 : FVec Ideal S4096x512 .f32) (arg3 : FVec Ideal S512x256 .f32) (i : Fin 4096) (c : Fin 256) :
    xwK arg0 arg3 (ix2 i c) = ∑ k : Fin 512, arg0 (ix2 i k) * arg3 (ix2 k c) :=
  StackMember.dotGeneral_plain_apply none arg0 arg3 i c

theorem zK_apply (arg0 : FVec Ideal S4096x512 .f32) (P arg2 : FVec Ideal S4096x4096 .f32) (arg3 : FVec Ideal S512x256 .f32)
    (j : Fin 4096) (c : Fin 256) :
    zK arg0 P arg2 arg3 (ix2 j c) = xwK arg0 arg3 (ix2 j c) * dinvK P arg2 (ix1 j) :=
  congrArg (xwK arg0 arg3 (ix2 j c) * ·)
    (bid_col_apply bcast_S4096_S4096x1_0 bcast_S4096x1_S4096x256_0_1 (dinvK P arg2) j c)

theorem b1rK_apply (arg4 : FVec Ideal S256 .f32) (u : Fin 1) (c : Fin 256) : b1rK arg4 (ix2 u c) = arg4 (ix1 c) :=
  shapeCast_a_1a_apply arg4 shapeCasts_S256_S1x256 u c

theorem b2rK_apply (arg6 : FVec Ideal S32 .f32) (u : Fin 1) (k : Fin 32) : b2rK arg6 (ix2 u k) = arg6 (ix1 k) :=
  shapeCast_a_1a_apply arg6 shapeCasts_S32_S1x32 u k

/-! ## Real entries -/

theorem isReal_aK {P arg2 : FVec Ideal S4096x4096 .f32} (hP : ∀ i, IsReal (P i)) (h2 : ∀ i, IsReal (arg2 i)) (i j : Fin 4096) :
    IsReal (aK P arg2 (ix2 i j)) := by
  rw [aK_apply]
  refine ((hP _).mul (h2 _)).add ?_
  split
  · exact isReal_one
  · exact isReal_zero

theorem isReal_degK {P arg2 : FVec Ideal S4096x4096 .f32} (hP : ∀ i, IsReal (P i)) (h2 : ∀ i, IsReal (arg2 i)) (i : Fin 4096) :
    IsReal (degK P arg2 (ix1 i)) := by
  rw [degK_apply]
  exact isReal_one.add (isReal_zero.add (IsReal.sum _ _ fun j _ => (hP _).mul (h2 _)))

theorem isReal_dinvK {P arg2 : FVec Ideal S4096x4096 .f32} (hP : ∀ i, IsReal (P i)) (h2 : ∀ i, IsReal (arg2 i)) (i : Fin 4096) :
    IsReal (dinvK P arg2 (ix1 i)) := by
  rw [dinvK_apply]
  exact isReal_dinvA (isReal_degK hP h2 i)

theorem isReal_xwK {arg0 : FVec Ideal S4096x512 .f32} {arg3 : FVec Ideal S512x256 .f32} (h0 : ∀ i, IsReal (arg0 i))
    (h3 : ∀ i, IsReal (arg3 i)) (i : Fin 4096) (c : Fin 256) : IsReal (xwK arg0 arg3 (ix2 i c)) := by
  rw [xwK_apply]
  exact IsReal.sum _ _ fun k _ => (h0 _).mul (h3 _)

end Cert.KernelIdeal.Hand
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.GcnKTile.lean ====
/-
  The kernel's two matrix-product regions on the extended reals, read at an entry.

  Region 0's scratch block after column block n holds, at (r, c), the sum over the first n + 1 column blocks of the
  products of the adjacency tile's row r with the matching 256 rows of the other operand; after the last block this
  is the sum over all 4096 columns, because a sum over 4096 indices is the sum over 16 blocks of 256.  The epilogue
  scales the row, adds the bias, takes the maximum with zero, multiplies by the second weight matrix and scales the
  row again.  Region 1 is the same accumulation with the plain epilogue "scale the row, add the bias".
-/
import proofs.«102345_g84920093377258_cont_9to1c4b_501_3_alg».proof.Proof.KSpec
import proofs.«102345_g84920093377258_cont_9to1c4b_501_3_alg».proof.Proof.LibTileSum
import proofs.«102345_g84920093377258_cont_9to1c4b_501_3_alg».proof.Proof.LibPlainDot
import proofs.«102345_g84920093377258_cont_9to1c4b_501_3_alg».proof.Proof.LibKeepdims
import Idealize.ShloMosaic.Lib.ValueLayout
import Idealize.ShloMosaic.Lib.Pipeline.Value

namespace Cert.KernelIdeal.Hand

open Idealize.ShloMosaic Idealize.ShloMosaic.ValueIdx Cert.KernelIdeal Cert.KernelIdeal.Gen

variable [Cert.KernelIdeal.Facts]

/-! ## Rows and blocks -/

/-- Row (i / 256, i mod 256) of the blocking is row i. -/
theorem row4096_divmod (i : Fin 4096) : row4096 (i.val / 256) (i.val % 256) = i :=
  Fin.ext (by
    show (256 * (i.val / 256) + i.val % 256) % 4096 = i.val
    rw [Nat.div_add_mod]
    exact Nat.mod_eq_of_lt i.isLt)

/-- A sum over the 16 blocks of 256 rows is the sum over the 4096 rows. -/
theorem sum_rows (f : Fin 4096 → EReal) :
    ∑ b ∈ Finset.range 16, ∑ t : Fin 256, f (row4096 b t.val) = ∑ j : Fin 4096, f j := by
  rw [Cert.LibTileSum.sum_blocks (A := 16) (B := 256) (by norm_num : 16 * 256 = 4096) f,
    ← Fin.sum_univ_eq_sum_range (fun b => ∑ t : Fin 256, f (row4096 b t.val)) 16]
  refine Finset.sum_congr rfl fun b _ => Finset.sum_congr rfl fun t _ => congrArg f (Fin.ext ?_)
  show (256 * b.val + t.val) % 4096 = 256 * b.val + t.val
  exact Nat.mod_eq_of_lt (by have := b.isLt; have := t.isLt; omega)

/-! ## Region 0 -/

theorem k0_pay1_apply (r c : Fin 256) : k0_pay1 (F := Ideal) (ix2 r c) = 0 := by
  have e : k0_pay1 (F := Ideal) = broadcast S256x256 (Scalar.ofBits (F := Ideal) .f32 0x00000000#32) := by
    unfold k0_pay1
    simp only [shapeCast_self]
  rw [e]
  exact Ideal.ofBits_zero_f32

theorem k0_pay2_apply (v3 v4 v6 : FVec Ideal S256x256 .f32) (r c : Fin 256) :
    k0_pay2 v3 v4 v6 (ix2 r c) = v3 (ix2 r c) + ∑ t : Fin 256, v4 (ix2 r t) * v6 (ix2 t c) := by
  have e : k0_pay2 v3 v4 v6
      = addf v3 (matmul dot_S256x256_S256x256_S256x256_1_0_0_1_n_n none v4 v6 (constant S256x256 .f32 0x00000000#32)) := by
    unfold k0_pay2
    simp only [shapeCast_self]
  rw [e]
  exact congrArg (v3 (ix2 r c) + ·) (Cert.LibPlainDot.matmul_plain_zero_apply none v4 v6 r c)

theorem acc0_apply (A : FVec Ideal S4096x4096 .f32) (z : FVec Ideal S4096x256 .f32) (bi n : ℕ) (r c : Fin 256) :
    acc0 A z bi n (ix2 r c)
      = ∑ b ∈ Finset.range (n + 1), ∑ t : Fin 256,
          A (ix2 (row4096 bi r.val) (row4096 b t.val)) * z (ix2 (row4096 b t.val) c) := by
  induction n with
  | zero =>
    show k0_pay2 (k0_pay1 (F := Ideal)) (tileA A bi 0) (blockZ z 0) (ix2 r c) = _
    rw [k0_pay2_apply, k0_pay1_apply, zero_add, Finset.sum_range_one]
    rfl
  | succ n ih =>
    show k0_pay2 (acc0 A z bi n) (tileA A bi (n + 1)) (blockZ z (n + 1)) (ix2 r c) = _
    rw [k0_pay2_apply, ih, Finset.sum_range_succ _ (n + 1)]
    rfl

theorem k0_pay3_apply (v16 : FVec Ideal S256 .f32) (v19 : FVec Ideal S256x256 .f32) (v22 : FVec Ideal S1x256 .f32)
    (v28 : FVec Ideal S256x32 .f32) (r : Fin 256) (k : Fin 32) :
    k0_pay3 v16 v19 v22 v28 (ix2 r k)
      = (∑ c : Fin 256, max (v19 (ix2 r c) * v16 (ix1 r) + v22 (ix2 (0 : Fin 1) c)) 0 * v28 (ix2 c k)) * v16 (ix1 r) := by
  have e : k0_pay3 v16 v19 v22 v28
      = mulf (matmul dot_S256x256_S256x32_S256x32_1_0_0_1_n_n none
          (maximumf (addf (mulf v19 (broadcastTo S256x256 (shapeCast S256x1 v16 shapeCasts_S256_S256x1) broadcasts_S256x1_S256x256))
              (broadcastTo S256x256 v22 broadcasts_S1x256_S256x256))
            (broadcast S256x256 (Scalar.ofBits (F := Ideal) .f32 0x00000000#32)))
          v28 (constant S256x32 .f32 0x00000000#32))
        (broadcastTo S256x32 (shapeCast S256x1 v16 shapeCasts_S256_S256x1) broadcasts_S256x1_S256x32) := by
    unfold k0_pay3
    simp only [shapeCast_self]
  have hcol : ∀ (b : ℕ) (hb : S256x1.Broadcasts ⟨2, ![256, b]⟩) (c : Fin b),
      broadcastTo ⟨2, ![256, b]⟩ (shapeCast S256x1 v16 shapeCasts_S256_S256x1) hb (ix2 r c) = v16 (ix1 r) := fun b hb c =>
    (broadcastTo_a1_ab_apply _ hb r c).trans (shapeCast_a_a1_apply v16 shapeCasts_S256_S256x1 r 0)
  rw [e]
  refine congrArg₂ (· * ·) ((Cert.LibPlainDot.matmul_plain_zero_apply none _ v28 r k).trans
    (Finset.sum_congr rfl fun c _ => congrArg (· * v28 (ix2 c k)) ?_)) (hcol 32 broadcasts_S256x1_S256x32 k)
  show max (v19 (ix2 r c) * broadcastTo S256x256 (shapeCast S256x1 v16 shapeCasts_S256_S256x1) broadcasts_S256x1_S256x256 (ix2 r c)
      + broadcastTo S256x256 v22 broadcasts_S1x256_S256x256 (ix2 r c)) (Ideal.ofBits .f32 0x00000000#32) = _
  rw [hcol 256 broadcasts_S256x1_S256x256 c, broadcastTo_1b_ab_apply v22 broadcasts_S1x256_S256x256 r c, Ideal.ofBits_zero_f32]

/-- One row block's epilogue over the fully accumulated block. -/
theorem g0_block (A : FVec Ideal S4096x4096 .f32) (z : FVec Ideal S4096x256 .f32) (b1r : FVec Ideal S1x256 .f32)
    (W2 : FVec Ideal S256x32 .f32) (d : FVec Ideal S4096 .f32) (bi : ℕ) (r : Fin 256) (k : Fin 32) :
    k0_pay3 (blockD d bi) (acc0 A z bi 15) b1r W2 (ix2 r k)
      = (∑ c : Fin 256, max ((∑ j : Fin 4096, A (ix2 (row4096 bi r.val) j) * z (ix2 j c)) * d (ix1 (row4096 bi r.val))
            + b1r (ix2 (0 : Fin 1) c)) 0 * W2 (ix2 c k)) * d (ix1 (row4096 bi r.val)) := by
  rw [k0_pay3_apply]
  refine congrArg₂ (· * ·) (Finset.sum_congr rfl fun c _ => ?_) rfl
  rw [acc0_apply]
  exact congrArg (fun s => max (s * d (ix1 (row4096 bi r.val)) + b1r (ix2 (0 : Fin 1) c)) 0 * W2 (ix2 c k))
    (sum_rows fun j => A (ix2 (row4096 bi r.val) j) * z (ix2 j c))

theorem g0_apply (A : FVec Ideal S4096x4096 .f32) (z : FVec Ideal S4096x256 .f32) (b1r : FVec Ideal S1x256 .f32)
    (W2 : FVec Ideal S256x32 .f32) (d : FVec Ideal S4096 .f32) (i : Fin 4096) (k : Fin 32) :
    g0 A z b1r W2 d (ix2 i k)
      = (∑ c : Fin 256, max ((∑ j : Fin 4096, A (ix2 i j) * z (ix2 j c)) * d (ix1 i) + b1r (ix2 (0 : Fin 1) c)) 0
          * W2 (ix2 c k)) * d (ix1 i) := by
  have hrow : row4096 (i.val / 256) (⟨i.val % 256, Nat.mod_lt _ (by norm_num)⟩ : Fin 256).val = i := row4096_divmod i
  show k0_pay3 (blockD d (i.val / 256)) (acc0 A z (i.val / 256) 15) b1r W2
      (ix2 (⟨i.val % 256, Nat.mod_lt _ (by norm_num)⟩ : Fin 256) k) = _
  rw [g0_block, hrow]

/-! ## Region 1 -/

theorem k1_pay1_apply (r : Fin 256) (k : Fin 32) : k1_pay1 (F := Ideal) (ix2 r k) = 0 := by
  have e : k1_pay1 (F := Ideal) = broadcast S256x32 (Scalar.ofBits (F := Ideal) .f32 0x00000000#32) := by
    unfold k1_pay1
    simp only [shapeCast_self]
  rw [e]
  exact Ideal.ofBits_zero_f32

theorem k1_pay2_apply (v3 : FVec Ideal S256x32 .f32) (v4 : FVec Ideal S256x256 .f32) (v6 : FVec Ideal S256x32 .f32)
    (r : Fin 256) (k : Fin 32) :
    k1_pay2 v3 v4 v6 (ix2 r k) = v3 (ix2 r k) + ∑ t : Fin 256, v4 (ix2 r t) * v6 (ix2 t k) := by
  have e : k1_pay2 v3 v4 v6
      = addf v3 (matmul dot_S256x256_S256x32_S256x32_1_0_0_1_n_n none v4 v6 (constant S256x32 .f32 0x00000000#32)) := by
    unfold k1_pay2
    simp only [shapeCast_self]
  rw [e]
  exact congrArg (v3 (ix2 r k) + ·) (Cert.LibPlainDot.matmul_plain_zero_apply none v4 v6 r k)

theorem acc1_apply (A : FVec Ideal S4096x4096 .f32) (g : FVec Ideal S4096x32 .f32) (bi n : ℕ) (r : Fin 256) (k : Fin 32) :
    acc1 A g bi n (ix2 r k)
      = ∑ b ∈ Finset.range (n + 1), ∑ t : Fin 256,
          A (ix2 (row4096 bi r.val) (row4096 b t.val)) * g (ix2 (row4096 b t.val) k) := by
  induction n with
  | zero =>
    show k1_pay2 (k1_pay1 (F := Ideal)) (tileA A bi 0) (blockG g 0) (ix2 r k) = _
    rw [k1_pay2_apply, k1_pay1_apply, zero_add, Finset.sum_range_one]
    rfl
  | succ n ih =>
    show k1_pay2 (acc1 A g bi n) (tileA A bi (n + 1)) (blockG g (n + 1)) (ix2 r k) = _
    rw [k1_pay2_apply, ih, Finset.sum_range_succ _ (n + 1)]
    rfl

theorem k1_pay3_apply (v16 : FVec Ideal S256x32 .f32) (v17 : FVec Ideal S256 .f32) (v22 : FVec Ideal S1x32 .f32)
    (r : Fin 256) (k : Fin 32) :
    k1_pay3 v16 v17 v22 (ix2 r k) = v16 (ix2 r k) * v17 (ix1 r) + v22 (ix2 (0 : Fin 1) k) := by
  have e : k1_pay3 v16 v17 v22
      = addf (mulf v16 (broadcastTo S256x32 (shapeCast S256x1 v17 shapeCasts_S256_S256x1) broadcasts_S256x1_S256x32))
          (broadcastTo S256x32 v22 broadcasts_S1x32_S256x32) := by
    unfold k1_pay3
    simp only [shapeCast_self]
  rw [e]
  show v16 (ix2 r k) * broadcastTo S256x32 (shapeCast S256x1 v17 shapeCasts_S256_S256x1) broadcasts_S256x1_S256x32 (ix2 r k)
      + broadcastTo S256x32 v22 broadcasts_S1x32_S256x32 (ix2 r k) = _
  rw [broadcastTo_a1_ab_apply _ broadcasts_S256x1_S256x32 r k, shapeCast_a_a1_apply v17 shapeCasts_S256_S256x1 r 0,
    broadcastTo_1b_ab_apply v22 broadcasts_S1x32_S256x32 r k]

theorem g1_block (A : FVec Ideal S4096x4096 .f32) (g : FVec Ideal S4096x32 .f32) (b2r : FVec Ideal S1x32 .f32)
    (d : FVec Ideal S4096 .f32) (bi : ℕ) (r : Fin 256) (k : Fin 32) :
    k1_pay3 (acc1 A g bi 15) (blockD d bi) b2r (ix2 r k)
      = (∑ j : Fin 4096, A (ix2 (row4096 bi r.val) j) * g (ix2 j k)) * d (ix1 (row4096 bi r.val)) + b2r (ix2 (0 : Fin 1) k) := by
  rw [k1_pay3_apply, acc1_apply]
  exact congrArg (fun s => s * d (ix1 (row4096 bi r.val)) + b2r (ix2 (0 : Fin 1) k))
    (sum_rows fun j => A (ix2 (row4096 bi r.val) j) * g (ix2 j k))

theorem g1_apply (A : FVec Ideal S4096x4096 .f32) (g : FVec Ideal S4096x32 .f32) (b2r : FVec Ideal S1x32 .f32)
    (d : FVec Ideal S4096 .f32) (i : Fin 4096) (k : Fin 32) :
    g1 A g b2r d (ix2 i k) = (∑ j : Fin 4096, A (ix2 i j) * g (ix2 j k)) * d (ix1 i) + b2r (ix2 (0 : Fin 1) k) := by
  have hrow : row4096 (i.val / 256) (⟨i.val % 256, Nat.mod_lt _ (by norm_num)⟩ : Fin 256).val = i := row4096_divmod i
  show k1_pay3 (acc1 A g (i.val / 256) 15) (blockD d (i.val / 256)) b2r
      (ix2 (⟨i.val % 256, Nat.mod_lt _ (by norm_num)⟩ : Fin 256) k) = _
  rw [g1_block, hrow]

end Cert.KernelIdeal.Hand
-- ==== Proof.GcnRHost.lean ====
/-
  The reference program's stages on the extended reals, read at an index.

  The adjacency with self loops is the masked adjacency plus the identity; the degree is its row sum; its inverse
  square root is one over the square root where the degree is positive; the normalised adjacency scales row i and
  column j; the hidden layer is the maximum with zero of the normalised product plus the bias; the result is the
  normalised product of the hidden layer times the second weight matrix, plus the bias.
-/
import proofs.«102345_g84920093377258_cont_9to1c4b_501_3_alg».proof.Proof.RefStages
import proofs.«102345_g84920093377258_cont_9to1c4b_501_3_alg».proof.Proof.GcnLayout
import proofs.«102345_g84920093377258_cont_9to1c4b_501_3_alg».proof.Proof.GcnDinv
import Idealize.ShloMosaic.Lib.StackMember
import Idealize.ShloMosaic.Lib.Affine

namespace Cert.ReferenceIdeal.Hand

open Idealize.ShloMosaic Idealize.ShloMosaic.ValueIdx Cert.ReferenceIdeal Cert.ReferenceIdeal.Facts₀ Cert.GcnAlg Cert.GcnLayout

variable [Cert.ReferenceIdeal.Facts]

/-- The word "row index + 0 = column index" of two indices below 4096. -/
theorem eyeWordR (i j : Fin 4096) :
    IntOp.cmpi .eq (IntOp.addi (BitVec.ofNat 32 i.val) 0#32) (BitVec.ofNat 32 j.val) = if i = j then 1#1 else 0#1 := by
  have hi := i.isLt
  have hj := j.isLt
  by_cases h : i = j
  · subst h
    rw [if_pos rfl]
    exact IntOp.cmpi_eq.2 (by simp [IntOp.addi])
  · rw [if_neg h]
    refine eq_zero_of_ne_one fun e => h (Fin.ext ?_)
    have := congrArg BitVec.toNat (IntOp.cmpi_eq.1 e)
    simp only [IntOp.addi, BitVec.add_zero, BitVec.toNat_ofNat] at this
    omega

theorem eye_apply (i j : Fin 4096) : eye Ideal (ix2 i j) = if i = j then 1 else 0 := by
  show (((IntOp.cmpi .eq (IntOp.addi (BitVec.ofNat 32 i.val) 0#32) (BitVec.ofNat 32 j.val)).toNat : ℝ) : EReal) = _
  rw [eyeWordR]
  by_cases h : i = j
  · rw [if_pos h, if_pos h]; simp
  · rw [if_neg h, if_neg h]; simp

theorem adjI_apply (P a2 : FVec Ideal S4096x4096 .f32) (i j : Fin 4096) :
    adjI P a2 (ix2 i j) = P (ix2 i j) * a2 (ix2 i j) + (if i = j then 1 else 0) :=
  congrArg (P (ix2 i j) * a2 (ix2 i j) + ·) (eye_apply i j)

theorem deg_apply (P a2 : FVec Ideal S4096x4096 .f32) (i : Fin 4096) :
    deg P a2 (ix1 i) = 0 + ∑ j : Fin 4096, adjI P a2 (ix2 i j) := by
  refine (hostRowSum_apply (adjI P a2) _ reducesTo_S4096x4096_S4096_d1 h_S_ i).trans ?_
  show Ideal.ofBits .f32 0x00000000#32 + _ = _
  rw [Ideal.ofBits_zero_f32]

theorem dinv_apply (P a2 : FVec Ideal S4096x4096 .f32) (i : Fin 4096) :
    dinv P a2 (ix1 i) = dinvB (deg P a2 (ix1 i)) := by
  show Scalar.select (Ideal.cmp .ogt (deg P a2 (ix1 i)) (Ideal.ofBits .f32 0x00000000#32))
      (Ideal.div (Ideal.ofBits .f32 0x3F800000#32) (Ideal.sqrt (deg P a2 (ix1 i)))) (Ideal.ofBits .f32 0x00000000#32) = _
  rw [Ideal.ofBits_zero_f32, Ideal.ofBits_one_f32]
  rfl

theorem ahat_apply (P a2 : FVec Ideal S4096x4096 .f32) (i j : Fin 4096) :
    ahat P a2 (ix2 i j) = (dinv P a2 (ix1 i) * adjI P a2 (ix2 i j)) * dinv P a2 (ix1 j) := by
  show (broadcastInDim S4096x4096 ![0, 1] bcast_S4096x1_S4096x4096_0_1
        (broadcastInDim S4096x1 ![0] bcast_S4096_S4096x1_0 (dinv P a2)) (ix2 i j) * adjI P a2 (ix2 i j))
      * broadcastInDim S4096x4096 ![0, 1] bcast_S1x4096_S4096x4096_0_1
        (broadcastInDim S1x4096 ![1] bcast_S4096_S1x4096_1 (dinv P a2)) (ix2 i j) = _
  rw [bid_col_apply bcast_S4096_S4096x1_0 bcast_S4096x1_S4096x4096_0_1 (dinv P a2) i j,
    bid_row_apply bcast_S4096_S1x4096_1 bcast_S1x4096_S4096x4096_0_1 (dinv P a2) i j]

theorem xw_apply (a0 : FVec Ideal S4096x512 .f32) (a3 : FVec Ideal S512x256 .f32) (i : Fin 4096) (c : Fin 256) :
    xw a0 a3 (ix2 i c) = ∑ k : Fin 512, a0 (ix2 i k) * a3 (ix2 k c) :=
  StackMember.dotGeneral_plain_apply none a0 a3 i c

theorem hid_apply (a0 : FVec Ideal S4096x512 .f32) (P a2 : FVec Ideal S4096x4096 .f32) (a3 : FVec Ideal S512x256 .f32)
    (a4 : FVec Ideal S256 .f32) (i : Fin 4096) (c : Fin 256) :
    hid a0 P a2 a3 a4 (ix2 i c)
      = max (∑ j : Fin 4096, ahat P a2 (ix2 i j) * xw a0 a3 (ix2 j c) + a4 (ix1 c)) 0 := by
  show max (Host.dotGeneral (F := Ideal) dot_S4096x4096_S4096x256_S4096x256_1_0_0_1_n_n none (ahat P a2) (xw a0 a3) (ix2 i c)
      + broadcastInDim S4096x256 ![0, 1] bcast_S1x256_S4096x256_0_1 (broadcastInDim S1x256 ![1] bcast_S256_S1x256_1 a4) (ix2 i c))
      (Ideal.ofBits .f32 0x00000000#32) = _
  rw [Ideal.ofBits_zero_f32, bid_row_apply bcast_S256_S1x256_1 bcast_S1x256_S4096x256_0_1 a4 i c]
  exact congrArg (fun s => max (s + a4 (ix1 c)) 0) (StackMember.dotGeneral_plain_apply none (ahat P a2) (xw a0 a3) i c)

theorem res_apply (a0 : FVec Ideal S4096x512 .f32) (P a2 : FVec Ideal S4096x4096 .f32) (a3 : FVec Ideal S512x256 .f32)
    (a4 : FVec Ideal S256 .f32) (a5 : FVec Ideal S256x32 .f32) (a6 : FVec Ideal S32 .f32) (i : Fin 4096) (k : Fin 32) :
    res a0 P a2 a3 a4 a5 a6 (ix2 i k)
      = ∑ j : Fin 4096, ahat P a2 (ix2 i j) * (∑ c : Fin 256, hid a0 P a2 a3 a4 (ix2 j c) * a5 (ix2 c k)) + a6 (ix1 k) := by
  show Host.dotGeneral (F := Ideal) dot_S4096x4096_S4096x32_S4096x32_1_0_0_1_n_n none (ahat P a2)
        (Host.dotGeneral (F := Ideal) dot_S4096x256_S256x32_S4096x32_1_0_0_1_n_n none (hid a0 P a2 a3 a4) a5) (ix2 i k)
      + broadcastInDim S4096x32 ![0, 1] bcast_S1x32_S4096x32_0_1 (broadcastInDim S1x32 ![1] bcast_S32_S1x32_1 a6) (ix2 i k) = _
  rw [bid_row_apply bcast_S32_S1x32_1 bcast_S1x32_S4096x32_0_1 a6 i k]
  refine congrArg (· + a6 (ix1 k)) ((StackMember.dotGeneral_plain_apply none (ahat P a2) _ i k).trans
    (Finset.sum_congr rfl fun j _ => congrArg (ahat P a2 (ix2 i j) * ·)
      (StackMember.dotGeneral_plain_apply none (hid a0 P a2 a3 a4) a5 j k)))

end Cert.ReferenceIdeal.Hand
-- ==== Proof.GcnEq.lean ====
/-
  The two programs' first results are equal on the extended reals when every input entry is a real number.

  The kernel's result, read at an entry through its two regions, is
      (∑ⱼ Aᵢⱼ · Gⱼₖ) · dᵢ + b₂ₖ,   Gⱼₖ = (∑_c max((∑ⱼ' Aⱼⱼ' · (XWⱼ'c · dⱼ')) · dⱼ + b₁c, 0) · W₂ck) · dⱼ,
  and the reference's is
      ∑ⱼ Âᵢⱼ · (∑_c max(∑ⱼ' Âⱼⱼ' · XWⱼ'c + b₁c, 0) · W₂ck) + b₂ₖ,   Âᵢⱼ = (dᵢ · Aᵢⱼ) · dⱼ,
  over the same adjacency with self loops A, the same feature product XW and, at real degrees, the same inverse
  square roots d (one plus a row sum is the row sum with the diagonal's one inside; a reciprocal square root is one
  over the square root).  The algebra of real entries then identifies the two.
-/
import proofs.«102345_g84920093377258_cont_9to1c4b_501_3_alg».proof.Proof.GcnKHost
import proofs.«102345_g84920093377258_cont_9to1c4b_501_3_alg».proof.Proof.GcnKTile
import proofs.«102345_g84920093377258_cont_9to1c4b_501_3_alg».proof.Proof.GcnRHost

namespace Cert.KernelIdeal.Hand

open Idealize.ShloMosaic Idealize.ShloMosaic.ValueIdx Cert.KernelIdeal Cert.GcnAlg
open Cert.ReferenceIdeal.Hand (adjI deg dinv ahat xw hid res adjI_apply deg_apply dinv_apply ahat_apply xw_apply hid_apply res_apply)

variable [Cert.KernelIdeal.Facts] [Cert.ReferenceIdeal.Facts]

/-- The kernel's first result at an entry. -/
theorem outK_apply (arg0 : FVec Ideal S4096x512 .f32) (P arg2 : FVec Ideal S4096x4096 .f32) (arg3 : FVec Ideal S512x256 .f32)
    (arg4 : FVec Ideal S256 .f32) (arg5 : FVec Ideal S256x32 .f32) (arg6 : FVec Ideal S32 .f32) (i : Fin 4096) (k : Fin 32) :
    outK g0 g1 arg0 P arg2 arg3 arg4 arg5 arg6 (ix2 i k)
      = (∑ j : Fin 4096, aK P arg2 (ix2 i j)
            * ((∑ c : Fin 256, max ((∑ j' : Fin 4096, aK P arg2 (ix2 j j') * (xwK arg0 arg3 (ix2 j' c) * dinvK P arg2 (ix1 j')))
                  * dinvK P arg2 (ix1 j) + arg4 (ix1 c)) 0 * arg5 (ix2 c k)) * dinvK P arg2 (ix1 j)))
          * dinvK P arg2 (ix1 i) + arg6 (ix1 k) := by
  unfold outK
  rw [g1_apply, b2rK_apply]
  simp only [g0_apply, zK_apply, b1rK_apply]

/-- The two programs' adjacencies with self loops are the same matrix. -/
theorem adjI_eq_aK (P arg2 : FVec Ideal S4096x4096 .f32) (i j : Fin 4096) : adjI P arg2 (ix2 i j) = aK P arg2 (ix2 i j) :=
  (adjI_apply P arg2 i j).trans (aK_apply P arg2 i j).symm

/-- The two programs' degrees are the same: the diagonal's one inside the row sum, or added to it. -/
theorem deg_eq_degK (P arg2 : FVec Ideal S4096x4096 .f32) (i : Fin 4096) : deg P arg2 (ix1 i) = degK P arg2 (ix1 i) := by
  rw [deg_apply, degK_apply]
  simp only [adjI_apply]
  rw [Finset.sum_add_distrib, Finset.sum_ite_eq, if_pos (Finset.mem_univ _), zero_add, zero_add, add_comm]

/-- At real inputs the two programs' inverse square roots of the degrees are the same. -/
theorem dinv_eq_dinvK {P arg2 : FVec Ideal S4096x4096 .f32} (hP : ∀ i, IsReal (P i)) (h2 : ∀ i, IsReal (arg2 i)) (i : Fin 4096) :
    dinv P arg2 (ix1 i) = dinvK P arg2 (ix1 i) := by
  rw [dinv_apply, dinvK_apply, deg_eq_degK]
  exact (dinvA_eq_dinvB (isReal_degK hP h2 i)).symm

/-- The two programs' first feature products are the same. -/
theorem xw_eq_xwK (arg0 : FVec Ideal S4096x512 .f32) (arg3 : FVec Ideal S512x256 .f32) (i : Fin 4096) (c : Fin 256) :
    xw arg0 arg3 (ix2 i c) = xwK arg0 arg3 (ix2 i c) :=
  (xw_apply arg0 arg3 i c).trans (xwK_apply arg0 arg3 i c).symm

/-- The reference's first result at an entry, over the kernel's stages. -/
theorem res_form (arg0 : FVec Ideal S4096x512 .f32) (P arg2 : FVec Ideal S4096x4096 .f32) (arg3 : FVec Ideal S512x256 .f32)
    (arg4 : FVec Ideal S256 .f32) (arg5 : FVec Ideal S256x32 .f32) (arg6 : FVec Ideal S32 .f32)
    (hP : ∀ i, IsReal (P i)) (h2 : ∀ i, IsReal (arg2 i)) (i : Fin 4096) (k : Fin 32) :
    res arg0 P arg2 arg3 arg4 arg5 arg6 (ix2 i k)
      = ∑ j : Fin 4096, ((dinvK P arg2 (ix1 i) * aK P arg2 (ix2 i j)) * dinvK P arg2 (ix1 j))
            * (∑ c : Fin 256, max (∑ j' : Fin 4096, ((dinvK P arg2 (ix1 j) * aK P arg2 (ix2 j j')) * dinvK P arg2 (ix1 j'))
                  * xwK arg0 arg3 (ix2 j' c) + arg4 (ix1 c)) 0 * arg5 (ix2 c k))
          + arg6 (ix1 k) := by
  rw [res_apply]
  simp only [hid_apply, ahat_apply, adjI_eq_aK, dinv_eq_dinvK hP h2, xw_eq_xwK]

/-- THE TWO FIRST RESULTS ARE EQUAL at inputs whose entries are real numbers. -/
theorem gcn_eq (arg0 : FVec Ideal S4096x512 .f32) (P arg2 : FVec Ideal S4096x4096 .f32) (arg3 : FVec Ideal S512x256 .f32)
    (arg4 : FVec Ideal S256 .f32) (arg5 : FVec Ideal S256x32 .f32) (arg6 : FVec Ideal S32 .f32)
    (h0 : ∀ i, ∃ r : ℝ, arg0 i = (r : EReal)) (hP : ∀ i, ∃ r : ℝ, P i = (r : EReal)) (h2 : ∀ i, ∃ r : ℝ, arg2 i = (r : EReal))
    (h3 : ∀ i, ∃ r : ℝ, arg3 i = (r : EReal)) (h4 : ∀ i, ∃ r : ℝ, arg4 i = (r : EReal)) (h5 : ∀ i, ∃ r : ℝ, arg5 i = (r : EReal))
    (h6 : ∀ i, ∃ r : ℝ, arg6 i = (r : EReal)) :
    outK g0 g1 arg0 P arg2 arg3 arg4 arg5 arg6 = res arg0 P arg2 arg3 arg4 arg5 arg6 := by
  funext idx
  obtain ⟨i, k, rfl⟩ : ∃ (i : Fin 4096) (k : Fin 32), idx = ix2 i k := ⟨idx 0, idx 1, eq_ix2 idx⟩
  rw [outK_apply, res_form arg0 P arg2 arg3 arg4 arg5 arg6 hP h2 i k]
  exact gcn_alg (fun i j => aK P arg2 (ix2 i j)) (fun i => dinvK P arg2 (ix1 i)) (fun i c => xwK arg0 arg3 (ix2 i c))
    (fun c => arg4 (ix1 c)) (fun c k => arg5 (ix2 c k)) (fun k => arg6 (ix1 k))
    (isReal_aK hP h2) (isReal_dinvK hP h2) (isReal_xwK h0 h3) (fun c => h4 _) (fun c k => h5 _) i k

end Cert.KernelIdeal.Hand
-- ==== Proof.GcnPre.lean ====
/-
  From the precondition to real entries.

  The precondition is the conjunction, over the seven argument arrays, of "every entry x has |x| < +∞",
  each taken as a reduction by "and" of the array of comparisons.  On the extended reals |x| = max x (−x)
  is below +∞ exactly when x is neither infinity, that is when x is a real number.
-/
import proofs.«102345_g84920093377258_cont_9to1c4b_501_3_alg».proof.Pre_finite_inputs
import Idealize.ShloMosaic.Lib.ReduceAll
import Idealize.ShloMosaic.Lib.ValueIdx
import Idealize.ShloMosaic.Lib.IdealHost

namespace Cert.Pre_finite_inputs.Hand

open Idealize.ShloMosaic Idealize.ShloMosaic.ValueIdx Cert.Pre_finite_inputs

instance : Subsingleton S_.Idx := ⟨fun a b => funext fun d => d.elim0⟩

/-- An extended real whose absolute value is below the word of +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max x (-x)) ⊤ = 1#1 := by rw [← htop]; exact h
  induction x using EReal.rec with
  | bot => exact absurd h' (by simp [Ideal.cmp])
  | coe r => exact ⟨r, rfl⟩
  | top => exact absurd h' (by simp [Ideal.cmp])

/-- One conjunct: an "all" of the comparisons that came out one says every entry is real. -/
theorem all_real {s : Shape} {axes : List (Fin s.rank)} (x : FVec Ideal s .f32)
    (hb : S_.BroadcastsInDim s (![] : Fin 0 → Fin s.rank)) (h : s.ReducesTo axes S_) (hu : 0 < S_.numel)
    (e : Host.reduce IntOp.andi
      (cmpf .olt (Host.absf x) (broadcastInDim s ![] hb (constant (F := Ideal) S_ .f32 0x7F800000#32)))
      (constantI S_ 1 1#1) h hu ix0 = 1#1) (i : s.Idx) : ∃ r : ℝ, x i = (r : EReal) :=
  real_of_abs_lt_inf (x i) (Host.reduce_andi_all _ _ h hu ix0 e i)

/-- The precondition holds only of arrays of real numbers. -/
theorem real_of_pre [Facts] (a0 : FVec Ideal S4096x512 .f32) (a1 : FVec Ideal S8386560 .f32)
    (a2 : FVec Ideal S4096x4096 .f32) (a3 : FVec Ideal S512x256 .f32) (a4 : FVec Ideal S256 .f32)
    (a5 : FVec Ideal S256x32 .f32) (a6 : FVec Ideal S32 .f32)
    (h : fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6⟩

end Cert.Pre_finite_inputs.Hand
-- ==== Proof.LibFloorDiv.lean ====
/-
  jnp's integer floor division and remainder on 32-bit words.

  `a // d` and `a % d` on int32 arrays lower to fifteen-odd host operations each: the truncating
  `stablehlo.divide` / `remainder`, then a correction by one (by the divisor) where the operands differ in
  sign and the remainder is not zero. For a dividend that is not negative and a positive divisor no
  correction applies and the truncating operations are the unsigned ones: the results are the unsigned
  quotient and remainder of the words (`floorDivWord_of_nonneg`, `remainderWord_of_nonneg`), whose values
  are the natural-number quotient and remainder of the values. `floorDiv_apply` and `remainder_apply` read
  the host program's vector spellings at an index.
-/
import Idealize.ShloMosaic.PureOps.Vector
import Idealize.ShloMosaic.Lib.ValueIdx
import Mathlib.Data.BitVec

namespace Idealize.ShloMosaic.LibFloorDiv

open Idealize.ShloMosaic

/-- `stablehlo.sign` of one 32-bit word. -/
def signWord (x : BitVec 32) : BitVec 32 := if x = 0 then 0 else if x.msb then -1 else 1

theorem signWord_of_pos {x : BitVec 32} (hx : x.msb = false) (h0 : x ≠ 0) : signWord x = 1 := by
  have h0' : ¬ x = 0#32 := h0
  simp [signWord, hx, h0']

/-- jnp's `floor_divide` on one pair of 32-bit words: the truncated quotient, less one when the signs differ and the
    remainder is not zero. -/
def floorDivWord (x y : BitVec 32) : BitVec 32 :=
  Scalar.select (IntOp.andi (IntOp.cmpi .ne (signWord x) (signWord y)) (IntOp.cmpi .ne (IntOp.remsi .host x y) 0))
    (IntOp.subi (IntOp.divsi .host x y) 1) (IntOp.divsi .host x y)

theorem not_corner {x y : BitVec 32} (hy : y.msb = false) (hy0 : y ≠ 0) : ¬ IntOp.SDivCorner x y := by
  rintro (h | ⟨_, h⟩)
  · exact hy0 h
  · subst h; exact absurd hy (by decide)

theorem divsi_of_nonneg {x y : BitVec 32} (hx : x.msb = false) (hy : y.msb = false) (hy0 : y ≠ 0) :
    IntOp.divsi .host x y = x / y := by
  rw [IntOp.divsi, if_neg (not_corner hy hy0), BitVec.sdiv_eq, hx, hy]
  rfl

theorem remsi_of_nonneg {x y : BitVec 32} (hx : x.msb = false) (hy : y.msb = false) (hy0 : y ≠ 0) :
    IntOp.remsi .host x y = x % y := by
  rw [IntOp.remsi, if_neg (not_corner hy hy0), BitVec.srem_eq, hx, hy]

/-- For a dividend that is not negative and a positive divisor, jnp's `floor_divide` is the unsigned quotient. -/
theorem floorDivWord_of_nonneg {x y : BitVec 32} (hx : x.msb = false) (hy : y.msb = false) (hy0 : y ≠ 0) :
    floorDivWord x y = x / y := by
  unfold floorDivWord
  rw [divsi_of_nonneg hx hy hy0, remsi_of_nonneg hx hy hy0, signWord_of_pos hy hy0]
  by_cases h0 : x = 0
  · subst h0
    have : (0 : BitVec 32) % y = 0 := by simp
    rw [this]
    simp [IntOp.andi, IntOp.cmpi, Scalar.select]
  · rw [signWord_of_pos hx h0]
    simp [IntOp.andi, IntOp.cmpi, Scalar.select]

/-- jnp's `remainder` on one pair of 32-bit words: a zero divisor replaced by one, then the truncated remainder, plus
    the divisor when the two differ in sign and the remainder is not zero. -/
def remainderWord (x d : BitVec 32) : BitVec 32 :=
  let d' := Scalar.select (IntOp.cmpi .eq d 0) 1 d
  let r := IntOp.remsi .host x d'
  Scalar.select (IntOp.andi (IntOp.cmpi .ne (IntOp.cmpi .slt r 0) (IntOp.cmpi .slt d' 0)) (IntOp.cmpi .ne r 0))
    (IntOp.addi r d') r

theorem msb_umod_of_nonneg {x y : BitVec 32} (hx : x.msb = false) : (x % y).msb = false := by
  rw [BitVec.msb_eq_false_iff_two_mul_lt] at hx ⊢
  have : (x % y).toNat ≤ x.toNat := by rw [BitVec.toNat_umod]; exact Nat.mod_le _ _
  omega

/-- For a dividend that is not negative and a positive divisor, jnp's `remainder` is the unsigned remainder. -/
theorem remainderWord_of_nonneg {x d : BitVec 32} (hx : x.msb = false) (hd : d.msb = false) (hd0 : d ≠ 0) :
    remainderWord x d = x % d := by
  have hd0' : ¬ d = 0#32 := hd0
  have hsel : Scalar.select (IntOp.cmpi .eq d 0) 1 d = d := by
    have hb : (d == 0#32) = false := by simpa using hd0'
    simp [IntOp.cmpi, Scalar.select, hb]
  unfold remainderWord
  simp only [hsel]
  rw [remsi_of_nonneg hx hd hd0]
  have h1 : IntOp.cmpi .slt (x % d) 0 = 0 := by
    simp [IntOp.cmpi, BitVec.slt_zero_eq_msb, msb_umod_of_nonneg hx]
  have h2 : IntOp.cmpi .slt d 0 = 0 := by
    simp [IntOp.cmpi, BitVec.slt_zero_eq_msb, hd]
  rw [h1, h2]
  simp [IntOp.andi, IntOp.cmpi, Scalar.select]

/-! ## The vector spellings, read at an index -/

variable {s : Shape}

theorem signi_apply (x : IVec s 32) (i : s.Idx) : signi x i = signWord (x i) := rfl

/-- jnp's `floor_divide` as the host program spells it on vectors, at an index. -/
theorem floorDiv_apply (x y zero one : IVec s 32) (i : s.Idx) (h0 : zero i = 0) (h1 : one i = 1) :
    select (andi (cmpi .ne (signi x) (signi y)) (cmpi .ne (Host.remsi x y) zero)) (subi (Host.divsi x y) one)
      (Host.divsi x y) i = floorDivWord (x i) (y i) := by
  simp only [select, andi, cmpi, subi, Host.remsi, Host.divsi, signi_apply, h0, h1, floorDivWord]

/-- jnp's `remainder` as the host program spells it on vectors (the divisor already replaced by one where it is
    zero), at an index. -/
theorem remainder_apply (x d zero zero' : IVec s 32) (dneg : IVec s 1) (i : s.Idx) (h0 : zero i = 0) (h0' : zero' i = 0)
    (hneg : dneg i = IntOp.cmpi .slt (d i) 0) :
    select (andi (cmpi .ne (cmpi .slt (Host.remsi x d) zero') dneg) (cmpi .ne (Host.remsi x d) zero))
      (addi (Host.remsi x d) d) (Host.remsi x d) i
      = Scalar.select (IntOp.andi (IntOp.cmpi .ne (IntOp.cmpi .slt (IntOp.remsi .host (x i) (d i)) 0) (IntOp.cmpi .slt (d i) 0))
          (IntOp.cmpi .ne (IntOp.remsi .host (x i) (d i)) 0)) (IntOp.addi (IntOp.remsi .host (x i) (d i)) (d i))
          (IntOp.remsi .host (x i) (d i)) := by
  simp only [select, andi, cmpi, addi, Host.remsi, h0, h0', hneg]

end Idealize.ShloMosaic.LibFloorDiv
-- ==== Proof.LibRankCount.lean ====
/-
  Ranks from running counts.

  Mark some of the positions `0, 1, 2, …` and let `running p` count the marked ones among `0 … p`. The count grows by
  one exactly at a marked position, so the positions whose count is at most `k` are those before the `(k + 1)`-th
  marked one, and there are as many of them as that position's number (`card_running_le`). jnp's `nonzero`
  with a static size computes the marked positions this way: a running sum of the mask, a histogram of its
  values, and a running sum of the histogram.
-/
import Mathlib.Data.Finset.Card
import Mathlib.Algebra.BigOperators.Intervals
import Mathlib.Tactic

namespace Idealize.ShloMosaic.LibRankCount

variable (mask : Nat → Prop) [DecidablePred mask]

/-- How many marked positions there are among `0 … p`. -/
def running (p : Nat) : Nat := ((Finset.range (p + 1)).filter mask).card

theorem running_mono {p q : Nat} (h : p ≤ q) : running mask p ≤ running mask q :=
  Finset.card_le_card (Finset.filter_subset_filter _ (Finset.range_mono (by omega)))

/-- A marked position counts one more than anything before it. -/
theorem running_lt_of_lt {p P : Nat} (h : p < P) (hP : mask P) : running mask p < running mask P := by
  unfold running
  have hsub : insert P ((Finset.range (p + 1)).filter mask) ⊆ (Finset.range (P + 1)).filter mask := by
    intro a ha
    rcases Finset.mem_insert.1 ha with rfl | ha
    · exact Finset.mem_filter.2 ⟨Finset.mem_range.2 (by omega), hP⟩
    · have := Finset.mem_filter.1 ha
      exact Finset.mem_filter.2 ⟨Finset.mem_range.2 (by have := Finset.mem_range.1 this.1; omega), this.2⟩
  have hnot : P ∉ (Finset.range (p + 1)).filter mask := fun hm => by
    have := Finset.mem_range.1 (Finset.mem_filter.1 hm).1; omega
  have := Finset.card_le_card hsub
  rw [Finset.card_insert_of_notMem hnot] at this
  omega

/-- The positions whose running count is at most `k` are exactly those before the `(k + 1)`-th marked position:
    if `P` is marked and is the `(k + 1)`-th such (`running P = k + 1`), then among `0 … N - 1` (`P < N`) there are `P`
    positions with running count at most `k`. This is why `cumsum (bincount (cumsum mask))` lists the marked
    positions in order. -/
theorem card_running_le {N P k : Nat} (hPN : P < N) (hP : mask P) (hk : running mask P = k + 1) :
    ((Finset.range N).filter fun p => running mask p ≤ k).card = P := by
  have : ((Finset.range N).filter fun p => running mask p ≤ k) = Finset.range P := by
    ext p
    rw [Finset.mem_filter, Finset.mem_range, Finset.mem_range]
    constructor
    · rintro ⟨_, hle⟩
      by_contra hge
      have := running_mono mask (Nat.le_of_not_lt hge)
      omega
    · intro hlt
      have := running_lt_of_lt mask hlt hP
      exact ⟨by omega, by omega⟩
  rw [this, Finset.card_range]

end Idealize.ShloMosaic.LibRankCount
-- ==== Proof.LibRunningValues.lean ====
/-
  The running count takes every value up to its last.

  Mark some of the positions `0, 1, 2, …` and let `running p` count the marked ones among `0 … p`. The count is
  `0` or `1` at position `0` and grows by one exactly at a marked position (`running_succ`), so every value from `1`
  up to the count at `n` is the count at some marked position not after `n` (`exists_running_eq`). Such a position is
  unique (`running_inj`): of two different marked positions the later one counts more.
-/
import proofs.«102345_g84920093377258_cont_9to1c4b_501_3_alg».proof.Proof.LibRankCount

namespace Idealize.ShloMosaic.LibRankCount

variable (mask : Nat → Prop) [DecidablePred mask]

theorem running_zero : running mask 0 = if mask 0 then 1 else 0 := by
  unfold running
  split
  · rename_i h
    have : (Finset.range (0 + 1)).filter mask = {0} := by
      ext a; simp only [Finset.mem_filter, Finset.mem_range, Finset.mem_singleton]
      constructor
      · rintro ⟨h1, _⟩; omega
      · rintro rfl; exact ⟨by omega, h⟩
    rw [this, Finset.card_singleton]
  · rename_i h
    have : (Finset.range (0 + 1)).filter mask = ∅ := by
      ext a; simp only [Finset.mem_filter, Finset.mem_range, Finset.notMem_empty, iff_false]
      rintro ⟨h1, h2⟩
      have : a = 0 := by omega
      subst this; exact h h2
    rw [this, Finset.card_empty]

/-- The count grows by one exactly at a marked position. -/
theorem running_succ (p : Nat) : running mask (p + 1) = running mask p + if mask (p + 1) then 1 else 0 := by
  unfold running
  rw [Finset.range_add_one (n := p + 1), Finset.filter_insert]
  split
  · rw [Finset.card_insert_of_notMem]
    intro hm
    have := Finset.mem_range.1 (Finset.mem_filter.1 hm).1
    omega
  · rfl

/-- Every value from `1` up to the count at `n` is the count at a marked position not after `n`. -/
theorem exists_running_eq : ∀ (n v : Nat), 1 ≤ v → v ≤ running mask n → ∃ p, p ≤ n ∧ mask p ∧ running mask p = v
  | 0, v, h1, h2 => by
    rw [running_zero] at h2
    by_cases h : mask 0
    · rw [if_pos h] at h2
      exact ⟨0, le_refl _, h, by rw [running_zero, if_pos h]; omega⟩
    · rw [if_neg h] at h2; omega
  | n + 1, v, h1, h2 => by
    by_cases hv : v ≤ running mask n
    · obtain ⟨p, hp, hm, hr⟩ := exists_running_eq n v h1 hv
      exact ⟨p, by omega, hm, hr⟩
    · have hs := running_succ mask n
      by_cases h : mask (n + 1)
      · rw [if_pos h] at hs
        exact ⟨n + 1, le_refl _, h, by omega⟩
      · rw [if_neg h] at hs; omega

/-- Two marked positions with the same count are the same position. -/
theorem running_inj {p q : Nat} (hp : mask p) (hq : mask q) (h : running mask p = running mask q) : p = q := by
  rcases Nat.lt_trichotomy p q with hlt | heq | hgt
  · have := running_lt_of_lt mask hlt hq; omega
  · exact heq
  · have := running_lt_of_lt mask hgt hp; omega

end Idealize.ShloMosaic.LibRankCount
-- ==== Proof.RefTriNat.lean ====
/-
  The strict upper triangle of a 4096 × 4096 grid, listed row by row.

  Number the positions of the grid row-major: position `p = a * 4096 + b` is row `a`, column `b`. Mark the positions
  above the diagonal (`a < b`). Row `r` has `4095 - r` marked positions, so the number of marked positions among
  `0 … a * 4096 + b` is `a * 4095 - a (a - 1) / 2` for the full rows before row `a` plus `b - a` (nothing when
  `b ≤ a`) for row `a` itself. Hence the marked position `(a, b)` is the `(rank a b + 1)`-th one, with
  `rank a b = a * 4095 - a (a - 1) / 2 + (b - a - 1)`; the last one, `(4094, 4095)`, is the `8386560`-th.
-/
import proofs.«102345_g84920093377258_cont_9to1c4b_501_3_alg».proof.Proof.LibRunningValues

namespace Cert.ReferenceIdeal.Hand

open Idealize.ShloMosaic.LibRankCount

/-- Position `p` of the row-major 4096 × 4096 grid lies strictly above the diagonal. -/
def triPos (p : Nat) : Prop := p / 4096 < p % 4096

instance : DecidablePred triPos := fun p => inferInstanceAs (Decidable (p / 4096 < p % 4096))

/-- The place of the pair `(a, b)`, `a < b`, in the row-major list of the strict upper triangle. -/
def rank (a b : Nat) : Nat := a * 4095 - a * (a - 1) / 2 + (b - a - 1)

/-- `a (a - 1) / 2` grows by `a`. -/
theorem tri_succ (a : Nat) : (a + 1) * (a + 1 - 1) / 2 = a * (a - 1) / 2 + a := Nat.triangle_succ a

/-- `a (a - 1) / 2 ≤ a * 4095` as long as `a ≤ 8191`. -/
theorem tri_le (a : Nat) (ha : a ≤ 8191) : a * (a - 1) / 2 ≤ a * 4095 := by
  apply Nat.div_le_of_le_mul
  have : a - 1 ≤ 2 * 4095 := by omega
  calc a * (a - 1) ≤ a * (2 * 4095) := Nat.mul_le_mul_left a this
    _ = 2 * (a * 4095) := by ring

/-- The running count of marked positions in closed form (written without subtraction of the triangular
    number). -/
theorem running_triPos_add : ∀ p, p < 4096 * 4096 →
    running triPos p + (p / 4096) * (p / 4096 - 1) / 2 = (p / 4096) * 4095 + (p % 4096 - p / 4096)
  | 0, _ => by
    rw [running_zero, if_neg (by unfold triPos; omega)]
  | p + 1, hp => by
    have ih := running_triPos_add p (by omega)
    rw [running_succ]
    by_cases hrow : (p + 1) % 4096 = 0
    · -- a new row starts: the position (a + 1, 0) is not marked
      have ha : (p + 1) / 4096 = p / 4096 + 1 := by omega
      have hb : p % 4096 = 4095 := by omega
      rw [if_neg (by unfold triPos; omega), ha, hrow, tri_succ]
      rw [hb] at ih
      have hlt : p / 4096 < 4096 := by omega
      omega
    · have ha : (p + 1) / 4096 = p / 4096 := by omega
      have hb : (p + 1) % 4096 = p % 4096 + 1 := by omega
      rw [ha, hb]
      by_cases hm : p / 4096 < p % 4096 + 1
      · rw [if_pos (by unfold triPos; omega)]; omega
      · rw [if_neg (by unfold triPos; omega)]; omega

/-- The marked position `(a, b)` is the `(rank a b + 1)`-th marked position. -/
theorem running_triPos (a b : Nat) (hab : a < b) (hb : b < 4096) : running triPos (a * 4096 + b) = rank a b + 1 := by
  have h := running_triPos_add (a * 4096 + b) (by omega)
  have h1 : (a * 4096 + b) / 4096 = a := by omega
  have h2 : (a * 4096 + b) % 4096 = b := by omega
  rw [h1, h2] at h
  have := tri_le a (by omega)
  unfold rank
  omega

theorem triPos_mk (a b : Nat) (hb : b < 4096) : triPos (a * 4096 + b) ↔ a < b := by
  unfold triPos
  have h1 : (a * 4096 + b) / 4096 = a := by omega
  have h2 : (a * 4096 + b) % 4096 = b := by omega
  rw [h1, h2]

/-- There are `8386560` marked positions in all. -/
theorem running_triPos_last : running triPos (4096 * 4096 - 1) = 8386560 := by
  have h := running_triPos 4094 4095 (by omega) (by omega)
  have hr : rank 4094 4095 = 8386559 := by unfold rank; norm_num
  have hm : ¬ triPos (4094 * 4096 + 4095 + 1) := by unfold triPos; omega
  have hs := running_succ triPos (4094 * 4096 + 4095)
  rw [if_neg hm, h, hr] at hs
  -- the last row (row 4095) has no marked position
  have hrow : ∀ b, b < 4096 → running triPos (4095 * 4096 + b) = 8386560 := by
    intro b
    induction b with
    | zero => intro _; exact hs
    | succ b ih =>
      intro hb
      have hm' : ¬ triPos (4095 * 4096 + b + 1) := by unfold triPos; omega
      have := running_succ triPos (4095 * 4096 + b)
      rw [if_neg hm', ih (by omega)] at this
      exact this
  exact hrow 4095 (by omega)

theorem rank_lt (a b : Nat) (hab : a < b) (hb : b < 4096) : rank a b < 8386560 := by
  have h1 := running_triPos a b hab hb
  have h2 : running triPos (a * 4096 + b) ≤ running triPos (4096 * 4096 - 1) := running_mono _ (by omega)
  rw [running_triPos_last] at h2
  omega

/-- Every `k < 8386560` is the rank of exactly one pair above the diagonal. -/
theorem exists_rank (k : Nat) (hk : k < 8386560) : ∃ a b, a < b ∧ b < 4096 ∧ rank a b = k := by
  obtain ⟨p, hp, hm, hr⟩ := exists_running_eq triPos (4096 * 4096 - 1) (k + 1) (by omega)
    (by rw [running_triPos_last]; omega)
  refine ⟨p / 4096, p % 4096, hm, by omega, ?_⟩
  have hm' : p / 4096 < p % 4096 := hm
  have := running_triPos (p / 4096) (p % 4096) hm (by omega)
  have hpp : p / 4096 * 4096 + p % 4096 = p := by omega
  rw [hpp] at this
  omega

/-- The number of positions whose running count is at most `rank a b` is the position `a * 4096 + b` itself. -/
theorem card_running_le_rank (a b : Nat) (hab : a < b) (hb : b < 4096) :
    ((Finset.range (4096 * 4096)).filter fun p => running triPos p ≤ rank a b).card = a * 4096 + b :=
  card_running_le triPos (by omega) ((triPos_mk a b hb).2 hab) (running_triPos a b hab hb)

theorem rank_inj {a b a' b' : Nat} (hab : a < b) (hb : b < 4096) (hab' : a' < b') (hb' : b' < 4096)
    (h : rank a b = rank a' b') : a = a' ∧ b = b' := by
  have h1 := running_triPos a b hab hb
  have h2 := running_triPos a' b' hab' hb'
  have := running_inj triPos ((triPos_mk a b hb).2 hab) ((triPos_mk a' b' hb').2 hab') (by omega)
  omega

end Cert.ReferenceIdeal.Hand
-- ==== Proof.KMaskIdx.lean ====
/-
  The packed-triangle index of every matrix position, read at a position.

  At position (i, j) the host stages compute, on 32-bit words, the smaller and the larger coordinate
  a = min i j and b = max i j, the product a (a - 1), its half, and off the diagonal the word
  1 + a * 4095 - a (a - 1) / 2 + (b - a - 1). Every intermediate value stays below 2^25, so no operation
  wraps, and the result is zero on the diagonal and one plus the row-major rank of (a, b) in the strict upper
  triangle off it: a word that is not negative and lies below 8386561.
-/
import proofs.«102345_g84920093377258_cont_9to1c4b_501_3_alg».proof.Proof.KStages
import proofs.«102345_g84920093377258_cont_9to1c4b_501_3_alg».proof.Proof.LibFloorDiv
import proofs.«102345_g84920093377258_cont_9to1c4b_501_3_alg».proof.Proof.RefTriNat
import Idealize.ShloMosaic.Lib.IdealHost
import Idealize.ShloMosaic.Lib.Pipeline.Value

noncomputable section

namespace Cert.KernelIdeal.Hand

open Idealize.ShloMosaic Idealize.ShloMosaic.ValueIdx Idealize.ShloMosaic.LibFloorDiv Cert.KernelIdeal Cert.KernelIdeal.Facts₀
open Cert.ReferenceIdeal.Hand (rank rank_lt tri_le)

variable [Cert.KernelIdeal.Facts]

/-- A broadcast word reads the word everywhere. -/
theorem bcW_apply (w : BitVec 32) (j : S4096x4096.Idx) : bcW w j = w := by
  unfold bcW
  rw [broadcastInDim_scalar_apply]
  rfl

/-- The row coordinate at (i, j) is the word of i. -/
theorem rowW_apply (i j : Fin 4096) : rowW (ix2 i j) = BitVec.ofNat 32 i.val := by
  unfold rowW
  refine (broadcastInDim_apply _ _ _ (ix2 i j) (ix2 i (0 : Fin 1))
    (fun a => match a with | ⟨0, _⟩ => rfl | ⟨1, _⟩ => rfl)).trans ?_
  refine (broadcastInDim_apply _ _ _ (ix2 i (0 : Fin 1)) (ix1 i)
    (fun a => match a with | ⟨0, _⟩ => rfl)).trans ?_
  rfl

/-- The column coordinate at (i, j) is the word of j. -/
theorem colW_apply (i j : Fin 4096) : colW (ix2 i j) = BitVec.ofNat 32 j.val := by
  unfold colW
  refine (broadcastInDim_apply _ _ _ (ix2 i j) (ix2 (0 : Fin 1) j)
    (fun a => match a with | ⟨0, _⟩ => rfl | ⟨1, _⟩ => rfl)).trans ?_
  refine (broadcastInDim_apply _ _ _ (ix2 (0 : Fin 1) j) (ix1 j)
    (fun a => match a with | ⟨0, _⟩ => rfl)).trans ?_
  rfl

/-! ## Words of small numbers -/

theorem toNat_ofNat_small {x : ℕ} (hx : x < 4294967296) : (BitVec.ofNat 32 x).toNat = x := by
  rw [BitVec.toNat_ofNat]; exact Nat.mod_eq_of_lt hx

theorem toInt_ofNat_small {x : ℕ} (hx : x < 2147483648) : (BitVec.ofNat 32 x).toInt = (x : ℤ) := by
  have h := toNat_ofNat_small (x := x) (by omega)
  rw [BitVec.toInt_eq_toNat_of_lt (by rw [h]; omega), h]

theorem msb_ofNat_small {x : ℕ} (hx : x < 2147483648) : (BitVec.ofNat 32 x).msb = false := by
  rw [BitVec.msb_eq_false_iff_two_mul_lt, toNat_ofNat_small (by omega)]; omega

theorem slt_ofNat_small {x y : ℕ} (hx : x < 2147483648) (hy : y < 2147483648) :
    (BitVec.ofNat 32 x).slt (BitVec.ofNat 32 y) = decide (x < y) := by
  rw [BitVec.slt_eq_decide, toInt_ofNat_small hx, toInt_ofNat_small hy]
  simp

/-- The smaller coordinate. -/
theorem loW_apply (i j : Fin 4096) : loW (ix2 i j) = BitVec.ofNat 32 (min i.val j.val) := by
  show IntOp.minsi (rowW (ix2 i j)) (colW (ix2 i j)) = _
  rw [rowW_apply, colW_apply, IntOp.minsi, slt_ofNat_small (by omega) (by omega)]
  by_cases h : i.val < j.val
  · rw [if_pos (by simpa using h), Nat.min_eq_left (Nat.le_of_lt h)]
  · rw [if_neg (by simpa using h), Nat.min_eq_right (Nat.le_of_not_lt h)]

/-- The larger coordinate. -/
theorem hiW_apply (i j : Fin 4096) : hiW (ix2 i j) = BitVec.ofNat 32 (max i.val j.val) := by
  show IntOp.maxsi (rowW (ix2 i j)) (colW (ix2 i j)) = _
  rw [rowW_apply, colW_apply, IntOp.maxsi, slt_ofNat_small (by omega) (by omega)]
  by_cases h : j.val < i.val
  · rw [if_pos (by simpa using h), Nat.max_eq_left (Nat.le_of_lt h)]
  · rw [if_neg (by simpa using h), Nat.max_eq_right (Nat.le_of_not_lt h)]

/-- `a (a - 1)` as a word, for a coordinate `a`. -/
theorem prodW_apply (i j : Fin 4096) :
    prodW (ix2 i j) = BitVec.ofNat 32 (min i.val j.val * (min i.val j.val - 1)) := by
  show IntOp.muli (loW (ix2 i j)) (IntOp.subi (loW (ix2 i j)) (bcW 1#32 (ix2 i j))) = _
  rw [loW_apply, bcW_apply, IntOp.muli, IntOp.subi]
  generalize min i.val j.val = a
  rcases Nat.eq_zero_or_pos a with h | h
  · subst h; simp
  · rw [show (1#32 : BitVec 32) = BitVec.ofNat 32 1 from rfl, BitVec.ofNat_sub_ofNat_of_le a 1 (by omega) h,
      ← BitVec.ofNat_mul]

/-- The word two at every position. -/
theorem two_apply (k : S4096x4096.Idx) :
    broadcastInDim S4096x4096 ![] bcast_S_S4096x4096 (id (constantI S_ 32 2#32)) k = 2#32 := by
  rw [broadcastInDim_scalar_apply]; rfl

/-- The sign of two at every position. -/
theorem sign_two_apply (k : S4096x4096.Idx) :
    broadcastInDim S4096x4096 ![] bcast_S_S4096x4096 (signi (id (constantI S_ 32 2#32))) k = signWord 2#32 := by
  rw [broadcastInDim_scalar_apply]; rfl

/-- The half is the floor division of the product by two … -/
theorem halfW_eq_floorDivWord (i j : Fin 4096) : halfW (ix2 i j) = floorDivWord (prodW (ix2 i j)) 2#32 := by
  unfold halfW floorDivWord
  simp only [select, andi, cmpi, subi, Host.remsi, Host.divsi, signi_apply, bcW_apply]
  rw [two_apply (ix2 i j), sign_two_apply (ix2 i j)]
  rfl

/-- … which is the half of the number. -/
theorem halfW_apply (i j : Fin 4096) :
    halfW (ix2 i j) = BitVec.ofNat 32 (min i.val j.val * (min i.val j.val - 1) / 2) := by
  rw [halfW_eq_floorDivWord, prodW_apply]
  have hlt : min i.val j.val * (min i.val j.val - 1) ≤ 4095 * 4094 :=
    Nat.mul_le_mul (by omega) (by omega)
  generalize min i.val j.val * (min i.val j.val - 1) = p at hlt
  rw [floorDivWord_of_nonneg (msb_ofNat_small (by omega)) (by decide) (by decide)]
  apply BitVec.eq_of_toNat_eq
  rw [BitVec.toNat_udiv, toNat_ofNat_small (x := p) (by omega), toNat_ofNat_small (x := p / 2) (by omega)]
  rfl

/-- The packed index as a number: zero on the diagonal, one plus the rank of the sorted pair off it. -/
def idxN (i j : Fin 4096) : ℕ := if i = j then 0 else 1 + rank (min i.val j.val) (max i.val j.val)

theorem idxN_lt (i j : Fin 4096) : idxN i j < 8386561 := by
  unfold idxN
  split_ifs with h
  · omega
  · have hne : i.val ≠ j.val := fun e => h (Fin.ext e)
    have := rank_lt (min i.val j.val) (max i.val j.val) (by omega) (by omega)
    omega

/-- Off the diagonal no operation wraps and the word is one plus the rank. -/
theorem offDiagW_apply (i j : Fin 4096) (hij : i ≠ j) :
    offDiagW (ix2 i j) = BitVec.ofNat 32 (1 + rank (min i.val j.val) (max i.val j.val)) := by
  show IntOp.addi (IntOp.subi (IntOp.addi (bcW 1#32 (ix2 i j)) (IntOp.muli (loW (ix2 i j)) (bcW 4095#32 (ix2 i j))))
      (halfW (ix2 i j))) (IntOp.subi (IntOp.subi (hiW (ix2 i j)) (loW (ix2 i j))) (bcW 1#32 (ix2 i j))) = _
  rw [loW_apply, hiW_apply, halfW_apply, bcW_apply, bcW_apply]
  simp only [IntOp.addi, IntOp.subi, IntOp.muli]
  have hab : min i.val j.val < max i.val j.val := by
    have : i.val ≠ j.val := fun h => hij (Fin.ext h)
    omega
  have hb : max i.val j.val < 4096 := by omega
  generalize min i.val j.val = a at *
  generalize max i.val j.val = b at *
  have ht := tri_le a (by omega)
  apply BitVec.eq_of_toNat_eq
  unfold rank
  simp only [BitVec.toNat_add, BitVec.toNat_sub, BitVec.toNat_mul, BitVec.toNat_ofNat]
  omega

theorem ofNat_inj_small {x y : ℕ} (hx : x < 4294967296) (hy : y < 4294967296)
    (h : BitVec.ofNat 32 x = BitVec.ofNat 32 y) : x = y := by
  have := congrArg BitVec.toNat h
  rwa [toNat_ofNat_small hx, toNat_ofNat_small hy] at this

/-- Zero on the diagonal, the off-diagonal word elsewhere. -/
theorem selW_apply (i j : Fin 4096) : selW (ix2 i j) = BitVec.ofNat 32 (idxN i j) := by
  show Scalar.select (IntOp.cmpi .eq (loW (ix2 i j)) (hiW (ix2 i j)))
    (broadcastInDim S4096x4096 ![] bcast_S_S4096x4096 (id (constantI S_ 32 0#32)) (ix2 i j)) (offDiagW (ix2 i j)) = _
  rw [loW_apply, hiW_apply, broadcastInDim_scalar_apply]
  unfold idxN
  by_cases hij : i = j
  · subst hij
    rw [if_pos rfl, Nat.min_self, Nat.max_self]
    have : IntOp.cmpi .eq (BitVec.ofNat 32 i.val) (BitVec.ofNat 32 i.val) = 1#1 := by simp [IntOp.cmpi]
    rw [this, select_one]
    rfl
  · rw [if_neg hij, offDiagW_apply i j hij]
    have hne : i.val ≠ j.val := fun e => hij (Fin.ext e)
    have hw : BitVec.ofNat 32 (min i.val j.val) ≠ BitVec.ofNat 32 (max i.val j.val) := fun e => by
      have := ofNat_inj_small (by omega) (by omega) e
      omega
    have : IntOp.cmpi .eq (BitVec.ofNat 32 (min i.val j.val)) (BitVec.ofNat 32 (max i.val j.val)) = 0#1 := by
      show BitVec.ofBool (BitVec.ofNat 32 (min i.val j.val) == BitVec.ofNat 32 (max i.val j.val)) = 0#1
      rw [beq_eq_false_iff_ne.mpr hw]
      rfl
    rw [this, select_zero]

/-- THE PACKED INDEX AT (i, j): the word of `idxN i j`; the wrap of a negative index never applies. -/
theorem idxW_eq (i j : Fin 4096) : idxW (ix2 i j) = BitVec.ofNat 32 (idxN i j) := by
  show Scalar.select (IntOp.cmpi .slt (selW (ix2 i j)) (bcW 0#32 (ix2 i j)))
    (IntOp.addi (selW (ix2 i j)) (bcW 8386561#32 (ix2 i j))) (selW (ix2 i j)) = _
  rw [selW_apply, bcW_apply]
  have hlt := idxN_lt i j
  have : IntOp.cmpi .slt (BitVec.ofNat 32 (idxN i j)) 0#32 = 0#1 := by
    have h0 : (0#32 : BitVec 32) = BitVec.ofNat 32 0 := rfl
    rw [IntOp.cmpi, h0]
    simp only [slt_ofNat_small (show idxN i j < 2147483648 by omega) (show 0 < 2147483648 by omega)]
    simp
  rw [this, select_zero]

/-- Its value, as the statement of the packed index: zero on the diagonal, otherwise one plus the row-major rank of
    the sorted coordinate pair in the strict upper triangle. -/
theorem idxW_apply (i j : Fin 4096) :
    (idxW (ix2 i j)).toNat = if i = j then 0 else 1 + rank (min i.val j.val) (max i.val j.val) := by
  rw [idxW_eq, toNat_ofNat_small (by have := idxN_lt i j; omega)]
  rfl

/-- The packed index is not negative … -/
theorem idxW_msb (i j : Fin 4096) : (idxW (ix2 i j)).msb = false := by
  rw [idxW_eq]; exact msb_ofNat_small (by have := idxN_lt i j; omega)

/-- … and lies inside the padded vector. -/
theorem idxW_lt (i j : Fin 4096) : (idxW (ix2 i j)).toNat < 8386561 := by
  rw [idxW_eq, toNat_ofNat_small (by have := idxN_lt i j; omega)]; exact idxN_lt i j

end Cert.KernelIdeal.Hand

end
-- ==== Proof.KMaskGather.lean ====
/-
  The packed vector read at the packed index of every matrix position.

  The padded vector is a zero followed by the packed vector, so its element 0 is zero and its element k + 1 is
  the packed vector's element k. The gather reads it at the packed index of the position, taken as a signed
  number and clamped into the vector; the index is neither negative nor too large, so no clamping applies:
  the value is zero on the diagonal and the packed vector's entry at the rank of the sorted coordinate pair
  elsewhere.
-/
import proofs.«102345_g84920093377258_cont_9to1c4b_501_3_alg».proof.Proof.KMaskIdx

noncomputable section

namespace Cert.KernelIdeal.Hand

open Idealize.ShloMosaic Idealize.ShloMosaic.ValueIdx Cert.KernelIdeal Cert.KernelIdeal.Facts₀
open Cert.ReferenceIdeal.Hand (rank rank_lt)

variable [Cert.KernelIdeal.Facts]

/-- The padded vector starts with a zero … -/
theorem vecpad_zero (arg1 : FVec Ideal S8386560 .f32) (h0 : 0 < 8386561) :
    vecpad arg1 (ix1 (⟨0, h0⟩ : Fin 8386561)) = 0 := by
  unfold vecpad
  refine (concatenate_pair_apply_left _ _ _ concatenates_S1_S8386560_S8386561_d0 (ix1 (⟨0, h0⟩ : Fin 8386561)) rfl
    (ix1 (0 : Fin 1)) (fun b => match b with | ⟨0, _⟩ => rfl)).trans ?_
  rw [broadcastInDim_scalar_apply, constant_apply]
  exact Ideal.ofBits_zero_f32

/-- … and goes on with the packed vector. -/
theorem vecpad_succ (arg1 : FVec Ideal S8386560 .f32) (k : Fin 8386560) (hk : k.val + 1 < 8386561) :
    vecpad arg1 (ix1 (⟨k.val + 1, hk⟩ : Fin 8386561)) = arg1 (ix1 k) := by
  unfold vecpad
  exact concatenate_pair_apply_right _ _ _ concatenates_S1_S8386560_S8386561_d0 (ix1 (⟨k.val + 1, hk⟩ : Fin 8386561)) rfl rfl
    (ix1 k) (fun b hb => match b, hb with | ⟨0, _⟩, hb => absurd rfl hb) rfl

/-- The padded vector at any position. -/
theorem vecpad_apply (arg1 : FVec Ideal S8386560 .f32) (v : ℕ) (hv : v < 8386561) :
    vecpad arg1 (ix1 (⟨v, hv⟩ : Fin 8386561)) = if h : v = 0 then 0 else arg1 (ix1 ⟨v - 1, by omega⟩) := by
  rcases v with _ | k
  · rw [dif_pos rfl]; exact vecpad_zero arg1 hv
  · rw [dif_neg (by omega)]; exact vecpad_succ arg1 ⟨k, by omega⟩ hv

/-- The start index of position (i, j) is the packed index there. -/
theorem startIdx_apply (i j : Fin 4096) :
    broadcastInDim S4096x4096x1 ![0, 1] bcast_S4096x4096_S4096x4096x1_0_1 idxW (takeIdx (ix2 i j))
      = BitVec.ofNat 32 (idxN i j) :=
  (broadcastInDim_apply _ _ _ (takeIdx (ix2 i j)) (ix2 i j)
    (fun a => match a with | ⟨0, _⟩ => rfl | ⟨1, _⟩ => rfl)).trans (idxW_eq i j)

/-- THE GATHER AT (i, j): zero on the diagonal, the packed vector's entry at the rank of the sorted pair elsewhere. -/
theorem gathK_apply (arg1 : FVec Ideal S8386560 .f32) (i j : Fin 4096) :
    gathK arg1 (ix2 i j) = if h : i = j then 0 else
      arg1 (ix1 ⟨rank (min i.val j.val) (max i.val j.val),
        rank_lt _ _ (by have : i.val ≠ j.val := fun e => h (Fin.ext e); omega) (by omega)⟩) := by
  show Host.gather (takeDims 8386561 4096 4096 gather_S8386561_S4096x4096x1_S4096x4096_n_0_n_n_0_2_1_wf) (vecpad arg1)
    (broadcastInDim S4096x4096x1 ![0, 1] bcast_S4096x4096_S4096x4096x1_0_1 idxW) (ix2 i j) = _
  refine (gather_take_apply (by norm_num) _ _ _ _).trans ?_
  have hlt := idxN_lt i j
  have hval : min (broadcastInDim S4096x4096x1 ![0, 1] bcast_S4096x4096_S4096x4096x1_0_1 idxW (takeIdx (ix2 i j))).toInt.toNat
      (8386561 - 1) = idxN i j := by
    rw [startIdx_apply, toInt_ofNat_small (by omega), Int.toNat_natCast]
    omega
  have key : ∀ (n : ℕ) (hn : n < 8386561), n = idxN i j →
      vecpad arg1 (ix1 (⟨n, hn⟩ : Fin 8386561)) = if h : i = j then 0 else
        arg1 (ix1 ⟨rank (min i.val j.val) (max i.val j.val),
          rank_lt _ _ (by have : i.val ≠ j.val := fun e => h (Fin.ext e); omega) (by omega)⟩) := by
    intro n hn e
    subst e
    rw [vecpad_apply]
    by_cases hij : i = j
    · rw [dif_pos hij, dif_pos (by unfold idxN; rw [if_pos hij])]
    · have hN : idxN i j = 1 + rank (min i.val j.val) (max i.val j.val) := by unfold idxN; rw [if_neg hij]
      rw [dif_neg hij, dif_neg (by omega)]
      exact congrArg (fun k : Fin 8386560 => arg1 (ix1 k)) (Fin.ext (by show idxN i j - 1 = rank (min i.val j.val) (max i.val j.val); omega))
  exact key _ _ hval

end Cert.KernelIdeal.Hand

end
-- ==== Proof.KMaskLogistic.lean ====
/-
  The edge mask at a matrix position: the logistic function of the gathered value.

  The program spells the logistic function as 1 / (1 + exp (-x)); on extended reals that is the ideal
  logistic function itself, and of a real number it is a real number. The gathered value is zero or an entry of
  the packed vector, so the mask is real wherever the packed vector is.
-/
import proofs.«102345_g84920093377258_cont_9to1c4b_501_3_alg».proof.Proof.KMaskGather

noncomputable section

namespace Cert.KernelIdeal.Hand

open Idealize.ShloMosaic Idealize.ShloMosaic.ValueIdx Cert.KernelIdeal Cert.KernelIdeal.Facts₀
open Cert.ReferenceIdeal.Hand (rank rank_lt)

variable [Cert.KernelIdeal.Facts]

/-- The float word of one at every position is one. -/
theorem bcF_one_apply (k : S4096x4096.Idx) : bcF (F := Ideal) 0x3F800000#32 k = 1 := by
  unfold bcF
  rw [broadcastInDim_scalar_apply, constant_apply]
  exact Ideal.ofBits_one_f32

/-- THE MASK AT (i, j): the logistic function `1 / (1 + exp (-x))` of the gathered value. -/
theorem logisticChain_apply (g : FVec Ideal S4096x4096 .f32) (k : S4096x4096.Idx) :
    Host.divf (bcF (F := Ideal) 0x3F800000#32) (addf (bcF (F := Ideal) 0x3F800000#32) (Host.exp (Host.negf g))) k
      = Ideal.logistic (g k) := by
  rw [hostDivf_apply, addf_apply, bcF_one_apply k]
  rfl

theorem pK_apply (arg1 : FVec Ideal S8386560 .f32) (i j : Fin 4096) :
    pK arg1 (ix2 i j) = Ideal.logistic (gathK arg1 (ix2 i j)) := by
  unfold pK
  exact logisticChain_apply (gathK arg1) (ix2 i j)

/-- The gathered value is real where the packed vector is. -/
theorem gathK_real (arg1 : FVec Ideal S8386560 .f32) (hreal : ∀ k, ∃ r : ℝ, arg1 k = (r : EReal)) (i j : Fin 4096) :
    ∃ r : ℝ, gathK arg1 (ix2 i j) = (r : EReal) := by
  rw [gathK_apply]
  by_cases hij : i = j
  · rw [dif_pos hij]; exact ⟨0, rfl⟩
  · rw [dif_neg hij]; exact hreal _

/-- The mask is real where the packed vector is: the logistic function of a real number is a real number. -/
theorem pK_real (arg1 : FVec Ideal S8386560 .f32) (hreal : ∀ k, ∃ r : ℝ, arg1 k = (r : EReal)) (i j : Fin 4096) :
    ∃ r : ℝ, pK arg1 (ix2 i j) = (r : EReal) := by
  obtain ⟨r, hr⟩ := gathK_real arg1 hreal i j
  rw [pK_apply, hr]
  exact ⟨_, Ideal.logistic_coe r⟩

end Cert.KernelIdeal.Hand

end
-- ==== Proof.KMaskRef.lean ====
/-
  The reference's edge mask equals the kernel's.

  The reference scatters the packed vector into the strict upper triangle of a zero matrix, adds the
  transpose and applies the logistic function 1 / (1 + exp (-x)). At (i, j) the symmetrised matrix is the
  scattered matrix at (i, j) plus at (j, i): one of the two is zero (both on the diagonal), the other the
  packed vector's entry at the rank of the sorted coordinate pair, which is what the kernel gathers.
-/
import proofs.«102345_g84920093377258_cont_9to1c4b_501_3_alg».proof.Proof.KMaskLogistic
import proofs.«102345_g84920093377258_cont_9to1c4b_501_3_alg».proof.Proof.RefStages

noncomputable section

namespace Cert.KernelIdeal.Hand

open Idealize.ShloMosaic Idealize.ShloMosaic.ValueIdx
open Cert.ReferenceIdeal.Hand (rank rank_lt)

variable [Cert.KernelIdeal.Facts] [Cert.ReferenceIdeal.Facts]

/-- The reference's matrix of ones is one everywhere. -/
theorem ref_onesSq_apply (k : Cert.ReferenceIdeal.S4096x4096.Idx) : Cert.ReferenceIdeal.Hand.onesSq Ideal k = 1 := by
  unfold Cert.ReferenceIdeal.Hand.onesSq
  rw [broadcastInDim_scalar_apply, constant_apply]
  exact Ideal.ofBits_one_f32

/-- A matrix plus its transpose, at (i, j). -/
theorem ref_msymOf_apply (s : FVec Ideal Cert.ReferenceIdeal.S4096x4096 .f32) (i j : Fin 4096) :
    Cert.ReferenceIdeal.Hand.msymOf s (ix2 i j) = s (ix2 i j) + s (ix2 j i) := by
  unfold Cert.ReferenceIdeal.Hand.msymOf
  rw [addf_apply, transpose_apply _ _ _ (ix2 i j) (ix2 j i) (fun b => match b with | ⟨0, _⟩ => rfl | ⟨1, _⟩ => rfl)]

/-- The reference's logistic chain at a position. -/
theorem ref_pUsedOf_apply (ms : FVec Ideal Cert.ReferenceIdeal.S4096x4096 .f32) (k : Cert.ReferenceIdeal.S4096x4096.Idx) :
    Cert.ReferenceIdeal.Hand.pUsedOf ms k = Ideal.logistic (ms k) := by
  unfold Cert.ReferenceIdeal.Hand.pUsedOf
  rw [hostDivf_apply, addf_apply, ref_onesSq_apply k]
  rfl

/-- THE REFERENCE'S MASK AT (i, j): the logistic function of the scattered matrix at (i, j) plus at (j, i). -/
theorem ref_pUsed_apply (arg1 : FVec Ideal Cert.ReferenceIdeal.S8386560 .f32) (i j : Fin 4096) :
    Cert.ReferenceIdeal.Hand.pUsed arg1 (ix2 i j)
      = Ideal.logistic (Cert.ReferenceIdeal.Hand.scat arg1 (ix2 i j) + Cert.ReferenceIdeal.Hand.scat arg1 (ix2 j i)) := by
  unfold Cert.ReferenceIdeal.Hand.pUsed Cert.ReferenceIdeal.Hand.msym
  rw [ref_pUsedOf_apply, ref_msymOf_apply]

/-- The two masks agree, given the scattered matrix read at a position. -/
theorem mask_eq_of_scat (arg1 : FVec Ideal Cert.KernelIdeal.S8386560 .f32)
    (hscat : ∀ i j : Fin 4096, Cert.ReferenceIdeal.Hand.scat arg1 (ix2 i j)
      = if h : i.val < j.val then arg1 (ix1 ⟨rank i.val j.val, rank_lt _ _ h j.isLt⟩) else 0) :
    Cert.ReferenceIdeal.Hand.pUsed arg1 = pK arg1 := by
  funext y
  obtain ⟨i, j, rfl⟩ : ∃ i j : Fin 4096, y = ix2 i j := ⟨y 0, y 1, eq_ix2 y⟩
  rw [ref_pUsed_apply, pK_apply, gathK_apply, hscat i j, hscat j i]
  congr 1
  rcases Nat.lt_trichotomy i.val j.val with h | h | h
  · rw [dif_pos h, dif_neg (by omega), dif_neg (fun e => by rw [e] at h; omega), add_zero]
    exact congrArg (fun k : Fin 8386560 => arg1 (ix1 k)) (Fin.ext (by
      show rank i.val j.val = rank (min i.val j.val) (max i.val j.val)
      rw [Nat.min_eq_left (by omega), Nat.max_eq_right (by omega)]))
  · have e : i = j := Fin.ext h
    subst e
    rw [dif_neg (by omega), dif_pos rfl, add_zero]
  · rw [dif_neg (by omega), dif_pos h, dif_neg (fun e => by rw [e] at h; omega), zero_add]
    exact congrArg (fun k : Fin 8386560 => arg1 (ix1 k)) (Fin.ext (by
      show rank j.val i.val = rank (min i.val j.val) (max i.val j.val)
      rw [Nat.min_eq_right (by omega), Nat.max_eq_left (by omega)]))

end Cert.KernelIdeal.Hand

end
-- ==== Proof.LibPrefixSum.lean ====
/-
  A running sum written as a padded window reduction.

  `jnp.cumsum` of a length-`n` vector lowers to `stablehlo.reduce_window` with a window of `n` positions,
  stride one and `n - 1` positions of padding in front: the window of result element `j` covers the
  padded positions `j … j + n - 1`, of which the last `j + 1` are the operand's elements `0 … j` and the
  rest hold the initial value. With an additive body and a zero initial value the result at `j` is
  therefore the sum of the first `j + 1` elements (`reduceWindow_cumsum`), for any commutative monoid —
  the machine integers among them. For words, a sum that cannot wrap has the sum of the values as its
  value (`toNat_sum`, `toNat_sum_of_le_one`), which turns a running sum of a 0/1 mask into a count.
-/
import Idealize.ShloMosaic.PureOps.Contract
import Idealize.ShloMosaic.Lib.ValueIdx
import Mathlib.Algebra.BigOperators.Fin
import Mathlib.Algebra.BigOperators.Intervals
import Mathlib.Data.BitVec
import Mathlib.Algebra.Order.BigOperators.Group.Finset

namespace Idealize.ShloMosaic.LibPrefixSum

open Idealize.ShloMosaic Idealize.ShloMosaic.ValueIdx

variable {α : Type} [AddCommMonoid α]

/-- A left fold that adds one term per list element is the start plus the sum of the terms. -/
theorem foldl_add_eq {β : Type} (g : β → α) : ∀ (l : List β) (r : α), l.foldl (fun r k => r + g k) r = r + (l.map g).sum
  | [], r => by simp
  | k :: l, r => by rw [List.foldl_cons, foldl_add_eq g l, List.map_cons, List.sum_cons, add_assoc]

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- A vector of length `n` read at a natural number: zero past the end. -/
def atNat {n : Nat} (x : (⟨1, ![n]⟩ : Shape).Idx → α) (q : Nat) : α := if h : q < n then x (ix1 ⟨q, h⟩) else 0

/-- The padded window reduction that `jnp.cumsum` lowers to, over a vector of length `n = m + 1` with `m`
    positions of padding in front, an additive body and a zero initial value: the result at `j` is the sum
    of the elements `0 … j`. -/
theorem reduceWindow_cumsum {n m : Nat} (hm : m + 1 = n) (f : α → α → α) (hf : ∀ a b, f a b = a + b)
    (x : (⟨1, ![n]⟩ : Shape).Idx → α) {u : Shape} (init : u.Idx → α) (hu : 0 < u.numel)
    (h0 : init (Shape.Idx.first hu) = 0)
    (h : (⟨1, ![n]⟩ : Shape).ReduceWindows ![n] ![1] ![m] ![0] ⟨1, ![n]⟩)
    (j : Fin n) :
    Host.reduceWindow f ![n] ![1] ![m] ![0] x init h hu (ix1 j)
      = ∑ q ∈ Finset.range (j.val + 1), atNat x q := by
  have hf' : f = (· + ·) := funext fun a => funext fun b => hf a b
  subst hf'
  unfold Host.reduceWindow
  simp only [h0]
  rw [foldl_add_eq, zero_add, ← Fin.sum_univ_def]
  have hN : (⟨1, ![n]⟩ : Shape).numel = n := by simp [Shape.numel]
  have hjn : j.val < n := j.isLt
  refine (Finset.sum_congr rfl (g := fun i : Fin (⟨1, ![n]⟩ : Shape).numel =>
      if m ≤ j.val + i.val then atNat x (j.val + i.val - m) else 0) fun i _ => ?_).trans ?_
  · have hi : (((⟨1, ![n]⟩ : Shape).rowMajor.symm i) 0).val = i.val := by
      have := Shape.rowMajor_val_one ((⟨1, ![n]⟩ : Shape).rowMajor.symm i)
      rw [Equiv.apply_symm_apply] at this; exact this.symm
    have hin : i.val < n := lt_of_lt_of_eq i.isLt hN
    split
    · rename_i h1
      have h10 := h1 0
      simp only [Matrix.cons_val_zero, Matrix.cons_val_fin_one] at h10
      rw [hi] at h10
      have h10' : m ≤ j.val * 1 + i.val ∧ j.val * 1 + i.val - m < n := h10
      rw [if_pos (by omega), atNat, dif_pos (by omega)]
      congr 1
      funext a
      match a with
      | ⟨0, _⟩ =>
        apply Fin.ext
        show j.val * 1 + (((⟨1, ![n]⟩ : Shape).rowMajor.symm i) 0).val - m = j.val + i.val - m
        rw [hi]; omega
    · rename_i h1
      rw [if_neg]
      intro hc
      apply h1
      intro a
      match a with
      | ⟨0, _⟩ =>
        show m ≤ j.val * 1 + (((⟨1, ![n]⟩ : Shape).rowMajor.symm i) 0).val ∧
          j.val * 1 + (((⟨1, ![n]⟩ : Shape).rowMajor.symm i) 0).val - m < n
        rw [hi]; omega
  · rw [Fin.sum_univ_eq_sum_range (fun i => if m ≤ j.val + i then atNat x (j.val + i - m) else 0), hN,
      ← Finset.sum_filter]
    refine Finset.sum_nbij' (fun i => j.val + i - m) (fun q => q + m - j.val) ?_ ?_ ?_ ?_ ?_
    · intro i hi; simp only [Finset.mem_filter, Finset.mem_range] at hi ⊢; omega
    · intro q hq; simp only [Finset.mem_filter, Finset.mem_range] at hq ⊢; omega
    · intro i hi; simp only [Finset.mem_filter, Finset.mem_range] at hi; omega
    · intro q hq; simp only [Finset.mem_range] at hq; omega
    · intro i _; rfl

/-! ## Sums of words that do not wrap -/

/-- A sum of `w`-bit words whose values add up to less than `2 ^ w` has that sum as its value. -/
theorem toNat_sum {ι : Type} {w : Nat} (S : Finset ι) (b : ι → BitVec w) (hlt : ∑ i ∈ S, (b i).toNat < 2 ^ w) :
    (∑ i ∈ S, b i).toNat = ∑ i ∈ S, (b i).toNat := by
  classical
  induction S using Finset.induction_on with
  | empty => simp
  | insert a S ha ih =>
    rw [Finset.sum_insert ha] at hlt ⊢
    rw [Finset.sum_insert ha, BitVec.toNat_add, ih (by omega), Nat.mod_eq_of_lt hlt]

/-- The same when every word is at most `1` and there are fewer than `2 ^ w` of them. -/
theorem toNat_sum_of_le_one {ι : Type} {w : Nat} (S : Finset ι) (b : ι → BitVec w) (hb : ∀ i ∈ S, (b i).toNat ≤ 1)
    (hS : S.card < 2 ^ w) : (∑ i ∈ S, b i).toNat = ∑ i ∈ S, (b i).toNat :=
  toNat_sum S b (lt_of_le_of_lt ((Finset.sum_le_sum hb).trans (by simp)) hS)

end Idealize.ShloMosaic.LibPrefixSum
-- ==== Proof.LibScatterFold.lean ====
/-
  A host scatter read at one element.

  `Host.scatter d f x idx upd` is a left fold over the update positions in row-major order: update
  position `j` names a result element `d.resultIdx? j idx` (none when its window leaves the operand,
  and the update is then dropped) and replaces it by `f` of the old element and the update.

  * When `f` is the addition of a commutative monoid (an integer `.at[i].add`), the result at an
    element is the operand's element plus the sum of all updates that name it (`scatter_add_apply`);
    for updates that are all one value `v` this is the operand's element plus `v` taken as many
    times as there are update positions naming the element (`scatter_add_const_apply`).
  * When `f` keeps the update (an `.at[i].set`), an element named by exactly one update position
    holds that update (`scatter_set_apply_of_unique`), and an element named by none keeps the
    operand's contents (`scatter_set_apply_of_not_mem`).
-/
import Idealize.ShloMosaic.PureOps.ShapeOps
import Mathlib.Algebra.BigOperators.Fin
import Idealize.ShloMosaic.Lib.ValueIdx

namespace Idealize.ShloMosaic.LibScatterFold

open Idealize.ShloMosaic

variable {s si u : Shape} {w : Nat} {α : Type}

/-- One step of the scatter's fold: update position `n` applied to the running result `r`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w)
    (upd : u.Idx → α) :
    Host.scatter d f x idx upd = (List.finRange u.numel).foldl (step d f idx upd) x := rfl

/-- A step changes the element the update position names, and no other. -/
theorem step_apply (d : ScatterDims s si u) (f : α → α → α) (idx : IVec si w) (upd : u.Idx → α)
    (r : s.Idx → α) (n : Fin u.numel) (i' : s.Idx) :
    step d f idx upd r n i'
      = if d.resultIdx? (u.rowMajor.symm n) idx = some i' then f (r i') (upd (u.rowMajor.symm n)) else r i' := by
  unfold step
  cases h : d.resultIdx? (u.rowMajor.symm n) idx with
  | none => simp
  | some i =>
    by_cases hi : i' = i
    · subst hi; simp
    · have : ¬ (some i = some i') := fun e => hi (Option.some.inj e).symm
      simp [hi, this]

section Add

variable [AddCommMonoid α]

/-- The fold of additive steps over any list of update positions: the start plus the updates naming the element. -/
theorem foldl_add_apply (d : ScatterDims s si u) (idx : IVec si w) (upd : u.Idx → α) (i' : s.Idx) :
    ∀ (l : List (Fin u.numel)) (r : s.Idx → α),
      (l.foldl (step d (· + ·) idx upd) r) i'
        = r i' + (l.map fun n => if d.resultIdx? (u.rowMajor.symm n) idx = some i' then upd (u.rowMajor.symm n) else 0).sum
  | [], r => by simp
  | n :: l, r => by
    rw [List.foldl_cons, foldl_add_apply d idx upd i' l, step_apply, List.map_cons, List.sum_cons]
    by_cases h : d.resultIdx? (u.rowMajor.symm n) idx = some i'
    · simp only [if_pos h, add_assoc]
    · simp only [if_neg h, zero_add]

/-- An additive scatter at an element: the operand's element plus the sum of the updates whose position names it. -/
theorem scatter_add_apply (d : ScatterDims s si u) (f : α → α → α) (hf : ∀ a b, f a b = a + b)
    (x : s.Idx → α) (idx : IVec si w) (upd : u.Idx → α) (i' : s.Idx) :
    Host.scatter d f x idx upd i' = x i' + ∑ j : u.Idx, if d.resultIdx? j idx = some i' then upd j else 0 := by
  have hf' : f = (· + ·) := funext fun a => funext fun b => hf a b
  subst hf'
  rw [scatter_eq_foldl, foldl_add_apply, ← Fin.sum_univ_def]
  congr 1
  exact Equiv.sum_comp u.rowMajor.symm fun j => if d.resultIdx? j idx = some i' then upd j else 0

/-- The same for updates that all hold one value: that value once per update position naming the element. -/
theorem scatter_add_const_apply (d : ScatterDims s si u) (f : α → α → α) (hf : ∀ a b, f a b = a + b)
    (x : s.Idx → α) (idx : IVec si w) (v : α) (i' : s.Idx) :
    Host.scatter d f x idx (fun _ => v) i'
      = x i' + (Finset.univ.filter fun j : u.Idx => d.resultIdx? j idx = some i').card • v := by
  rw [scatter_add_apply d f hf, Finset.sum_ite, Finset.sum_const, Finset.sum_const_zero, add_zero]

end Add

section Set

/-- No update position of the list names the element: the fold leaves it alone. -/
theorem foldl_set_apply_of_not_mem (d : ScatterDims s si u) (f : α → α → α) (idx : IVec si w) (upd : u.Idx → α) (i' : s.Idx) :
    ∀ (l : List (Fin u.numel)) (r : s.Idx → α),
      (∀ n ∈ l, d.resultIdx? (u.rowMajor.symm n) idx ≠ some i') → (l.foldl (step d f idx upd) r) i' = r i'
  | [], _, _ => rfl
  | n :: l, r, h => by
    rw [List.foldl_cons, foldl_set_apply_of_not_mem d f idx upd i' l _ fun n' hn' => h n' (List.mem_cons_of_mem _ hn'),
      step_apply, if_neg (h n List.mem_cons_self)]

/-- Exactly one update position of a duplicate-free list names the element: the fold leaves that update there. -/
theorem foldl_set_apply_of_unique (d : ScatterDims s si u) (idx : IVec si w) (upd : u.Idx → α) (i' : s.Idx)
    (n₀ : Fin u.numel) (h₀ : d.resultIdx? (u.rowMajor.symm n₀) idx = some i') :
    ∀ (l : List (Fin u.numel)) (r : s.Idx → α), l.Nodup → n₀ ∈ l →
      (∀ n ∈ l, d.resultIdx? (u.rowMajor.symm n) idx = some i' → n = n₀) →
      (l.foldl (step d (fun _ b => b) idx upd) r) i' = upd (u.rowMajor.symm n₀)
  | [], _, _, hm, _ => absurd hm List.not_mem_nil
  | n :: l, r, hnd, hm, huniq => by
    rw [List.foldl_cons]
    by_cases hn : n = n₀
    · subst hn
      have hnot : ∀ n' ∈ l, d.resultIdx? (u.rowMajor.symm n') idx ≠ some i' := fun n' hn' e =>
        (List.nodup_cons.1 hnd).1 ((huniq n' (List.mem_cons_of_mem _ hn') e) ▸ hn')
      rw [foldl_set_apply_of_not_mem d _ idx upd i' l _ hnot, step_apply, if_pos h₀]
    · have hm' : n₀ ∈ l := by
        rcases List.mem_cons.1 hm with e | e
        · exact absurd e.symm hn
        · exact e
      exact foldl_set_apply_of_unique d idx upd i' n₀ h₀ l _ (List.nodup_cons.1 hnd).2 hm'
        fun n' hn' e => huniq n' (List.mem_cons_of_mem _ hn') e

/-- A scatter that keeps the update, at an element named by exactly one update position `j`: the update at `j`. -/
theorem scatter_set_apply_of_unique (d : ScatterDims s si u) (f : α → α → α) (hf : ∀ a b, f a b = b)
    (x : s.Idx → α) (idx : IVec si w) (upd : u.Idx → α) (i' : s.Idx) (j : u.Idx)
    (hj : d.resultIdx? j idx = some i') (huniq : ∀ j', d.resultIdx? j' idx = some i' → j' = j) :
    Host.scatter d f x idx upd i' = upd j := by
  have hf' : f = fun _ b => b := funext fun a => funext fun b => hf a b
  subst hf'
  rw [scatter_eq_foldl]
  have h := foldl_set_apply_of_unique d idx upd i' (u.rowMajor j) (by rw [Equiv.symm_apply_apply]; exact hj)
    (List.finRange u.numel) x (List.nodup_finRange _) (List.mem_finRange _)
    (fun n _ e => by rw [← huniq _ e, Equiv.apply_symm_apply])
  rw [h, Equiv.symm_apply_apply]

/-- A scatter at an element no update position names: the operand's element (whatever the body). -/
theorem scatter_apply_of_not_mem (d : ScatterDims s si u) (f : α → α → α)
    (x : s.Idx → α) (idx : IVec si w) (upd : u.Idx → α) (i' : s.Idx)
    (h : ∀ j, d.resultIdx? j idx ≠ some i') :
    Host.scatter d f x idx upd i' = x i' := by
  rw [scatter_eq_foldl]
  exact foldl_set_apply_of_not_mem d f idx upd i' _ x fun n _ => h _

end Set

end Idealize.ShloMosaic.LibScatterFold

/-!
  # Point scatters read at an element: `x.at[idx]` on a vector and `x.at[rows, cols]` on a matrix

  jax lowers `x.at[idx].set(v)` / `.add(v)` with `M` scalar indices to `stablehlo.scatter` with the operand's axes
  all inserted, one index component per axis and no window: update position `j` names the element whose
  coordinates are the index words at `j`, read signed, when those are inside the operand, and no element
  otherwise (`dims1_resultIdx?_eq_some_iff`, `dims2_resultIdx?_eq_some_iff`). With the fold read at an
  element this gives: a histogram (`scatter1_add_const_apply`: element `i` gains the value once per index
  equal to `i`), and a matrix filled at distinct positions (`scatter2_set_apply_of_unique`,
  `scatter2_apply_of_not_mem`).
-/

namespace Idealize.ShloMosaic.LibPointScatter

open Idealize.ShloMosaic Idealize.ShloMosaic.ValueIdx

/-- The dimension numbers of `x.at[idx]` for a vector `x` of length `L` and `M` scalar indices. -/
abbrev dims1 (L M : Nat) (wf : ScatterDims.WF ⟨1, ![L]⟩ ⟨2, ![M, 1]⟩ ⟨1, ![M]⟩ [] [0] [0] 1) :
    ScatterDims ⟨1, ![L]⟩ ⟨2, ![M, 1]⟩ ⟨1, ![M]⟩ :=
  { updateWindowDims := [], insertedWindowDims := [0], scatterDimsToOperandDims := [0], indexVectorDim := 1, wf := wf }

variable {L M w : Nat} (wf : ScatterDims.WF ⟨1, ![L]⟩ ⟨2, ![M, 1]⟩ ⟨1, ![M]⟩ [] [0] [0] 1)

theorem dims1_siIdx (j : Fin M) (c : Fin 1) : (dims1 L M wf).siIdx (ix1 j) c = ix2 j (0 : Fin 1) := by
  funext b
  match b with
  | ⟨0, _⟩ => rfl
  | ⟨1, _⟩ => exact Fin.ext (by have := c.isLt; show c.val = 0; omega)

theorem dims1_start (j : Fin M) (idx : IVec ⟨2, ![M, 1]⟩ w) :
    (dims1 L M wf).start (ix1 j) idx 0 = (idx (ix2 j (0 : Fin 1))).toInt := by
  unfold ScatterDims.start
  rw [dif_pos (List.mem_singleton.2 rfl)]
  exact congrArg (fun k => (idx k).toInt) (dims1_siIdx wf j _)

theorem dims1_window (j : Fin M) : (dims1 L M wf).window (ix1 j) 0 = 0 := by
  unfold ScatterDims.window
  rw [dif_neg (by simp [ScatterDims.sKept, Shape.kept, List.finRange_succ])]

/-- Update position `j` of `x.at[idx]` names element `i` exactly when the index word at `j`, read signed, is `i`
    (an index outside `0 … L - 1` names no element: the update is dropped). -/
theorem dims1_resultIdx?_eq_some_iff (j : Fin M) (idx : IVec ⟨2, ![M, 1]⟩ w) (i : Fin L) :
    (dims1 L M wf).resultIdx? (ix1 j) idx = some (ix1 i) ↔ (idx (ix2 j (0 : Fin 1))).toInt = (i.val : Int) := by
  have hs := dims1_start wf j idx
  have hw := dims1_window wf j
  unfold ScatterDims.resultIdx?
  split
  · rename_i h
    have h0 := h 0
    rw [hs, hw] at h0
    constructor
    · intro e
      have e0 := congrArg (fun f : (⟨1, ![L]⟩ : Shape).Idx => (f 0).val) (Option.some.inj e)
      simp only [hs, hw] at e0
      have : ((idx (ix2 j (0 : Fin 1))).toInt + ((0 : Nat) : Int)).toNat = i.val := e0
      omega
    · intro e
      refine congrArg some (funext fun a => ?_)
      match a with
      | ⟨0, _⟩ =>
        apply Fin.ext
        show ((dims1 L M wf).start (ix1 j) idx 0 + (((dims1 L M wf).window (ix1 j) 0 : Nat) : Int)).toNat = i.val
        rw [hs, hw]; omega
  · rename_i h
    constructor
    · intro e; exact absurd e (by simp)
    · intro e
      exfalso
      apply h
      intro a
      match a with
      | ⟨0, _⟩ =>
        show 0 ≤ (dims1 L M wf).start (ix1 j) idx 0 + (((dims1 L M wf).window (ix1 j) 0 : Nat) : Int) ∧
          (dims1 L M wf).start (ix1 j) idx 0 + (((dims1 L M wf).window (ix1 j) 0 : Nat) : Int) < (L : Int)
        rw [hs, hw]
        have := i.isLt
        omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- `x.at[idx].add(v)` with one value `v` for every update (a histogram when `v = 1`): element `i` gains `v` once per
    update position whose index word, read signed, is `i`. -/
theorem scatter1_add_const_apply {α : Type} [AddCommMonoid α] (f : α → α → α) (hf : ∀ a b, f a b = a + b)
    (x : (⟨1, ![L]⟩ : Shape).Idx → α) (idx : IVec ⟨2, ![M, 1]⟩ w) (v : α) (i : Fin L) :
    Host.scatter (dims1 L M wf) f x idx (fun _ => v) (ix1 i)
      = x (ix1 i) + (Finset.univ.filter fun j : Fin M => (idx (ix2 j (0 : Fin 1))).toInt = (i.val : Int)).card • v := by
  rw [LibScatterFold.scatter_add_const_apply _ f hf]
  congr 2
  refine Finset.card_equiv idxEquiv1 fun j => ?_
  rw [Finset.mem_filter, Finset.mem_filter]
  simp only [Finset.mem_univ, true_and]
  conv_lhs => rw [eq_ix1 j]
  exact dims1_resultIdx?_eq_some_iff wf (j 0) idx i

/-! ## A matrix at a list of (row, column) pairs -/

/-- The dimension numbers of `x.at[rows, cols]` for an `R × C` matrix `x` and `M` index pairs. -/
abbrev dims2 (R C M : Nat) (wf : ScatterDims.WF ⟨2, ![R, C]⟩ ⟨2, ![M, 2]⟩ ⟨1, ![M]⟩ [] [0, 1] [0, 1] 1) :
    ScatterDims ⟨2, ![R, C]⟩ ⟨2, ![M, 2]⟩ ⟨1, ![M]⟩ :=
  { updateWindowDims := [], insertedWindowDims := [0, 1], scatterDimsToOperandDims := [0, 1], indexVectorDim := 1, wf := wf }

variable {R C : Nat} (wf2 : ScatterDims.WF ⟨2, ![R, C]⟩ ⟨2, ![M, 2]⟩ ⟨1, ![M]⟩ [] [0, 1] [0, 1] 1)

theorem dims2_siIdx (j : Fin M) (c : Fin 2) : (dims2 R C M wf2).siIdx (ix1 j) c = ix2 j c := by
  funext b
  match b with
  | ⟨0, _⟩ => rfl
  | ⟨1, _⟩ => exact Fin.ext rfl

theorem dims2_start0 (j : Fin M) (idx : IVec ⟨2, ![M, 2]⟩ w) :
    (dims2 R C M wf2).start (ix1 j) idx 0 = (idx (ix2 j (0 : Fin 2))).toInt := by
  unfold ScatterDims.start
  rw [dif_pos (List.mem_cons_self)]
  exact congrArg (fun k => (idx k).toInt) (dims2_siIdx wf2 j _)

theorem dims2_start1 (j : Fin M) (idx : IVec ⟨2, ![M, 2]⟩ w) :
    (dims2 R C M wf2).start (ix1 j) idx 1 = (idx (ix2 j (1 : Fin 2))).toInt := by
  unfold ScatterDims.start
  rw [dif_pos (List.mem_cons_of_mem _ List.mem_cons_self)]
  exact congrArg (fun k => (idx k).toInt) (dims2_siIdx wf2 j _)

theorem dims2_window (j : Fin M) (a : Fin 2) : (dims2 R C M wf2).window (ix1 j) a = 0 := by
  unfold ScatterDims.window
  rw [dif_neg (by simp [ScatterDims.sKept, Shape.kept, List.finRange_succ])]

/-- Update position `j` of `x.at[rows, cols]` names element `(r, c)` exactly when the two index words at `j`, read
    signed, are `r` and `c` (a pair outside the matrix names no element: the update is dropped). -/
theorem dims2_resultIdx?_eq_some_iff (j : Fin M) (idx : IVec ⟨2, ![M, 2]⟩ w) (r : Fin R) (c : Fin C) :
    (dims2 R C M wf2).resultIdx? (ix1 j) idx = some (ix2 r c)
      ↔ (idx (ix2 j (0 : Fin 2))).toInt = (r.val : Int) ∧ (idx (ix2 j (1 : Fin 2))).toInt = (c.val : Int) := by
  have hs0 := dims2_start0 wf2 j idx
  have hs1 := dims2_start1 wf2 j idx
  have hw0 := dims2_window wf2 j 0
  have hw1 := dims2_window wf2 j 1
  unfold ScatterDims.resultIdx?
  split
  · rename_i h
    have h0 := h 0
    have h1 := h 1
    rw [hs0, hw0] at h0
    rw [hs1, hw1] at h1
    constructor
    · intro e
      have e0 := congrArg (fun f : (⟨2, ![R, C]⟩ : Shape).Idx => (f 0).val) (Option.some.inj e)
      have e1 := congrArg (fun f : (⟨2, ![R, C]⟩ : Shape).Idx => (f 1).val) (Option.some.inj e)
      simp only [hs0, hw0] at e0
      simp only [hs1, hw1] at e1
      have e0' : ((idx (ix2 j (0 : Fin 2))).toInt + ((0 : Nat) : Int)).toNat = r.val := e0
      have e1' : ((idx (ix2 j (1 : Fin 2))).toInt + ((0 : Nat) : Int)).toNat = c.val := e1
      omega
    · intro e
      refine congrArg some (funext fun a => ?_)
      match a with
      | ⟨0, _⟩ =>
        apply Fin.ext
        show ((dims2 R C M wf2).start (ix1 j) idx 0 + (((dims2 R C M wf2).window (ix1 j) 0 : Nat) : Int)).toNat = r.val
        rw [hs0, hw0]; omega
      | ⟨1, _⟩ =>
        apply Fin.ext
        show ((dims2 R C M wf2).start (ix1 j) idx 1 + (((dims2 R C M wf2).window (ix1 j) 1 : Nat) : Int)).toNat = c.val
        rw [hs1, hw1]; omega
  · rename_i h
    constructor
    · intro e; exact absurd e (by simp)
    · intro e
      exfalso
      apply h
      intro a
      match a with
      | ⟨0, _⟩ =>
        show 0 ≤ (dims2 R C M wf2).start (ix1 j) idx 0 + (((dims2 R C M wf2).window (ix1 j) 0 : Nat) : Int) ∧
          (dims2 R C M wf2).start (ix1 j) idx 0 + (((dims2 R C M wf2).window (ix1 j) 0 : Nat) : Int) < (R : Int)
        rw [hs0, hw0]
        have := r.isLt
        omega
      | ⟨1, _⟩ =>
        show 0 ≤ (dims2 R C M wf2).start (ix1 j) idx 1 + (((dims2 R C M wf2).window (ix1 j) 1 : Nat) : Int) ∧
          (dims2 R C M wf2).start (ix1 j) idx 1 + (((dims2 R C M wf2).window (ix1 j) 1 : Nat) : Int) < (C : Int)
        rw [hs1, hw1]
        have := c.isLt
        omega

/-- `x.at[rows, cols].set(upd)` at an element `(r, c)` that exactly one index pair names: the update of that pair. -/
theorem scatter2_set_apply_of_unique {α : Type} (f : α → α → α) (hf : ∀ a b, f a b = b)
    (x : (⟨2, ![R, C]⟩ : Shape).Idx → α) (idx : IVec ⟨2, ![M, 2]⟩ w) (upd : (⟨1, ![M]⟩ : Shape).Idx → α)
    (r : Fin R) (c : Fin C) (j : Fin M)
    (hj : (idx (ix2 j (0 : Fin 2))).toInt = (r.val : Int) ∧ (idx (ix2 j (1 : Fin 2))).toInt = (c.val : Int))
    (huniq : ∀ j' : Fin M, (idx (ix2 j' (0 : Fin 2))).toInt = (r.val : Int) ∧ (idx (ix2 j' (1 : Fin 2))).toInt = (c.val : Int) → j' = j) :
    Host.scatter (dims2 R C M wf2) f x idx upd (ix2 r c) = upd (ix1 j) := by
  refine LibScatterFold.scatter_set_apply_of_unique _ f hf x idx upd (ix2 r c) (ix1 j)
    ((dims2_resultIdx?_eq_some_iff wf2 j idx r c).2 hj) fun j' e => ?_
  rw [eq_ix1 j'] at e ⊢
  exact congrArg ix1 (huniq _ ((dims2_resultIdx?_eq_some_iff wf2 (j' 0) idx r c).1 e))

/-- `x.at[rows, cols]` at an element no index pair names: the operand's element. -/
theorem scatter2_apply_of_not_mem {α : Type} (f : α → α → α)
    (x : (⟨2, ![R, C]⟩ : Shape).Idx → α) (idx : IVec ⟨2, ![M, 2]⟩ w) (upd : (⟨1, ![M]⟩ : Shape).Idx → α)
    (r : Fin R) (c : Fin C)
    (h : ∀ j : Fin M, ¬ ((idx (ix2 j (0 : Fin 2))).toInt = (r.val : Int) ∧ (idx (ix2 j (1 : Fin 2))).toInt = (c.val : Int))) :
    Host.scatter (dims2 R C M wf2) f x idx upd (ix2 r c) = x (ix2 r c) := by
  refine LibScatterFold.scatter_apply_of_not_mem _ f x idx upd (ix2 r c) fun j' e => ?_
  rw [eq_ix1 j'] at e
  exact h _ ((dims2_resultIdx?_eq_some_iff wf2 (j' 0) idx r c).1 e)

end Idealize.ShloMosaic.LibPointScatter
-- ==== Proof.RefTriWords.lean ====
/-
  Running counts, histograms and quotients on 32-bit words.

  jnp's `nonzero` with a static size lists the marked positions of a mask with four array operations: a running sum
  of the 0/1 mask (`cumsum_mask_toNat`: its value at `p` is the number of marked positions among `0 … p`), a
  histogram of those running counts (`hist_toNat`: bucket `v` holds the number of positions whose count is `v`;
  a count past the last bucket is dropped), a running sum of the histogram (`cumsum_hist_toNat`: its value at
  `k` is the number of positions whose count is at most `k`, which is the `(k + 1)`-th marked position), and
  jnp's integer quotient and remainder to split a position into row and column (`rowWord_toNat`,
  `colWord_toNat`). No sum wraps: there are fewer than `2 ^ 32` positions.
-/
import proofs.«102345_g84920093377258_cont_9to1c4b_501_3_alg».proof.Proof.LibRunningValues
import proofs.«102345_g84920093377258_cont_9to1c4b_501_3_alg».proof.Proof.LibPrefixSum
import proofs.«102345_g84920093377258_cont_9to1c4b_501_3_alg».proof.Proof.LibScatterFold
import proofs.«102345_g84920093377258_cont_9to1c4b_501_3_alg».proof.Proof.LibFloorDiv

namespace Cert.ReferenceIdeal.Hand

open Idealize.ShloMosaic Idealize.ShloMosaic.ValueIdx Idealize.ShloMosaic.LibRankCount
open Idealize.ShloMosaic.LibPrefixSum Idealize.ShloMosaic.LibPointScatter Idealize.ShloMosaic.LibFloorDiv

section Cumsum

variable (mask : Nat → Prop) [DecidablePred mask]

/-- The running count as a sum of zeros and ones. -/
theorem running_eq_sum (p : Nat) : running mask p = ∑ q ∈ Finset.range (p + 1), if mask q then 1 else 0 := by
  unfold running
  rw [Finset.card_filter]

/-- The running sum of a 0/1 mask of fewer than `2 ^ 32` words: its value at `j` is the number of marked positions
    among `0 … j`. -/
theorem cumsum_mask_toNat {n m : Nat} (hm : m + 1 = n) (hn : n < 2 ^ 32)
    (x : IVec ⟨1, ![n]⟩ 32) (hx : ∀ q (hq : q < n), x (ix1 ⟨q, hq⟩) = if mask q then 1#32 else 0#32)
    {u : Shape} (init : IVec u 32) (hu : 0 < u.numel) (h0 : init (Shape.Idx.first hu) = 0)
    (h : (⟨1, ![n]⟩ : Shape).ReduceWindows ![n] ![1] ![m] ![0] ⟨1, ![n]⟩) (j : Fin n) :
    (Host.reduceWindow IntOp.addi ![n] ![1] ![m] ![0] x init h hu (ix1 j)).toNat = running mask j.val := by
  rw [reduceWindow_cumsum hm IntOp.addi (fun _ _ => rfl) x init hu h0 h j]
  have hval : ∀ q ∈ Finset.range (j.val + 1), (atNat x q).toNat = if mask q then 1 else 0 := by
    intro q hq
    have hq' : q < n := by have := Finset.mem_range.1 hq; have := j.isLt; omega
    rw [atNat, dif_pos hq', hx q hq']
    split <;> rfl
  rw [toNat_sum_of_le_one _ _ (fun q hq => by rw [hval q hq]; split <;> omega)
      (by rw [Finset.card_range]; have := j.isLt; omega),
    Finset.sum_congr rfl hval, running_eq_sum]

end Cumsum

/-- A filter over `Fin M` by a property of the value counts as the filter over `range M`. -/
theorem card_filter_fin {M : Nat} (P : Nat → Prop) [DecidablePred P] :
    (Finset.univ.filter fun j : Fin M => P j.val).card = ((Finset.range M).filter P).card := by
  refine Finset.card_bij (fun j _ => j.val) ?_ ?_ ?_
  · intro j hj
    rw [Finset.mem_filter] at hj ⊢
    exact ⟨Finset.mem_range.2 j.isLt, hj.2⟩
  · intro a _ b _ e; exact Fin.ext e
  · intro q hq
    rw [Finset.mem_filter] at hq
    exact ⟨⟨q, Finset.mem_range.1 hq.1⟩, Finset.mem_filter.2 ⟨Finset.mem_univ _, hq.2⟩, rfl⟩

/-- A histogram of `M < 2 ^ 32` index words whose signed values are the numbers `c p`: bucket `v` holds the number
    of positions `p` with `c p = v`. -/
theorem hist_toNat {L M : Nat} (wf : ScatterDims.WF ⟨1, ![L]⟩ ⟨2, ![M, 1]⟩ ⟨1, ![M]⟩ [] [0] [0] 1) (hM : M < 2 ^ 32)
    (x : IVec ⟨1, ![L]⟩ 32) (hx : ∀ i, x i = 0)
    (idx : IVec ⟨2, ![M, 1]⟩ 32) (upd : IVec ⟨1, ![M]⟩ 32) (hupd : ∀ j, upd j = 1)
    (c : Nat → Nat) (hidx : ∀ j : Fin M, (idx (ix2 j (0 : Fin 1))).toInt = (c j.val : Int)) (v : Fin L) :
    (Host.scatter (dims1 L M wf) IntOp.addi x idx upd (ix1 v)).toNat
      = ((Finset.range M).filter fun p => c p = v.val).card := by
  have hu : upd = fun _ => 1 := funext hupd
  subst hu
  rw [scatter1_add_const_apply wf IntOp.addi (fun _ _ => rfl), hx, zero_add]
  have hset : (Finset.univ.filter fun j : Fin M => (idx (ix2 j (0 : Fin 1))).toInt = (v.val : Int))
      = Finset.univ.filter fun j : Fin M => c j.val = v.val := by
    refine Finset.filter_congr fun j _ => ?_
    rw [hidx j]; exact Int.ofNat_inj
  rw [hset, card_filter_fin (fun p => c p = v.val), nsmul_one, BitVec.natCast_eq_ofNat, BitVec.toNat_ofNat]
  apply Nat.mod_eq_of_lt
  have : ((Finset.range M).filter fun p => c p = v.val).card ≤ M := by
    have := Finset.card_filter_le (Finset.range M) fun p => c p = v.val
    rwa [Finset.card_range] at this
  omega

/-- The running sum of such a histogram: its value at `k` is the number of positions `p` with `c p ≤ k`. -/
theorem cumsum_hist_toNat {L m M : Nat} (hm : m + 1 = L) (hM : M < 2 ^ 32) (c : Nat → Nat)
    (x : IVec ⟨1, ![L]⟩ 32)
    (hx : ∀ v (hv : v < L), (x (ix1 ⟨v, hv⟩)).toNat = ((Finset.range M).filter fun p => c p = v).card)
    {u : Shape} (init : IVec u 32) (hu : 0 < u.numel) (h0 : init (Shape.Idx.first hu) = 0)
    (h : (⟨1, ![L]⟩ : Shape).ReduceWindows ![L] ![1] ![m] ![0] ⟨1, ![L]⟩) (k : Fin L) :
    (Host.reduceWindow IntOp.addi ![L] ![1] ![m] ![0] x init h hu (ix1 k)).toNat
      = ((Finset.range M).filter fun p => c p ≤ k.val).card := by
  rw [reduceWindow_cumsum hm IntOp.addi (fun _ _ => rfl) x init hu h0 h k]
  have hval : ∀ v ∈ Finset.range (k.val + 1),
      (atNat x v).toNat = (((Finset.range M).filter fun p => c p ≤ k.val).filter fun p => c p = v).card := by
    intro v hv
    have hv' : v < L := by have := Finset.mem_range.1 hv; have := k.isLt; omega
    rw [atNat, dif_pos hv', hx v hv', Finset.filter_filter]
    congr 1
    refine Finset.filter_congr fun p _ => ?_
    have := Finset.mem_range.1 hv
    constructor
    · intro e; exact ⟨by omega, e⟩
    · exact fun e => e.2
  have hsum : ∑ v ∈ Finset.range (k.val + 1), (atNat x v).toNat
      = ((Finset.range M).filter fun p => c p ≤ k.val).card := by
    rw [Finset.sum_congr rfl hval]
    exact (Finset.card_eq_sum_card_fiberwise fun p hp => by
      have := (Finset.mem_filter.1 hp).2
      exact Finset.mem_range.2 (by omega)).symm
  have hle : ((Finset.range M).filter fun p => c p ≤ k.val).card ≤ M := by
    have := Finset.card_filter_le (Finset.range M) fun p => c p ≤ k.val
    rwa [Finset.card_range] at this
  rw [toNat_sum _ _ (by rw [hsum]; omega), hsum]

/-! ## Row and column of a position -/

theorem msb_false_of_lt {x : BitVec 32} (hx : x.toNat < 2 ^ 31) : x.msb = false :=
  BitVec.msb_eq_false_iff_two_mul_lt.2 (by omega)

/-- jnp's `(x // 4096) % 4096` on a non-negative word. -/
theorem rowWord_toNat (x : BitVec 32) (hx : x.toNat < 2 ^ 31) :
    (remainderWord (floorDivWord x 4096#32) 4096#32).toNat = x.toNat / 4096 % 4096 := by
  have h4 : (4096#32).msb = false := by decide
  have h40 : (4096#32) ≠ 0 := by decide
  rw [floorDivWord_of_nonneg (msb_false_of_lt hx) h4 h40]
  have hq : (x / 4096#32).toNat < 2 ^ 31 := by
    rw [BitVec.toNat_udiv]
    have : x.toNat / (4096#32).toNat ≤ x.toNat := Nat.div_le_self _ _
    omega
  rw [remainderWord_of_nonneg (msb_false_of_lt hq) h4 h40, BitVec.toNat_umod, BitVec.toNat_udiv]
  rfl

/-- jnp's `(x // 1) % 4096` on a non-negative word. -/
theorem colWord_toNat (x : BitVec 32) (hx : x.toNat < 2 ^ 31) :
    (remainderWord (floorDivWord x 1#32) 4096#32).toNat = x.toNat % 4096 := by
  have h4 : (4096#32).msb = false := by decide
  have h40 : (4096#32) ≠ 0 := by decide
  have h1 : (1#32).msb = false := by decide
  have h10 : (1#32) ≠ 0 := by decide
  rw [floorDivWord_of_nonneg (msb_false_of_lt hx) h1 h10]
  have hq : (x / 1#32).toNat < 2 ^ 31 := by
    rw [BitVec.toNat_udiv]
    have : x.toNat / (1#32).toNat ≤ x.toNat := Nat.div_le_self _ _
    omega
  rw [remainderWord_of_nonneg (msb_false_of_lt hq) h4 h40, BitVec.toNat_umod, BitVec.toNat_udiv]
  show x.toNat / 1 % 4096 = x.toNat % 4096
  rw [Nat.div_one]

/-- Adding the axis length to a negative index leaves a non-negative one alone. -/
theorem wrap_of_nonneg (r n : BitVec 32) (hr : r.toNat < 2 ^ 31) :
    Scalar.select (IntOp.cmpi .slt r 0) (IntOp.addi r n) r = r := by
  have : r.slt 0#32 = false := by rw [BitVec.slt_zero_eq_msb]; exact msb_false_of_lt hr
  simp [IntOp.cmpi, Scalar.select, this]

/-- Clipping a non-negative word at zero from below leaves it alone. -/
theorem maxsi_zero_of_nonneg (r : BitVec 32) (hr : r.toNat < 2 ^ 31) : IntOp.maxsi 0 r = r := by
  have : r.slt 0#32 = false := by rw [BitVec.slt_zero_eq_msb]; exact msb_false_of_lt hr
  simp [IntOp.maxsi, this]

/-- A non-negative word read signed is its value. -/
theorem toInt_of_lt (r : BitVec 32) (hr : r.toNat < 2 ^ 31) : r.toInt = (r.toNat : Int) :=
  BitVec.toInt_eq_toNat_of_lt (by omega)

end Cert.ReferenceIdeal.Hand
-- ==== Proof.RefTriMask.lean ====
/-
  The mask of the strict upper triangle and its running count, as the reference computes them.

  The mask is "ones above the diagonal, zeros elsewhere, compared not-equal with zero": as extended reals one is not
  zero, so the mask bit at `(i, j)` is set exactly when `i < j` (`triMask_apply`). Flattened row-major, extended
  to 32-bit words and summed along, its value at position `p` is the number of marked positions among `0 … p`
  (`cum1_toNat`).
-/
import proofs.«102345_g84920093377258_cont_9to1c4b_501_3_alg».proof.Proof.RefStages
import proofs.«102345_g84920093377258_cont_9to1c4b_501_3_alg».proof.Proof.RefTriNat
import proofs.«102345_g84920093377258_cont_9to1c4b_501_3_alg».proof.Proof.RefTriWords
import Idealize.ShloMosaic.Lib.IdealHost
import Idealize.ShloMosaic.Lib.Pipeline.Value

namespace Cert.ReferenceIdeal.Hand

open Idealize.ShloMosaic Idealize.SL.Sem Idealize.ShloMosaic.ValueIdx
open Cert.ReferenceIdeal Cert.ReferenceIdeal.Facts₀ Cert.ReferenceIdeal.Facts
open Idealize.ShloMosaic.LibRankCount

variable [Facts]

/-- Signed "greater or equal" of two small non-negative words. -/
theorem sge_ofNat (a b : Nat) (ha : a < 2 ^ 31) (hb : b < 2 ^ 31) :
    IntOp.cmpi .sge (IntOp.addi (BitVec.ofNat 32 a) 0#32) (BitVec.ofNat 32 b) = if b ≤ a then 1#1 else 0#1 := by
  have hta : (BitVec.ofNat 32 a).toInt = (a : Int) := by
    rw [toInt_of_lt _ (by rw [BitVec.toNat_ofNat]; omega), BitVec.toNat_ofNat]; congr 1; omega
  have htb : (BitVec.ofNat 32 b).toInt = (b : Int) := by
    rw [toInt_of_lt _ (by rw [BitVec.toNat_ofNat]; omega), BitVec.toNat_ofNat]; congr 1; omega
  unfold IntOp.cmpi IntOp.addi
  rw [BitVec.add_zero]
  show BitVec.ofBool ((BitVec.ofNat 32 b).sle (BitVec.ofNat 32 a)) = _
  rw [BitVec.sle_eq_decide, hta, htb]
  by_cases h : b ≤ a
  · rw [if_pos h, decide_eq_true (by omega)]; rfl
  · rw [if_neg h, decide_eq_false (by omega)]; rfl

/-- The mask bit at `(i, j)` is set exactly when `i < j`. -/
theorem triMask_apply (i j : Fin 4096) : triMask Ideal (ix2 i j) = if i.val < j.val then 1#1 else 0#1 := by
  have hge : cmpi .sge
      (addi (iotaInDim S4096x4096 32 0) (broadcastInDim S4096x4096 ![] bcast_S_S4096x4096 (constantI S_ 32 0#32)))
      (iotaInDim S4096x4096 32 1) (ix2 i j) = if j.val ≤ i.val then 1#1 else 0#1 := by
    show IntOp.cmpi .sge (IntOp.addi (iotaInDim S4096x4096 32 0 (ix2 i j))
      (broadcastInDim S4096x4096 ![] bcast_S_S4096x4096 (constantI S_ 32 0#32) (ix2 i j))) (iotaInDim S4096x4096 32 1 (ix2 i j)) = _
    rw [broadcastInDim_scalar_apply, iotaInDim_apply, iotaInDim_apply]
    exact sge_ofNat i.val j.val (by have := i.isLt; omega) (by have := j.isLt; omega)
  unfold triMask triu onesSq zerosSq
  rw [cmpf_apply, select_apply, hge, broadcastInDim_scalar_apply, broadcastInDim_scalar_apply, constant_apply, constant_apply,
    Ideal.ofBits_zero_f32, Ideal.ofBits_one_f32, Ideal.cmpf_def]
  by_cases h : i.val < j.val
  · rw [if_pos h, if_neg (by omega), select_zero]
    simp [Ideal.cmp]
  · rw [if_neg h, if_pos (by omega), select_one]
    simp [Ideal.cmp]

/-- The running sum of the flattened mask: at position `p`, the number of marked positions among `0 … p`. -/
theorem cum1_toNat (p : Fin 16777216) : (cum1 Ideal (ix1 p)).toNat = running triPos p.val := by
  unfold cum1 cum1Of cumsumA
  refine cumsum_mask_toNat triPos (n := 16777216) (m := 16777215) rfl (by norm_num) _ ?_ _ h_S_ ?_ _ p
  · intro q hq
    rw [extui_apply]
    have hq1 : q / 4096 < 4096 := by omega
    have hq2 : q % 4096 < 4096 := by omega
    rw [shapeCast_apply (triMask Ideal) shapeCasts_S4096x4096_S16777216 (ix1 ⟨q, hq⟩) (ix2 ⟨q / 4096, hq1⟩ ⟨q % 4096, hq2⟩)
      (by rw [Shape.rowMajor_val_two, Shape.rowMajor_val_one]
          show q / 4096 * 4096 + q % 4096 = q
          omega),
      triMask_apply]
    show (if q / 4096 < q % 4096 then 1#1 else 0#1).setWidth 32 = if triPos q then 1#32 else 0#32
    by_cases h : triPos q
    · have h' : q / 4096 < q % 4096 := h
      rw [if_pos h', if_pos h]; rfl
    · have h' : ¬ q / 4096 < q % 4096 := h
      rw [if_neg h', if_neg h]; rfl
  · rw [broadcastInDim_scalar_apply]; rfl

theorem running_triPos_le (p : Nat) (hp : p < 16777216) : running triPos p ≤ 8386560 := by
  have := running_mono triPos (show p ≤ 4096 * 4096 - 1 by omega)
  rw [running_triPos_last] at this
  exact this

theorem cum1_lt (p : Fin 16777216) : (cum1 Ideal (ix1 p)).toNat < 2 ^ 31 := by
  rw [cum1_toNat]
  have := running_triPos_le p.val p.isLt
  omega

end Cert.ReferenceIdeal.Hand
-- ==== Proof.RefTriHist.lean ====
/-
  The histogram of the running counts and its running sum, as the reference computes them.

  The running count is never negative, so clipping it at zero and wrapping a negative value leave it alone
  (`binOf_apply`). Bucket `v` of the histogram holds the number of positions whose running count is `v`
  (`hist_toNat'`; the count `8386560`, reached after the last marked position, is past the last bucket and is
  dropped). The running sum of the histogram at `k` is the number of positions whose count is at most `k`
  (`flat_toNat`), which for `k = rank a b` is the position `a * 4096 + b` (`flat_rank`).
-/
import proofs.«102345_g84920093377258_cont_9to1c4b_501_3_alg».proof.Proof.RefTriMask

namespace Cert.ReferenceIdeal.Hand

open Idealize.ShloMosaic Idealize.SL.Sem Idealize.ShloMosaic.ValueIdx
open Cert.ReferenceIdeal Cert.ReferenceIdeal.Facts₀ Cert.ReferenceIdeal.Facts
open Idealize.ShloMosaic.LibRankCount Idealize.ShloMosaic.LibPointScatter

variable [Facts]

/-- Clipping at zero and wrapping a negative value leave a non-negative count alone. -/
theorem binOf_apply (c : IVec S16777216 32) (i : S16777216.Idx) (hc : (c i).toNat < 2 ^ 31) : binOf c i = c i := by
  have hclip : clipLo c (constantI S_ 32 0#32) i = c i := by
    show IntOp.maxsi (broadcastInDim S16777216 ![] bcast_S_S16777216 (constantI S_ 32 0#32) i) (c i) = c i
    rw [broadcastInDim_scalar_apply]
    exact maxsi_zero_of_nonneg _ hc
  unfold binOf
  rw [select_apply]
  show Scalar.select (IntOp.cmpi .slt (clipLo c (constantI S_ 32 0#32) i)
      (broadcastInDim S16777216 ![] bcast_S_S16777216 (constantI S_ 32 0#32) i))
    (IntOp.addi (clipLo c (constantI S_ 32 0#32) i)
      (broadcastInDim S16777216 ![] bcast_S_S16777216 (constantI S_ 32 8386560#32) i))
    (clipLo c (constantI S_ 32 0#32) i) = c i
  rw [hclip, broadcastInDim_scalar_apply, broadcastInDim_scalar_apply]
  exact wrap_of_nonneg _ _ hc

/-- The index words of the histogram, read signed, are the running counts. -/
theorem histIdx_toInt (j : Fin 16777216) :
    (broadcastInDim S16777216x1 ![0] bcast_S16777216_S16777216x1_0 (binOf (cum1 Ideal)) (ix2 j (0 : Fin 1))).toInt
      = (running triPos j.val : Int) := by
  rw [broadcastInDim_apply ![0] bcast_S16777216_S16777216x1_0 (binOf (cum1 Ideal)) (ix2 j (0 : Fin 1)) (ix1 j)
    (fun a => by match a with | ⟨0, _⟩ => rfl),
    binOf_apply _ _ (cum1_lt j), toInt_of_lt _ (cum1_lt j), cum1_toNat]

/-- Bucket `v` of the histogram holds the number of positions whose running count is `v`. -/
theorem hist_toNat' (v : Fin 8386560) :
    (hist Ideal (ix1 v)).toNat = ((Finset.range 16777216).filter fun p => running triPos p = v.val).card := by
  unfold hist histOf
  have hd : scatter_S8386560_S16777216x1_S16777216_n_0_0_1
      = dims1 8386560 16777216 scatter_S8386560_S16777216x1_S16777216_n_0_0_1_wf := rfl
  rw [hd]
  exact hist_toNat _ (by norm_num) _ (fun i => by rw [broadcastInDim_scalar_apply]; rfl) _ _
    (fun j => by rw [broadcastInDim_scalar_apply]; rfl) (running triPos) histIdx_toInt v

/-- The running sum of the histogram at `k`: the number of positions whose running count is at most `k`. -/
theorem flat_toNat (k : Fin 8386560) :
    (flat Ideal (ix1 k)).toNat = ((Finset.range 16777216).filter fun p => running triPos p ≤ k.val).card := by
  unfold flat cumsumB
  exact cumsum_hist_toNat (L := 8386560) (m := 8386559) (M := 16777216) rfl (by norm_num) (running triPos) (hist Ideal)
    (fun v hv => hist_toNat' ⟨v, hv⟩) _ h_S_ (by rw [broadcastInDim_scalar_apply]; rfl) _ k

/-- At `k = rank a b` that is the position `a * 4096 + b`. -/
theorem flat_rank (a b : Nat) (hab : a < b) (hb : b < 4096) :
    (flat Ideal (ix1 ⟨rank a b, rank_lt a b hab hb⟩)).toNat = a * 4096 + b := by
  rw [flat_toNat]
  exact card_running_le_rank a b hab hb

end Cert.ReferenceIdeal.Hand
-- ==== Proof.RefTriIdx.lean ====
/-
  Row and column of each listed position, and the index pairs, as the reference computes them.

  jnp's floor division and remainder of a vector by a scalar are, element by element, the word functions
  `floorDivWord` and `remainderWord` (`floorDivide_apply`, `remainder_apply'`). On the non-negative positions
  `a * 4096 + b` they give the row `a` and the column `b`, which the wrap of negative indices leaves alone
  (`rowIdx_rank`, `colIdx_rank`); the concatenation puts them side by side (`idxPairs_rank`).
-/
import proofs.«102345_g84920093377258_cont_9to1c4b_501_3_alg».proof.Proof.RefTriHist

namespace Cert.ReferenceIdeal.Hand

open Idealize.ShloMosaic Idealize.SL.Sem Idealize.ShloMosaic.ValueIdx
open Cert.ReferenceIdeal Cert.ReferenceIdeal.Facts₀ Cert.ReferenceIdeal.Facts
open Idealize.ShloMosaic.LibRankCount Idealize.ShloMosaic.LibFloorDiv

variable [Facts]

/-- A scalar broadcast along the list reads the scalar. -/
theorem bcastList_apply {α : Type} (x : S_.Idx → α) (i : S8386560.Idx) :
    broadcastInDim S8386560 ![] bcast_S_S8386560 x i = x ix0 := broadcastInDim_scalar_apply _ _ _

theorem cmpi_at {s : Shape} {w : Nat} (p : CmpIPredicate) (x y : IVec s w) (i : s.Idx) :
    cmpi p x y i = IntOp.cmpi p (x i) (y i) := rfl
theorem andi_at {s : Shape} {w : Nat} (x y : IVec s w) (i : s.Idx) : andi x y i = IntOp.andi (x i) (y i) := rfl
theorem addi_at {s : Shape} {w : Nat} (x y : IVec s w) (i : s.Idx) : addi x y i = IntOp.addi (x i) (y i) := rfl
theorem subi_at {s : Shape} {w : Nat} (x y : IVec s w) (i : s.Idx) : subi x y i = IntOp.subi (x i) (y i) := rfl
theorem hostRemsi_at {s : Shape} {w : Nat} (x y : IVec s w) (i : s.Idx) :
    Host.remsi x y i = IntOp.remsi .host (x i) (y i) := rfl
theorem hostDivsi_at {s : Shape} {w : Nat} (x y : IVec s w) (i : s.Idx) :
    Host.divsi x y i = IntOp.divsi .host (x i) (y i) := rfl

/-- The vector floor division by a scalar, at an element. -/
theorem floorDivide_apply (x : IVec S8386560 32) (d : IVec S_ 32) (i : S8386560.Idx) :
    floorDivide x d i = floorDivWord (x i) (d ix0) := by
  unfold floorDivide
  simp only [select_apply, andi_at, cmpi_at, subi_at, hostRemsi_at, hostDivsi_at, signi_apply]
  repeat rw [bcastList_apply]
  rfl

/-- The vector remainder by a scalar, at an element. -/
theorem remainder_apply' (x : IVec S8386560 32) (d : IVec S_ 32) (i : S8386560.Idx) :
    remainder x d i = remainderWord (x i) (d ix0) := by
  have hsafe : safeDivisor d ix0 = Scalar.select (IntOp.cmpi .eq (d ix0) 0) 1 (d ix0) := rfl
  have htr : truncRem x d i = IntOp.remsi .host (x i) (safeDivisor d ix0) := by
    unfold truncRem
    rw [hostRemsi_at, bcastList_apply]
  unfold remainder
  simp only [select_apply, andi_at, cmpi_at, addi_at, htr]
  repeat rw [bcastList_apply]
  rw [cmpi_at, hsafe]
  rfl

/-- The wrap of negative indices leaves a non-negative one alone. -/
theorem wrapNeg_apply (x : IVec S8386560 32) (i : S8386560.Idx) (hx : (x i).toNat < 2 ^ 31) : wrapNeg x i = x i := by
  unfold wrapNeg
  simp only [select_apply, cmpi_at, addi_at]
  repeat rw [bcastList_apply]
  exact wrap_of_nonneg _ _ hx

/-- The row word of a listed position. -/
theorem rowIdxOf_toNat (fl : IVec S8386560 32) (i : S8386560.Idx) (hx : (fl i).toNat < 2 ^ 31) :
    (rowIdxOf fl i).toNat = (fl i).toNat / 4096 % 4096 := by
  have h : (remainder (floorDivide fl (constantI S_ 32 4096#32)) (constantI S_ 32 4096#32) i).toNat
      = (fl i).toNat / 4096 % 4096 := by
    rw [remainder_apply', floorDivide_apply]
    exact rowWord_toNat _ hx
  unfold rowIdxOf
  rw [wrapNeg_apply _ _ (by rw [h]; omega), h]

/-- The column word of a listed position. -/
theorem colIdxOf_toNat (fl : IVec S8386560 32) (i : S8386560.Idx) (hx : (fl i).toNat < 2 ^ 31) :
    (colIdxOf fl i).toNat = (fl i).toNat % 4096 := by
  have h : (remainder (floorDivide fl (constantI S_ 32 1#32)) (constantI S_ 32 4096#32) i).toNat
      = (fl i).toNat % 4096 := by
    rw [remainder_apply', floorDivide_apply]
    exact colWord_toNat _ hx
  unfold colIdxOf
  rw [wrapNeg_apply _ _ (by rw [h]; omega), h]

/-- The two halves of the index pairs. -/
theorem idxPairsOf_apply0 (r c : IVec S8386560 32) (k : Fin 8386560) :
    idxPairsOf r c (ix2 k (0 : Fin 2)) = r (ix1 k) := by
  unfold idxPairsOf
  rw [concatenate_pair_apply_left (t := S8386560x2) (s₁ := S8386560x1) (s₂ := S8386560x1) (1 : Fin 2) _ _
    concatenates_S8386560x1_S8386560x1_S8386560x2_d1 (ix2 k (0 : Fin 2)) (rfl : S8386560x1.rank = S8386560x2.rank)
    (ix2 k (0 : Fin 1) : S8386560x1.Idx) (fun b => by match b with | ⟨0, _⟩ => rfl | ⟨1, _⟩ => rfl)]
  exact broadcastInDim_apply ![0] bcast_S8386560_S8386560x1_0 r (ix2 k (0 : Fin 1)) (ix1 k)
    (fun a => by match a with | ⟨0, _⟩ => rfl)

theorem idxPairsOf_apply1 (r c : IVec S8386560 32) (k : Fin 8386560) :
    idxPairsOf r c (ix2 k (1 : Fin 2)) = c (ix1 k) := by
  unfold idxPairsOf
  rw [concatenate_pair_apply_right (t := S8386560x2) (s₁ := S8386560x1) (s₂ := S8386560x1) (1 : Fin 2) _ _
    concatenates_S8386560x1_S8386560x1_S8386560x2_d1 (ix2 k (1 : Fin 2)) (rfl : S8386560x1.rank = S8386560x2.rank)
    (rfl : S8386560x1.rank = S8386560x2.rank) (ix2 k (0 : Fin 1) : S8386560x1.Idx) (fun b hb => by match b with | ⟨0, _⟩ => rfl | ⟨1, _⟩ => exact absurd rfl hb) rfl]
  exact broadcastInDim_apply ![0] bcast_S8386560_S8386560x1_0 c (ix2 k (0 : Fin 1)) (ix1 k)
    (fun a => by match a with | ⟨0, _⟩ => rfl)

/-- The index pair at `k = rank a b`, read signed, is `(a, b)`. -/
theorem idxPairs_rank (a b : Nat) (hab : a < b) (hb : b < 4096) :
    (idxPairs Ideal (ix2 ⟨rank a b, rank_lt a b hab hb⟩ (0 : Fin 2))).toInt = (a : Int)
      ∧ (idxPairs Ideal (ix2 ⟨rank a b, rank_lt a b hab hb⟩ (1 : Fin 2))).toInt = (b : Int) := by
  have hf := flat_rank a b hab hb
  have hlt : (flat Ideal (ix1 ⟨rank a b, rank_lt a b hab hb⟩)).toNat < 2 ^ 31 := by rw [hf]; omega
  have hr := rowIdxOf_toNat (flat Ideal) (ix1 ⟨rank a b, rank_lt a b hab hb⟩) hlt
  have hc := colIdxOf_toNat (flat Ideal) (ix1 ⟨rank a b, rank_lt a b hab hb⟩) hlt
  rw [hf] at hr hc
  have hr' : (rowIdx Ideal (ix1 ⟨rank a b, rank_lt a b hab hb⟩)).toNat = a := by
    show (rowIdxOf (flat Ideal) _).toNat = a
    rw [hr]; omega
  have hc' : (colIdx Ideal (ix1 ⟨rank a b, rank_lt a b hab hb⟩)).toNat = b := by
    show (colIdxOf (flat Ideal) _).toNat = b
    rw [hc]; omega
  unfold idxPairs
  rw [idxPairsOf_apply0, idxPairsOf_apply1, toInt_of_lt _ (by rw [hr']; omega), toInt_of_lt _ (by rw [hc']; omega), hr', hc']
  exact ⟨rfl, rfl⟩

end Cert.ReferenceIdeal.Hand
-- ==== Proof.RefTri.lean ====
/-
  The scattered matrix: the vector laid out over the strict upper triangle, row by row.

  The index pairs list the strict upper triangle in row-major order: pair number `rank a b` is `(a, b)`, and every
  pair number below `8386560` is of that form. So an element `(i, j)` with `i < j` is named by exactly one update,
  number `rank i j`, and holds that entry of the vector; an element on or below the diagonal is named by none and
  keeps the zero it started with.
-/
import proofs.«102345_g84920093377258_cont_9to1c4b_501_3_alg».proof.Proof.RefTriIdx

namespace Cert.ReferenceIdeal.Hand

open Idealize.ShloMosaic Idealize.SL.Sem Idealize.ShloMosaic.ValueIdx
open Cert.ReferenceIdeal Cert.ReferenceIdeal.Facts₀ Cert.ReferenceIdeal.Facts
open Idealize.ShloMosaic.LibRankCount Idealize.ShloMosaic.LibPointScatter

variable [Facts]

/-- An update whose index pair is `(r, c)` has `r < c`, and its number is `rank r c`. -/
theorem idxPairs_eq_imp (k : Fin 8386560) (r c : Nat)
    (h : (idxPairs Ideal (ix2 k (0 : Fin 2))).toInt = (r : Int) ∧ (idxPairs Ideal (ix2 k (1 : Fin 2))).toInt = (c : Int)) :
    r < c ∧ c < 4096 ∧ k.val = rank r c := by
  obtain ⟨a, b, hab, hb, hk⟩ := exists_rank k.val k.isLt
  have hkk : k = ⟨rank a b, rank_lt a b hab hb⟩ := Fin.ext hk.symm
  have := idxPairs_rank a b hab hb
  rw [← hkk] at this
  have h0 : (a : Int) = (r : Int) := this.1.symm.trans h.1
  have h1 : (b : Int) = (c : Int) := this.2.symm.trans h.2
  have ha : a = r := Int.ofNat_inj.1 h0
  have hb' : b = c := Int.ofNat_inj.1 h1
  subst ha hb'
  exact ⟨hab, hb, hk.symm⟩

/-- The scattered matrix at `(i, j)`: entry `rank i j` of the vector above the diagonal, zero elsewhere. -/
theorem scat_apply (arg1 : FVec Ideal S8386560 .f32) (i j : Fin 4096) :
    scat arg1 (ix2 i j)
      = if h : i.val < j.val then arg1 (ix1 ⟨rank i.val j.val, rank_lt i.val j.val h j.isLt⟩) else 0 := by
  unfold scat scatOf
  have hd : scatter_S4096x4096_S8386560x2_S8386560_n_01_01_1
      = dims2 4096 4096 8386560 scatter_S4096x4096_S8386560x2_S8386560_n_01_01_1_wf := rfl
  rw [hd]
  by_cases h : i.val < j.val
  · rw [dif_pos h]
    refine scatter2_set_apply_of_unique _ (fun _ b => b) (fun _ _ => rfl) _ _ arg1 i j
      ⟨rank i.val j.val, rank_lt i.val j.val h j.isLt⟩ (idxPairs_rank i.val j.val h j.isLt) fun j' hj' => ?_
    exact Fin.ext (idxPairs_eq_imp j' i.val j.val hj').2.2
  · rw [dif_neg h, scatter2_apply_of_not_mem _ (fun _ b => b) _ _ arg1 i j
      (fun j' hj' => h (idxPairs_eq_imp j' i.val j.val hj').1)]
    unfold zerosSq
    rw [broadcastInDim_scalar_apply, constant_apply, Ideal.ofBits_zero_f32]

end Cert.ReferenceIdeal.Hand
-- ==== Proof.KMaskEq.lean ====
/-
  The reference's edge mask is the kernel's: the scattered matrix read at a position closes the comparison.
-/
import proofs.«102345_g84920093377258_cont_9to1c4b_501_3_alg».proof.Proof.KMaskRef
import proofs.«102345_g84920093377258_cont_9to1c4b_501_3_alg».proof.Proof.RefTri

noncomputable section

namespace Cert.KernelIdeal.Hand

open Idealize.ShloMosaic Idealize.ShloMosaic.ValueIdx

variable [Cert.KernelIdeal.Facts] [Cert.ReferenceIdeal.Facts]

/-- THE TWO MASKS ARE ONE MATRIX. -/
theorem mask_eq (arg1 : FVec Ideal Cert.KernelIdeal.S8386560 .f32) :
    Cert.ReferenceIdeal.Hand.pUsed arg1 = pK arg1 :=
  mask_eq_of_scat arg1 (Cert.ReferenceIdeal.Hand.scat_apply arg1)

end Cert.KernelIdeal.Hand

end
-- ==== Proof.Claims.lean ====
/-
  The five claims.

  Both idealized programs compute, from arguments that agree, the same two arrays on the extended reals. The second
  result is the edge mask: the logistic function of the symmetric matrix whose strict upper triangle is the packed
  vector in row-major order — gathered through closed-form indices by one program, scattered through computed
  index pairs by the other. The first is the two-layer graph convolution over the normalised masked adjacency,
  blocked and with the normalisation factored out of the sums by one program, dense by the other; the two agree by
  distributivity, which on the extended reals needs every entry finite: the precondition. The frames are the runs
  with the results dropped; the idealization rewrote nothing.
-/
import proofs.«102345_g84920093377258_cont_9to1c4b_501_3_alg».proof.Defs
import proofs.«102345_g84920093377258_cont_9to1c4b_501_3_alg».proof.Proof.Gen.Kernel
import proofs.«102345_g84920093377258_cont_9to1c4b_501_3_alg».proof.Proof.Gen.KernelIdeal
import proofs.«102345_g84920093377258_cont_9to1c4b_501_3_alg».proof.Proof.Gen.ReferenceIdeal
import proofs.«102345_g84920093377258_cont_9to1c4b_501_3_alg».proof.Proof.Gen.Pre_finite_inputs
import proofs.«102345_g84920093377258_cont_9to1c4b_501_3_alg».proof.Proof.BKRun
import proofs.«102345_g84920093377258_cont_9to1c4b_501_3_alg».proof.Proof.KValue
import proofs.«102345_g84920093377258_cont_9to1c4b_501_3_alg».proof.Proof.RefRun
import proofs.«102345_g84920093377258_cont_9to1c4b_501_3_alg».proof.Proof.GcnEq
import proofs.«102345_g84920093377258_cont_9to1c4b_501_3_alg».proof.Proof.GcnPre
import proofs.«102345_g84920093377258_cont_9to1c4b_501_3_alg».proof.Proof.KMaskEq
import proofs.«102345_g84920093377258_cont_9to1c4b_501_3_alg».proof.Proof.KMaskLogistic

noncomputable section

namespace Cert.Proof.Claims

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2.2) (Cert.Kernel.Hand.run_main (F := Bits) m ρ)

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2.2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Hand.run (F := Ideal) m ρ)

/-- The idealization rewrote nothing. -/
theorem preserves : Cert.preserves_Kernel_KernelIdeal := trivial

/-- The edge mask of finite packed entries is finite, at every index. -/
theorem pK_real_idx (arg1 : FVec Ideal Cert.KernelIdeal.S8386560 .f32) (h : ∀ k, ∃ r : ℝ, arg1 k = (r : EReal)) :
    ∀ i, ∃ r : ℝ, Cert.KernelIdeal.Hand.pK arg1 i = (r : EReal) := fun i => by
  rw [eq_ix2 i]; exact Cert.KernelIdeal.Hand.pK_real arg1 h (i 0) (i 1)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.Hand.run_value (F := Ideal) m ρ, ?_⟩
  refine (θ_run (Cert.ReferenceIdeal.defs (F := Ideal)) _ _).mono (fun r h c => ?_) (Cert.ReferenceIdeal.Hand.run (F := Ideal) m' ρ')
  obtain ⟨h74, h42, hargs⟩ := h c
  obtain ⟨e0, e1, e2, e3, e4, e5, e6⟩ := hagree c
  obtain ⟨r0, r1, r2, r3, r4, r5, r6⟩ := Cert.Pre_finite_inputs.Hand.real_of_pre _ _ _ _ _ _ _ (hpre c)
  refine ⟨?_, ?_, hargs⟩
  · rw [h74, e0, e1, e2, e3, e4, e5, e6, Cert.KernelIdeal.Hand.mask_eq]
    exact (Cert.KernelIdeal.Hand.gcn_eq _ _ _ _ _ _ _ r0 (pK_real_idx _ r1) r2 r3 r4 r5 r6).symm
  · rw [h42, e1]
    exact Cert.KernelIdeal.Hand.mask_eq _

end Cert.Proof.Claims

end
-- ==== Proof.lean ====
/-
  The certificate: the kernel's program (a packed-triangle gather, a logistic edge mask, and two blocked
  matrix-product layers over the normalised masked adjacency) against its dense reference, on the extended reals.
  The witnesses of the programs' stated facts come first; then the three frames, the (empty) idealization ledger
  and the equality of the two results under finite inputs.
-/
import proofs.«102345_g84920093377258_cont_9to1c4b_501_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
